-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)) →
    ∃ (v0 : (c : Dev Cert.KernelIdeal.nD) → Buf (Elt Ideal) ((c.tc : Thread Cert.KernelIdeal.nD Cert.KernelIdeal.τ).loc Cert.KernelIdeal.main_v11)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v11) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v81) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S32x768 : Shape := ⟨2, ![32, 768]⟩
abbrev S768x512 : Shape := ⟨2, ![768, 512]⟩
abbrev S512 : Shape := ⟨1, ![512]⟩
abbrev S3840x256 : Shape := ⟨2, ![3840, 256]⟩
abbrev S256 : Shape := ⟨1, ![256]⟩
abbrev S256x7 : Shape := ⟨2, ![256, 7]⟩
abbrev S7 : Shape := ⟨1, ![7]⟩
abbrev S_ : Shape := ⟨0, ![]⟩

class Facts : Prop where
  bcast_S_S32x768 : S_.BroadcastsInDim S32x768 (![] : Fin 0 → Fin S32x768.rank)
  reducesTo_S32x768_S_d0_1 : S32x768.ReducesTo [0, 1] S_
  h_S_ : 0 < S_.numel
  bcast_S_S768x512 : S_.BroadcastsInDim S768x512 (![] : Fin 0 → Fin S768x512.rank)
  reducesTo_S768x512_S_d0_1 : S768x512.ReducesTo [0, 1] S_
  bcast_S_S512 : S_.BroadcastsInDim S512 (![] : Fin 0 → Fin S512.rank)
  reducesTo_S512_S_d0 : S512.ReducesTo [0] S_
  bcast_S_S3840x256 : S_.BroadcastsInDim S3840x256 (![] : Fin 0 → Fin S3840x256.rank)
  reducesTo_S3840x256_S_d0_1 : S3840x256.ReducesTo [0, 1] S_
  bcast_S_S256 : S_.BroadcastsInDim S256 (![] : Fin 0 → Fin S256.rank)
  reducesTo_S256_S_d0 : S256.ReducesTo [0] S_
  bcast_S_S256x7 : S_.BroadcastsInDim S256x7 (![] : Fin 0 → Fin S256x7.rank)
  reducesTo_S256x7_S_d0_1 : S256x7.ReducesTo [0, 1] S_
  bcast_S_S7 : S_.BroadcastsInDim S7 (![] : Fin 0 → Fin S7.rank)
  reducesTo_S7_S_d0 : S7.ReducesTo [0] S_

variable [Facts]

def fn_part3 {F : FTy → Type} [FloatOps F] (main_v48 : IVec S_ 1) (main_v49 : FVec F S7 .f32) (main_v50 : FVec F S7 .f32) : IVec S_ 1 :=
  let main_v51 : IVec S7 1 := cmpf .olt main_v49 main_v50
  let main_c_19 : IVec S_ 1 := constantI S_ 1 1#1
  let main_v52 : IVec S_ 1 := (fun x v => Host.reduce IntOp.andi x v reducesTo_S7_S_d0 h_S_) main_v51 main_c_19
  let main_v53 : IVec S_ 1 := andi main_v48 main_v52
  main_v53

def fn_part2 {F : FTy → Type} [FloatOps F] (main_arg7 : FVec F S3840x256 .f32) (main_arg8 : FVec F S256 .f32) (main_arg9 : FVec F S256x7 .f32) (main_arg10 : FVec F S7 .f32) (main_v33 : IVec S_ 1) : IVec S_ 1 :=
  let main_v34 : FVec F S3840x256 .f32 := Host.absf main_arg7
  let main_cst_12 : FVec F S_ .f32 := constant S_ .f32 0x7F800000#32
  let main_v35 : FVec F S3840x256 .f32 := broadcastInDim S3840x256 ![] bcast_S_S3840x256 main_cst_12
  let main_v36 : IVec S3840x256 1 := cmpf .olt main_v34 main_v35
  let main_c_13 : IVec S_ 1 := constantI S_ 1 1#1
  let main_v37 : IVec S_ 1 := (fun x v => Host.reduce IntOp.andi x v reducesTo_S3840x256_S_d0_1 h_S_) main_v36 main_c_13
  let main_v38 : IVec S_ 1 := andi main_v33 main_v37
  let main_v39 : FVec F S256 .f32 := Host.absf main_arg8
  let main_cst_14 : FVec F S_ .f32 := constant S_ .f32 0x7F800000#32
  let main_v40 : FVec F S256 .f32 := broadcastInDim S256 ![] bcast_S_S256 main_cst_14
  let main_v41 : IVec S256 1 := cmpf .olt main_v39 main_v40
  let main_c_15 : IVec S_ 1 := constantI S_ 1 1#1
  let main_v42 : IVec S_ 1 := (fun x v => Host.reduce IntOp.andi x v reducesTo_S256_S_d0 h_S_) main_v41 main_c_15
  let main_v43 : IVec S_ 1 := andi main_v38 main_v42
  let main_v44 : FVec F S256x7 .f32 := Host.absf main_arg9
  let main_cst_16 : FVec F S_ .f32 := constant S_ .f32 0x7F800000#32
  let main_v45 : FVec F S256x7 .f32 := broadcastInDim S256x7 ![] bcast_S_S256x7 main_cst_16
  let main_v46 : IVec S256x7 1 := cmpf .olt main_v44 main_v45
  let main_c_17 : IVec S_ 1 := constantI S_ 1 1#1
  let main_v47 : IVec S_ 1 := (fun x v => Host.reduce IntOp.andi x v reducesTo_S256x7_S_d0_1 h_S_) main_v46 main_c_17
  let main_v48 : IVec S_ 1 := andi main_v43 main_v47
  let main_v49 : FVec F S7 .f32 := Host.absf main_arg10
  let main_cst_18 : FVec F S_ .f32 := constant S_ .f32 0x7F800000#32
  let main_v50 : FVec F S7 .f32 := broadcastInDim S7 ![] bcast_S_S7 main_cst_18
  fn_part3 (F := F) main_v48 main_v49 main_v50

def fn_part1 {F : FTy → Type} [FloatOps F] (main_arg4 : FVec F S32x768 .f32) (main_arg5 : FVec F S768x512 .f32) (main_arg6 : FVec F S512 .f32) (main_arg7 : FVec F S3840x256 .f32) (main_arg8 : FVec F S256 .f32) (main_arg9 : FVec F S256x7 .f32) (main_arg10 : FVec F S7 .f32) (main_v13 : IVec S_ 1) (main_v16 : IVec S32x768 1) : IVec S_ 1 :=
  let main_c_5 : IVec S_ 1 := constantI S_ 1 1#1
  let main_v17 : IVec S_ 1 := (fun x v => Host.reduce IntOp.andi x v reducesTo_S32x768_S_d0_1 h_S_) main_v16 main_c_5
  let main_v18 : IVec S_ 1 := andi main_v13 main_v17
  let main_v19 : FVec F S32x768 .f32 := Host.absf main_arg4
  let main_cst_6 : FVec F S_ .f32 := constant S_ .f32 0x7F800000#32
  let main_v20 : FVec F S32x768 .f32 := broadcastInDim S32x768 ![] bcast_S_S32x768 main_cst_6
  let main_v21 : IVec S32x768 1 := cmpf .olt main_v19 main_v20
  let main_c_7 : IVec S_ 1 := constantI S_ 1 1#1
  let main_v22 : IVec S_ 1 := (fun x v => Host.reduce IntOp.andi x v reducesTo_S32x768_S_d0_1 h_S_) main_v21 main_c_7
  let main_v23 : IVec S_ 1 := andi main_v18 main_v22
  let main_v24 : FVec F S768x512 .f32 := Host.absf main_arg5
  let main_cst_8 : FVec F S_ .f32 := constant S_ .f32 0x7F800000#32
  let main_v25 : FVec F S768x512 .f32 := broadcastInDim S768x512 ![] bcast_S_S768x512 main_cst_8
  let main_v26 : IVec S768x512 1 := cmpf .olt main_v24 main_v25
  let main_c_9 : IVec S_ 1 := constantI S_ 1 1#1
  let main_v27 : IVec S_ 1 := (fun x v => Host.reduce IntOp.andi x v reducesTo_S768x512_S_d0_1 h_S_) main_v26 main_c_9
  let main_v28 : IVec S_ 1 := andi main_v23 main_v27
  let main_v29 : FVec F S512 .f32 := Host.absf main_arg6
  let main_cst_10 : FVec F S_ .f32 := constant S_ .f32 0x7F800000#32
  let main_v30 : FVec F S512 .f32 := broadcastInDim S512 ![] bcast_S_S512 main_cst_10
  let main_v31 : IVec S512 1 := cmpf .olt main_v29 main_v30
  let main_c_11 : IVec S_ 1 := constantI S_ 1 1#1
  let main_v32 : IVec S_ 1 := (fun x v => Host.reduce IntOp.andi x v reducesTo_S512_S_d0 h_S_) main_v31 main_c_11
  let main_v33 : IVec S_ 1 := andi main_v28 main_v32
  fn_part2 (F := F) main_arg7 main_arg8 main_arg9 main_arg10 main_v33

def fn {F : FTy → Type} [FloatOps F] (main_arg0 : FVec F S32x768 .f32) (main_arg1 : FVec F S32x768 .f32) (main_arg2 : FVec F S32x768 .f32) (main_arg3 : FVec F S32x768 .f32) (main_arg4 : FVec F S32x768 .f32) (main_arg5 : FVec F S768x512 .f32) (main_arg6 : FVec F S512 .f32) (main_arg7 : FVec F S3840x256 .f32) (main_arg8 : FVec F S256 .f32) (main_arg9 : FVec F S256x7 .f32) (main_arg10 : FVec F S7 .f32) : IVec S_ 1 :=
  let main_v0 : FVec F S32x768 .f32 := Host.absf main_arg0
  let main_cst : FVec F S_ .f32 := constant S_ .f32 0x7F800000#32
  let main_v1 : FVec F S32x768 .f32 := broadcastInDim S32x768 ![] bcast_S_S32x768 main_cst
  let main_v2 : IVec S32x768 1 := cmpf .olt main_v0 main_v1
  let main_c : IVec S_ 1 := constantI S_ 1 1#1
  let main_v3 : IVec S_ 1 := (fun x v => Host.reduce IntOp.andi x v reducesTo_S32x768_S_d0_1 h_S_) main_v2 main_c
  let main_v4 : FVec F S32x768 .f32 := Host.absf main_arg1
  let main_cst_0 : FVec F S_ .f32 := constant S_ .f32 0x7F800000#32
  let main_v5 : FVec F S32x768 .f32 := broadcastInDim S32x768 ![] bcast_S_S32x768 main_cst_0
  let main_v6 : IVec S32x768 1 := cmpf .olt main_v4 main_v5
  let main_c_1 : IVec S_ 1 := constantI S_ 1 1#1
  let main_v7 : IVec S_ 1 := (fun x v => Host.reduce IntOp.andi x v reducesTo_S32x768_S_d0_1 h_S_) main_v6 main_c_1
  let main_v8 : IVec S_ 1 := andi main_v3 main_v7
  let main_v9 : FVec F S32x768 .f32 := Host.absf main_arg2
  let main_cst_2 : FVec F S_ .f32 := constant S_ .f32 0x7F800000#32
  let main_v10 : FVec F S32x768 .f32 := broadcastInDim S32x768 ![] bcast_S_S32x768 main_cst_2
  let main_v11 : IVec S32x768 1 := cmpf .olt main_v9 main_v10
  let main_c_3 : IVec S_ 1 := constantI S_ 1 1#1
  let main_v12 : IVec S_ 1 := (fun x v => Host.reduce IntOp.andi x v reducesTo_S32x768_S_d0_1 h_S_) main_v11 main_c_3
  let main_v13 : IVec S_ 1 := andi main_v8 main_v12
  let main_v14 : FVec F S32x768 .f32 := Host.absf main_arg3
  let main_cst_4 : FVec F S_ .f32 := constant S_ .f32 0x7F800000#32
  let main_v15 : FVec F S32x768 .f32 := broadcastInDim S32x768 ![] bcast_S_S32x768 main_cst_4
  let main_v16 : IVec S32x768 1 := cmpf .olt main_v14 main_v15
  fn_part1 (F := F) main_arg4 main_arg5 main_arg6 main_arg7 main_arg8 main_arg9 main_arg10 main_v13 main_v16
-- ==== Kernel.lean ====
abbrev S32x768 : Shape := ⟨2, ![32, 768]⟩
abbrev S768x512 : Shape := ⟨2, ![768, 512]⟩
abbrev S512 : Shape := ⟨1, ![512]⟩
abbrev S3840x256 : Shape := ⟨2, ![3840, 256]⟩
abbrev S256 : Shape := ⟨1, ![256]⟩
abbrev S256x7 : Shape := ⟨2, ![256, 7]⟩
abbrev S7 : Shape := ⟨1, ![7]⟩
abbrev S64x768 : Shape := ⟨2, ![64, 768]⟩
abbrev S16x256 : Shape := ⟨2, ![16, 256]⟩
abbrev S16x768 : Shape := ⟨2, ![16, 768]⟩
abbrev S16x256x1 : Shape := ⟨3, ![16, 256, 1]⟩
abbrev S16x1x768 : Shape := ⟨3, ![16, 1, 768]⟩
abbrev S16x256x768 : Shape := ⟨3, ![16, 256, 768]⟩
abbrev S32x2304 : Shape := ⟨2, ![32, 2304]⟩
abbrev S8x128 : Shape := ⟨2, ![8, 128]⟩
abbrev S8x2304 : Shape := ⟨2, ![8, 2304]⟩
abbrev S8x128x1 : Shape := ⟨3, ![8, 128, 1]⟩
abbrev S8x1x2304 : Shape := ⟨3, ![8, 1, 2304]⟩
abbrev S8x128x2304 : Shape := ⟨3, ![8, 128, 2304]⟩
abbrev S1x512 : Shape := ⟨2, ![1, 512]⟩
abbrev S1x256 : Shape := ⟨2, ![1, 256]⟩
abbrev S1x7 : Shape := ⟨2, ![1, 7]⟩
abbrev S32x7 : Shape := ⟨2, ![32, 7]⟩
abbrev S32x512 : Shape := ⟨2, ![32, 512]⟩
abbrev S32x3840 : Shape := ⟨2, ![32, 3840]⟩
abbrev S32x256 : Shape := ⟨2, ![32, 256]⟩

abbrev nBuf : Space → Nat
  | .hbm => 23
  | .vmem => 27
  | .smem => 0
  | _ => 0

abbrev bufTy : (tb : Table) → Fin (tcTables nBuf tb) → BufTy
  | .hbm, ⟨0, _⟩ => ⟨S32x768, .f32⟩
  | .hbm, ⟨1, _⟩ => ⟨S32x768, .f32⟩
  | .hbm, ⟨2, _⟩ => ⟨S32x768, .f32⟩
  | .hbm, ⟨3, _⟩ => ⟨S32x768, .f32⟩
  | .hbm, ⟨4, _⟩ => ⟨S32x768, .f32⟩
  | .hbm, ⟨5, _⟩ => ⟨S768x512, .f32⟩
  | .hbm, ⟨6, _⟩ => ⟨S512, .f32⟩
  | .hbm, ⟨7, _⟩ => ⟨S3840x256, .f32⟩
  | .hbm, ⟨8, _⟩ => ⟨S256, .f32⟩
  | .hbm, ⟨9, _⟩ => ⟨S256x7, .f32⟩
  | .hbm, ⟨10, _⟩ => ⟨S7, .f32⟩
  | .hbm, ⟨11, _⟩ => ⟨S64x768, .f32⟩
  | .hbm, ⟨12, _⟩ => ⟨S64x768, .f32⟩
  | .hbm, ⟨13, _⟩ => ⟨S64x768, .f32⟩
  | .hbm, ⟨14, _⟩ => ⟨S64x768, .f32⟩
  | .hbm, ⟨15, _⟩ => ⟨S32x768, .f32⟩
  | .hbm, ⟨16, _⟩ => ⟨S32x768, .f32⟩
  | .hbm, ⟨17, _⟩ => ⟨S32x2304, .f32⟩
  | .hbm, ⟨18, _⟩ => ⟨S32x2304, .f32⟩
  | .hbm, ⟨19, _⟩ => ⟨S1x512, .f32⟩
  | .hbm, ⟨20, _⟩ => ⟨S1x256, .f32⟩
  | .hbm, ⟨21, _⟩ => ⟨S1x7, .f32⟩
  | .hbm, ⟨22, _⟩ => ⟨S32x7, .f32⟩
  | .local _ .vmem, ⟨0, _⟩ => ⟨S16x256, .f32⟩
  | .local _ .vmem, ⟨1, _⟩ => ⟨S16x256, .f32⟩
  | .local _ .vmem, ⟨2, _⟩ => ⟨S16x768, .f32⟩
  | .local _ .vmem, ⟨3, _⟩ => ⟨S16x768, .f32⟩
  | .local _ .vmem, ⟨4, _⟩ => ⟨S16x768, .f32⟩
  | .local _ .vmem, ⟨5, _⟩ => ⟨S16x768, .f32⟩
  | .local _ .vmem, ⟨6, _⟩ => ⟨S16x256, .f32⟩
  | .local _ .vmem, ⟨7, _⟩ => ⟨S16x256, .f32⟩
  | .local _ .vmem, ⟨8, _⟩ => ⟨S8x128, .f32⟩
  | .local _ .vmem, ⟨9, _⟩ => ⟨S8x128, .f32⟩
  | .local _ .vmem, ⟨10, _⟩ => ⟨S8x2304, .f32⟩
  | .local _ .vmem, ⟨11, _⟩ => ⟨S8x2304, .f32⟩
  | .local _ .vmem, ⟨12, _⟩ => ⟨S8x2304, .f32⟩
  | .local _ .vmem, ⟨13, _⟩ => ⟨S8x2304, .f32⟩
  | .local _ .vmem, ⟨14, _⟩ => ⟨S8x128, .f32⟩
  | .local _ .vmem, ⟨15, _⟩ => ⟨S8x128, .f32⟩
  | .local _ .vmem, ⟨16, _⟩ => ⟨S32x768, .f32⟩
  | .local _ .vmem, ⟨17, _⟩ => ⟨S32x768, .f32⟩
  | .local _ .vmem, ⟨18, _⟩ => ⟨S32x768, .f32⟩
  | .local _ .vmem, ⟨19, _⟩ => ⟨S32x2304, .f32⟩
  | .local _ .vmem, ⟨20, _⟩ => ⟨S768x512, .f32⟩
  | .local _ .vmem, ⟨21, _⟩ => ⟨S1x512, .f32⟩
  | .local _ .vmem, ⟨22, _⟩ => ⟨S3840x256, .f32⟩
  | .local _ .vmem, ⟨23, _⟩ => ⟨S1x256, .f32⟩
  | .local _ .vmem, ⟨24, _⟩ => ⟨S256x7, .f32⟩
  | .local _ .vmem, ⟨25, _⟩ => ⟨S1x7, .f32⟩
  | .local _ .vmem, ⟨26, _⟩ => ⟨S32x7, .f32⟩
  | _, _ => ⟨S32x768, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | _, _ => false

abbrev semScoped : Fin 0 → Bool
  | ⟨_, h⟩ => absurd h (Nat.not_lt_zero _)

abbrev dmaSemScoped : Fin 27 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | _ => false

abbrev sig : RefSig :=
  ofTc nBuf bufTy 0 27 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc1_stg0_0 : Ref sig .tc := ⟨.vmem, 8, rfl⟩
abbrev cc1_stg0_1 : Ref sig .tc := ⟨.vmem, 9, rfl⟩
abbrev cc1_stg1_0 : Ref sig .tc := ⟨.vmem, 10, rfl⟩
abbrev cc1_stg1_1 : Ref sig .tc := ⟨.vmem, 11, rfl⟩
abbrev cc1_stg2_0 : Ref sig .tc := ⟨.vmem, 12, rfl⟩
abbrev cc1_stg2_1 : Ref sig .tc := ⟨.vmem, 13, rfl⟩
abbrev cc1_stg3_0 : Ref sig .tc := ⟨.vmem, 14, rfl⟩
abbrev cc1_stg3_1 : Ref sig .tc := ⟨.vmem, 15, rfl⟩
abbrev cc2_stg0_0 : Ref sig .tc := ⟨.vmem, 16, rfl⟩
abbrev cc2_stg1_0 : Ref sig .tc := ⟨.vmem, 17, rfl⟩
abbrev cc2_stg2_0 : Ref sig .tc := ⟨.vmem, 18, rfl⟩
abbrev cc2_stg3_0 : Ref sig .tc := ⟨.vmem, 19, rfl⟩
abbrev cc2_stg4_0 : Ref sig .tc := ⟨.vmem, 20, rfl⟩
abbrev cc2_stg5_0 : Ref sig .tc := ⟨.vmem, 21, rfl⟩
abbrev cc2_stg6_0 : Ref sig .tc := ⟨.vmem, 22, rfl⟩
abbrev cc2_stg7_0 : Ref sig .tc := ⟨.vmem, 23, rfl⟩
abbrev cc2_stg8_0 : Ref sig .tc := ⟨.vmem, 24, rfl⟩
abbrev cc2_stg9_0 : Ref sig .tc := ⟨.vmem, 25, rfl⟩
abbrev cc2_stg10_0 : Ref sig .tc := ⟨.vmem, 26, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc1_sem0_0 : DmaSem sig := 8
abbrev cc1_sem0_1 : DmaSem sig := 9
abbrev cc1_sem1_0 : DmaSem sig := 10
abbrev cc1_sem1_1 : DmaSem sig := 11
abbrev cc1_sem2_0 : DmaSem sig := 12
abbrev cc1_sem2_1 : DmaSem sig := 13
abbrev cc1_sem3_0 : DmaSem sig := 14
abbrev cc1_sem3_1 : DmaSem sig := 15
abbrev cc2_sem0_0 : DmaSem sig := 16
abbrev cc2_sem1_0 : DmaSem sig := 17
abbrev cc2_sem2_0 : DmaSem sig := 18
abbrev cc2_sem3_0 : DmaSem sig := 19
abbrev cc2_sem4_0 : DmaSem sig := 20
abbrev cc2_sem5_0 : DmaSem sig := 21
abbrev cc2_sem6_0 : DmaSem sig := 22
abbrev cc2_sem7_0 : DmaSem sig := 23
abbrev cc2_sem8_0 : DmaSem sig := 24
abbrev cc2_sem9_0 : DmaSem sig := 25
abbrev cc2_sem10_0 : DmaSem sig := 26

abbrev nD : Nat := 1
abbrev τ : Topo := Topo.v7x

variable {F : FTy → Type} [FloatOps F]

abbrev grid0 : Pipeline.Grid := ⟨2, ![4, 3], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S16x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S16x768 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S16x768 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S16x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev grid1 : Pipeline.Grid := ⟨2, ![4, 18], ![false, false]⟩

def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage1_0 : Fin 2 → Memref sig .tc .vmem S8x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true]

abbrev stage1_1 : Fin 2 → Memref sig .tc .vmem S8x2304 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, false]

abbrev stage1_2 : Fin 2 → Memref sig .tc .vmem S8x2304 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, false]

abbrev stage1_3 : Fin 2 → Memref sig .tc .vmem S8x128 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, true]

abbrev grid2 : Pipeline.Grid := ⟨1, ![1], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_6 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_7 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_8 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_9 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_10 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage2_0 : Fin 1 → Memref sig .tc .vmem S32x768 .f32 := fun | 0 => Memref.whole cc2_stg0_0 | ⟨_ + 1, h⟩ => absurd h (Nat.not_lt.2 (Nat.le_add_left _ _))
abbrev sem2_0 : Fin 1 → DmaSem sig := fun | 0 => cc2_sem0_0 | ⟨_ + 1, h⟩ => absurd h (Nat.not_lt.2 (Nat.le_add_left _ _))
abbrev reads2_0 : Fin grid2.rank → Bool := ![false]

abbrev stage2_1 : Fin 1 → Memref sig .tc .vmem S32x768 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S32x768 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S32x2304 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S768x512 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 1 → Memref sig .tc .vmem S1x512 .f32 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![false]

abbrev stage2_6 : Fin 1 → Memref sig .tc .vmem S3840x256 .f32 := fun | 0 => Memref.whole cc2_stg6_0 | ⟨_ + 1, h⟩ => absurd h (Nat.not_lt.2 (Nat.le_add_left _ _))
abbrev sem2_6 : Fin 1 → DmaSem sig := fun | 0 => cc2_sem6_0 | ⟨_ + 1, h⟩ => absurd h (Nat.not_lt.2 (Nat.le_add_left _ _))
abbrev reads2_6 : Fin grid2.rank → Bool := ![false]

abbrev stage2_7 : Fin 1 → Memref sig .tc .vmem S1x256 .f32 := fun | 0 => Memref.whole cc2_stg7_0 | ⟨_ + 1, h⟩ => absurd h (Nat.not_lt.2 (Nat.le_add_left _ _))
abbrev sem2_7 : Fin 1 → DmaSem sig := fun | 0 => cc2_sem7_0 | ⟨_ + 1, h⟩ => absurd h (Nat.not_lt.2 (Nat.le_add_left _ _))
abbrev reads2_7 : Fin grid2.rank → Bool := ![false]

abbrev stage2_8 : Fin 1 → Memref sig .tc .vmem S256x7 .f32 := fun | 0 => Memref.whole cc2_stg8_0 | ⟨_ + 1, h⟩ => absurd h (Nat.not_lt.2 (Nat.le_add_left _ _))
abbrev sem2_8 : Fin 1 → DmaSem sig := fun | 0 => cc2_sem8_0 | ⟨_ + 1, h⟩ => absurd h (Nat.not_lt.2 (Nat.le_add_left _ _))
abbrev reads2_8 : Fin grid2.rank → Bool := ![false]

abbrev stage2_9 : Fin 1 → Memref sig .tc .vmem S1x7 .f32 := fun | 0 => Memref.whole cc2_stg9_0 | ⟨_ + 1, h⟩ => absurd h (Nat.not_lt.2 (Nat.le_add_left _ _))
abbrev sem2_9 : Fin 1 → DmaSem sig := fun | 0 => cc2_sem9_0 | ⟨_ + 1, h⟩ => absurd h (Nat.not_lt.2 (Nat.le_add_left _ _))
abbrev reads2_9 : Fin grid2.rank → Bool := ![false]

abbrev stage2_10 : Fin 1 → Memref sig .tc .vmem S32x7 .f32 := fun | 0 => Memref.whole cc2_stg10_0 | ⟨_ + 1, h⟩ => absurd h (Nat.not_lt.2 (Nat.le_add_left _ _))
abbrev sem2_10 : Fin 1 → DmaSem sig := fun | 0 => cc2_sem10_0 | ⟨_ + 1, h⟩ => absurd h (Nat.not_lt.2 (Nat.le_add_left _ _))
abbrev reads2_10 : Fin grid2.rank → Bool := ![false]

class Facts₀ : Prop where
  concatenates_S32x768_S32x768_S64x768_d0 : Shape.Concatenates [S32x768, S32x768] S64x768 0
  inb_S16x256_S16x256_0_0 : ∀ a, (![0, 0] : Fin 2 → Nat) a + S16x256.size a ≤ S16x256.size a
  h_S16x256 : 0 < S16x256.numel
  shapeCasts_S16x256_S16x256 : S16x256.ShapeCasts S16x256
  inb_S16x768_S16x768_0_0 : ∀ a, (![0, 0] : Fin 2 → Nat) a + S16x768.size a ≤ S16x768.size a
  h_S16x768 : 0 < S16x768.numel
  shapeCasts_S16x768_S16x768 : S16x768.ShapeCasts S16x768
  shapeCasts_S16x256_S16x256x1 : S16x256.ShapeCasts S16x256x1
  shapeCasts_S16x768_S16x1x768 : S16x768.ShapeCasts S16x1x768
  broadcasts_S16x256x1_S16x256x768 : S16x256x1.Broadcasts S16x256x768
  broadcasts_S16x1x768_S16x256x768 : S16x1x768.Broadcasts S16x256x768
  reduces_S16x256x768_S16x256 : S16x256x768.Reduces [2] S16x256
  slices_S64x768_S32x768_0_0 : S64x768.Slices ![0, 0] S32x768
  slices_S64x768_S32x768_32_0 : S64x768.Slices ![32, 0] S32x768
  concatenates_S32x768_S32x768_S32x768_S32x2304_d1 : Shape.Concatenates [S32x768, S32x768, S32x768] S32x2304 1
  inb_S8x128_S8x128_0_0 : ∀ a, (![0, 0] : Fin 2 → Nat) a + S8x128.size a ≤ S8x128.size a
  h_S8x128 : 0 < S8x128.numel
  shapeCasts_S8x128_S8x128 : S8x128.ShapeCasts S8x128
  inb_S8x2304_S8x2304_0_0 : ∀ a, (![0, 0] : Fin 2 → Nat) a + S8x2304.size a ≤ S8x2304.size a
  h_S8x2304 : 0 < S8x2304.numel
  shapeCasts_S8x2304_S8x2304 : S8x2304.ShapeCasts S8x2304
  shapeCasts_S8x128_S8x128x1 : S8x128.ShapeCasts S8x128x1
  shapeCasts_S8x2304_S8x1x2304 : S8x2304.ShapeCasts S8x1x2304
  broadcasts_S8x128x1_S8x128x2304 : S8x128x1.Broadcasts S8x128x2304
  broadcasts_S8x1x2304_S8x128x2304 : S8x1x2304.Broadcasts S8x128x2304
  reduces_S8x128x2304_S8x128 : S8x128x2304.Reduces [2] S8x128
  shapeCasts_S512_S1x512 : S512.ShapeCasts S1x512
  shapeCasts_S256_S1x256 : S256.ShapeCasts S1x256
  shapeCasts_S7_S1x7 : S7.ShapeCasts S1x7
  inb_S768x512_S768x512_0_0 : ∀ a, (![0, 0] : Fin 2 → Nat) a + S768x512.size a ≤ S768x512.size a
  h_S768x512 : 0 < S768x512.numel
  bitsLt_bf16_f32 : FTy.bits .bf16 < FTy.bits .f32
  inb_S32x768_S32x768_0_0 : ∀ a, (![0, 0] : Fin 2 → Nat) a + S32x768.size a ≤ S32x768.size a
  h_S32x768 : 0 < S32x768.numel
  inb_S1x512_S1x512_0_0 : ∀ a, (![0, 0] : Fin 2 → Nat) a + S1x512.size a ≤ S1x512.size a
  h_S1x512 : 0 < S1x512.numel
  shapeCasts_S1x512_S1x512 : S1x512.ShapeCasts S1x512
  broadcasts_S1x512_S32x512 : S1x512.Broadcasts S32x512
  shapeCasts_S32x768_S32x768 : S32x768.ShapeCasts S32x768
  inb_S32x2304_S32x2304_0_0 : ∀ a, (![0, 0] : Fin 2 → Nat) a + S32x2304.size a ≤ S32x2304.size a
  h_S32x2304 : 0 < S32x2304.numel
  shapeCasts_S32x2304_S32x2304 : S32x2304.ShapeCasts S32x2304
  concatenates_S32x2304_S32x512_S32x512_S32x512_S32x3840_d1 : Shape.Concatenates [S32x2304, S32x512, S32x512, S32x512] S32x3840 1
  inb_S3840x256_S3840x256_0_0 : ∀ a, (![0, 0] : Fin 2 → Nat) a + S3840x256.size a ≤ S3840x256.size a
  h_S3840x256 : 0 < S3840x256.numel
  inb_S1x256_S1x256_0_0 : ∀ a, (![0, 0] : Fin 2 → Nat) a + S1x256.size a ≤ S1x256.size a
  h_S1x256 : 0 < S1x256.numel
  shapeCasts_S1x256_S1x256 : S1x256.ShapeCasts S1x256
  broadcasts_S1x256_S32x256 : S1x256.Broadcasts S32x256
  inb_S256x7_S256x7_0_0 : ∀ a, (![0, 0] : Fin 2 → Nat) a + S256x7.size a ≤ S256x7.size a
  h_S256x7 : 0 < S256x7.numel
  inb_S1x7_S1x7_0_0 : ∀ a, (![0, 0] : Fin 2 → Nat) a + S1x7.size a ≤ S1x7.size a
  h_S1x7 : 0 < S1x7.numel
  shapeCasts_S1x7_S1x7 : S1x7.ShapeCasts S1x7
  broadcasts_S1x7_S32x7 : S1x7.Broadcasts S32x7
  inb_S32x7_S32x7_0_0 : ∀ a, (![0, 0] : Fin 2 → Nat) a + S32x7.size a ≤ S32x7.size a
  h_S32x7 : 0 < S32x7.numel
  dot_S32x768_S768x512_S32x512_1_0_0_1_n_n_wf : DotDims.WF S32x768 S768x512 S32x512 [1] [0] [0] [1] [] []
  dot_S32x3840_S3840x256_S32x256_1_0_0_1_n_n_wf : DotDims.WF S32x3840 S3840x256 S32x256 [1] [0] [0] [1] [] []
  dot_S32x256_S256x7_S32x7_1_0_0_1_n_n_wf : DotDims.WF S32x256 S256x7 S32x7 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S16x256.size a ≤ S64x768.size a
  hwx0_0 : ∀ i : grid0.Coords, EltTy.bits .f32 = 32 ∨ (Rect.block (s := S64x768) S16x256.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S16x768.size a ≤ S64x768.size a
  hwx0_1 : ∀ i : grid0.Coords, EltTy.bits .f32 = 32 ∨ (Rect.block (s := S64x768) S16x768.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S16x768.size a ≤ S64x768.size a
  hwx0_2 : ∀ i : grid0.Coords, EltTy.bits .f32 = 32 ∨ (Rect.block (s := S64x768) S16x768.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S16x256.size a ≤ S64x768.size a
  hwx0_3 : ∀ i : grid0.Coords, EltTy.bits .f32 = 32 ∨ (Rect.block (s := S64x768) S16x256.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S8x128.size a ≤ S32x2304.size a
  hwx1_0 : ∀ i : grid1.Coords, EltTy.bits .f32 = 32 ∨ (Rect.block (s := S32x2304) S8x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S8x2304.size a ≤ S32x2304.size a
  hwx1_1 : ∀ i : grid1.Coords, EltTy.bits .f32 = 32 ∨ (Rect.block (s := S32x2304) S8x2304.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S8x2304.size a ≤ S32x2304.size a
  hwx1_2 : ∀ i : grid1.Coords, EltTy.bits .f32 = 32 ∨ (Rect.block (s := S32x2304) S8x2304.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S8x128.size a ≤ S32x2304.size a
  hwx1_3 : ∀ i : grid1.Coords, EltTy.bits .f32 = 32 ∨ (Rect.block (s := S32x2304) S8x128.size (cc1_transform_3 i) (hinb1_3 i)).WholeWords (EltTy.packing .f32)
  hrank2 : 0 < grid2.rank
  hstage2_0 : ∀ j, (stage2_0 j).IsWhole
  nbuf2_0 : grid2.bufCount reads2_0 true = 1
  hreads2_0 : ∀ i i' : grid2.Coords, (∀ a, reads2_0 a = true → i a = i' a) → cc2_transform_0 i = cc2_transform_0 i'
  hinb2_0 : ∀ (i : grid2.Coords) a, (cc2_transform_0 i a + 1) * S32x768.size a ≤ S32x768.size a
  hwx2_0 : ∀ i : grid2.Coords, EltTy.bits .f32 = 32 ∨ (Rect.block (s := S32x768) S32x768.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S32x768.size a ≤ S32x768.size a
  hwx2_1 : ∀ i : grid2.Coords, EltTy.bits .f32 = 32 ∨ (Rect.block (s := S32x768) S32x768.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S32x768.size a ≤ S32x768.size a
  hwx2_2 : ∀ i : grid2.Coords, EltTy.bits .f32 = 32 ∨ (Rect.block (s := S32x768) S32x768.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S32x2304.size a ≤ S32x2304.size a
  hwx2_3 : ∀ i : grid2.Coords, EltTy.bits .f32 = 32 ∨ (Rect.block (s := S32x2304) S32x2304.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S768x512.size a ≤ S768x512.size a
  hwx2_4 : ∀ i : grid2.Coords, EltTy.bits .f32 = 32 ∨ (Rect.block (s := S768x512) S768x512.size (cc2_transform_4 i) (hinb2_4 i)).WholeWords (EltTy.packing .f32)
  hstage2_5 : ∀ j, (stage2_5 j).IsWhole
  nbuf2_5 : grid2.bufCount reads2_5 true = 1
  hreads2_5 : ∀ i i' : grid2.Coords, (∀ a, reads2_5 a = true → i a = i' a) → cc2_transform_5 i = cc2_transform_5 i'
  hinb2_5 : ∀ (i : grid2.Coords) a, (cc2_transform_5 i a + 1) * S1x512.size a ≤ S1x512.size a
  hwx2_5 : ∀ i : grid2.Coords, EltTy.bits .f32 = 32 ∨ (Rect.block (s := S1x512) S1x512.size (cc2_transform_5 i) (hinb2_5 i)).WholeWords (EltTy.packing .f32)
  hstage2_6 : ∀ j, (stage2_6 j).IsWhole
  nbuf2_6 : grid2.bufCount reads2_6 true = 1
  hreads2_6 : ∀ i i' : grid2.Coords, (∀ a, reads2_6 a = true → i a = i' a) → cc2_transform_6 i = cc2_transform_6 i'
  hinb2_6 : ∀ (i : grid2.Coords) a, (cc2_transform_6 i a + 1) * S3840x256.size a ≤ S3840x256.size a
  hwx2_6 : ∀ i : grid2.Coords, EltTy.bits .f32 = 32 ∨ (Rect.block (s := S3840x256) S3840x256.size (cc2_transform_6 i) (hinb2_6 i)).WholeWords (EltTy.packing .f32)
  hstage2_7 : ∀ j, (stage2_7 j).IsWhole
  nbuf2_7 : grid2.bufCount reads2_7 true = 1
  hreads2_7 : ∀ i i' : grid2.Coords, (∀ a, reads2_7 a = true → i a = i' a) → cc2_transform_7 i = cc2_transform_7 i'
  hinb2_7 : ∀ (i : grid2.Coords) a, (cc2_transform_7 i a + 1) * S1x256.size a ≤ S1x256.size a
  hwx2_7 : ∀ i : grid2.Coords, EltTy.bits .f32 = 32 ∨ (Rect.block (s := S1x256) S1x256.size (cc2_transform_7 i) (hinb2_7 i)).WholeWords (EltTy.packing .f32)
  hstage2_8 : ∀ j, (stage2_8 j).IsWhole
  nbuf2_8 : grid2.bufCount reads2_8 true = 1
  hreads2_8 : ∀ i i' : grid2.Coords, (∀ a, reads2_8 a = true → i a = i' a) → cc2_transform_8 i = cc2_transform_8 i'
  hinb2_8 : ∀ (i : grid2.Coords) a, (cc2_transform_8 i a + 1) * S256x7.size a ≤ S256x7.size a
  hwx2_8 : ∀ i : grid2.Coords, EltTy.bits .f32 = 32 ∨ (Rect.block (s := S256x7) S256x7.size (cc2_transform_8 i) (hinb2_8 i)).WholeWords (EltTy.packing .f32)
  hstage2_9 : ∀ j, (stage2_9 j).IsWhole
  nbuf2_9 : grid2.bufCount reads2_9 true = 1
  hreads2_9 : ∀ i i' : grid2.Coords, (∀ a, reads2_9 a = true → i a = i' a) → cc2_transform_9 i = cc2_transform_9 i'
  hinb2_9 : ∀ (i : grid2.Coords) a, (cc2_transform_9 i a + 1) * S1x7.size a ≤ S1x7.size a
  hwx2_9 : ∀ i : grid2.Coords, EltTy.bits .f32 = 32 ∨ (Rect.block (s := S1x7) S1x7.size (cc2_transform_9 i) (hinb2_9 i)).WholeWords (EltTy.packing .f32)
  hstage2_10 : ∀ j, (stage2_10 j).IsWhole
  nbuf2_10 : grid2.bufCount reads2_10 true = 1
  hreads2_10 : ∀ i i' : grid2.Coords, (∀ a, reads2_10 a = true → i a = i' a) → cc2_transform_10 i = cc2_transform_10 i'
  hinb2_10 : ∀ (i : grid2.Coords) a, (cc2_transform_10 i a + 1) * S32x7.size a ≤ S32x7.size a
  hwx2_10 : ∀ i : grid2.Coords, EltTy.bits .f32 = 32 ∨ (Rect.block (s := S32x7) S32x7.size (cc2_transform_10 i) (hinb2_10 i)).WholeWords (EltTy.packing .f32)

variable [Facts₀]

def dot_S32x768_S768x512_S32x512_1_0_0_1_n_n : DotDims S32x768 S768x512 S32x512 where
  lhsContracting := [1]
  rhsContracting := [0]
  lhsNonContracting := [0]
  rhsNonContracting := [1]
  lhsBatch := []
  rhsBatch := []
  wf := dot_S32x768_S768x512_S32x512_1_0_0_1_n_n_wf
def dot_S32x3840_S3840x256_S32x256_1_0_0_1_n_n : DotDims S32x3840 S3840x256 S32x256 where
  lhsContracting := [1]
  rhsContracting := [0]
  lhsNonContracting := [0]
  rhsNonContracting := [1]
  lhsBatch := []
  rhsBatch := []
  wf := dot_S32x3840_S3840x256_S32x256_1_0_0_1_n_n_wf
def dot_S32x256_S256x7_S32x7_1_0_0_1_n_n : DotDims S32x256 S256x7 S32x7 where
  lhsContracting := [1]
  rhsContracting := [0]
  lhsNonContracting := [0]
  rhsNonContracting := [1]
  lhsBatch := []
  rhsBatch := []
  wf := dot_S32x256_S256x7_S32x7_1_0_0_1_n_n_wf

abbrev win0_0 : Pipeline.Window sig grid0 :=
  Pipeline.Window.ofSpec (Memref.whole main_v0) S16x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S16x768.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v2) S16x768.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v3) S16x256.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v6) S8x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v6) S8x2304.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v6) S8x2304.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v7) S8x128.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev win2_0 : Pipeline.Window sig grid2 :=
  Pipeline.Window.ofSpec (Memref.whole main_arg0) S32x768.size cc2_transform_0 reads2_0 false true 1 stage2_0 sem2_0
    hrank2 hreads2_0 hinb2_0 nbuf2_0 (Memref.isWhole_whole _) hwx2_0 hstage2_0

abbrev win2_1 : Pipeline.Window sig grid2 :=
  Pipeline.Window.ofSpec (Memref.whole main_v5) S32x768.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v4) S32x768.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v7) S32x2304.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_arg5) S768x512.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v8) S1x512.size cc2_transform_5 reads2_5 false true 1 stage2_5 sem2_5
    hrank2 hreads2_5 hinb2_5 nbuf2_5 (Memref.isWhole_whole _) hwx2_5 hstage2_5

abbrev win2_6 : Pipeline.Window sig grid2 :=
  Pipeline.Window.ofSpec (Memref.whole main_arg7) S3840x256.size cc2_transform_6 reads2_6 false true 1 stage2_6 sem2_6
    hrank2 hreads2_6 hinb2_6 nbuf2_6 (Memref.isWhole_whole _) hwx2_6 hstage2_6

abbrev win2_7 : Pipeline.Window sig grid2 :=
  Pipeline.Window.ofSpec (Memref.whole main_v9) S1x256.size cc2_transform_7 reads2_7 false true 1 stage2_7 sem2_7
    hrank2 hreads2_7 hinb2_7 nbuf2_7 (Memref.isWhole_whole _) hwx2_7 hstage2_7

abbrev win2_8 : Pipeline.Window sig grid2 :=
  Pipeline.Window.ofSpec (Memref.whole main_arg9) S256x7.size cc2_transform_8 reads2_8 false true 1 stage2_8 sem2_8
    hrank2 hreads2_8 hinb2_8 nbuf2_8 (Memref.isWhole_whole _) hwx2_8 hstage2_8

abbrev win2_9 : Pipeline.Window sig grid2 :=
  Pipeline.Window.ofSpec (Memref.whole main_v10) S1x7.size cc2_transform_9 reads2_9 false true 1 stage2_9 sem2_9
    hrank2 hreads2_9 hinb2_9 nbuf2_9 (Memref.isWhole_whole _) hwx2_9 hstage2_9

abbrev win2_10 : Pipeline.Window sig grid2 :=
  Pipeline.Window.ofSpec (Memref.whole main_v11) S32x7.size cc2_transform_10 reads2_10 true true 1 stage2_10 sem2_10
    hrank2 hreads2_10 hinb2_10 nbuf2_10 (Memref.isWhole_whole _) hwx2_10 hstage2_10

abbrev win2 : Fin 11 → Pipeline.Window sig grid2 := fun | 0 => win2_0 | 1 => win2_1 | 2 => win2_2 | 3 => win2_3 | 4 => win2_4 | 5 => win2_5 | 6 => win2_6 | 7 => win2_7 | 8 => win2_8 | 9 => win2_9 | 10 => win2_10 | ⟨_ + 11, h⟩ => absurd h (Nat.not_lt.2 (Nat.le_add_left _ _))
abbrev spec2 : Fin 11 → Pipeline.WinSpec sig grid2.rank := fun w => (win2 w).toWinSpec

class Facts : Prop extends Facts₀ where

variable [Facts]
-- ==== ReferenceIdeal.lean ====
abbrev S32x768 : Shape := ⟨2, ![32, 768]⟩
abbrev S768x512 : Shape := ⟨2, ![768, 512]⟩
abbrev S512 : Shape := ⟨1, ![512]⟩
abbrev S3840x256 : Shape := ⟨2, ![3840, 256]⟩
abbrev S256 : Shape := ⟨1, ![256]⟩
abbrev S256x7 : Shape := ⟨2, ![256, 7]⟩
abbrev S7 : Shape := ⟨1, ![7]⟩
abbrev S32x768x1 : Shape := ⟨3, ![32, 768, 1]⟩
abbrev S32x768x768 : Shape := ⟨3, ![32, 768, 768]⟩
abbrev S_ : Shape := ⟨0, ![]⟩
abbrev S32x512 : Shape := ⟨2, ![32, 512]⟩
abbrev S1x512 : Shape := ⟨2, ![1, 512]⟩
abbrev S32x2304x1 : Shape := ⟨3, ![32, 2304, 1]⟩
abbrev S32x2304x2304 : Shape := ⟨3, ![32, 2304, 2304]⟩
abbrev S32x2304 : Shape := ⟨2, ![32, 2304]⟩
abbrev S32x3840 : Shape := ⟨2, ![32, 3840]⟩
abbrev S32x256 : Shape := ⟨2, ![32, 256]⟩
abbrev S1x256 : Shape := ⟨2, ![1, 256]⟩
abbrev S32x7 : Shape := ⟨2, ![32, 7]⟩
abbrev S1x7 : Shape := ⟨2, ![1, 7]⟩

abbrev nBuf : Space → Nat
  | .hbm => 109
  | .vmem => 0
  | .smem => 0
  | _ => 0

abbrev bufTy : (tb : Table) → Fin (tcTables nBuf tb) → BufTy
  | .hbm, ⟨0, _⟩ => ⟨S32x768, .f32⟩
  | .hbm, ⟨1, _⟩ => ⟨S32x768, .f32⟩
  | .hbm, ⟨2, _⟩ => ⟨S32x768, .f32⟩
  | .hbm, ⟨3, _⟩ => ⟨S32x768, .f32⟩
  | .hbm, ⟨4, _⟩ => ⟨S32x768, .f32⟩
  | .hbm, ⟨5, _⟩ => ⟨S768x512, .f32⟩
  | .hbm, ⟨6, _⟩ => ⟨S512, .f32⟩
  | .hbm, ⟨7, _⟩ => ⟨S3840x256, .f32⟩
  | .hbm, ⟨8, _⟩ => ⟨S256, .f32⟩
  | .hbm, ⟨9, _⟩ => ⟨S256x7, .f32⟩
  | .hbm, ⟨10, _⟩ => ⟨S7, .f32⟩
  | .hbm, ⟨11, _⟩ => ⟨S32x768x1, .f32⟩
  | .hbm, ⟨12, _⟩ => ⟨S32x768x1, .f32⟩
  | .hbm, ⟨13, _⟩ => ⟨S32x768x1, .f32⟩
  | .hbm, ⟨14, _⟩ => ⟨S32x768x1, .f32⟩
  | .hbm, ⟨15, _⟩ => ⟨S32x768x1, .f32⟩
  | .hbm, ⟨16, _⟩ => ⟨S32x768x768, .f32⟩
  | .hbm, ⟨17, _⟩ => ⟨S_, .f32⟩
  | .hbm, ⟨18, _⟩ => ⟨S32x768x768, .f32⟩
  | .hbm, ⟨19, _⟩ => ⟨S32x768x768, .f32⟩
  | .hbm, ⟨20, _⟩ => ⟨S_, .f32⟩
  | .hbm, ⟨21, _⟩ => ⟨S32x768, .f32⟩
  | .hbm, ⟨22, _⟩ => ⟨S_, .f32⟩
  | .hbm, ⟨23, _⟩ => ⟨S32x768, .f32⟩
  | .hbm, ⟨24, _⟩ => ⟨S32x768, .f32⟩
  | .hbm, ⟨25, _⟩ => ⟨S32x768x1, .f32⟩
  | .hbm, ⟨26, _⟩ => ⟨S32x768x768, .f32⟩
  | .hbm, ⟨27, _⟩ => ⟨S32x768x768, .f32⟩
  | .hbm, ⟨28, _⟩ => ⟨S32x768x768, .f32⟩
  | .hbm, ⟨29, _⟩ => ⟨S_, .f32⟩
  | .hbm, ⟨30, _⟩ => ⟨S32x768, .f32⟩
  | .hbm, ⟨31, _⟩ => ⟨S32x768x1, .f32⟩
  | .hbm, ⟨32, _⟩ => ⟨S32x768x768, .f32⟩
  | .hbm, ⟨33, _⟩ => ⟨S32x768x768, .f32⟩
  | .hbm, ⟨34, _⟩ => ⟨S32x768x1, .f32⟩
  | .hbm, ⟨35, _⟩ => ⟨S32x768x768, .f32⟩
  | .hbm, ⟨36, _⟩ => ⟨S_, .f32⟩
  | .hbm, ⟨37, _⟩ => ⟨S32x768x768, .f32⟩
  | .hbm, ⟨38, _⟩ => ⟨S32x768x768, .f32⟩
  | .hbm, ⟨39, _⟩ => ⟨S_, .f32⟩
  | .hbm, ⟨40, _⟩ => ⟨S32x768, .f32⟩
  | .hbm, ⟨41, _⟩ => ⟨S_, .f32⟩
  | .hbm, ⟨42, _⟩ => ⟨S32x768, .f32⟩
  | .hbm, ⟨43, _⟩ => ⟨S32x768, .f32⟩
  | .hbm, ⟨44, _⟩ => ⟨S32x768x1, .f32⟩
  | .hbm, ⟨45, _⟩ => ⟨S32x768x768, .f32⟩
  | .hbm, ⟨46, _⟩ => ⟨S32x768x768, .f32⟩
  | .hbm, ⟨47, _⟩ => ⟨S32x768x768, .f32⟩
  | .hbm, ⟨48, _⟩ => ⟨S_, .f32⟩
  | .hbm, ⟨49, _⟩ => ⟨S32x768, .f32⟩
  | .hbm, ⟨50, _⟩ => ⟨S32x768x1, .f32⟩
  | .hbm, ⟨51, _⟩ => ⟨S32x768x768, .f32⟩
  | .hbm, ⟨52, _⟩ => ⟨S32x768x768, .f32⟩
  | .hbm, ⟨53, _⟩ => ⟨S32x768x1, .f32⟩
  | .hbm, ⟨54, _⟩ => ⟨S32x512, .f32⟩
  | .hbm, ⟨55, _⟩ => ⟨S1x512, .f32⟩
  | .hbm, ⟨56, _⟩ => ⟨S32x512, .f32⟩
  | .hbm, ⟨57, _⟩ => ⟨S32x512, .f32⟩
  | .hbm, ⟨58, _⟩ => ⟨S32x768, .f32⟩
  | .hbm, ⟨59, _⟩ => ⟨S32x512, .f32⟩
  | .hbm, ⟨60, _⟩ => ⟨S1x512, .f32⟩
  | .hbm, ⟨61, _⟩ => ⟨S32x512, .f32⟩
  | .hbm, ⟨62, _⟩ => ⟨S32x512, .f32⟩
  | .hbm, ⟨63, _⟩ => ⟨S32x768, .f32⟩
  | .hbm, ⟨64, _⟩ => ⟨S32x512, .f32⟩
  | .hbm, ⟨65, _⟩ => ⟨S1x512, .f32⟩
  | .hbm, ⟨66, _⟩ => ⟨S32x512, .f32⟩
  | .hbm, ⟨67, _⟩ => ⟨S32x512, .f32⟩
  | .hbm, ⟨68, _⟩ => ⟨S32x2304x1, .f32⟩
  | .hbm, ⟨69, _⟩ => ⟨S32x2304x2304, .f32⟩
  | .hbm, ⟨70, _⟩ => ⟨S_, .f32⟩
  | .hbm, ⟨71, _⟩ => ⟨S32x2304x2304, .f32⟩
  | .hbm, ⟨72, _⟩ => ⟨S32x2304x2304, .f32⟩
  | .hbm, ⟨73, _⟩ => ⟨S_, .f32⟩
  | .hbm, ⟨74, _⟩ => ⟨S32x2304, .f32⟩
  | .hbm, ⟨75, _⟩ => ⟨S_, .f32⟩
  | .hbm, ⟨76, _⟩ => ⟨S32x2304, .f32⟩
  | .hbm, ⟨77, _⟩ => ⟨S32x2304, .f32⟩
  | .hbm, ⟨78, _⟩ => ⟨S32x2304x1, .f32⟩
  | .hbm, ⟨79, _⟩ => ⟨S32x2304x2304, .f32⟩
  | .hbm, ⟨80, _⟩ => ⟨S32x2304x2304, .f32⟩
  | .hbm, ⟨81, _⟩ => ⟨S32x2304x2304, .f32⟩
  | .hbm, ⟨82, _⟩ => ⟨S_, .f32⟩
  | .hbm, ⟨83, _⟩ => ⟨S32x2304, .f32⟩
  | .hbm, ⟨84, _⟩ => ⟨S32x2304x1, .f32⟩
  | .hbm, ⟨85, _⟩ => ⟨S32x2304x2304, .f32⟩
  | .hbm, ⟨86, _⟩ => ⟨S32x2304x2304, .f32⟩
  | .hbm, ⟨87, _⟩ => ⟨S32x2304x1, .f32⟩
  | .hbm, ⟨88, _⟩ => ⟨S32x2304, .f32⟩
  | .hbm, ⟨89, _⟩ => ⟨S32x3840, .f32⟩
  | .hbm, ⟨90, _⟩ => ⟨S32x256, .f32⟩
  | .hbm, ⟨91, _⟩ => ⟨S1x256, .f32⟩
  | .hbm, ⟨92, _⟩ => ⟨S32x256, .f32⟩
  | .hbm, ⟨93, _⟩ => ⟨S32x256, .f32⟩
  | .hbm, ⟨94, _⟩ => ⟨S_, .f32⟩
  | .hbm, ⟨95, _⟩ => ⟨S32x256, .f32⟩
  | .hbm, ⟨96, _⟩ => ⟨S32x256, .f32⟩
  | .hbm, ⟨97, _⟩ => ⟨S32x7, .f32⟩
  | .hbm, ⟨98, _⟩ => ⟨S1x7, .f32⟩
  | .hbm, ⟨99, _⟩ => ⟨S32x7, .f32⟩
  | .hbm, ⟨100, _⟩ => ⟨S32x7, .f32⟩
  | .hbm, ⟨101, _⟩ => ⟨S32x7, .f32⟩
  | .hbm, ⟨102, _⟩ => ⟨S32x7, .f32⟩
  | .hbm, ⟨103, _⟩ => ⟨S_, .f32⟩
  | .hbm, ⟨104, _⟩ => ⟨S32x7, .f32⟩
  | .hbm, ⟨105, _⟩ => ⟨S32x7, .f32⟩
  | .hbm, ⟨106, _⟩ => ⟨S_, .f32⟩
  | .hbm, ⟨107, _⟩ => ⟨S32x7, .f32⟩
  | .hbm, ⟨108, _⟩ => ⟨S32x7, .f32⟩
  | _, _ => ⟨S32x768, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_cst : Ref sig .tc := ⟨.hbm, 17, rfl⟩
abbrev main_v6 : Ref sig .tc := ⟨.hbm, 18, rfl⟩
abbrev main_v7 : Ref sig .tc := ⟨.hbm, 19, rfl⟩
abbrev main_cst_0 : Ref sig .tc := ⟨.hbm, 20, rfl⟩
abbrev main_v8 : Ref sig .tc := ⟨.hbm, 21, rfl⟩
abbrev main_cst_1 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_cst_2 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_cst_3 : Ref sig .tc := ⟨.hbm, 36, rfl⟩
abbrev main_v21 : Ref sig .tc := ⟨.hbm, 37, rfl⟩
abbrev main_v22 : Ref sig .tc := ⟨.hbm, 38, rfl⟩
abbrev main_cst_4 : Ref sig .tc := ⟨.hbm, 39, rfl⟩
abbrev main_v23 : Ref sig .tc := ⟨.hbm, 40, rfl⟩
abbrev main_cst_5 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_cst_6 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_v47 : Ref sig .tc := ⟨.hbm, 66, rfl⟩
abbrev main_v48 : Ref sig .tc := ⟨.hbm, 67, rfl⟩
abbrev main_v49 : Ref sig .tc := ⟨.hbm, 68, rfl⟩
abbrev main_v50 : Ref sig .tc := ⟨.hbm, 69, rfl⟩
abbrev main_cst_7 : Ref sig .tc := ⟨.hbm, 70, rfl⟩
abbrev main_v51 : Ref sig .tc := ⟨.hbm, 71, rfl⟩
abbrev main_v52 : Ref sig .tc := ⟨.hbm, 72, rfl⟩
abbrev main_cst_8 : Ref sig .tc := ⟨.hbm, 73, rfl⟩
abbrev main_v53 : Ref sig .tc := ⟨.hbm, 74, rfl⟩
abbrev main_cst_9 : Ref sig .tc := ⟨.hbm, 75, rfl⟩
abbrev main_v54 : Ref sig .tc := ⟨.hbm, 76, rfl⟩
abbrev main_v55 : Ref sig .tc := ⟨.hbm, 77, rfl⟩
abbrev main_v56 : Ref sig .tc := ⟨.hbm, 78, rfl⟩
abbrev main_v57 : Ref sig .tc := ⟨.hbm, 79, rfl⟩
abbrev main_v58 : Ref sig .tc := ⟨.hbm, 80, rfl⟩
abbrev main_v59 : Ref sig .tc := ⟨.hbm, 81, rfl⟩
abbrev main_cst_10 : Ref sig .tc := ⟨.hbm, 82, rfl⟩
abbrev main_v60 : Ref sig .tc := ⟨.hbm, 83, rfl⟩
abbrev main_v61 : Ref sig .tc := ⟨.hbm, 84, rfl⟩
abbrev main_v62 : Ref sig .tc := ⟨.hbm, 85, rfl⟩
abbrev main_v63 : Ref sig .tc := ⟨.hbm, 86, rfl⟩
abbrev main_v64 : Ref sig .tc := ⟨.hbm, 87, rfl⟩
abbrev main_v65 : Ref sig .tc := ⟨.hbm, 88, rfl⟩
abbrev main_v66 : Ref sig .tc := ⟨.hbm, 89, rfl⟩
abbrev main_v67 : Ref sig .tc := ⟨.hbm, 90, rfl⟩
abbrev main_v68 : Ref sig .tc := ⟨.hbm, 91, rfl⟩
abbrev main_v69 : Ref sig .tc := ⟨.hbm, 92, rfl⟩
abbrev main_v70 : Ref sig .tc := ⟨.hbm, 93, rfl⟩
abbrev main_call0_cst : Ref sig .tc := ⟨.hbm, 94, rfl⟩
abbrev main_call0_v0 : Ref sig .tc := ⟨.hbm, 95, rfl⟩
abbrev main_v71 : Ref sig .tc := ⟨.hbm, 96, rfl⟩
abbrev main_v72 : Ref sig .tc := ⟨.hbm, 97, rfl⟩
abbrev main_v73 : Ref sig .tc := ⟨.hbm, 98, rfl⟩
abbrev main_v74 : Ref sig .tc := ⟨.hbm, 99, rfl⟩
abbrev main_v75 : Ref sig .tc := ⟨.hbm, 100, rfl⟩
abbrev main_v76 : Ref sig .tc := ⟨.hbm, 101, rfl⟩
abbrev main_v77 : Ref sig .tc := ⟨.hbm, 102, rfl⟩
abbrev main_cst_11 : Ref sig .tc := ⟨.hbm, 103, rfl⟩
abbrev main_v78 : Ref sig .tc := ⟨.hbm, 104, rfl⟩
abbrev main_v79 : Ref sig .tc := ⟨.hbm, 105, rfl⟩
abbrev main_cst_12 : Ref sig .tc := ⟨.hbm, 106, rfl⟩
abbrev main_v80 : Ref sig .tc := ⟨.hbm, 107, rfl⟩
abbrev main_v81 : Ref sig .tc := ⟨.hbm, 108, rfl⟩

abbrev nD : Nat := 1
abbrev τ : Topo := Topo.v7x

variable {F : FTy → Type} [FloatOps F]

class Facts₀ : Prop where
  bcast_S32x768_S32x768x1_0_1 : S32x768.BroadcastsInDim S32x768x1 (![0, 1] : Fin 2 → Fin S32x768x1.rank)
  bcast_S_S32x768x768 : S_.BroadcastsInDim S32x768x768 (![] : Fin 0 → Fin S32x768x768.rank)
  reducesTo_S32x768x768_S32x768_d2 : S32x768x768.ReducesTo [2] S32x768
  h_S_ : 0 < S_.numel
  bcast_S_S32x768 : S_.BroadcastsInDim S32x768 (![] : Fin 0 → Fin S32x768.rank)
  bcast_S32x768x1_S32x768x768_0_1_2 : S32x768x1.BroadcastsInDim S32x768x768 (![0, 1, 2] : Fin 3 → Fin S32x768x768.rank)
  bcast_S512_S1x512_1 : S512.BroadcastsInDim S1x512 (![1] : Fin 1 → Fin S1x512.rank)
  bcast_S1x512_S32x512_0_1 : S1x512.BroadcastsInDim S32x512 (![0, 1] : Fin 2 → Fin S32x512.rank)
  shapeCasts_S32x768x1_S32x768 : S32x768x1.ShapeCasts S32x768
  concatenates_S32x768x1_S32x768x1_S32x768x1_S32x2304x1_d1 : Shape.Concatenates [S32x768x1, S32x768x1, S32x768x1] S32x2304x1 1
  bcast_S_S32x2304x2304 : S_.BroadcastsInDim S32x2304x2304 (![] : Fin 0 → Fin S32x2304x2304.rank)
  reducesTo_S32x2304x2304_S32x2304_d2 : S32x2304x2304.ReducesTo [2] S32x2304
  bcast_S_S32x2304 : S_.BroadcastsInDim S32x2304 (![] : Fin 0 → Fin S32x2304.rank)
  bcast_S32x2304_S32x2304x1_0_1 : S32x2304.BroadcastsInDim S32x2304x1 (![0, 1] : Fin 2 → Fin S32x2304x1.rank)
  bcast_S32x2304x1_S32x2304x2304_0_1_2 : S32x2304x1.BroadcastsInDim S32x2304x2304 (![0, 1, 2] : Fin 3 → Fin S32x2304x2304.rank)
  shapeCasts_S32x2304x1_S32x2304 : S32x2304x1.ShapeCasts S32x2304
  concatenates_S32x2304_S32x512_S32x512_S32x512_S32x3840_d1 : Shape.Concatenates [S32x2304, S32x512, S32x512, S32x512] S32x3840 1
  bcast_S256_S1x256_1 : S256.BroadcastsInDim S1x256 (![1] : Fin 1 → Fin S1x256.rank)
  bcast_S1x256_S32x256_0_1 : S1x256.BroadcastsInDim S32x256 (![0, 1] : Fin 2 → Fin S32x256.rank)
  bcast_S_S32x256 : S_.BroadcastsInDim S32x256 (![] : Fin 0 → Fin S32x256.rank)
  bcast_S7_S1x7_1 : S7.BroadcastsInDim S1x7 (![1] : Fin 1 → Fin S1x7.rank)
  bcast_S1x7_S32x7_0_1 : S1x7.BroadcastsInDim S32x7 (![0, 1] : Fin 2 → Fin S32x7.rank)
  bcast_S_S32x7 : S_.BroadcastsInDim S32x7 (![] : Fin 0 → Fin S32x7.rank)
  dot_S32x768x1_S32x768x1_S32x768x768_2_2_1_1_0_0_wf : DotDims.WF S32x768x1 S32x768x1 S32x768x768 [2] [2] [1] [1] [0] [0]
  dot_S32x768x768_S32x768x1_S32x768x1_2_1_1_2_0_0_wf : DotDims.WF S32x768x768 S32x768x1 S32x768x1 [2] [1] [1] [2] [0] [0]
  dot_S32x768_S768x512_S32x512_1_0_0_1_n_n_wf : DotDims.WF S32x768 S768x512 S32x512 [1] [0] [0] [1] [] []
  dot_S32x2304x1_S32x2304x1_S32x2304x2304_2_2_1_1_0_0_wf : DotDims.WF S32x2304x1 S32x2304x1 S32x2304x2304 [2] [2] [1] [1] [0] [0]
  dot_S32x2304x2304_S32x2304x1_S32x2304x1_2_1_1_2_0_0_wf : DotDims.WF S32x2304x2304 S32x2304x1 S32x2304x1 [2] [1] [1] [2] [0] [0]
  dot_S32x3840_S3840x256_S32x256_1_0_0_1_n_n_wf : DotDims.WF S32x3840 S3840x256 S32x256 [1] [0] [0] [1] [] []
  dot_S32x256_S256x7_S32x7_1_0_0_1_n_n_wf : DotDims.WF S32x256 S256x7 S32x7 [1] [0] [0] [1] [] []

variable [Facts₀]

def dot_S32x768x1_S32x768x1_S32x768x768_2_2_1_1_0_0 : DotDims S32x768x1 S32x768x1 S32x768x768 where
  lhsContracting := [2]
  rhsContracting := [2]
  lhsNonContracting := [1]
  rhsNonContracting := [1]
  lhsBatch := [0]
  rhsBatch := [0]
  wf := dot_S32x768x1_S32x768x1_S32x768x768_2_2_1_1_0_0_wf
def dot_S32x768x768_S32x768x1_S32x768x1_2_1_1_2_0_0 : DotDims S32x768x768 S32x768x1 S32x768x1 where
  lhsContracting := [2]
  rhsContracting := [1]
  lhsNonContracting := [1]
  rhsNonContracting := [2]
  lhsBatch := [0]
  rhsBatch := [0]
  wf := dot_S32x768x768_S32x768x1_S32x768x1_2_1_1_2_0_0_wf
def dot_S32x768_S768x512_S32x512_1_0_0_1_n_n : DotDims S32x768 S768x512 S32x512 where
  lhsContracting := [1]
  rhsContracting := [0]
  lhsNonContracting := [0]
  rhsNonContracting := [1]
  lhsBatch := []
  rhsBatch := []
  wf := dot_S32x768_S768x512_S32x512_1_0_0_1_n_n_wf
def dot_S32x2304x1_S32x2304x1_S32x2304x2304_2_2_1_1_0_0 : DotDims S32x2304x1 S32x2304x1 S32x2304x2304 where
  lhsContracting := [2]
  rhsContracting := [2]
  lhsNonContracting := [1]
  rhsNonContracting := [1]
  lhsBatch := [0]
  rhsBatch := [0]
  wf := dot_S32x2304x1_S32x2304x1_S32x2304x2304_2_2_1_1_0_0_wf
def dot_S32x2304x2304_S32x2304x1_S32x2304x1_2_1_1_2_0_0 : DotDims S32x2304x2304 S32x2304x1 S32x2304x1 where
  lhsContracting := [2]
  rhsContracting := [1]
  lhsNonContracting := [1]
  rhsNonContracting := [2]
  lhsBatch := [0]
  rhsBatch := [0]
  wf := dot_S32x2304x2304_S32x2304x1_S32x2304x1_2_1_1_2_0_0_wf
def dot_S32x3840_S3840x256_S32x256_1_0_0_1_n_n : DotDims S32x3840 S3840x256 S32x256 where
  lhsContracting := [1]
  rhsContracting := [0]
  lhsNonContracting := [0]
  rhsNonContracting := [1]
  lhsBatch := []
  rhsBatch := []
  wf := dot_S32x3840_S3840x256_S32x256_1_0_0_1_n_n_wf
def dot_S32x256_S256x7_S32x7_1_0_0_1_n_n : DotDims S32x256 S256x7 S32x7 where
  lhsContracting := [1]
  rhsContracting := [0]
  lhsNonContracting := [0]
  rhsNonContracting := [1]
  lhsBatch := []
  rhsBatch := []
  wf := dot_S32x256_S256x7_S32x7_1_0_0_1_n_n_wf

class Facts : Prop extends Facts₀ where

variable [Facts]
-- ==== Proof.Fr.R0.lean ====
/-
  Region 0 of the program: one attention call. At a grid point the body reads its query block and the whole key and
  value rows of the block's batch rows, and stores the block of attention outputs; the three inputs are left as found.
  Stated at a parameter V, the contents of the core's arrays when the region is entered.
-/
import proofs.«175428_j35777077575730_2_alg».proof.Proof.Gen.KernelIdeal.Launch
import proofs.«175428_j35777077575730_2_alg».proof.Proof.Gen.KernelIdeal.Skeleton
import proofs.«175428_j35777077575730_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window w's block at point t, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- An input window's current staging buffer holds its block at every point, fetched there or kept from an earlier
    point at which the block index was the same. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

/-- The whole query / output block and the whole key / value block as rectangles. -/
abbrev rq0 : Rect S16x256 := Rect.unit (s := S16x256) ![0, 0] S16x256.size inb_S16x256_S16x256_0_0
abbrev rk0 : Rect S16x768 := Rect.unit (s := S16x768) ![0, 0] S16x768.size inb_S16x768_S16x768_0_0

/-- The output window's staging buffer after the body: its one store, the whole block, of the attention payload of
    the three loaded blocks. -/
def out0_3 (x0 : Vec F S16x256 .f32) (x1 : Vec F S16x768 .f32) (x2 : Vec F S16x768 .f32) : Vec F S16x256 .f32 :=
  View.canon [⟨rq0, k0_pay1 (View.ld x0 rq0) (View.ld x1 rk0) (View.ld x2 rk0)⟩]

/-- The one store covers the buffer. -/
theorem cover0_3 (p0 : Vec F S16x256 .f32) (y : S16x256.Idx) :
    ∃ pc ∈ ([⟨rq0, p0⟩] : List (View.Piece (Elt F) S16x256 .f32)), y ∈ pc.1.set :=
  View.cover_of_tiled [⟨rq0, p0⟩] S16x256.size (by rfl) y

set_option maxHeartbeats 4000000 in
/-- The body on whole staging memrefs, the inputs at read contents and the output at anything, runs to the
    continuation holding the inputs as they were and the output at out0_3 of the inputs. -/
theorem sound_kernel0 (c : Dev nD) (E : Set ℕ) (i : grid0.Coords)
    (arg2 : Memref sig .tc .vmem S16x256 .f32) (harg2 : arg2.IsWhole) (arg3 : Memref sig .tc .vmem S16x768 .f32) (harg3 : arg3.IsWhole)
    (arg4 : Memref sig .tc .vmem S16x768 .f32) (harg4 : arg4.IsWhole) (arg5 : Memref sig .tc .vmem S16x256 .f32) (harg5 : arg5.IsWhole)
    (x0 : Vec F S16x256 .f32) (x1 : Vec F S16x768 .f32) (x2 : Vec F S16x768 .f32) (K : PUnit → sProp 𝕄) :
    iprop(owns (c : Thread nD τ) arg2 fullShare x0 ∗ owns (c : Thread nD τ) arg3 fullShare x1 ∗ owns (c : Thread nD τ) arg4 fullShare x2
        ∗ (∃ d, owns (c : Thread nD τ) arg5 fullShare d)
        ∗ (iprop(owns (c : Thread nD τ) arg2 fullShare x0 ∗ owns (c : Thread nD τ) arg3 fullShare x1 ∗ owns (c : Thread nD τ) arg4 fullShare x2
            ∗ owns (c : Thread nD τ) arg5 fullShare (out0_3 x0 x1 x2)) -∗ K ⟨⟩))
      ⊢ wp frame (wpE (defs₀ (F := F)) Variants.none c none) E (cc0__attn_kernel i arg2 harg2 arg3 harg3 arg4 harg4 arg5 harg5) K := by
  simp only [cc0__attn_kernel_eq_skeleton]; unfold cc0__attn_kernel_skel
  unfold owns
  iintro ⟨⟨%f0, %hf0, H0⟩, ⟨%f1, %hf1, H1⟩, ⟨%f2, %hf2, H2⟩, ⟨%d3, %f3, -, H3⟩, Hk⟩
  subst hf0; subst hf1; subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover0_3 _)

/-- The proof data of this pipeline on core c: the arrays as the region finds them; after the body at point t each
    input's buffer at its block and the output's at out0_3 of the input blocks; the invariant the scoped rest and the
    generator register, untouched; nothing owed. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => out0_3 (iblk0 V c 0 t) (iblk0 V c 1 t) (iblk0 V c 2 t)
  Φ _ := Pipeline.ΦA spec0 c
  q _ := fullShare
  owed _ := 0

theorem A_eq0 (c : Dev nD) (w : Fin cfg0.W) : (dat0 V c).A w = V c (Pipeline.arrRef spec0 w) := by
  dsimp only [dat0]
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) :
    (dat0 V c).after 3 t = out0_3 (iblk0 V c 0 t) (iblk0 V c 1 t) (iblk0 V c 2 t) := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d

/-- What the body is called with at point t, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t))

/-- The body at any point: the inputs' memrefs hold their blocks, so the body's triple applies; the invariant and
    what the core owes pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2]
  rw [show (dat0 V c).Φ t.succ = (dat0 V c).Φ t.castSucc from rfl,
    show (dat0 V c).owesAt () t.succ = (dat0 V c).owesAt () t.castSucc from rfl,
    after0_0, after0_1, after0_2, after0_3]
  iintro ⟨HΦ, Ho, ⟨%d0, H0⟩, ⟨%d1, H1⟩, ⟨%d2, H2⟩, ⟨%d3, H3⟩⟩
  iapply (sound_kernel0 c Set.univ _ _ _ _ _ _ _ _ _ (iblk0 V c 0 t) (iblk0 V c 1 t) (iblk0 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The library's body obligation, at every point. -/
theorem body_obligation0 (c : Dev nD) : BodyObligation (dat0 (F := F) V c) (defs₀ (F := F)) Variants.none () Set.univ := fun t => by
  rw [bigSep_W0, bigSep_W0]
  exact sound_body0 V c t

end Cert.KernelIdeal.Fr

end
-- ==== Proof.Fr.R1.lean ====
/-
  Region 1 of the program: one attention call. At a grid point the body reads its query block and the whole key and
  value rows of the block's batch rows, and stores the block of attention outputs; the three inputs are left as found.
  Stated at a parameter V, the contents of the core's arrays when the region is entered.
-/
import proofs.«175428_j35777077575730_2_alg».proof.Proof.Gen.KernelIdeal.Launch
import proofs.«175428_j35777077575730_2_alg».proof.Proof.Gen.KernelIdeal.Skeleton
import proofs.«175428_j35777077575730_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window w's block at point t, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- An input window's current staging buffer holds its block at every point, fetched there or kept from an earlier
    point at which the block index was the same. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-- The whole query / output block and the whole key / value block as rectangles. -/
abbrev rq1 : Rect S8x128 := Rect.unit (s := S8x128) ![0, 0] S8x128.size inb_S8x128_S8x128_0_0
abbrev rk1 : Rect S8x2304 := Rect.unit (s := S8x2304) ![0, 0] S8x2304.size inb_S8x2304_S8x2304_0_0

/-- The output window's staging buffer after the body: its one store, the whole block, of the attention payload of
    the three loaded blocks. -/
def out1_3 (x0 : Vec F S8x128 .f32) (x1 : Vec F S8x2304 .f32) (x2 : Vec F S8x2304 .f32) : Vec F S8x128 .f32 :=
  View.canon [⟨rq1, k1_pay1 (View.ld x0 rq1) (View.ld x1 rk1) (View.ld x2 rk1)⟩]

/-- The one store covers the buffer. -/
theorem cover1_3 (p0 : Vec F S8x128 .f32) (y : S8x128.Idx) :
    ∃ pc ∈ ([⟨rq1, p0⟩] : List (View.Piece (Elt F) S8x128 .f32)), y ∈ pc.1.set :=
  View.cover_of_tiled [⟨rq1, p0⟩] S8x128.size (by rfl) y

set_option maxHeartbeats 4000000 in
/-- The body on whole staging memrefs, the inputs at read contents and the output at anything, runs to the
    continuation holding the inputs as they were and the output at out1_3 of the inputs. -/
theorem sound_kernel1 (c : Dev nD) (E : Set ℕ) (i : grid1.Coords)
    (arg2 : Memref sig .tc .vmem S8x128 .f32) (harg2 : arg2.IsWhole) (arg3 : Memref sig .tc .vmem S8x2304 .f32) (harg3 : arg3.IsWhole)
    (arg4 : Memref sig .tc .vmem S8x2304 .f32) (harg4 : arg4.IsWhole) (arg5 : Memref sig .tc .vmem S8x128 .f32) (harg5 : arg5.IsWhole)
    (x0 : Vec F S8x128 .f32) (x1 : Vec F S8x2304 .f32) (x2 : Vec F S8x2304 .f32) (K : PUnit → sProp 𝕄) :
    iprop(owns (c : Thread nD τ) arg2 fullShare x0 ∗ owns (c : Thread nD τ) arg3 fullShare x1 ∗ owns (c : Thread nD τ) arg4 fullShare x2
        ∗ (∃ d, owns (c : Thread nD τ) arg5 fullShare d)
        ∗ (iprop(owns (c : Thread nD τ) arg2 fullShare x0 ∗ owns (c : Thread nD τ) arg3 fullShare x1 ∗ owns (c : Thread nD τ) arg4 fullShare x2
            ∗ owns (c : Thread nD τ) arg5 fullShare (out1_3 x0 x1 x2)) -∗ K ⟨⟩))
      ⊢ wp frame (wpE (defs₀ (F := F)) Variants.none c none) E (cc1__attn_kernel i arg2 harg2 arg3 harg3 arg4 harg4 arg5 harg5) K := by
  simp only [cc1__attn_kernel_eq_skeleton]; unfold cc1__attn_kernel_skel
  unfold owns
  iintro ⟨⟨%f0, %hf0, H0⟩, ⟨%f1, %hf1, H1⟩, ⟨%f2, %hf2, H2⟩, ⟨%d3, %f3, -, H3⟩, Hk⟩
  subst hf0; subst hf1; subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover1_3 _)

/-- The proof data of this pipeline on core c: the arrays as the region finds them; after the body at point t each
    input's buffer at its block and the output's at out1_3 of the input blocks; the invariant the scoped rest and the
    generator register, untouched; nothing owed. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => out1_3 (iblk1 V c 0 t) (iblk1 V c 1 t) (iblk1 V c 2 t)
  Φ _ := Pipeline.ΦA spec1 c
  q w := match w with
    | ⟨0, _⟩ => fullShare.left
    | ⟨1, _⟩ => fullShare.right.left
    | ⟨2, _⟩ => fullShare.right.right
    | ⟨3, _⟩ => fullShare
  owed _ := 0

theorem A_eq1 (c : Dev nD) (w : Fin cfg1.W) : (dat1 V c).A w = V c (Pipeline.arrRef spec1 w) := by
  dsimp only [dat1]
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) :
    (dat1 V c).after 3 t = out1_3 (iblk1 V c 0 t) (iblk1 V c 1 t) (iblk1 V c 2 t) := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d

/-- What the body is called with at point t, the windows one by one, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t))

/-- The body at any point: the inputs' memrefs hold their blocks, so the body's triple applies; the invariant and
    what the core owes pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2]
  rw [show (dat1 V c).Φ t.succ = (dat1 V c).Φ t.castSucc from rfl,
    show (dat1 V c).owesAt () t.succ = (dat1 V c).owesAt () t.castSucc from rfl,
    after1_0, after1_1, after1_2, after1_3]
  iintro ⟨HΦ, Ho, ⟨%d0, H0⟩, ⟨%d1, H1⟩, ⟨%d2, H2⟩, ⟨%d3, H3⟩⟩
  iapply (sound_kernel1 c Set.univ _ _ _ _ _ _ _ _ _ (iblk1 V c 0 t) (iblk1 V c 1 t) (iblk1 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The library's body obligation, at every point. -/
theorem body_obligation1 (c : Dev nD) : BodyObligation (dat1 (F := F) V c) (defs₀ (F := F)) Variants.none () Set.univ := fun t => by
  rw [bigSep_W1, bigSep_W1]
  exact sound_body1 V c t

end Cert.KernelIdeal.Fr

end
-- ==== Proof.Fr.R2.lean ====
/-
  Region 2 of the program: the classifier call, one grid point. The body reads the sentence, the two contexts, the
  fused attention, the three weight matrices and the three bias rows whole, and stores the whole [32, 7] result; the ten
  inputs are left as found. Stated at a parameter V, the contents of the core's arrays when the region is entered.
-/
import proofs.«175428_j35777077575730_2_alg».proof.Proof.Gen.KernelIdeal.Launch
import proofs.«175428_j35777077575730_2_alg».proof.Proof.Gen.KernelIdeal.Skeleton
import proofs.«175428_j35777077575730_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window w's block at point t, read off its array as the region finds it. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- An input window's staging buffer holds its block at the point. -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)
theorem before2_2_of {c : Dev nD} (dat : Dat τ (Elt F) Unit ℕ (UR sig nD τ) ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)
theorem before2_3_of {c : Dev nD} (dat : Dat τ (Elt F) Unit ℕ (UR sig nD τ) ℕ cfg2 c) (hA : dat.A 3 = V c (Pipeline.arrRef spec2 3))
    (hafter : ∀ t, dat.after 3 t = iblk2 V c 3 t) (t : Fin cfg2.N) (d) : dat.before 3 t d = iblk2 V c 3 t :=
  (dat.before_in_eq_fetched 3 rfl (fun _ => rfl) (fun _ _ _ => rfl) (fun t => by rw [hafter]; unfold Dat.blockOf iblk2; rw [hA]; try rfl) t d).trans
    (by unfold Dat.fetched Dat.blockOf iblk2; rw [hA]; try rfl)
theorem before2_4_of {c : Dev nD} (dat : Dat τ (Elt F) Unit ℕ (UR sig nD τ) ℕ cfg2 c) (hA : dat.A 4 = V c (Pipeline.arrRef spec2 4))
    (hafter : ∀ t, dat.after 4 t = iblk2 V c 4 t) (t : Fin cfg2.N) (d) : dat.before 4 t d = iblk2 V c 4 t :=
  (dat.before_in_eq_fetched 4 rfl (fun _ => rfl) (fun _ _ _ => rfl) (fun t => by rw [hafter]; unfold Dat.blockOf iblk2; rw [hA]; try rfl) t d).trans
    (by unfold Dat.fetched Dat.blockOf iblk2; rw [hA]; try rfl)
theorem before2_5_of {c : Dev nD} (dat : Dat τ (Elt F) Unit ℕ (UR sig nD τ) ℕ cfg2 c) (hA : dat.A 5 = V c (Pipeline.arrRef spec2 5))
    (hafter : ∀ t, dat.after 5 t = iblk2 V c 5 t) (t : Fin cfg2.N) (d) : dat.before 5 t d = iblk2 V c 5 t :=
  (dat.before_in_eq_fetched 5 rfl (fun _ => rfl) (fun _ _ _ => rfl) (fun t => by rw [hafter]; unfold Dat.blockOf iblk2; rw [hA]; try rfl) t d).trans
    (by unfold Dat.fetched Dat.blockOf iblk2; rw [hA]; try rfl)
theorem before2_6_of {c : Dev nD} (dat : Dat τ (Elt F) Unit ℕ (UR sig nD τ) ℕ cfg2 c) (hA : dat.A 6 = V c (Pipeline.arrRef spec2 6))
    (hafter : ∀ t, dat.after 6 t = iblk2 V c 6 t) (t : Fin cfg2.N) (d) : dat.before 6 t d = iblk2 V c 6 t :=
  (dat.before_in_eq_fetched 6 rfl (fun _ => rfl) (fun _ _ _ => rfl) (fun t => by rw [hafter]; unfold Dat.blockOf iblk2; rw [hA]; try rfl) t d).trans
    (by unfold Dat.fetched Dat.blockOf iblk2; rw [hA]; try rfl)
theorem before2_7_of {c : Dev nD} (dat : Dat τ (Elt F) Unit ℕ (UR sig nD τ) ℕ cfg2 c) (hA : dat.A 7 = V c (Pipeline.arrRef spec2 7))
    (hafter : ∀ t, dat.after 7 t = iblk2 V c 7 t) (t : Fin cfg2.N) (d) : dat.before 7 t d = iblk2 V c 7 t :=
  (dat.before_in_eq_fetched 7 rfl (fun _ => rfl) (fun _ _ _ => rfl) (fun t => by rw [hafter]; unfold Dat.blockOf iblk2; rw [hA]; try rfl) t d).trans
    (by unfold Dat.fetched Dat.blockOf iblk2; rw [hA]; try rfl)
theorem before2_8_of {c : Dev nD} (dat : Dat τ (Elt F) Unit ℕ (UR sig nD τ) ℕ cfg2 c) (hA : dat.A 8 = V c (Pipeline.arrRef spec2 8))
    (hafter : ∀ t, dat.after 8 t = iblk2 V c 8 t) (t : Fin cfg2.N) (d) : dat.before 8 t d = iblk2 V c 8 t :=
  (dat.before_in_eq_fetched 8 rfl (fun _ => rfl) (fun _ _ _ => rfl) (fun t => by rw [hafter]; unfold Dat.blockOf iblk2; rw [hA]; try rfl) t d).trans
    (by unfold Dat.fetched Dat.blockOf iblk2; rw [hA]; try rfl)
theorem before2_9_of {c : Dev nD} (dat : Dat τ (Elt F) Unit ℕ (UR sig nD τ) ℕ cfg2 c) (hA : dat.A 9 = V c (Pipeline.arrRef spec2 9))
    (hafter : ∀ t, dat.after 9 t = iblk2 V c 9 t) (t : Fin cfg2.N) (d) : dat.before 9 t d = iblk2 V c 9 t :=
  (dat.before_in_eq_fetched 9 rfl (fun _ => rfl) (fun _ _ _ => rfl) (fun t => by rw [hafter]; unfold Dat.blockOf iblk2; rw [hA]; try rfl) t d).trans
    (by unfold Dat.fetched Dat.blockOf iblk2; rw [hA]; try rfl)

/-- Each whole buffer as a rectangle. -/
abbrev r2_S32x768 : Rect S32x768 := Rect.unit (s := S32x768) ![0, 0] S32x768.size inb_S32x768_S32x768_0_0
abbrev r2_S32x2304 : Rect S32x2304 := Rect.unit (s := S32x2304) ![0, 0] S32x2304.size inb_S32x2304_S32x2304_0_0
abbrev r2_S768x512 : Rect S768x512 := Rect.unit (s := S768x512) ![0, 0] S768x512.size inb_S768x512_S768x512_0_0
abbrev r2_S1x512 : Rect S1x512 := Rect.unit (s := S1x512) ![0, 0] S1x512.size inb_S1x512_S1x512_0_0
abbrev r2_S3840x256 : Rect S3840x256 := Rect.unit (s := S3840x256) ![0, 0] S3840x256.size inb_S3840x256_S3840x256_0_0
abbrev r2_S1x256 : Rect S1x256 := Rect.unit (s := S1x256) ![0, 0] S1x256.size inb_S1x256_S1x256_0_0
abbrev r2_S256x7 : Rect S256x7 := Rect.unit (s := S256x7) ![0, 0] S256x7.size inb_S256x7_S256x7_0_0
abbrev r2_S1x7 : Rect S1x7 := Rect.unit (s := S1x7) ![0, 0] S1x7.size inb_S1x7_S1x7_0_0
abbrev r2_S32x7 : Rect S32x7 := Rect.unit (s := S32x7) ![0, 0] S32x7.size inb_S32x7_S32x7_0_0

/-- The output window's staging buffer after the body: its one store, the whole block, of the classifier payload of the
    ten loaded blocks. -/
def out2_10 (x0 : Vec F S32x768 .f32) (x1 : Vec F S32x768 .f32) (x2 : Vec F S32x768 .f32) (x3 : Vec F S32x2304 .f32) (x4 : Vec F S768x512 .f32) (x5 : Vec F S1x512 .f32) (x6 : Vec F S3840x256 .f32) (x7 : Vec F S1x256 .f32) (x8 : Vec F S256x7 .f32) (x9 : Vec F S1x7 .f32) : Vec F S32x7 .f32 :=
  View.canon [⟨r2_S32x7, k2_pay1 (k2_pay2 (View.ld x4 r2_S768x512) (View.ld x0 r2_S32x768) (View.ld x5 r2_S1x512) (View.ld x1 r2_S32x768) (View.ld x5 r2_S1x512) (View.ld x2 r2_S32x768) (View.ld x5 r2_S1x512) (View.ld x3 r2_S32x2304) (View.ld x6 r2_S3840x256)) (k2_pay3 (View.ld x7 r2_S1x256)) (View.ld x8 r2_S256x7) (View.ld x9 r2_S1x7)⟩]

/-- The one store covers the buffer. -/
theorem cover2_10 (p0 : Vec F S32x7 .f32) (y : S32x7.Idx) :
    ∃ pc ∈ ([⟨r2_S32x7, p0⟩] : List (View.Piece (Elt F) S32x7 .f32)), y ∈ pc.1.set :=
  View.cover_of_tiled [⟨r2_S32x7, p0⟩] S32x7.size (by rfl) y

set_option maxHeartbeats 8000000 in
/-- The body on whole staging memrefs, the inputs at read contents and the output at anything, runs to the
    continuation holding the inputs as they were and the output at out2_10 of the inputs. -/
theorem sound_kernel2 (c : Dev nD) (E : Set ℕ) (i : grid2.Coords)
    (arg1 : Memref sig .tc .vmem S32x768 .f32) (harg1 : arg1.IsWhole) (arg2 : Memref sig .tc .vmem S32x768 .f32) (harg2 : arg2.IsWhole) (arg3 : Memref sig .tc .vmem S32x768 .f32) (harg3 : arg3.IsWhole) (arg4 : Memref sig .tc .vmem S32x2304 .f32) (harg4 : arg4.IsWhole) (arg5 : Memref sig .tc .vmem S768x512 .f32) (harg5 : arg5.IsWhole) (arg6 : Memref sig .tc .vmem S1x512 .f32) (harg6 : arg6.IsWhole) (arg7 : Memref sig .tc .vmem S3840x256 .f32) (harg7 : arg7.IsWhole) (arg8 : Memref sig .tc .vmem S1x256 .f32) (harg8 : arg8.IsWhole) (arg9 : Memref sig .tc .vmem S256x7 .f32) (harg9 : arg9.IsWhole) (arg10 : Memref sig .tc .vmem S1x7 .f32) (harg10 : arg10.IsWhole) (arg11 : Memref sig .tc .vmem S32x7 .f32) (harg11 : arg11.IsWhole)
    (x0 : Vec F S32x768 .f32) (x1 : Vec F S32x768 .f32) (x2 : Vec F S32x768 .f32) (x3 : Vec F S32x2304 .f32) (x4 : Vec F S768x512 .f32) (x5 : Vec F S1x512 .f32) (x6 : Vec F S3840x256 .f32) (x7 : Vec F S1x256 .f32) (x8 : Vec F S256x7 .f32) (x9 : Vec F S1x7 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9
        ∗ (∃ d, owns (c : Thread nD τ) arg11 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9
            ∗ owns (c : Thread nD τ) arg11 fullShare (out2_10 x0 x1 x2 x3 x4 x5 x6 x7 x8 x9)) -∗ K ⟨⟩))
      ⊢ wp frame (wpE (defs₀ (F := F)) Variants.none c none) E (cc2__mlp_kernel i arg1 harg1 arg2 harg2 arg3 harg3 arg4 harg4 arg5 harg5 arg6 harg6 arg7 harg7 arg8 harg8 arg9 harg9 arg10 harg10 arg11 harg11) K := by
  simp only [cc2__mlp_kernel_eq_skeleton]; unfold cc2__mlp_kernel_skel
  simp only [k2_part1_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%d10, %f10, -, H10⟩, Hk⟩
  subst hf0; subst hf1; subst hf2; subst hf3; subst hf4; subst hf5; subst hf6; subst hf7; subst hf8; subst hf9
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  isplitl [H9]
  · iexists f9; isplitr; · ipureintro; rfl
    iexact H9
  iexists _; isplitr
  swap; · iexact H10
  ipureintro
  exact View.read_writes_eq_canon _ _ _ (cover2_10 _)

/-- The proof data of this pipeline on core c: the arrays as the region finds them; after the body each input's buffer
    at its block and the output's at out2_10 of the input blocks; the invariant the scoped rest and the generator
    register, untouched; nothing owed; full shares. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => iblk2 V c 3 t
    | ⟨4, _⟩ => iblk2 V c 4 t
    | ⟨5, _⟩ => iblk2 V c 5 t
    | ⟨6, _⟩ => iblk2 V c 6 t
    | ⟨7, _⟩ => iblk2 V c 7 t
    | ⟨8, _⟩ => iblk2 V c 8 t
    | ⟨9, _⟩ => iblk2 V c 9 t
    | ⟨10, _⟩ => out2_10 (iblk2 V c 0 t) (iblk2 V c 1 t) (iblk2 V c 2 t) (iblk2 V c 3 t) (iblk2 V c 4 t) (iblk2 V c 5 t) (iblk2 V c 6 t) (iblk2 V c 7 t) (iblk2 V c 8 t) (iblk2 V c 9 t)
  Φ _ := Pipeline.ΦA spec2 c
  q _ := fullShare
  owed _ := 0

theorem A_eq2 (c : Dev nD) (w : Fin cfg2.W) : (dat2 V c).A w = V c (Pipeline.arrRef spec2 w) := by
  dsimp only [dat2]
theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = iblk2 V c 3 t := by dsimp only [dat2]
theorem after2_4 (c : Dev nD) (t : Fin cfg2.N) : (dat2 V c).after 4 t = iblk2 V c 4 t := by dsimp only [dat2]
theorem after2_5 (c : Dev nD) (t : Fin cfg2.N) : (dat2 V c).after 5 t = iblk2 V c 5 t := by dsimp only [dat2]
theorem after2_6 (c : Dev nD) (t : Fin cfg2.N) : (dat2 V c).after 6 t = iblk2 V c 6 t := by dsimp only [dat2]
theorem after2_7 (c : Dev nD) (t : Fin cfg2.N) : (dat2 V c).after 7 t = iblk2 V c 7 t := by dsimp only [dat2]
theorem after2_8 (c : Dev nD) (t : Fin cfg2.N) : (dat2 V c).after 8 t = iblk2 V c 8 t := by dsimp only [dat2]
theorem after2_9 (c : Dev nD) (t : Fin cfg2.N) : (dat2 V c).after 9 t = iblk2 V c 9 t := by dsimp only [dat2]
theorem after2_10 (c : Dev nD) (t : Fin cfg2.N) :
    (dat2 V c).after 10 t = out2_10 (iblk2 V c 0 t) (iblk2 V c 1 t) (iblk2 V c 2 t) (iblk2 V c 3 t) (iblk2 V c 4 t) (iblk2 V c 5 t) (iblk2 V c 6 t) (iblk2 V c 7 t) (iblk2 V c 8 t) (iblk2 V c 9 t) := by dsimp only [dat2]

theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d
theorem before2_2 (c : Dev nD) (t : Fin cfg2.N) (d) : (dat2 V c).before 2 t d = iblk2 V c 2 t :=
  before2_2_of V (dat2 V c) (A_eq2 V c 2) (after2_2 V c) t d
theorem before2_3 (c : Dev nD) (t : Fin cfg2.N) (d) : (dat2 V c).before 3 t d = iblk2 V c 3 t :=
  before2_3_of V (dat2 V c) (A_eq2 V c 3) (after2_3 V c) t d
theorem before2_4 (c : Dev nD) (t : Fin cfg2.N) (d) : (dat2 V c).before 4 t d = iblk2 V c 4 t :=
  before2_4_of V (dat2 V c) (A_eq2 V c 4) (after2_4 V c) t d
theorem before2_5 (c : Dev nD) (t : Fin cfg2.N) (d) : (dat2 V c).before 5 t d = iblk2 V c 5 t :=
  before2_5_of V (dat2 V c) (A_eq2 V c 5) (after2_5 V c) t d
theorem before2_6 (c : Dev nD) (t : Fin cfg2.N) (d) : (dat2 V c).before 6 t d = iblk2 V c 6 t :=
  before2_6_of V (dat2 V c) (A_eq2 V c 6) (after2_6 V c) t d
theorem before2_7 (c : Dev nD) (t : Fin cfg2.N) (d) : (dat2 V c).before 7 t d = iblk2 V c 7 t :=
  before2_7_of V (dat2 V c) (A_eq2 V c 7) (after2_7 V c) t d
theorem before2_8 (c : Dev nD) (t : Fin cfg2.N) (d) : (dat2 V c).before 8 t d = iblk2 V c 8 t :=
  before2_8_of V (dat2 V c) (A_eq2 V c 8) (after2_8 V c) t d
theorem before2_9 (c : Dev nD) (t : Fin cfg2.N) (d) : (dat2 V c).before 9 t d = iblk2 V c 9 t :=
  before2_9_of V (dat2 V c) (A_eq2 V c 9) (after2_9 V c) t d

/-- What the body is called with at the point, the windows one by one, -/
def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d))
    ∗ (∃ d, owns (c : Thread nD τ) (st2_3 t) fullShare ((dat2 V c).before 3 t d))
    ∗ (∃ d, owns (c : Thread nD τ) (st2_4 t) fullShare ((dat2 V c).before 4 t d))
    ∗ (∃ d, owns (c : Thread nD τ) (st2_5 t) fullShare ((dat2 V c).before 5 t d))
    ∗ (∃ d, owns (c : Thread nD τ) (st2_6 t) fullShare ((dat2 V c).before 6 t d))
    ∗ (∃ d, owns (c : Thread nD τ) (st2_7 t) fullShare ((dat2 V c).before 7 t d))
    ∗ (∃ d, owns (c : Thread nD τ) (st2_8 t) fullShare ((dat2 V c).before 8 t d))
    ∗ (∃ d, owns (c : Thread nD τ) (st2_9 t) fullShare ((dat2 V c).before 9 t d))
    ∗ (∃ d, owns (c : Thread nD τ) (st2_10 t) fullShare ((dat2 V c).before 10 t d)))

/-- and what it returns. -/
def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t)
    ∗ owns (c : Thread nD τ) (st2_3 t) fullShare ((dat2 V c).after 3 t)
    ∗ owns (c : Thread nD τ) (st2_4 t) fullShare ((dat2 V c).after 4 t)
    ∗ owns (c : Thread nD τ) (st2_5 t) fullShare ((dat2 V c).after 5 t)
    ∗ owns (c : Thread nD τ) (st2_6 t) fullShare ((dat2 V c).after 6 t)
    ∗ owns (c : Thread nD τ) (st2_7 t) fullShare ((dat2 V c).after 7 t)
    ∗ owns (c : Thread nD τ) (st2_8 t) fullShare ((dat2 V c).after 8 t)
    ∗ owns (c : Thread nD τ) (st2_9 t) fullShare ((dat2 V c).after 9 t)
    ∗ owns (c : Thread nD τ) (st2_10 t) fullShare ((dat2 V c).after 10 t))

/-- The body at the point: the inputs' memrefs hold their blocks, so the body's triple applies; the invariant and what
    the core owes pass through unread. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2, before2_3, before2_4, before2_5, before2_6, before2_7, before2_8, before2_9]
  rw [show (dat2 V c).Φ t.succ = (dat2 V c).Φ t.castSucc from rfl,
    show (dat2 V c).owesAt () t.succ = (dat2 V c).owesAt () t.castSucc from rfl,
    after2_0, after2_1, after2_2, after2_3, after2_4, after2_5, after2_6, after2_7, after2_8, after2_9, after2_10]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩⟩
  iapply (sound_kernel2 c Set.univ _ _ _ _ _ _ _ _ _ _ _ _ _ _ _ _ _ _ _ _ _ _ _ (iblk2 V c 0 t) (iblk2 V c 1 t) (iblk2 V c 2 t) (iblk2 V c 3 t) (iblk2 V c 4 t) (iblk2 V c 5 t) (iblk2 V c 6 t) (iblk2 V c 7 t) (iblk2 V c 8 t) (iblk2 V c 9 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexists _; iexact H10
  iintro ⟨H0, H1, H2, H3, H4, H5, H6, H7, H8, H9, H10⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  iexact H10

/-- The library's body obligation, at the point. -/
theorem body_obligation2 (c : Dev nD) : BodyObligation (dat2 (F := F) V c) (defs₀ (F := F)) Variants.none () Set.univ := fun t => by
  rw [bigSep_W2, bigSep_W2]
  exact sound_body2 V c t

end Cert.KernelIdeal.Fr

end
-- ==== Proof.Fr.Fold.lean ====
/-
  The run of the whole program: the contents of the core's arrays at each boundary between a stretch of host operations
  and an attention / classifier call, as a fold from the launch memory; every call's proof data at the contents its
  region is entered with; the three calls as segments between the host stretches; and the launch. At the end every
  unscoped array holds the last boundary's contents: the arguments as launched, the result at what the classifier call
  leaves.
-/
import proofs.«175428_j35777077575730_2_alg».proof.Proof.Gen.KernelIdeal.Launch
import proofs.«175428_j35777077575730_2_alg».proof.Proof.Gen.KernelIdeal.Skeleton
import proofs.«175428_j35777077575730_2_alg».proof.Proof.Gen.KernelIdeal.Points
import proofs.«175428_j35777077575730_2_alg».proof.Proof.Gen.KernelIdeal.Regions
import proofs.«175428_j35777077575730_2_alg».proof.Proof.Fr.R0
import proofs.«175428_j35777077575730_2_alg».proof.Proof.Fr.R1
import proofs.«175428_j35777077575730_2_alg».proof.Proof.Fr.R2
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The contents at each boundary -/

/-- Core c's arrays at launch. -/
abbrev W0 : Dev nD → Valuation τ sig (Elt F) := fun c b => (s₀ m ρ).mem ((c : Dev nD), b)
/-- After the first host stretch (the three row-wise joins): the first attention call's entry. -/
abbrev W1 : Dev nD → Valuation τ sig (Elt F) := fun c => StableHlo.after hostOps0 (W0 m ρ c)
abbrev U1 : (c : Dev nD) → (b : Ref sig .tc) → Buf (Elt F) ((c : Thread nD τ).loc b) := fun c b => W1 m ρ c b
/-- After the first attention call: its output array at what the call leaves, every other array as entered. -/
def W2 (c : Dev nD) : Valuation τ sig (Elt F) :=
  Pipeline.withArrays spec0 c (W1 m ρ c) fun w => (dat0 (U1 m ρ) c).arrAt w cfg0.N
theorem W2_arr (c : Dev nD) (w : Fin cfg0.W) :
    W2 m ρ c (Proc.devRef .tc (Pipeline.arrRef spec0 w)) = (dat0 (U1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
abbrev U2 : (c : Dev nD) → (b : Ref sig .tc) → Buf (Elt F) ((c : Thread nD τ).loc b) := fun c b => W2 m ρ c b
theorem hF0 (c : Dev nD) (w : Fin cfg0.W) : (dat0 (U1 m ρ) c).arrAt w cfg0.N = U2 m ρ c (Pipeline.arrRef spec0 w) :=
  (W2_arr m ρ c w).symm
theorem hrest0 (c : Dev nD) : ∀ b, b ∉ Finset.univ.image (Pipeline.arrRef spec0) → U2 m ρ c b = U1 m ρ c b :=
  fun b hb => W2_of_ne m ρ c b fun w e => hb (Finset.mem_image.mpr ⟨w, Finset.mem_univ _, e⟩)

/-- After the second host stretch (the two slices and the column-wise join): the fused attention call's entry. -/
abbrev W3 : Dev nD → Valuation τ sig (Elt F) := fun c => StableHlo.after hostOps1 (W2 m ρ c)
abbrev U3 : (c : Dev nD) → (b : Ref sig .tc) → Buf (Elt F) ((c : Thread nD τ).loc b) := fun c b => W3 m ρ c b
/-- After the fused attention call: its output array at what the call leaves, every other array as entered (its three
    input windows read one array, which it leaves alone). -/
def W4 (c : Dev nD) : Valuation τ sig (Elt F) :=
  Function.update (W3 m ρ c) main_v7 ((dat1 (U3 m ρ) c).arrAt 3 cfg1.N)
abbrev U4 : (c : Dev nD) → (b : Ref sig .tc) → Buf (Elt F) ((c : Thread nD τ).loc b) := fun c b => W4 m ρ c b
theorem W4_out (c : Dev nD) : W4 m ρ c main_v7 = (dat1 (U3 m ρ) c).arrAt 3 cfg1.N := by
  unfold W4; exact Function.update_self ..
theorem W4_of_ne (c : Dev nD) (b : Ref sig .tc) (hb : b ≠ main_v7) :
    W4 m ρ c (Proc.devRef .tc b) = W3 m ρ c (Proc.devRef .tc b) := by
  unfold W4; exact Function.update_of_ne (StableHlo.devRef_ne_of_ne hb) ..

/-- After the third host stretch (the three bias reshapes): the classifier call's entry. -/
abbrev W5 : Dev nD → Valuation τ sig (Elt F) := fun c => StableHlo.after hostOps2 (W4 m ρ c)
abbrev U5 : (c : Dev nD) → (b : Ref sig .tc) → Buf (Elt F) ((c : Thread nD τ).loc b) := fun c b => W5 m ρ c b
/-- After the classifier call. -/
def W6 (c : Dev nD) : Valuation τ sig (Elt F) :=
  Pipeline.withArrays spec2 c (W5 m ρ c) fun w => (dat2 (U5 m ρ) c).arrAt w cfg2.N
theorem W6_arr (c : Dev nD) (w : Fin cfg2.W) :
    W6 m ρ c (Proc.devRef .tc (Pipeline.arrRef spec2 w)) = (dat2 (U5 m ρ) c).arrAt w cfg2.N := by
  unfold W6; exact Pipeline.withArrays_arr spec2 launch2.win.arr_inj c _ _ w
theorem W6_of_ne (c : Dev nD) (b : Ref sig .tc) (hb : ∀ w, Pipeline.arrRef spec2 w ≠ b) :
    W6 m ρ c (Proc.devRef .tc b) = W5 m ρ c (Proc.devRef .tc b) := by
  unfold W6; exact Pipeline.withArrays_of_ne spec2 c _ _ b hb
abbrev U6 : (c : Dev nD) → (b : Ref sig .tc) → Buf (Elt F) ((c : Thread nD τ).loc b) := fun c b => W6 m ρ c b
theorem hF2 (c : Dev nD) (w : Fin cfg2.W) : (dat2 (U5 m ρ) c).arrAt w cfg2.N = U6 m ρ c (Pipeline.arrRef spec2 w) :=
  (W6_arr m ρ c w).symm
theorem hrest2 (c : Dev nD) : ∀ b, b ∉ Finset.univ.image (Pipeline.arrRef spec2) → U6 m ρ c b = U5 m ρ c b :=
  fun b hb => W6_of_ne m ρ c b fun w e => hb (Finset.mem_image.mpr ⟨w, Finset.mem_univ _, e⟩)

/-! ## Which arrays each item leaves alone -/

theorem W1_of (c : Dev nD) (r : Ref sig .tc) (h : r ∉ hostOps0_W) : W1 m ρ c r = W0 m ρ c r :=
  StableHlo.after_of_writes_sub hostOps0 _ hostOps0_writes h
theorem W3_of (c : Dev nD) (r : Ref sig .tc) (h : r ∉ hostOps1_W) : W3 m ρ c r = W2 m ρ c r :=
  StableHlo.after_of_writes_sub hostOps1 _ hostOps1_writes h
theorem W5_of (c : Dev nD) (r : Ref sig .tc) (h : r ∉ hostOps2_W) : W5 m ρ c r = W4 m ρ c r :=
  StableHlo.after_of_writes_sub hostOps2 _ hostOps2_writes h
/-- The first attention call changes only its output array. -/
theorem W2_of (c : Dev nD) (r : Ref sig .tc) (h : r ≠ main_v3) : W2 m ρ c r = W1 m ρ c r := by
  by_cases hr : ∃ w : Fin cfg0.W, Pipeline.arrRef spec0 w = r
  · obtain ⟨w, rfl⟩ := hr
    have hin : (cfg0.win w).isOut = false := by
      revert h; revert w; decide
    exact (W2_arr m ρ c w).trans (((dat0 (U1 m ρ) c).arrAt_in w hin _).trans (A_eq0 (U1 m ρ) c w))
  · exact W2_of_ne m ρ c r fun w e => hr ⟨w, e⟩
/-- The classifier call changes only its output array. -/
theorem W6_of (c : Dev nD) (r : Ref sig .tc) (h : r ≠ main_v11) : W6 m ρ c r = W5 m ρ c r := by
  by_cases hr : ∃ w : Fin cfg2.W, Pipeline.arrRef spec2 w = r
  · obtain ⟨w, rfl⟩ := hr
    have hin : (cfg2.win w).isOut = false := by
      revert h; revert w; decide
    exact (W6_arr m ρ c w).trans (((dat2 (U5 m ρ) c).arrAt_in w hin _).trans (A_eq2 (U5 m ρ) c w))
  · exact W6_of_ne m ρ c r fun w e => hr ⟨w, e⟩

/-- An argument array reaches the end as launched: no host stretch writes it, and no call changes it. -/
theorem W6_arg (c : Dev nD) (r : Ref sig .tc) (h0 : r ∉ hostOps0_W) (h1 : r ∉ hostOps1_W) (h2 : r ∉ hostOps2_W)
    (h3 : r ≠ main_v3) (h7 : r ≠ main_v7) (h11 : r ≠ main_v11) : W6 m ρ c r = m ((c : Thread nD τ).loc r) :=
  (W6_of m ρ c r h11).trans <| (W5_of m ρ c r h2).trans <| (W4_of_ne m ρ c r h7).trans <| (W3_of m ρ c r h1).trans <|
    (W2_of m ρ c r h3).trans <| (W1_of m ρ c r h0).trans rfl

end Cert.KernelIdeal.Fr

end
-- ==== Proof.Fr.Run.lean ====
/-
  The run of the whole program: every call's proof data at the contents its region is entered with, the three calls as
  segments between the host stretches, and the launch. At the end every unscoped array holds the last boundary's
  contents: the arguments as launched, the result at what the classifier call leaves.
-/
import proofs.«175428_j35777077575730_2_alg».proof.Proof.Gen.KernelIdeal.Launch
import proofs.«175428_j35777077575730_2_alg».proof.Proof.Gen.KernelIdeal.Skeleton
import proofs.«175428_j35777077575730_2_alg».proof.Proof.Gen.KernelIdeal.Points
import proofs.«175428_j35777077575730_2_alg».proof.Proof.Fr.Fold
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The proof data family and the thread state -/

/-- No call has a prefetched table. -/
abbrev admK : (p : Fin 3) → (pcfgs (F := F) p).Adm := fun p => (cfgs p).toPCfg_adm
/-- Every call's proof data, each at its region's entry contents. -/
def pdats : (p : Fin 3) → (c : Dev nD) → Dat τ (Elt F) Unit ℕ (UR sig nD τ) ℕ (Pipeline.pin (pcfgs (F := F)) admK p) c
  | ⟨0, _⟩ => fun c => dat0 (U1 m ρ) c
  | ⟨1, _⟩ => fun c => dat1 (U3 m ρ) c
  | ⟨2, _⟩ => fun c => dat2 (U5 m ρ) c
abbrev 𝒱k : Variants := Variants.none
/-- No core owes another anything: no level is assigned. -/
abbrev Lk : GSem nD τ sig → Finset Unit := fun _ => ∅
abbrev lvk : GSem nD τ sig → Unit → ℕ := fun _ _ => 0
/-- What rides beside the arrays through every segment: the core's generator register at some state and what it owes,
    nothing. -/
abbrev Rk (c : Dev nD) : sProp 𝕄 := iprop((∃ r, prngReg c r) ∗ ∃ W, owes (c : Thread nD τ) (0 : CellTallies nD τ sig Unit) W)
/-- A host stretch as a segment over the unscoped arrays from the contents W, Rk riding along. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱k Lk lvk :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W Rk

/-- An unscoped array is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without what is owed: every unscoped array at the last boundary's contents, the generator
    register at some state. -/
abbrev Tn (c : Dev nD) : sProp 𝕄 := iprop(StableHlo.held (c : Thread nD τ) (Pipeline.ucRefs τ sig) (W6 m ρ c) ∗ ∃ r, prngReg c r)

/-! ## The fused attention call's arrays: one array read through three windows

  The three input windows of the fused attention call stage one array; each holds a share of it (a left half, and the
  two halves of the right half), and the three shares make the whole. -/

/-- A whole array is its left half-share and the two halves of its right half-share. -/
theorem share3 (ℓ : Loc nD τ sig) (f : ℓ.ty.Contents (Elt F)) :
    (ℓ ↦{fullShare} f : sProp 𝕄) ⊣⊢ iprop((ℓ ↦{fullShare.left} f) ∗ (ℓ ↦{fullShare.right.left} f) ∗ (ℓ ↦{fullShare.right.right} f)) :=
  ⟨(pointsTo_share (PosShare.mem_left_op_right fullShare)).1.trans (sep_mono .rfl (pointsTo_share (PosShare.mem_left_op_right fullShare.right)).1),
   (sep_mono .rfl (pointsTo_share (PosShare.mem_left_op_right fullShare.right)).2).trans (pointsTo_share (PosShare.mem_left_op_right fullShare)).2⟩

/-- The call's arrays, window by window: the shared input at the three windows' shares, the output whole. -/
theorem arrays1_eq (V : (c : Dev nD) → (b : Ref sig .tc) → Buf (Elt F) ((c : Thread nD τ).loc b)) (c : Dev nD)
    (G : (w : Fin cfg1.W) → Buf (Elt F) ((cfg1.win w).arr.view.loc (c : Thread nD τ))) :
    ((dat1 V c).arrays G : sProp 𝕄)
      = iprop((((c : Thread nD τ).loc main_v6) ↦{fullShare.left} G 0) ∗ (((c : Thread nD τ).loc main_v6) ↦{fullShare.right.left} G 1)
          ∗ (((c : Thread nD τ).loc main_v6) ↦{fullShare.right.right} G 2) ∗ (((c : Thread nD τ).loc main_v7) ↦{fullShare} G 3)) := by
  unfold Dat.arrays
  rw [bigSep_W1, (arr_whole1 0).set_eq_univ, (arr_whole1 3).set_eq_univ]
  rfl

/-- The two distinct arrays behind the call's four windows, each whole. -/
theorem arrBufs1_eq (c : Dev nD) (V : (b : Ref sig .tc) → Buf (Elt F) ((c : Thread nD τ).loc b)) :
    (Pipeline.arrBufs (Ix := Unit) (Name := ℕ) (U := UR sig nD τ) (Lvl := ℕ) spec1 c V : sProp 𝕄)
      = iprop((((c : Thread nD τ).loc main_v6) ↦{fullShare} V main_v6) ∗ (((c : Thread nD τ).loc main_v7) ↦{fullShare} V main_v7)) := by
  unfold Pipeline.arrBufs
  rw [bigSep_eq_bigSepL_of_eq [main_v6, main_v7] (by decide) (by decide)]
  rfl

/-- ENTRY: the core's unscoped arrays at the entry contents are the call's arrays — the shared input at the three
    windows' shares, the output whole — and the unscoped rest. -/
theorem split1 (c : Dev nD) :
    (unscopedBufs (Ix := Unit) (Name := ℕ) (U := UR sig nD τ) (Lvl := ℕ) c (U3 m ρ c) : sProp 𝕄)
      ⊢ iprop((dat1 (U3 m ρ) c).arrays ((dat1 (U3 m ρ) c).arrAt · 0)
          ∗ Pipeline.unscopedRest (Ix := Unit) (Name := ℕ) (U := UR sig nD τ) (Lvl := ℕ) spec1 c (U3 m ρ c)) := by
  rw [Pipeline.unscopedBufs_split₀ cfgs 1 winFacts₀1.arr_unscoped c (U3 m ρ c), arrays1_eq]
  refine sep_mono ((Entails.of_eq (arrBufs1_eq c (U3 m ρ c))).trans ?_) .rfl
  have h31 := (share3 (F := F) ((c : Thread nD τ).loc main_v6) (U3 m ρ c main_v6)).1
  iintro ⟨H6, H7⟩
  ihave H := h31 $$ H6
  icases H with ⟨Hl, Hrl, Hrr⟩
  isplitl [Hl]; · iexact Hl
  isplitl [Hrl]; · iexact Hrl
  isplitl [Hrr]; · iexact Hrr
  iexact H7

/-- EXIT: the call's arrays at their final contents and the unscoped rest are the core's unscoped arrays at the exit
    contents. -/
theorem join1 (c : Dev nD) :
    iprop((dat1 (U3 m ρ) c).arrays ((dat1 (U3 m ρ) c).arrAt · cfg1.N)
        ∗ Pipeline.unscopedRest (Ix := Unit) (Name := ℕ) (U := UR sig nD τ) (Lvl := ℕ) spec1 c (U3 m ρ c))
      ⊢ (unscopedBufs (Ix := Unit) (Name := ℕ) (U := UR sig nD τ) (Lvl := ℕ) c (U4 m ρ c) : sProp 𝕄) := by
  rw [Pipeline.unscopedBufs_split₀ cfgs 1 winFacts₀1.arr_unscoped c (U4 m ρ c), arrays1_eq]
  refine sep_mono (BIBase.Entails.trans ?_ (Entails.of_eq (arrBufs1_eq c (U4 m ρ c)).symm)) (Entails.of_eq ?_)
  · rw [(dat1 (U3 m ρ) c).arrAt_in 0 rfl, (dat1 (U3 m ρ) c).arrAt_in 1 rfl, (dat1 (U3 m ρ) c).arrAt_in 2 rfl,
      show U4 m ρ c main_v6 = U3 m ρ c main_v6 from W4_of_ne m ρ c main_v6 (by decide),
      show U4 m ρ c main_v7 = (dat1 (U3 m ρ) c).arrAt 3 cfg1.N from W4_out m ρ c]
    have h3 := share3 (F := F) ((c : Thread nD τ).loc main_v6) (U3 m ρ c main_v6)
    iintro ⟨Hl, Hrl, Hrr, H7⟩
    isplitl [Hl Hrl Hrr]
    · iapply h3.2
      isplitl [Hl]; · iexact Hl
      isplitl [Hrl]; · iexact Hrl
      iexact Hrr
    iexact H7
  · unfold Pipeline.unscopedRest
    exact bigSep_congr fun b hb => by
      rw [show U4 m ρ c b = U3 m ρ c b from W4_of_ne m ρ c b fun e =>
        (Finset.mem_sdiff.mp hb).2 (Finset.mem_image.mpr ⟨3, Finset.mem_univ _, e.symm⟩)]

/-! ## The calls as segments -/

set_option backward.isDefEq.respectTransparency.types false in
/-- Call 0 over the thread state: entered from every unscoped array at the boundary's contents, left at the next
    boundary's. Its arrays are split out of the unscoped arrays and put back at the exit contents; the generator
    register goes into the invariant and comes out; nothing is owed; the body has no semaphore of its own. -/
def reg0 : Pipeline.RegionSeg (pcfgs (F := F)) admK (pdats m ρ) () defs₀ 𝒱k Lk lvk 0 where
  win := launch0.win.to₀
  block_pos := launch0.block_pos
  stage_whole := launch0.stage_whole
  K := PEmpty
  osem k := k.elim
  ho := Pipeline.OwnSemFacts.none _
  hbody c := (body_obligation0 (U1 m ρ) c).loose
  hwaits := Pipeline.hwaits_of_owed_zero _ _ _ _ Lk lvk 0 fun _ _ => rfl
  pre c := iprop(StableHlo.held (c : Thread nD τ) (Pipeline.ucRefs τ sig) (W1 m ρ c) ∗ Rk c)
  post c := iprop(StableHlo.held (c : Thread nD τ) (Pipeline.ucRefs τ sig) (W2 m ρ c) ∗ Rk c)
  X c := iprop(∃ r, prngReg c r)
  Y c := iprop(∃ r, prngReg c r)
  Z c := Pipeline.unscopedRest (Ix := Unit) (Name := ℕ) (U := UR sig nD τ) (Lvl := ℕ) spec0 c (U1 m ρ c)
  hentry c := by
    rw [Pipeline.ownSems0_none]
    have hsplit := Pipeline.arrays_of_unscopedBufs (p := 0) (pcfgs (F := F)) admK (pdats m ρ) launch0.win launch0.arr_whole c
      ((pdats m ρ 0 c).share_full fun _ => rfl) (U1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) admK (Ix := Unit) (Name := ℕ) (U := UR sig nD τ) (Lvl := ℕ)
      launch0.win launch0.arr_whole c (pdats m ρ) ((pdats m ρ 0 c).share_full fun _ => rfl)
      (U1 m ρ c) (U2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- The fused attention call over the thread state; its arrays by the two lemmas above. -/
def reg1 : Pipeline.RegionSeg (pcfgs (F := F)) admK (pdats m ρ) () defs₀ 𝒱k Lk lvk 1 where
  win := winFacts₀1
  block_pos := block_pos1
  stage_whole := stage_whole1
  K := PEmpty
  osem k := k.elim
  ho := Pipeline.OwnSemFacts.none _
  hbody c := (body_obligation1 (U3 m ρ) c).loose
  hwaits := Pipeline.hwaits_of_owed_zero _ _ _ _ Lk lvk 1 fun _ _ => rfl
  pre c := iprop(StableHlo.held (c : Thread nD τ) (Pipeline.ucRefs τ sig) (W3 m ρ c) ∗ Rk c)
  post c := iprop(StableHlo.held (c : Thread nD τ) (Pipeline.ucRefs τ sig) (W4 m ρ c) ∗ Rk c)
  X c := iprop(∃ r, prngReg c r)
  Y c := iprop(∃ r, prngReg c r)
  Z c := Pipeline.unscopedRest (Ix := Unit) (Name := ℕ) (U := UR sig nD τ) (Lvl := ℕ) spec1 c (U3 m ρ c)
  hentry c := by
    rw [Pipeline.ownSems0_none]
    have hsplit := split1 m ρ c
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := join1 m ρ c
    rw [Pipeline.unscopedBufs_held] at hjoin
    iintro ⟨Ha, HO, HY, Hrest⟩
    imodintro
    isplitl [Ha Hrest]
    · iapply hjoin
      isplitl [Ha]; · iexact Ha
      iexact Hrest
    isplitl [HY]; · iexact HY
    unfold Pipeline.Dat.owesAt Pipeline.owesWithin
    icases HO with ⟨%W, -, HO⟩; iexists W; iexact HO

set_option backward.isDefEq.respectTransparency.types false in
/-- Call 2 over the thread state: entered from every unscoped array at the boundary's contents, left at the next
    boundary's. Its arrays are split out of the unscoped arrays and put back at the exit contents; the generator
    register goes into the invariant and comes out; nothing is owed; the body has no semaphore of its own. -/
def reg2 : Pipeline.RegionSeg (pcfgs (F := F)) admK (pdats m ρ) () defs₀ 𝒱k Lk lvk 2 where
  win := launch2.win.to₀
  block_pos := launch2.block_pos
  stage_whole := launch2.stage_whole
  K := PEmpty
  osem k := k.elim
  ho := Pipeline.OwnSemFacts.none _
  hbody c := (body_obligation2 (U5 m ρ) c).loose
  hwaits := Pipeline.hwaits_of_owed_zero _ _ _ _ Lk lvk 2 fun _ _ => rfl
  pre c := iprop(StableHlo.held (c : Thread nD τ) (Pipeline.ucRefs τ sig) (W5 m ρ c) ∗ Rk c)
  post c := iprop(Tn m ρ c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec2 c (U5 m ρ c)
  hentry c := by
    rw [Pipeline.ownSems0_none]
    have hsplit := Pipeline.arrays_of_unscopedBufs (p := 2) (pcfgs (F := F)) admK (pdats m ρ) launch2.win launch2.arr_whole c
      ((pdats m ρ 2 c).share_full fun _ => rfl) (U5 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 2 c).Φ 0 = Pipeline.ΦA spec2 c from rfl]; unfold Pipeline.ΦA
    iintro ⟨Hp, -, Hr⟩
    isplitl [Hr]; · iexact Hr
    iexact Hp
  hout c := by
    rw [Pipeline.ownSems0_none, show (pdats m ρ 2 c).Φ (Fin.last _) = Pipeline.ΦA spec2 c from rfl]; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) admK (Ix := Unit) (Name := ℕ) (U := UR sig nD τ) (Lvl := ℕ)
      launch2.win launch2.arr_whole c (pdats m ρ) ((pdats m ρ 2 c).share_full fun _ => rfl)
      (U5 m ρ c) (U6 m ρ c) ((pdats m ρ 2 c).arrAt · cfg2.N) (hF2 m ρ c) (hrest2 m ρ c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## @main as segments, and the launch -/

/-- @main's six segments in order. -/
abbrev segsK : List (Pipeline.Seg (pcfgs (F := F)) admK (pdats m ρ) () defs₀ 𝒱k Lk lvk) :=
  [ .host (hseg hostOps0 hostOps0_sub hostOps0_fresh (W0 m ρ)),
    .region (reg0 m ρ),
    .host (hseg hostOps1 hostOps1_sub hostOps1_fresh (W2 m ρ)),
    .region (reg1 m ρ),
    .host (hseg hostOps2 hostOps2_sub hostOps2_fresh (W4 m ρ)),
    .region (reg2 m ρ) ]
/-- @main is the run of the segments. -/
theorem main_run (c : Dev nD) : main (F := F) c = Pipeline.Seg.run (segsK m ρ) := (main_chain c).trans (by chain_rfl)

set_option backward.isDefEq.respectTransparency.types false in
/-- THE RUN: from any memory with zero counters every weakly fair execution of @main terminates, nothing faulting, and
    in every final state every unscoped array of every core holds the last boundary's contents. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W6 m ρ c b) :=
  Pipeline.θ_run_regions_kit (pcfgs (F := F)) admK (pdats m ρ) () cellOf_inj emb₁ defs₀ 𝒱k Lk lvk m ρ main (segsK m ρ)
    (fun c Q => by rw [main_run m ρ c])
    (by simp only [segsK, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ Rk c)) (Tₙ := Tn m ρ)
    (hch := ⟨fun _ => .rfl, fun _ => .rfl, fun _ => .rfl, fun _ => .rfl, fun _ => .rfl, fun _ => .rfl, fun _ => .rfl⟩)
    (hinit := by
      refine Pipeline.initEach Lk lvk fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W6 m ρ c b)
    (hfin := fun c s' => by
      iintro ⟨⟨Hh, -⟩, HSI⟩
      unfold StableHlo.held
      imodintro
      iapply (pointsTo_read_all (Pipeline.ucRefs τ sig) (fun b => (((c : Thread nD τ)).1, b)) (W6 m ρ c) s')
      isplitl [Hh] <;> iassumption)
    (hQ := fun s h c => h c)

/-! ## The frame, and the result -/

/-- THE FRAME: from any memory with zero counters every weakly fair execution of @main terminates, nothing faulting,
    and every final state has the argument arrays as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) :=
  (θ_run defs _ _).mono (fun r h c => ⟨(h c _ (mem_uc main_arg0 (by decide))).trans (W6_arg m ρ c main_arg0 (by decide) (by decide) (by decide) (by decide) (by decide) (by decide)),
    (h c _ (mem_uc main_arg1 (by decide))).trans (W6_arg m ρ c main_arg1 (by decide) (by decide) (by decide) (by decide) (by decide) (by decide)),
    (h c _ (mem_uc main_arg2 (by decide))).trans (W6_arg m ρ c main_arg2 (by decide) (by decide) (by decide) (by decide) (by decide) (by decide)),
    (h c _ (mem_uc main_arg3 (by decide))).trans (W6_arg m ρ c main_arg3 (by decide) (by decide) (by decide) (by decide) (by decide) (by decide)),
    (h c _ (mem_uc main_arg4 (by decide))).trans (W6_arg m ρ c main_arg4 (by decide) (by decide) (by decide) (by decide) (by decide) (by decide)),
    (h c _ (mem_uc main_arg5 (by decide))).trans (W6_arg m ρ c main_arg5 (by decide) (by decide) (by decide) (by decide) (by decide) (by decide)),
    (h c _ (mem_uc main_arg6 (by decide))).trans (W6_arg m ρ c main_arg6 (by decide) (by decide) (by decide) (by decide) (by decide) (by decide)),
    (h c _ (mem_uc main_arg7 (by decide))).trans (W6_arg m ρ c main_arg7 (by decide) (by decide) (by decide) (by decide) (by decide) (by decide)),
    (h c _ (mem_uc main_arg8 (by decide))).trans (W6_arg m ρ c main_arg8 (by decide) (by decide) (by decide) (by decide) (by decide) (by decide)),
    (h c _ (mem_uc main_arg9 (by decide))).trans (W6_arg m ρ c main_arg9 (by decide) (by decide) (by decide) (by decide) (by decide) (by decide)),
    (h c _ (mem_uc main_arg10 (by decide))).trans (W6_arg m ρ c main_arg10 (by decide) (by decide) (by decide) (by decide) (by decide) (by decide))⟩) (run_all m ρ)

/-- THE RESULT: moreover the result array ends at what the classifier call leaves in it. -/
theorem run_value : θ_run defs (onTc (τ := τ) (main (F := F))) ⟨m, fun _ => 0, ρ⟩ (fun r => ∀ c : Dev nD,
      r.2.mem ((c.tc : Thread nD τ).loc main_v11) = W6 m ρ c main_v11
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) :=
  (θ_run defs _ _).mono (fun r h c => ⟨h c _ (mem_uc main_v11 (by decide)),
    (h c _ (mem_uc main_arg0 (by decide))).trans (W6_arg m ρ c main_arg0 (by decide) (by decide) (by decide) (by decide) (by decide) (by decide)),
    (h c _ (mem_uc main_arg1 (by decide))).trans (W6_arg m ρ c main_arg1 (by decide) (by decide) (by decide) (by decide) (by decide) (by decide)),
    (h c _ (mem_uc main_arg2 (by decide))).trans (W6_arg m ρ c main_arg2 (by decide) (by decide) (by decide) (by decide) (by decide) (by decide)),
    (h c _ (mem_uc main_arg3 (by decide))).trans (W6_arg m ρ c main_arg3 (by decide) (by decide) (by decide) (by decide) (by decide) (by decide)),
    (h c _ (mem_uc main_arg4 (by decide))).trans (W6_arg m ρ c main_arg4 (by decide) (by decide) (by decide) (by decide) (by decide) (by decide)),
    (h c _ (mem_uc main_arg5 (by decide))).trans (W6_arg m ρ c main_arg5 (by decide) (by decide) (by decide) (by decide) (by decide) (by decide)),
    (h c _ (mem_uc main_arg6 (by decide))).trans (W6_arg m ρ c main_arg6 (by decide) (by decide) (by decide) (by decide) (by decide) (by decide)),
    (h c _ (mem_uc main_arg7 (by decide))).trans (W6_arg m ρ c main_arg7 (by decide) (by decide) (by decide) (by decide) (by decide) (by decide)),
    (h c _ (mem_uc main_arg8 (by decide))).trans (W6_arg m ρ c main_arg8 (by decide) (by decide) (by decide) (by decide) (by decide) (by decide)),
    (h c _ (mem_uc main_arg9 (by decide))).trans (W6_arg m ρ c main_arg9 (by decide) (by decide) (by decide) (by decide) (by decide) (by decide)),
    (h c _ (mem_uc main_arg10 (by decide))).trans (W6_arg m ρ c main_arg10 (by decide) (by decide) (by decide) (by decide) (by decide) (by decide))⟩) (run_all m ρ)

end Cert.KernelIdeal.Fr

end
-- ==== Proof.FrK.R0.lean ====
/-
  Region 0 of the program: one attention call. At a grid point the body reads its query block and the whole key and
  value rows of the block's batch rows, and stores the block of attention outputs; the three inputs are left as found.
  Stated at a parameter V, the contents of the core's arrays when the region is entered.
-/
import proofs.«175428_j35777077575730_2_alg».proof.Proof.Gen.Kernel.Launch
import proofs.«175428_j35777077575730_2_alg».proof.Proof.Gen.Kernel.Skeleton
import proofs.«175428_j35777077575730_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window w's block at point t, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- An input window's current staging buffer holds its block at every point, fetched there or kept from an earlier
    point at which the block index was the same. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

/-- The whole query / output block and the whole key / value block as rectangles. -/
abbrev rq0 : Rect S16x256 := Rect.unit (s := S16x256) ![0, 0] S16x256.size inb_S16x256_S16x256_0_0
abbrev rk0 : Rect S16x768 := Rect.unit (s := S16x768) ![0, 0] S16x768.size inb_S16x768_S16x768_0_0

/-- The output window's staging buffer after the body: its one store, the whole block, of the attention payload of
    the three loaded blocks. -/
def out0_3 (x0 : Vec F S16x256 .f32) (x1 : Vec F S16x768 .f32) (x2 : Vec F S16x768 .f32) : Vec F S16x256 .f32 :=
  View.canon [⟨rq0, k0_pay1 (View.ld x0 rq0) (View.ld x1 rk0) (View.ld x2 rk0)⟩]

/-- The one store covers the buffer. -/
theorem cover0_3 (p0 : Vec F S16x256 .f32) (y : S16x256.Idx) :
    ∃ pc ∈ ([⟨rq0, p0⟩] : List (View.Piece (Elt F) S16x256 .f32)), y ∈ pc.1.set :=
  View.cover_of_tiled [⟨rq0, p0⟩] S16x256.size (by rfl) y

set_option maxHeartbeats 4000000 in
/-- The body on whole staging memrefs, the inputs at read contents and the output at anything, runs to the
    continuation holding the inputs as they were and the output at out0_3 of the inputs. -/
theorem sound_kernel0 (c : Dev nD) (E : Set ℕ) (i : grid0.Coords)
    (arg2 : Memref sig .tc .vmem S16x256 .f32) (harg2 : arg2.IsWhole) (arg3 : Memref sig .tc .vmem S16x768 .f32) (harg3 : arg3.IsWhole)
    (arg4 : Memref sig .tc .vmem S16x768 .f32) (harg4 : arg4.IsWhole) (arg5 : Memref sig .tc .vmem S16x256 .f32) (harg5 : arg5.IsWhole)
    (x0 : Vec F S16x256 .f32) (x1 : Vec F S16x768 .f32) (x2 : Vec F S16x768 .f32) (K : PUnit → sProp 𝕄) :
    iprop(owns (c : Thread nD τ) arg2 fullShare x0 ∗ owns (c : Thread nD τ) arg3 fullShare x1 ∗ owns (c : Thread nD τ) arg4 fullShare x2
        ∗ (∃ d, owns (c : Thread nD τ) arg5 fullShare d)
        ∗ (iprop(owns (c : Thread nD τ) arg2 fullShare x0 ∗ owns (c : Thread nD τ) arg3 fullShare x1 ∗ owns (c : Thread nD τ) arg4 fullShare x2
            ∗ owns (c : Thread nD τ) arg5 fullShare (out0_3 x0 x1 x2)) -∗ K ⟨⟩))
      ⊢ wp frame (wpE (defs₀ (F := F)) Variants.none c none) E (cc0__attn_kernel i arg2 harg2 arg3 harg3 arg4 harg4 arg5 harg5) K := by
  simp only [cc0__attn_kernel_eq_skeleton]; unfold cc0__attn_kernel_skel
  unfold owns
  iintro ⟨⟨%f0, %hf0, H0⟩, ⟨%f1, %hf1, H1⟩, ⟨%f2, %hf2, H2⟩, ⟨%d3, %f3, -, H3⟩, Hk⟩
  subst hf0; subst hf1; subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover0_3 _)

/-- The proof data of this pipeline on core c: the arrays as the region finds them; after the body at point t each
    input's buffer at its block and the output's at out0_3 of the input blocks; the invariant the scoped rest and the
    generator register, untouched; nothing owed. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => out0_3 (iblk0 V c 0 t) (iblk0 V c 1 t) (iblk0 V c 2 t)
  Φ _ := Pipeline.ΦA spec0 c
  q _ := fullShare
  owed _ := 0

theorem A_eq0 (c : Dev nD) (w : Fin cfg0.W) : (dat0 V c).A w = V c (Pipeline.arrRef spec0 w) := by
  dsimp only [dat0]
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) :
    (dat0 V c).after 3 t = out0_3 (iblk0 V c 0 t) (iblk0 V c 1 t) (iblk0 V c 2 t) := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d

/-- What the body is called with at point t, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t))

/-- The body at any point: the inputs' memrefs hold their blocks, so the body's triple applies; the invariant and
    what the core owes pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2]
  rw [show (dat0 V c).Φ t.succ = (dat0 V c).Φ t.castSucc from rfl,
    show (dat0 V c).owesAt () t.succ = (dat0 V c).owesAt () t.castSucc from rfl,
    after0_0, after0_1, after0_2, after0_3]
  iintro ⟨HΦ, Ho, ⟨%d0, H0⟩, ⟨%d1, H1⟩, ⟨%d2, H2⟩, ⟨%d3, H3⟩⟩
  iapply (sound_kernel0 c Set.univ _ _ _ _ _ _ _ _ _ (iblk0 V c 0 t) (iblk0 V c 1 t) (iblk0 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The library's body obligation, at every point. -/
theorem body_obligation0 (c : Dev nD) : BodyObligation (dat0 (F := F) V c) (defs₀ (F := F)) Variants.none () Set.univ := fun t => by
  rw [bigSep_W0, bigSep_W0]
  exact sound_body0 V c t

end Cert.Kernel.Fr

end
-- ==== Proof.FrK.R1.lean ====
/-
  Region 1 of the program: one attention call. At a grid point the body reads its query block and the whole key and
  value rows of the block's batch rows, and stores the block of attention outputs; the three inputs are left as found.
  Stated at a parameter V, the contents of the core's arrays when the region is entered.
-/
import proofs.«175428_j35777077575730_2_alg».proof.Proof.Gen.Kernel.Launch
import proofs.«175428_j35777077575730_2_alg».proof.Proof.Gen.Kernel.Skeleton
import proofs.«175428_j35777077575730_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window w's block at point t, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- An input window's current staging buffer holds its block at every point, fetched there or kept from an earlier
    point at which the block index was the same. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-- The whole query / output block and the whole key / value block as rectangles. -/
abbrev rq1 : Rect S8x128 := Rect.unit (s := S8x128) ![0, 0] S8x128.size inb_S8x128_S8x128_0_0
abbrev rk1 : Rect S8x2304 := Rect.unit (s := S8x2304) ![0, 0] S8x2304.size inb_S8x2304_S8x2304_0_0

/-- The output window's staging buffer after the body: its one store, the whole block, of the attention payload of
    the three loaded blocks. -/
def out1_3 (x0 : Vec F S8x128 .f32) (x1 : Vec F S8x2304 .f32) (x2 : Vec F S8x2304 .f32) : Vec F S8x128 .f32 :=
  View.canon [⟨rq1, k1_pay1 (View.ld x0 rq1) (View.ld x1 rk1) (View.ld x2 rk1)⟩]

/-- The one store covers the buffer. -/
theorem cover1_3 (p0 : Vec F S8x128 .f32) (y : S8x128.Idx) :
    ∃ pc ∈ ([⟨rq1, p0⟩] : List (View.Piece (Elt F) S8x128 .f32)), y ∈ pc.1.set :=
  View.cover_of_tiled [⟨rq1, p0⟩] S8x128.size (by rfl) y

set_option maxHeartbeats 4000000 in
/-- The body on whole staging memrefs, the inputs at read contents and the output at anything, runs to the
    continuation holding the inputs as they were and the output at out1_3 of the inputs. -/
theorem sound_kernel1 (c : Dev nD) (E : Set ℕ) (i : grid1.Coords)
    (arg2 : Memref sig .tc .vmem S8x128 .f32) (harg2 : arg2.IsWhole) (arg3 : Memref sig .tc .vmem S8x2304 .f32) (harg3 : arg3.IsWhole)
    (arg4 : Memref sig .tc .vmem S8x2304 .f32) (harg4 : arg4.IsWhole) (arg5 : Memref sig .tc .vmem S8x128 .f32) (harg5 : arg5.IsWhole)
    (x0 : Vec F S8x128 .f32) (x1 : Vec F S8x2304 .f32) (x2 : Vec F S8x2304 .f32) (K : PUnit → sProp 𝕄) :
    iprop(owns (c : Thread nD τ) arg2 fullShare x0 ∗ owns (c : Thread nD τ) arg3 fullShare x1 ∗ owns (c : Thread nD τ) arg4 fullShare x2
        ∗ (∃ d, owns (c : Thread nD τ) arg5 fullShare d)
        ∗ (iprop(owns (c : Thread nD τ) arg2 fullShare x0 ∗ owns (c : Thread nD τ) arg3 fullShare x1 ∗ owns (c : Thread nD τ) arg4 fullShare x2
            ∗ owns (c : Thread nD τ) arg5 fullShare (out1_3 x0 x1 x2)) -∗ K ⟨⟩))
      ⊢ wp frame (wpE (defs₀ (F := F)) Variants.none c none) E (cc1__attn_kernel i arg2 harg2 arg3 harg3 arg4 harg4 arg5 harg5) K := by
  simp only [cc1__attn_kernel_eq_skeleton]; unfold cc1__attn_kernel_skel
  unfold owns
  iintro ⟨⟨%f0, %hf0, H0⟩, ⟨%f1, %hf1, H1⟩, ⟨%f2, %hf2, H2⟩, ⟨%d3, %f3, -, H3⟩, Hk⟩
  subst hf0; subst hf1; subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover1_3 _)

/-- The proof data of this pipeline on core c: the arrays as the region finds them; after the body at point t each
    input's buffer at its block and the output's at out1_3 of the input blocks; the invariant the scoped rest and the
    generator register, untouched; nothing owed. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => out1_3 (iblk1 V c 0 t) (iblk1 V c 1 t) (iblk1 V c 2 t)
  Φ _ := Pipeline.ΦA spec1 c
  q w := match w with
    | ⟨0, _⟩ => fullShare.left
    | ⟨1, _⟩ => fullShare.right.left
    | ⟨2, _⟩ => fullShare.right.right
    | ⟨3, _⟩ => fullShare
  owed _ := 0

theorem A_eq1 (c : Dev nD) (w : Fin cfg1.W) : (dat1 V c).A w = V c (Pipeline.arrRef spec1 w) := by
  dsimp only [dat1]
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) :
    (dat1 V c).after 3 t = out1_3 (iblk1 V c 0 t) (iblk1 V c 1 t) (iblk1 V c 2 t) := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d

/-- What the body is called with at point t, the windows one by one, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t))

/-- The body at any point: the inputs' memrefs hold their blocks, so the body's triple applies; the invariant and
    what the core owes pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2]
  rw [show (dat1 V c).Φ t.succ = (dat1 V c).Φ t.castSucc from rfl,
    show (dat1 V c).owesAt () t.succ = (dat1 V c).owesAt () t.castSucc from rfl,
    after1_0, after1_1, after1_2, after1_3]
  iintro ⟨HΦ, Ho, ⟨%d0, H0⟩, ⟨%d1, H1⟩, ⟨%d2, H2⟩, ⟨%d3, H3⟩⟩
  iapply (sound_kernel1 c Set.univ _ _ _ _ _ _ _ _ _ (iblk1 V c 0 t) (iblk1 V c 1 t) (iblk1 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The library's body obligation, at every point. -/
theorem body_obligation1 (c : Dev nD) : BodyObligation (dat1 (F := F) V c) (defs₀ (F := F)) Variants.none () Set.univ := fun t => by
  rw [bigSep_W1, bigSep_W1]
  exact sound_body1 V c t

end Cert.Kernel.Fr

end
-- ==== Proof.FrK.R2.lean ====
/-
  Region 2 of the program: the classifier call, one grid point. The body reads the sentence, the two contexts, the
  fused attention, the three weight matrices and the three bias rows whole, and stores the whole [32, 7] result; the ten
  inputs are left as found. Stated at a parameter V, the contents of the core's arrays when the region is entered.
-/
import proofs.«175428_j35777077575730_2_alg».proof.Proof.Gen.Kernel.Launch
import proofs.«175428_j35777077575730_2_alg».proof.Proof.Gen.Kernel.Skeleton
import proofs.«175428_j35777077575730_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window w's block at point t, read off its array as the region finds it. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- An input window's staging buffer holds its block at the point. -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)
theorem before2_2_of {c : Dev nD} (dat : Dat τ (Elt F) Unit ℕ (UR sig nD τ) ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)
theorem before2_3_of {c : Dev nD} (dat : Dat τ (Elt F) Unit ℕ (UR sig nD τ) ℕ cfg2 c) (hA : dat.A 3 = V c (Pipeline.arrRef spec2 3))
    (hafter : ∀ t, dat.after 3 t = iblk2 V c 3 t) (t : Fin cfg2.N) (d) : dat.before 3 t d = iblk2 V c 3 t :=
  (dat.before_in_eq_fetched 3 rfl (fun _ => rfl) (fun _ _ _ => rfl) (fun t => by rw [hafter]; unfold Dat.blockOf iblk2; rw [hA]; try rfl) t d).trans
    (by unfold Dat.fetched Dat.blockOf iblk2; rw [hA]; try rfl)
theorem before2_4_of {c : Dev nD} (dat : Dat τ (Elt F) Unit ℕ (UR sig nD τ) ℕ cfg2 c) (hA : dat.A 4 = V c (Pipeline.arrRef spec2 4))
    (hafter : ∀ t, dat.after 4 t = iblk2 V c 4 t) (t : Fin cfg2.N) (d) : dat.before 4 t d = iblk2 V c 4 t :=
  (dat.before_in_eq_fetched 4 rfl (fun _ => rfl) (fun _ _ _ => rfl) (fun t => by rw [hafter]; unfold Dat.blockOf iblk2; rw [hA]; try rfl) t d).trans
    (by unfold Dat.fetched Dat.blockOf iblk2; rw [hA]; try rfl)
theorem before2_5_of {c : Dev nD} (dat : Dat τ (Elt F) Unit ℕ (UR sig nD τ) ℕ cfg2 c) (hA : dat.A 5 = V c (Pipeline.arrRef spec2 5))
    (hafter : ∀ t, dat.after 5 t = iblk2 V c 5 t) (t : Fin cfg2.N) (d) : dat.before 5 t d = iblk2 V c 5 t :=
  (dat.before_in_eq_fetched 5 rfl (fun _ => rfl) (fun _ _ _ => rfl) (fun t => by rw [hafter]; unfold Dat.blockOf iblk2; rw [hA]; try rfl) t d).trans
    (by unfold Dat.fetched Dat.blockOf iblk2; rw [hA]; try rfl)
theorem before2_6_of {c : Dev nD} (dat : Dat τ (Elt F) Unit ℕ (UR sig nD τ) ℕ cfg2 c) (hA : dat.A 6 = V c (Pipeline.arrRef spec2 6))
    (hafter : ∀ t, dat.after 6 t = iblk2 V c 6 t) (t : Fin cfg2.N) (d) : dat.before 6 t d = iblk2 V c 6 t :=
  (dat.before_in_eq_fetched 6 rfl (fun _ => rfl) (fun _ _ _ => rfl) (fun t => by rw [hafter]; unfold Dat.blockOf iblk2; rw [hA]; try rfl) t d).trans
    (by unfold Dat.fetched Dat.blockOf iblk2; rw [hA]; try rfl)
theorem before2_7_of {c : Dev nD} (dat : Dat τ (Elt F) Unit ℕ (UR sig nD τ) ℕ cfg2 c) (hA : dat.A 7 = V c (Pipeline.arrRef spec2 7))
    (hafter : ∀ t, dat.after 7 t = iblk2 V c 7 t) (t : Fin cfg2.N) (d) : dat.before 7 t d = iblk2 V c 7 t :=
  (dat.before_in_eq_fetched 7 rfl (fun _ => rfl) (fun _ _ _ => rfl) (fun t => by rw [hafter]; unfold Dat.blockOf iblk2; rw [hA]; try rfl) t d).trans
    (by unfold Dat.fetched Dat.blockOf iblk2; rw [hA]; try rfl)
theorem before2_8_of {c : Dev nD} (dat : Dat τ (Elt F) Unit ℕ (UR sig nD τ) ℕ cfg2 c) (hA : dat.A 8 = V c (Pipeline.arrRef spec2 8))
    (hafter : ∀ t, dat.after 8 t = iblk2 V c 8 t) (t : Fin cfg2.N) (d) : dat.before 8 t d = iblk2 V c 8 t :=
  (dat.before_in_eq_fetched 8 rfl (fun _ => rfl) (fun _ _ _ => rfl) (fun t => by rw [hafter]; unfold Dat.blockOf iblk2; rw [hA]; try rfl) t d).trans
    (by unfold Dat.fetched Dat.blockOf iblk2; rw [hA]; try rfl)
theorem before2_9_of {c : Dev nD} (dat : Dat τ (Elt F) Unit ℕ (UR sig nD τ) ℕ cfg2 c) (hA : dat.A 9 = V c (Pipeline.arrRef spec2 9))
    (hafter : ∀ t, dat.after 9 t = iblk2 V c 9 t) (t : Fin cfg2.N) (d) : dat.before 9 t d = iblk2 V c 9 t :=
  (dat.before_in_eq_fetched 9 rfl (fun _ => rfl) (fun _ _ _ => rfl) (fun t => by rw [hafter]; unfold Dat.blockOf iblk2; rw [hA]; try rfl) t d).trans
    (by unfold Dat.fetched Dat.blockOf iblk2; rw [hA]; try rfl)

/-- Each whole buffer as a rectangle. -/
abbrev r2_S32x768 : Rect S32x768 := Rect.unit (s := S32x768) ![0, 0] S32x768.size inb_S32x768_S32x768_0_0
abbrev r2_S32x2304 : Rect S32x2304 := Rect.unit (s := S32x2304) ![0, 0] S32x2304.size inb_S32x2304_S32x2304_0_0
abbrev r2_S768x512 : Rect S768x512 := Rect.unit (s := S768x512) ![0, 0] S768x512.size inb_S768x512_S768x512_0_0
abbrev r2_S1x512 : Rect S1x512 := Rect.unit (s := S1x512) ![0, 0] S1x512.size inb_S1x512_S1x512_0_0
abbrev r2_S3840x256 : Rect S3840x256 := Rect.unit (s := S3840x256) ![0, 0] S3840x256.size inb_S3840x256_S3840x256_0_0
abbrev r2_S1x256 : Rect S1x256 := Rect.unit (s := S1x256) ![0, 0] S1x256.size inb_S1x256_S1x256_0_0
abbrev r2_S256x7 : Rect S256x7 := Rect.unit (s := S256x7) ![0, 0] S256x7.size inb_S256x7_S256x7_0_0
abbrev r2_S1x7 : Rect S1x7 := Rect.unit (s := S1x7) ![0, 0] S1x7.size inb_S1x7_S1x7_0_0
abbrev r2_S32x7 : Rect S32x7 := Rect.unit (s := S32x7) ![0, 0] S32x7.size inb_S32x7_S32x7_0_0

/-- The output window's staging buffer after the body: its one store, the whole block, of the classifier payload of the
    ten loaded blocks. -/
def out2_10 (x0 : Vec F S32x768 .f32) (x1 : Vec F S32x768 .f32) (x2 : Vec F S32x768 .f32) (x3 : Vec F S32x2304 .f32) (x4 : Vec F S768x512 .f32) (x5 : Vec F S1x512 .f32) (x6 : Vec F S3840x256 .f32) (x7 : Vec F S1x256 .f32) (x8 : Vec F S256x7 .f32) (x9 : Vec F S1x7 .f32) : Vec F S32x7 .f32 :=
  View.canon [⟨r2_S32x7, k2_pay1 (k2_pay2 (View.ld x4 r2_S768x512) (View.ld x0 r2_S32x768) (View.ld x5 r2_S1x512) (View.ld x1 r2_S32x768) (View.ld x5 r2_S1x512) (View.ld x2 r2_S32x768) (View.ld x5 r2_S1x512) (View.ld x3 r2_S32x2304) (View.ld x6 r2_S3840x256)) (k2_pay3 (View.ld x7 r2_S1x256)) (View.ld x8 r2_S256x7) (View.ld x9 r2_S1x7)⟩]

/-- The one store covers the buffer. -/
theorem cover2_10 (p0 : Vec F S32x7 .f32) (y : S32x7.Idx) :
    ∃ pc ∈ ([⟨r2_S32x7, p0⟩] : List (View.Piece (Elt F) S32x7 .f32)), y ∈ pc.1.set :=
  View.cover_of_tiled [⟨r2_S32x7, p0⟩] S32x7.size (by rfl) y

set_option maxHeartbeats 8000000 in
/-- The body on whole staging memrefs, the inputs at read contents and the output at anything, runs to the
    continuation holding the inputs as they were and the output at out2_10 of the inputs. -/
theorem sound_kernel2 (c : Dev nD) (E : Set ℕ) (i : grid2.Coords)
    (arg1 : Memref sig .tc .vmem S32x768 .f32) (harg1 : arg1.IsWhole) (arg2 : Memref sig .tc .vmem S32x768 .f32) (harg2 : arg2.IsWhole) (arg3 : Memref sig .tc .vmem S32x768 .f32) (harg3 : arg3.IsWhole) (arg4 : Memref sig .tc .vmem S32x2304 .f32) (harg4 : arg4.IsWhole) (arg5 : Memref sig .tc .vmem S768x512 .f32) (harg5 : arg5.IsWhole) (arg6 : Memref sig .tc .vmem S1x512 .f32) (harg6 : arg6.IsWhole) (arg7 : Memref sig .tc .vmem S3840x256 .f32) (harg7 : arg7.IsWhole) (arg8 : Memref sig .tc .vmem S1x256 .f32) (harg8 : arg8.IsWhole) (arg9 : Memref sig .tc .vmem S256x7 .f32) (harg9 : arg9.IsWhole) (arg10 : Memref sig .tc .vmem S1x7 .f32) (harg10 : arg10.IsWhole) (arg11 : Memref sig .tc .vmem S32x7 .f32) (harg11 : arg11.IsWhole)
    (x0 : Vec F S32x768 .f32) (x1 : Vec F S32x768 .f32) (x2 : Vec F S32x768 .f32) (x3 : Vec F S32x2304 .f32) (x4 : Vec F S768x512 .f32) (x5 : Vec F S1x512 .f32) (x6 : Vec F S3840x256 .f32) (x7 : Vec F S1x256 .f32) (x8 : Vec F S256x7 .f32) (x9 : Vec F S1x7 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9
        ∗ (∃ d, owns (c : Thread nD τ) arg11 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9
            ∗ owns (c : Thread nD τ) arg11 fullShare (out2_10 x0 x1 x2 x3 x4 x5 x6 x7 x8 x9)) -∗ K ⟨⟩))
      ⊢ wp frame (wpE (defs₀ (F := F)) Variants.none c none) E (cc2__mlp_kernel i arg1 harg1 arg2 harg2 arg3 harg3 arg4 harg4 arg5 harg5 arg6 harg6 arg7 harg7 arg8 harg8 arg9 harg9 arg10 harg10 arg11 harg11) K := by
  simp only [cc2__mlp_kernel_eq_skeleton]; unfold cc2__mlp_kernel_skel
  simp only [k2_part1_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%d10, %f10, -, H10⟩, Hk⟩
  subst hf0; subst hf1; subst hf2; subst hf3; subst hf4; subst hf5; subst hf6; subst hf7; subst hf8; subst hf9
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  isplitl [H9]
  · iexists f9; isplitr; · ipureintro; rfl
    iexact H9
  iexists _; isplitr
  swap; · iexact H10
  ipureintro
  exact View.read_writes_eq_canon _ _ _ (cover2_10 _)

/-- The proof data of this pipeline on core c: the arrays as the region finds them; after the body each input's buffer
    at its block and the output's at out2_10 of the input blocks; the invariant the scoped rest and the generator
    register, untouched; nothing owed; full shares. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => iblk2 V c 3 t
    | ⟨4, _⟩ => iblk2 V c 4 t
    | ⟨5, _⟩ => iblk2 V c 5 t
    | ⟨6, _⟩ => iblk2 V c 6 t
    | ⟨7, _⟩ => iblk2 V c 7 t
    | ⟨8, _⟩ => iblk2 V c 8 t
    | ⟨9, _⟩ => iblk2 V c 9 t
    | ⟨10, _⟩ => out2_10 (iblk2 V c 0 t) (iblk2 V c 1 t) (iblk2 V c 2 t) (iblk2 V c 3 t) (iblk2 V c 4 t) (iblk2 V c 5 t) (iblk2 V c 6 t) (iblk2 V c 7 t) (iblk2 V c 8 t) (iblk2 V c 9 t)
  Φ _ := Pipeline.ΦA spec2 c
  q _ := fullShare
  owed _ := 0

theorem A_eq2 (c : Dev nD) (w : Fin cfg2.W) : (dat2 V c).A w = V c (Pipeline.arrRef spec2 w) := by
  dsimp only [dat2]
theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = iblk2 V c 3 t := by dsimp only [dat2]
theorem after2_4 (c : Dev nD) (t : Fin cfg2.N) : (dat2 V c).after 4 t = iblk2 V c 4 t := by dsimp only [dat2]
theorem after2_5 (c : Dev nD) (t : Fin cfg2.N) : (dat2 V c).after 5 t = iblk2 V c 5 t := by dsimp only [dat2]
theorem after2_6 (c : Dev nD) (t : Fin cfg2.N) : (dat2 V c).after 6 t = iblk2 V c 6 t := by dsimp only [dat2]
theorem after2_7 (c : Dev nD) (t : Fin cfg2.N) : (dat2 V c).after 7 t = iblk2 V c 7 t := by dsimp only [dat2]
theorem after2_8 (c : Dev nD) (t : Fin cfg2.N) : (dat2 V c).after 8 t = iblk2 V c 8 t := by dsimp only [dat2]
theorem after2_9 (c : Dev nD) (t : Fin cfg2.N) : (dat2 V c).after 9 t = iblk2 V c 9 t := by dsimp only [dat2]
theorem after2_10 (c : Dev nD) (t : Fin cfg2.N) :
    (dat2 V c).after 10 t = out2_10 (iblk2 V c 0 t) (iblk2 V c 1 t) (iblk2 V c 2 t) (iblk2 V c 3 t) (iblk2 V c 4 t) (iblk2 V c 5 t) (iblk2 V c 6 t) (iblk2 V c 7 t) (iblk2 V c 8 t) (iblk2 V c 9 t) := by dsimp only [dat2]

theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d
theorem before2_2 (c : Dev nD) (t : Fin cfg2.N) (d) : (dat2 V c).before 2 t d = iblk2 V c 2 t :=
  before2_2_of V (dat2 V c) (A_eq2 V c 2) (after2_2 V c) t d
theorem before2_3 (c : Dev nD) (t : Fin cfg2.N) (d) : (dat2 V c).before 3 t d = iblk2 V c 3 t :=
  before2_3_of V (dat2 V c) (A_eq2 V c 3) (after2_3 V c) t d
theorem before2_4 (c : Dev nD) (t : Fin cfg2.N) (d) : (dat2 V c).before 4 t d = iblk2 V c 4 t :=
  before2_4_of V (dat2 V c) (A_eq2 V c 4) (after2_4 V c) t d
theorem before2_5 (c : Dev nD) (t : Fin cfg2.N) (d) : (dat2 V c).before 5 t d = iblk2 V c 5 t :=
  before2_5_of V (dat2 V c) (A_eq2 V c 5) (after2_5 V c) t d
theorem before2_6 (c : Dev nD) (t : Fin cfg2.N) (d) : (dat2 V c).before 6 t d = iblk2 V c 6 t :=
  before2_6_of V (dat2 V c) (A_eq2 V c 6) (after2_6 V c) t d
theorem before2_7 (c : Dev nD) (t : Fin cfg2.N) (d) : (dat2 V c).before 7 t d = iblk2 V c 7 t :=
  before2_7_of V (dat2 V c) (A_eq2 V c 7) (after2_7 V c) t d
theorem before2_8 (c : Dev nD) (t : Fin cfg2.N) (d) : (dat2 V c).before 8 t d = iblk2 V c 8 t :=
  before2_8_of V (dat2 V c) (A_eq2 V c 8) (after2_8 V c) t d
theorem before2_9 (c : Dev nD) (t : Fin cfg2.N) (d) : (dat2 V c).before 9 t d = iblk2 V c 9 t :=
  before2_9_of V (dat2 V c) (A_eq2 V c 9) (after2_9 V c) t d

/-- What the body is called with at the point, the windows one by one, -/
def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d))
    ∗ (∃ d, owns (c : Thread nD τ) (st2_3 t) fullShare ((dat2 V c).before 3 t d))
    ∗ (∃ d, owns (c : Thread nD τ) (st2_4 t) fullShare ((dat2 V c).before 4 t d))
    ∗ (∃ d, owns (c : Thread nD τ) (st2_5 t) fullShare ((dat2 V c).before 5 t d))
    ∗ (∃ d, owns (c : Thread nD τ) (st2_6 t) fullShare ((dat2 V c).before 6 t d))
    ∗ (∃ d, owns (c : Thread nD τ) (st2_7 t) fullShare ((dat2 V c).before 7 t d))
    ∗ (∃ d, owns (c : Thread nD τ) (st2_8 t) fullShare ((dat2 V c).before 8 t d))
    ∗ (∃ d, owns (c : Thread nD τ) (st2_9 t) fullShare ((dat2 V c).before 9 t d))
    ∗ (∃ d, owns (c : Thread nD τ) (st2_10 t) fullShare ((dat2 V c).before 10 t d)))

/-- and what it returns. -/
def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t)
    ∗ owns (c : Thread nD τ) (st2_3 t) fullShare ((dat2 V c).after 3 t)
    ∗ owns (c : Thread nD τ) (st2_4 t) fullShare ((dat2 V c).after 4 t)
    ∗ owns (c : Thread nD τ) (st2_5 t) fullShare ((dat2 V c).after 5 t)
    ∗ owns (c : Thread nD τ) (st2_6 t) fullShare ((dat2 V c).after 6 t)
    ∗ owns (c : Thread nD τ) (st2_7 t) fullShare ((dat2 V c).after 7 t)
    ∗ owns (c : Thread nD τ) (st2_8 t) fullShare ((dat2 V c).after 8 t)
    ∗ owns (c : Thread nD τ) (st2_9 t) fullShare ((dat2 V c).after 9 t)
    ∗ owns (c : Thread nD τ) (st2_10 t) fullShare ((dat2 V c).after 10 t))

/-- The body at the point: the inputs' memrefs hold their blocks, so the body's triple applies; the invariant and what
    the core owes pass through unread. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2, before2_3, before2_4, before2_5, before2_6, before2_7, before2_8, before2_9]
  rw [show (dat2 V c).Φ t.succ = (dat2 V c).Φ t.castSucc from rfl,
    show (dat2 V c).owesAt () t.succ = (dat2 V c).owesAt () t.castSucc from rfl,
    after2_0, after2_1, after2_2, after2_3, after2_4, after2_5, after2_6, after2_7, after2_8, after2_9, after2_10]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩⟩
  iapply (sound_kernel2 c Set.univ _ _ _ _ _ _ _ _ _ _ _ _ _ _ _ _ _ _ _ _ _ _ _ (iblk2 V c 0 t) (iblk2 V c 1 t) (iblk2 V c 2 t) (iblk2 V c 3 t) (iblk2 V c 4 t) (iblk2 V c 5 t) (iblk2 V c 6 t) (iblk2 V c 7 t) (iblk2 V c 8 t) (iblk2 V c 9 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexists _; iexact H10
  iintro ⟨H0, H1, H2, H3, H4, H5, H6, H7, H8, H9, H10⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  iexact H10

/-- The library's body obligation, at the point. -/
theorem body_obligation2 (c : Dev nD) : BodyObligation (dat2 (F := F) V c) (defs₀ (F := F)) Variants.none () Set.univ := fun t => by
  rw [bigSep_W2, bigSep_W2]
  exact sound_body2 V c t

end Cert.Kernel.Fr

end
-- ==== Proof.FrK.Fold.lean ====
/-
  The run of the whole program: the contents of the core's arrays at each boundary between a stretch of host operations
  and an attention / classifier call, as a fold from the launch memory; every call's proof data at the contents its
  region is entered with; the three calls as segments between the host stretches; and the launch. At the end every
  unscoped array holds the last boundary's contents: the arguments as launched, the result at what the classifier call
  leaves.
-/
import proofs.«175428_j35777077575730_2_alg».proof.Proof.Gen.Kernel.Launch
import proofs.«175428_j35777077575730_2_alg».proof.Proof.Gen.Kernel.Skeleton
import proofs.«175428_j35777077575730_2_alg».proof.Proof.Gen.Kernel.Points
import proofs.«175428_j35777077575730_2_alg».proof.Proof.Gen.Kernel.Regions
import proofs.«175428_j35777077575730_2_alg».proof.Proof.FrK.R0
import proofs.«175428_j35777077575730_2_alg».proof.Proof.FrK.R1
import proofs.«175428_j35777077575730_2_alg».proof.Proof.FrK.R2
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The contents at each boundary -/

/-- Core c's arrays at launch. -/
abbrev W0 : Dev nD → Valuation τ sig (Elt F) := fun c b => (s₀ m ρ).mem ((c : Dev nD), b)
/-- After the first host stretch (the three row-wise joins): the first attention call's entry. -/
abbrev W1 : Dev nD → Valuation τ sig (Elt F) := fun c => StableHlo.after hostOps0 (W0 m ρ c)
abbrev U1 : (c : Dev nD) → (b : Ref sig .tc) → Buf (Elt F) ((c : Thread nD τ).loc b) := fun c b => W1 m ρ c b
/-- After the first attention call: its output array at what the call leaves, every other array as entered. -/
def W2 (c : Dev nD) : Valuation τ sig (Elt F) :=
  Pipeline.withArrays spec0 c (W1 m ρ c) fun w => (dat0 (U1 m ρ) c).arrAt w cfg0.N
theorem W2_arr (c : Dev nD) (w : Fin cfg0.W) :
    W2 m ρ c (Proc.devRef .tc (Pipeline.arrRef spec0 w)) = (dat0 (U1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
abbrev U2 : (c : Dev nD) → (b : Ref sig .tc) → Buf (Elt F) ((c : Thread nD τ).loc b) := fun c b => W2 m ρ c b
theorem hF0 (c : Dev nD) (w : Fin cfg0.W) : (dat0 (U1 m ρ) c).arrAt w cfg0.N = U2 m ρ c (Pipeline.arrRef spec0 w) :=
  (W2_arr m ρ c w).symm
theorem hrest0 (c : Dev nD) : ∀ b, b ∉ Finset.univ.image (Pipeline.arrRef spec0) → U2 m ρ c b = U1 m ρ c b :=
  fun b hb => W2_of_ne m ρ c b fun w e => hb (Finset.mem_image.mpr ⟨w, Finset.mem_univ _, e⟩)

/-- After the second host stretch (the two slices and the column-wise join): the fused attention call's entry. -/
abbrev W3 : Dev nD → Valuation τ sig (Elt F) := fun c => StableHlo.after hostOps1 (W2 m ρ c)
abbrev U3 : (c : Dev nD) → (b : Ref sig .tc) → Buf (Elt F) ((c : Thread nD τ).loc b) := fun c b => W3 m ρ c b
/-- After the fused attention call: its output array at what the call leaves, every other array as entered (its three
    input windows read one array, which it leaves alone). -/
def W4 (c : Dev nD) : Valuation τ sig (Elt F) :=
  Function.update (W3 m ρ c) main_v7 ((dat1 (U3 m ρ) c).arrAt 3 cfg1.N)
abbrev U4 : (c : Dev nD) → (b : Ref sig .tc) → Buf (Elt F) ((c : Thread nD τ).loc b) := fun c b => W4 m ρ c b
theorem W4_out (c : Dev nD) : W4 m ρ c main_v7 = (dat1 (U3 m ρ) c).arrAt 3 cfg1.N := by
  unfold W4; exact Function.update_self ..
theorem W4_of_ne (c : Dev nD) (b : Ref sig .tc) (hb : b ≠ main_v7) :
    W4 m ρ c (Proc.devRef .tc b) = W3 m ρ c (Proc.devRef .tc b) := by
  unfold W4; exact Function.update_of_ne (StableHlo.devRef_ne_of_ne hb) ..

/-- After the third host stretch (the three bias reshapes): the classifier call's entry. -/
abbrev W5 : Dev nD → Valuation τ sig (Elt F) := fun c => StableHlo.after hostOps2 (W4 m ρ c)
abbrev U5 : (c : Dev nD) → (b : Ref sig .tc) → Buf (Elt F) ((c : Thread nD τ).loc b) := fun c b => W5 m ρ c b
/-- After the classifier call. -/
def W6 (c : Dev nD) : Valuation τ sig (Elt F) :=
  Pipeline.withArrays spec2 c (W5 m ρ c) fun w => (dat2 (U5 m ρ) c).arrAt w cfg2.N
theorem W6_arr (c : Dev nD) (w : Fin cfg2.W) :
    W6 m ρ c (Proc.devRef .tc (Pipeline.arrRef spec2 w)) = (dat2 (U5 m ρ) c).arrAt w cfg2.N := by
  unfold W6; exact Pipeline.withArrays_arr spec2 launch2.win.arr_inj c _ _ w
theorem W6_of_ne (c : Dev nD) (b : Ref sig .tc) (hb : ∀ w, Pipeline.arrRef spec2 w ≠ b) :
    W6 m ρ c (Proc.devRef .tc b) = W5 m ρ c (Proc.devRef .tc b) := by
  unfold W6; exact Pipeline.withArrays_of_ne spec2 c _ _ b hb
abbrev U6 : (c : Dev nD) → (b : Ref sig .tc) → Buf (Elt F) ((c : Thread nD τ).loc b) := fun c b => W6 m ρ c b
theorem hF2 (c : Dev nD) (w : Fin cfg2.W) : (dat2 (U5 m ρ) c).arrAt w cfg2.N = U6 m ρ c (Pipeline.arrRef spec2 w) :=
  (W6_arr m ρ c w).symm
theorem hrest2 (c : Dev nD) : ∀ b, b ∉ Finset.univ.image (Pipeline.arrRef spec2) → U6 m ρ c b = U5 m ρ c b :=
  fun b hb => W6_of_ne m ρ c b fun w e => hb (Finset.mem_image.mpr ⟨w, Finset.mem_univ _, e⟩)

/-! ## Which arrays each item leaves alone -/

theorem W1_of (c : Dev nD) (r : Ref sig .tc) (h : r ∉ hostOps0_W) : W1 m ρ c r = W0 m ρ c r :=
  StableHlo.after_of_writes_sub hostOps0 _ hostOps0_writes h
theorem W3_of (c : Dev nD) (r : Ref sig .tc) (h : r ∉ hostOps1_W) : W3 m ρ c r = W2 m ρ c r :=
  StableHlo.after_of_writes_sub hostOps1 _ hostOps1_writes h
theorem W5_of (c : Dev nD) (r : Ref sig .tc) (h : r ∉ hostOps2_W) : W5 m ρ c r = W4 m ρ c r :=
  StableHlo.after_of_writes_sub hostOps2 _ hostOps2_writes h
/-- The first attention call changes only its output array. -/
theorem W2_of (c : Dev nD) (r : Ref sig .tc) (h : r ≠ main_v3) : W2 m ρ c r = W1 m ρ c r := by
  by_cases hr : ∃ w : Fin cfg0.W, Pipeline.arrRef spec0 w = r
  · obtain ⟨w, rfl⟩ := hr
    have hin : (cfg0.win w).isOut = false := by
      revert h; revert w; decide
    exact (W2_arr m ρ c w).trans (((dat0 (U1 m ρ) c).arrAt_in w hin _).trans (A_eq0 (U1 m ρ) c w))
  · exact W2_of_ne m ρ c r fun w e => hr ⟨w, e⟩
/-- The classifier call changes only its output array. -/
theorem W6_of (c : Dev nD) (r : Ref sig .tc) (h : r ≠ main_v11) : W6 m ρ c r = W5 m ρ c r := by
  by_cases hr : ∃ w : Fin cfg2.W, Pipeline.arrRef spec2 w = r
  · obtain ⟨w, rfl⟩ := hr
    have hin : (cfg2.win w).isOut = false := by
      revert h; revert w; decide
    exact (W6_arr m ρ c w).trans (((dat2 (U5 m ρ) c).arrAt_in w hin _).trans (A_eq2 (U5 m ρ) c w))
  · exact W6_of_ne m ρ c r fun w e => hr ⟨w, e⟩

/-- An argument array reaches the end as launched: no host stretch writes it, and no call changes it. -/
theorem W6_arg (c : Dev nD) (r : Ref sig .tc) (h0 : r ∉ hostOps0_W) (h1 : r ∉ hostOps1_W) (h2 : r ∉ hostOps2_W)
    (h3 : r ≠ main_v3) (h7 : r ≠ main_v7) (h11 : r ≠ main_v11) : W6 m ρ c r = m ((c : Thread nD τ).loc r) :=
  (W6_of m ρ c r h11).trans <| (W5_of m ρ c r h2).trans <| (W4_of_ne m ρ c r h7).trans <| (W3_of m ρ c r h1).trans <|
    (W2_of m ρ c r h3).trans <| (W1_of m ρ c r h0).trans rfl

end Cert.Kernel.Fr

end
-- ==== Proof.FrK.Run.lean ====
/-
  The run of the whole program: every call's proof data at the contents its region is entered with, the three calls as
  segments between the host stretches, and the launch. At the end every unscoped array holds the last boundary's
  contents: the arguments as launched, the result at what the classifier call leaves.
-/
import proofs.«175428_j35777077575730_2_alg».proof.Proof.Gen.Kernel.Launch
import proofs.«175428_j35777077575730_2_alg».proof.Proof.Gen.Kernel.Skeleton
import proofs.«175428_j35777077575730_2_alg».proof.Proof.Gen.Kernel.Points
import proofs.«175428_j35777077575730_2_alg».proof.Proof.FrK.Fold
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The proof data family and the thread state -/

/-- No call has a prefetched table. -/
abbrev admK : (p : Fin 3) → (pcfgs (F := F) p).Adm := fun p => (cfgs p).toPCfg_adm
/-- Every call's proof data, each at its region's entry contents. -/
def pdats : (p : Fin 3) → (c : Dev nD) → Dat τ (Elt F) Unit ℕ (UR sig nD τ) ℕ (Pipeline.pin (pcfgs (F := F)) admK p) c
  | ⟨0, _⟩ => fun c => dat0 (U1 m ρ) c
  | ⟨1, _⟩ => fun c => dat1 (U3 m ρ) c
  | ⟨2, _⟩ => fun c => dat2 (U5 m ρ) c
abbrev 𝒱k : Variants := Variants.none
/-- No core owes another anything: no level is assigned. -/
abbrev Lk : GSem nD τ sig → Finset Unit := fun _ => ∅
abbrev lvk : GSem nD τ sig → Unit → ℕ := fun _ _ => 0
/-- What rides beside the arrays through every segment: the core's generator register at some state and what it owes,
    nothing. -/
abbrev Rk (c : Dev nD) : sProp 𝕄 := iprop((∃ r, prngReg c r) ∗ ∃ W, owes (c : Thread nD τ) (0 : CellTallies nD τ sig Unit) W)
/-- A host stretch as a segment over the unscoped arrays from the contents W, Rk riding along. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱k Lk lvk :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W Rk

/-- An unscoped array is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without what is owed: every unscoped array at the last boundary's contents, the generator
    register at some state. -/
abbrev Tn (c : Dev nD) : sProp 𝕄 := iprop(StableHlo.held (c : Thread nD τ) (Pipeline.ucRefs τ sig) (W6 m ρ c) ∗ ∃ r, prngReg c r)

/-! ## The fused attention call's arrays: one array read through three windows

  The three input windows of the fused attention call stage one array; each holds a share of it (a left half, and the
  two halves of the right half), and the three shares make the whole. -/

/-- A whole array is its left half-share and the two halves of its right half-share. -/
theorem share3 (ℓ : Loc nD τ sig) (f : ℓ.ty.Contents (Elt F)) :
    (ℓ ↦{fullShare} f : sProp 𝕄) ⊣⊢ iprop((ℓ ↦{fullShare.left} f) ∗ (ℓ ↦{fullShare.right.left} f) ∗ (ℓ ↦{fullShare.right.right} f)) :=
  ⟨(pointsTo_share (PosShare.mem_left_op_right fullShare)).1.trans (sep_mono .rfl (pointsTo_share (PosShare.mem_left_op_right fullShare.right)).1),
   (sep_mono .rfl (pointsTo_share (PosShare.mem_left_op_right fullShare.right)).2).trans (pointsTo_share (PosShare.mem_left_op_right fullShare)).2⟩

/-- The call's arrays, window by window: the shared input at the three windows' shares, the output whole. -/
theorem arrays1_eq (V : (c : Dev nD) → (b : Ref sig .tc) → Buf (Elt F) ((c : Thread nD τ).loc b)) (c : Dev nD)
    (G : (w : Fin cfg1.W) → Buf (Elt F) ((cfg1.win w).arr.view.loc (c : Thread nD τ))) :
    ((dat1 V c).arrays G : sProp 𝕄)
      = iprop((((c : Thread nD τ).loc main_v6) ↦{fullShare.left} G 0) ∗ (((c : Thread nD τ).loc main_v6) ↦{fullShare.right.left} G 1)
          ∗ (((c : Thread nD τ).loc main_v6) ↦{fullShare.right.right} G 2) ∗ (((c : Thread nD τ).loc main_v7) ↦{fullShare} G 3)) := by
  unfold Dat.arrays
  rw [bigSep_W1, (arr_whole1 0).set_eq_univ, (arr_whole1 3).set_eq_univ]
  rfl

/-- The two distinct arrays behind the call's four windows, each whole. -/
theorem arrBufs1_eq (c : Dev nD) (V : (b : Ref sig .tc) → Buf (Elt F) ((c : Thread nD τ).loc b)) :
    (Pipeline.arrBufs (Ix := Unit) (Name := ℕ) (U := UR sig nD τ) (Lvl := ℕ) spec1 c V : sProp 𝕄)
      = iprop((((c : Thread nD τ).loc main_v6) ↦{fullShare} V main_v6) ∗ (((c : Thread nD τ).loc main_v7) ↦{fullShare} V main_v7)) := by
  unfold Pipeline.arrBufs
  rw [bigSep_eq_bigSepL_of_eq [main_v6, main_v7] (by decide) (by decide)]
  rfl

/-- ENTRY: the core's unscoped arrays at the entry contents are the call's arrays — the shared input at the three
    windows' shares, the output whole — and the unscoped rest. -/
theorem split1 (c : Dev nD) :
    (unscopedBufs (Ix := Unit) (Name := ℕ) (U := UR sig nD τ) (Lvl := ℕ) c (U3 m ρ c) : sProp 𝕄)
      ⊢ iprop((dat1 (U3 m ρ) c).arrays ((dat1 (U3 m ρ) c).arrAt · 0)
          ∗ Pipeline.unscopedRest (Ix := Unit) (Name := ℕ) (U := UR sig nD τ) (Lvl := ℕ) spec1 c (U3 m ρ c)) := by
  rw [Pipeline.unscopedBufs_split₀ cfgs 1 winFacts₀1.arr_unscoped c (U3 m ρ c), arrays1_eq]
  refine sep_mono ((Entails.of_eq (arrBufs1_eq c (U3 m ρ c))).trans ?_) .rfl
  have h31 := (share3 (F := F) ((c : Thread nD τ).loc main_v6) (U3 m ρ c main_v6)).1
  iintro ⟨H6, H7⟩
  ihave H := h31 $$ H6
  icases H with ⟨Hl, Hrl, Hrr⟩
  isplitl [Hl]; · iexact Hl
  isplitl [Hrl]; · iexact Hrl
  isplitl [Hrr]; · iexact Hrr
  iexact H7

/-- EXIT: the call's arrays at their final contents and the unscoped rest are the core's unscoped arrays at the exit
    contents. -/
theorem join1 (c : Dev nD) :
    iprop((dat1 (U3 m ρ) c).arrays ((dat1 (U3 m ρ) c).arrAt · cfg1.N)
        ∗ Pipeline.unscopedRest (Ix := Unit) (Name := ℕ) (U := UR sig nD τ) (Lvl := ℕ) spec1 c (U3 m ρ c))
      ⊢ (unscopedBufs (Ix := Unit) (Name := ℕ) (U := UR sig nD τ) (Lvl := ℕ) c (U4 m ρ c) : sProp 𝕄) := by
  rw [Pipeline.unscopedBufs_split₀ cfgs 1 winFacts₀1.arr_unscoped c (U4 m ρ c), arrays1_eq]
  refine sep_mono (BIBase.Entails.trans ?_ (Entails.of_eq (arrBufs1_eq c (U4 m ρ c)).symm)) (Entails.of_eq ?_)
  · rw [(dat1 (U3 m ρ) c).arrAt_in 0 rfl, (dat1 (U3 m ρ) c).arrAt_in 1 rfl, (dat1 (U3 m ρ) c).arrAt_in 2 rfl,
      show U4 m ρ c main_v6 = U3 m ρ c main_v6 from W4_of_ne m ρ c main_v6 (by decide),
      show U4 m ρ c main_v7 = (dat1 (U3 m ρ) c).arrAt 3 cfg1.N from W4_out m ρ c]
    have h3 := share3 (F := F) ((c : Thread nD τ).loc main_v6) (U3 m ρ c main_v6)
    iintro ⟨Hl, Hrl, Hrr, H7⟩
    isplitl [Hl Hrl Hrr]
    · iapply h3.2
      isplitl [Hl]; · iexact Hl
      isplitl [Hrl]; · iexact Hrl
      iexact Hrr
    iexact H7
  · unfold Pipeline.unscopedRest
    exact bigSep_congr fun b hb => by
      rw [show U4 m ρ c b = U3 m ρ c b from W4_of_ne m ρ c b fun e =>
        (Finset.mem_sdiff.mp hb).2 (Finset.mem_image.mpr ⟨3, Finset.mem_univ _, e.symm⟩)]

/-! ## The calls as segments -/

set_option backward.isDefEq.respectTransparency.types false in
/-- Call 0 over the thread state: entered from every unscoped array at the boundary's contents, left at the next
    boundary's. Its arrays are split out of the unscoped arrays and put back at the exit contents; the generator
    register goes into the invariant and comes out; nothing is owed; the body has no semaphore of its own. -/
def reg0 : Pipeline.RegionSeg (pcfgs (F := F)) admK (pdats m ρ) () defs₀ 𝒱k Lk lvk 0 where
  win := launch0.win.to₀
  block_pos := launch0.block_pos
  stage_whole := launch0.stage_whole
  K := PEmpty
  osem k := k.elim
  ho := Pipeline.OwnSemFacts.none _
  hbody c := (body_obligation0 (U1 m ρ) c).loose
  hwaits := Pipeline.hwaits_of_owed_zero _ _ _ _ Lk lvk 0 fun _ _ => rfl
  pre c := iprop(StableHlo.held (c : Thread nD τ) (Pipeline.ucRefs τ sig) (W1 m ρ c) ∗ Rk c)
  post c := iprop(StableHlo.held (c : Thread nD τ) (Pipeline.ucRefs τ sig) (W2 m ρ c) ∗ Rk c)
  X c := iprop(∃ r, prngReg c r)
  Y c := iprop(∃ r, prngReg c r)
  Z c := Pipeline.unscopedRest (Ix := Unit) (Name := ℕ) (U := UR sig nD τ) (Lvl := ℕ) spec0 c (U1 m ρ c)
  hentry c := by
    rw [Pipeline.ownSems0_none]
    have hsplit := Pipeline.arrays_of_unscopedBufs (p := 0) (pcfgs (F := F)) admK (pdats m ρ) launch0.win launch0.arr_whole c
      ((pdats m ρ 0 c).share_full fun _ => rfl) (U1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) admK (Ix := Unit) (Name := ℕ) (U := UR sig nD τ) (Lvl := ℕ)
      launch0.win launch0.arr_whole c (pdats m ρ) ((pdats m ρ 0 c).share_full fun _ => rfl)
      (U1 m ρ c) (U2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- The fused attention call over the thread state; its arrays by the two lemmas above. -/
def reg1 : Pipeline.RegionSeg (pcfgs (F := F)) admK (pdats m ρ) () defs₀ 𝒱k Lk lvk 1 where
  win := winFacts₀1
  block_pos := block_pos1
  stage_whole := stage_whole1
  K := PEmpty
  osem k := k.elim
  ho := Pipeline.OwnSemFacts.none _
  hbody c := (body_obligation1 (U3 m ρ) c).loose
  hwaits := Pipeline.hwaits_of_owed_zero _ _ _ _ Lk lvk 1 fun _ _ => rfl
  pre c := iprop(StableHlo.held (c : Thread nD τ) (Pipeline.ucRefs τ sig) (W3 m ρ c) ∗ Rk c)
  post c := iprop(StableHlo.held (c : Thread nD τ) (Pipeline.ucRefs τ sig) (W4 m ρ c) ∗ Rk c)
  X c := iprop(∃ r, prngReg c r)
  Y c := iprop(∃ r, prngReg c r)
  Z c := Pipeline.unscopedRest (Ix := Unit) (Name := ℕ) (U := UR sig nD τ) (Lvl := ℕ) spec1 c (U3 m ρ c)
  hentry c := by
    rw [Pipeline.ownSems0_none]
    have hsplit := split1 m ρ c
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := join1 m ρ c
    rw [Pipeline.unscopedBufs_held] at hjoin
    iintro ⟨Ha, HO, HY, Hrest⟩
    imodintro
    isplitl [Ha Hrest]
    · iapply hjoin
      isplitl [Ha]; · iexact Ha
      iexact Hrest
    isplitl [HY]; · iexact HY
    unfold Pipeline.Dat.owesAt Pipeline.owesWithin
    icases HO with ⟨%W, -, HO⟩; iexists W; iexact HO

set_option backward.isDefEq.respectTransparency.types false in
/-- Call 2 over the thread state: entered from every unscoped array at the boundary's contents, left at the next
    boundary's. Its arrays are split out of the unscoped arrays and put back at the exit contents; the generator
    register goes into the invariant and comes out; nothing is owed; the body has no semaphore of its own. -/
def reg2 : Pipeline.RegionSeg (pcfgs (F := F)) admK (pdats m ρ) () defs₀ 𝒱k Lk lvk 2 where
  win := launch2.win.to₀
  block_pos := launch2.block_pos
  stage_whole := launch2.stage_whole
  K := PEmpty
  osem k := k.elim
  ho := Pipeline.OwnSemFacts.none _
  hbody c := (body_obligation2 (U5 m ρ) c).loose
  hwaits := Pipeline.hwaits_of_owed_zero _ _ _ _ Lk lvk 2 fun _ _ => rfl
  pre c := iprop(StableHlo.held (c : Thread nD τ) (Pipeline.ucRefs τ sig) (W5 m ρ c) ∗ Rk c)
  post c := iprop(Tn m ρ c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec2 c (U5 m ρ c)
  hentry c := by
    rw [Pipeline.ownSems0_none]
    have hsplit := Pipeline.arrays_of_unscopedBufs (p := 2) (pcfgs (F := F)) admK (pdats m ρ) launch2.win launch2.arr_whole c
      ((pdats m ρ 2 c).share_full fun _ => rfl) (U5 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 2 c).Φ 0 = Pipeline.ΦA spec2 c from rfl]; unfold Pipeline.ΦA
    iintro ⟨Hp, -, Hr⟩
    isplitl [Hr]; · iexact Hr
    iexact Hp
  hout c := by
    rw [Pipeline.ownSems0_none, show (pdats m ρ 2 c).Φ (Fin.last _) = Pipeline.ΦA spec2 c from rfl]; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) admK (Ix := Unit) (Name := ℕ) (U := UR sig nD τ) (Lvl := ℕ)
      launch2.win launch2.arr_whole c (pdats m ρ) ((pdats m ρ 2 c).share_full fun _ => rfl)
      (U5 m ρ c) (U6 m ρ c) ((pdats m ρ 2 c).arrAt · cfg2.N) (hF2 m ρ c) (hrest2 m ρ c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## @main as segments, and the launch -/

/-- @main's six segments in order. -/
abbrev segsK : List (Pipeline.Seg (pcfgs (F := F)) admK (pdats m ρ) () defs₀ 𝒱k Lk lvk) :=
  [ .host (hseg hostOps0 hostOps0_sub hostOps0_fresh (W0 m ρ)),
    .region (reg0 m ρ),
    .host (hseg hostOps1 hostOps1_sub hostOps1_fresh (W2 m ρ)),
    .region (reg1 m ρ),
    .host (hseg hostOps2 hostOps2_sub hostOps2_fresh (W4 m ρ)),
    .region (reg2 m ρ) ]
/-- @main is the run of the segments. -/
theorem main_run (c : Dev nD) : main (F := F) c = Pipeline.Seg.run (segsK m ρ) := (main_chain c).trans (by chain_rfl)

set_option backward.isDefEq.respectTransparency.types false in
/-- THE RUN: from any memory with zero counters every weakly fair execution of @main terminates, nothing faulting, and
    in every final state every unscoped array of every core holds the last boundary's contents. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W6 m ρ c b) :=
  Pipeline.θ_run_regions_kit (pcfgs (F := F)) admK (pdats m ρ) () cellOf_inj emb₁ defs₀ 𝒱k Lk lvk m ρ main (segsK m ρ)
    (fun c Q => by rw [main_run m ρ c])
    (by simp only [segsK, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ Rk c)) (Tₙ := Tn m ρ)
    (hch := ⟨fun _ => .rfl, fun _ => .rfl, fun _ => .rfl, fun _ => .rfl, fun _ => .rfl, fun _ => .rfl, fun _ => .rfl⟩)
    (hinit := by
      refine Pipeline.initEach Lk lvk fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W6 m ρ c b)
    (hfin := fun c s' => by
      iintro ⟨⟨Hh, -⟩, HSI⟩
      unfold StableHlo.held
      imodintro
      iapply (pointsTo_read_all (Pipeline.ucRefs τ sig) (fun b => (((c : Thread nD τ)).1, b)) (W6 m ρ c) s')
      isplitl [Hh] <;> iassumption)
    (hQ := fun s h c => h c)

/-! ## The frame, and the result -/

/-- THE FRAME: from any memory with zero counters every weakly fair execution of @main terminates, nothing faulting,
    and every final state has the argument arrays as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) :=
  (θ_run defs _ _).mono (fun r h c => ⟨(h c _ (mem_uc main_arg0 (by decide))).trans (W6_arg m ρ c main_arg0 (by decide) (by decide) (by decide) (by decide) (by decide) (by decide)),
    (h c _ (mem_uc main_arg1 (by decide))).trans (W6_arg m ρ c main_arg1 (by decide) (by decide) (by decide) (by decide) (by decide) (by decide)),
    (h c _ (mem_uc main_arg2 (by decide))).trans (W6_arg m ρ c main_arg2 (by decide) (by decide) (by decide) (by decide) (by decide) (by decide)),
    (h c _ (mem_uc main_arg3 (by decide))).trans (W6_arg m ρ c main_arg3 (by decide) (by decide) (by decide) (by decide) (by decide) (by decide)),
    (h c _ (mem_uc main_arg4 (by decide))).trans (W6_arg m ρ c main_arg4 (by decide) (by decide) (by decide) (by decide) (by decide) (by decide)),
    (h c _ (mem_uc main_arg5 (by decide))).trans (W6_arg m ρ c main_arg5 (by decide) (by decide) (by decide) (by decide) (by decide) (by decide)),
    (h c _ (mem_uc main_arg6 (by decide))).trans (W6_arg m ρ c main_arg6 (by decide) (by decide) (by decide) (by decide) (by decide) (by decide)),
    (h c _ (mem_uc main_arg7 (by decide))).trans (W6_arg m ρ c main_arg7 (by decide) (by decide) (by decide) (by decide) (by decide) (by decide)),
    (h c _ (mem_uc main_arg8 (by decide))).trans (W6_arg m ρ c main_arg8 (by decide) (by decide) (by decide) (by decide) (by decide) (by decide)),
    (h c _ (mem_uc main_arg9 (by decide))).trans (W6_arg m ρ c main_arg9 (by decide) (by decide) (by decide) (by decide) (by decide) (by decide)),
    (h c _ (mem_uc main_arg10 (by decide))).trans (W6_arg m ρ c main_arg10 (by decide) (by decide) (by decide) (by decide) (by decide) (by decide))⟩) (run_all m ρ)

/-- THE RESULT: moreover the result array ends at what the classifier call leaves in it. -/
theorem run_value : θ_run defs (onTc (τ := τ) (main (F := F))) ⟨m, fun _ => 0, ρ⟩ (fun r => ∀ c : Dev nD,
      r.2.mem ((c.tc : Thread nD τ).loc main_v11) = W6 m ρ c main_v11
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) :=
  (θ_run defs _ _).mono (fun r h c => ⟨h c _ (mem_uc main_v11 (by decide)),
    (h c _ (mem_uc main_arg0 (by decide))).trans (W6_arg m ρ c main_arg0 (by decide) (by decide) (by decide) (by decide) (by decide) (by decide)),
    (h c _ (mem_uc main_arg1 (by decide))).trans (W6_arg m ρ c main_arg1 (by decide) (by decide) (by decide) (by decide) (by decide) (by decide)),
    (h c _ (mem_uc main_arg2 (by decide))).trans (W6_arg m ρ c main_arg2 (by decide) (by decide) (by decide) (by decide) (by decide) (by decide)),
    (h c _ (mem_uc main_arg3 (by decide))).trans (W6_arg m ρ c main_arg3 (by decide) (by decide) (by decide) (by decide) (by decide) (by decide)),
    (h c _ (mem_uc main_arg4 (by decide))).trans (W6_arg m ρ c main_arg4 (by decide) (by decide) (by decide) (by decide) (by decide) (by decide)),
    (h c _ (mem_uc main_arg5 (by decide))).trans (W6_arg m ρ c main_arg5 (by decide) (by decide) (by decide) (by decide) (by decide) (by decide)),
    (h c _ (mem_uc main_arg6 (by decide))).trans (W6_arg m ρ c main_arg6 (by decide) (by decide) (by decide) (by decide) (by decide) (by decide)),
    (h c _ (mem_uc main_arg7 (by decide))).trans (W6_arg m ρ c main_arg7 (by decide) (by decide) (by decide) (by decide) (by decide) (by decide)),
    (h c _ (mem_uc main_arg8 (by decide))).trans (W6_arg m ρ c main_arg8 (by decide) (by decide) (by decide) (by decide) (by decide) (by decide)),
    (h c _ (mem_uc main_arg9 (by decide))).trans (W6_arg m ρ c main_arg9 (by decide) (by decide) (by decide) (by decide) (by decide) (by decide)),
    (h c _ (mem_uc main_arg10 (by decide))).trans (W6_arg m ρ c main_arg10 (by decide) (by decide) (by decide) (by decide) (by decide) (by decide))⟩) (run_all m ρ)

end Cert.Kernel.Fr

end
-- ==== Proof.Spec.lean ====
/-
  The mathematics of the classifier, free of any program: what one row of a feature-dimension-1 attention computes,
  in the two arrangements the two programs use, and the shared projection / concatenation / two-layer
  perceptron behind it, all on the extended reals and index by index.

  A score row is s t = q * k t; its maximum M is taken from -∞. With p t = exp (s t - M):
    * one arrangement divides once, after the two sums:  (Σ p t * v t) / (Σ p t);
    * the other normalises every weight first:            Σ (p t / Σ p u) * v t.
  For real q, k, v (and at least one key) p is real and positive and the two agree.
-/
import Idealize.ShloMosaic.PureOps.Ideal
import Idealize.ShloMosaic.Lib.ValueIdx

noncomputable section

namespace Cert.Spec

open Idealize.ShloMosaic

/-- A matrix as a function of its row and its column. -/
abbrev Mat (a b : ℕ) : Type := Fin a → Fin b → EReal

/-- A rank-2 array read as a matrix: entry (i, j). -/
def mat {a b : ℕ} (x : (⟨2, ![a, b]⟩ : Shape).Idx → EReal) : Mat a b := fun i j => x (ValueIdx.ix2 i j)

/-- A rank-1 array read as a function of its one coordinate. -/
def vec {n : ℕ} (x : (⟨1, ![n]⟩ : Shape).Idx → EReal) : Fin n → EReal := fun i => x (ValueIdx.ix1 i)

/-- An extended real that is a real number. -/
def IsReal (x : EReal) : Prop := ∃ r : ℝ, x = (r : EReal)

/-- The largest entry of a row, taken from -∞. -/
def rowMax {n : ℕ} (s : Fin n → EReal) : EReal := Finset.univ.fold max ⊥ s

/-- The shifted exponential weight of key t for the query value q. -/
def wgt {n : ℕ} (q : EReal) (k : Fin n → EReal) (t : Fin n) : EReal :=
  Ideal.exp (q * k t - rowMax fun u => q * k u)

/-- Attention output for one query value, dividing once after both sums. -/
def attnK {n : ℕ} (q : EReal) (k v : Fin n → EReal) : EReal :=
  Ideal.div (∑ t, wgt q k t * v t) (∑ t, wgt q k t)

/-- Attention output for one query value, every weight normalised before the weighted sum. -/
def attnR {n : ℕ} (q : EReal) (k v : Fin n → EReal) : EReal :=
  ∑ t, Ideal.div (wgt q k t) (∑ u, wgt q k u) * v t

/-- Attention of a whole batch of rows, in the first arrangement: entry (b, s). -/
def attnMatK {B S : ℕ} (q k v : Mat B S) : Mat B S := fun b s => attnK (q b s) (k b) (v b)

/-- Attention of a whole batch of rows, in the second arrangement. -/
def attnMatR {B S : ℕ} (q k v : Mat B S) : Mat B S := fun b s => attnR (q b s) (k b) (v b)

/-- Three blocks of 768 columns side by side. -/
def cat3 (a b c : Mat 32 768) : Mat 32 2304 := fun i l =>
  if h : l.val < 768 then a i ⟨l.val, h⟩
  else if h2 : l.val < 1536 then b i ⟨l.val - 768, by omega⟩
  else c i ⟨l.val - 1536, by omega⟩

/-- The shared projection x · W + b. -/
def proj (x : Mat 32 768) (W : Mat 768 512) (b : Fin 512 → EReal) : Mat 32 512 :=
  fun i j => (∑ k, x i k * W k j) + b j

/-- A block of 2304 columns followed by three blocks of 512. -/
def cat4 (z : Mat 32 2304) (a b c : Mat 32 512) : Mat 32 3840 := fun i l =>
  if h : l.val < 2304 then z i ⟨l.val, h⟩
  else if h2 : l.val < 2816 then a i ⟨l.val - 2304, by omega⟩
  else if h3 : l.val < 3328 then b i ⟨l.val - 2816, by omega⟩
  else c i ⟨l.val - 3328, by omega⟩

/-- The hidden layer: max (f · W1 + b1) 0. -/
def hidden (f : Mat 32 3840) (W1 : Mat 3840 256) (b1 : Fin 256 → EReal) : Mat 32 256 :=
  fun i j => max ((∑ l, f i l * W1 l j) + b1 j) 0

/-- The output layer: logistic (h · W2 + b2). -/
def outLayer (h : Mat 32 256) (W2 : Mat 256 7) (b2 : Fin 7 → EReal) : Mat 32 7 :=
  fun i j => Ideal.logistic ((∑ k, h i k * W2 k j) + b2 j)

/-- Everything behind the three attentions: from the sentence, the two contexts and the fused attention
    to the seven class probabilities. -/
def head (sent scene spk : Mat 32 768) (z : Mat 32 2304) (Wsh : Mat 768 512) (bsh : Fin 512 → EReal)
    (W1 : Mat 3840 256) (b1 : Fin 256 → EReal) (W2 : Mat 256 7) (b2 : Fin 7 → EReal) : Mat 32 7 :=
  outLayer (hidden (cat4 z (proj sent Wsh bsh) (proj scene Wsh bsh) (proj spk Wsh bsh)) W1 b1) W2 b2

/-- The whole classifier with the attentions in the first arrangement.
    Arguments in the order of the programs' parameters: sentence, target speaker, other speaker,
    scene description, scene sentence, then the weights. -/
def modelK (sent ts oth sd ss : Mat 32 768) (Wsh : Mat 768 512) (bsh : Fin 512 → EReal)
    (W1 : Mat 3840 256) (b1 : Fin 256 → EReal) (W2 : Mat 256 7) (b2 : Fin 7 → EReal) : Mat 32 7 :=
  let spk := attnMatK oth ts ts
  let scene := attnMatK ss ss sd
  let fused := cat3 sent scene spk
  head sent scene spk (attnMatK fused fused fused) Wsh bsh W1 b1 W2 b2

/-- The whole classifier with the attentions in the second arrangement. -/
def modelR (sent ts oth sd ss : Mat 32 768) (Wsh : Mat 768 512) (bsh : Fin 512 → EReal)
    (W1 : Mat 3840 256) (b1 : Fin 256 → EReal) (W2 : Mat 256 7) (b2 : Fin 7 → EReal) : Mat 32 7 :=
  let spk := attnMatR oth ts ts
  let scene := attnMatR ss ss sd
  let fused := cat3 sent scene spk
  head sent scene spk (attnMatR fused fused fused) Wsh bsh W1 b1 W2 b2

end Cert.Spec

end
-- ==== Proof.LibConcatCols.lean ====
/-
  Arrays joined side by side, read and summed.

  Several rank-2 arrays with the same number of rows, joined along the column axis, form one wider array: column
  `pre + j` of the join, where `pre` is the total width of the pieces before piece `k`, is column `j` of piece `k`.
  A sum over all the columns of the join is therefore the sum over the columns of the first pieces plus the sum over
  the columns of the last ones: a sum over `Fin n` with `n = a + b` splits at `a`. Both facts hold in any additive
  commutative monoid; no cancellation is used.
-/
import Idealize.ShloMosaic.Lib.Pipeline.Value
import Idealize.ShloMosaic.Lib.ValueIdx

noncomputable section

namespace Cert.Lib

open Idealize.ShloMosaic Idealize.ShloMosaic.ValueIdx
open scoped BigOperators

/-- A sum over `n = a + b` positions is the sum over the first `a` of them plus the sum over the last `b`. -/
theorem sum_fin_add {M : Type*} [AddCommMonoid M] {a b n : ℕ} (h : a + b = n) (f : Fin n → M) :
    ∑ k, f k = ∑ k : Fin a, f ⟨k.val, by have := k.isLt; omega⟩ + ∑ k : Fin b, f ⟨a + k.val, by have := k.isLt; omega⟩ := by
  subst h
  rw [Fin.sum_univ_add]
  rfl

/-- A join of rank-2 arrays along the column axis, read at row `r` and column `pre + j`: piece `k`, whose columns
    start at `pre` (the widths of the pieces before it add up to `pre`), at `(r, j)`. -/
theorem concat_cols_apply {α : Type} {R C : ℕ} (xs : List ((s : Shape) × (s.Idx → α)))
    (h : Shape.Concatenates (xs.map (·.1)) ⟨2, ![R, C]⟩ 1)
    (k : ℕ) (hk : k < xs.length) {n : ℕ} (x : (⟨2, ![R, n]⟩ : Shape).Idx → α) (hxk : xs[k] = ⟨⟨2, ![R, n]⟩, x⟩)
    (pre : ℕ)
    (hpre : (((xs.take k).map (·.1)).map fun s : Shape =>
      if h : s.rank = (⟨2, ![R, C]⟩ : Shape).rank then s.size ((1 : Fin (⟨2, ![R, C]⟩ : Shape).rank).cast h.symm) else 0).sum = pre)
    (r : Fin R) (j : Fin n) (hj : pre + j.val < C) :
    concatenate ⟨2, ![R, C]⟩ 1 xs h (ix2 r ⟨pre + j.val, hj⟩) = x (ix2 r j) := by
  refine concatenate_apply_piece 1 xs h _ k hk _ x hxk rfl pre hpre (ix2 r j) (fun b hb => ?_) rfl
  match b with
  | ⟨0, _⟩ => rfl
  | ⟨1, _⟩ => exact absurd rfl hb

end Cert.Lib

end
-- ==== Proof.LibCat4.lean ====
/-
  Blocks of columns joined side by side, read at an index.

  A join along the column axis of a [32, 2304] array and three [32, 512] arrays is a [32, 3840] array whose entry
  (i, l) is the entry of the piece that holds column l: the first piece for l < 2304, the second for
  2304 ≤ l < 2816 at column l - 2304, the third for 2816 ≤ l < 3328 at column l - 2816, the last otherwise at column
  l - 3328. Likewise a join of three [32, 768] arrays is a [32, 2304] array read piece by piece. Both hold for any
  proof of the join's side condition, so they apply to every occurrence of the join.
-/
import Idealize.ShloMosaic.Lib.Pipeline.Value
import Idealize.ShloMosaic.Lib.ValueIdx
import proofs.«175428_j35777077575730_2_alg».proof.Proof.Spec
import proofs.«175428_j35777077575730_2_alg».proof.Proof.LibConcatCols

noncomputable section

namespace Cert.Lib

open Idealize.ShloMosaic Idealize.ShloMosaic.ValueIdx Cert.Spec

/-- The join of a [32, 2304] array and three [32, 512] arrays along the column axis, read at (i, l), is the
    four-block matrix of the specification at (i, l). -/
theorem cat4_apply (z : (⟨2, ![32, 2304]⟩ : Shape).Idx → EReal) (a b c : (⟨2, ![32, 512]⟩ : Shape).Idx → EReal)
    (h : Shape.Concatenates
      (([⟨⟨2, ![32, 2304]⟩, z⟩, ⟨⟨2, ![32, 512]⟩, a⟩, ⟨⟨2, ![32, 512]⟩, b⟩, ⟨⟨2, ![32, 512]⟩, c⟩] :
        List ((s : Shape) × (s.Idx → EReal))).map (·.1)) ⟨2, ![32, 3840]⟩ 1)
    (i : Fin 32) (l : Fin 3840) :
    concatenate ⟨2, ![32, 3840]⟩ 1
        [⟨⟨2, ![32, 2304]⟩, z⟩, ⟨⟨2, ![32, 512]⟩, a⟩, ⟨⟨2, ![32, 512]⟩, b⟩, ⟨⟨2, ![32, 512]⟩, c⟩] h (ix2 i l)
      = cat4 (mat z) (mat a) (mat b) (mat c) i l := by
  have hl := l.isLt
  unfold cat4 mat
  by_cases h1 : l.val < 2304
  · rw [dif_pos h1]
    have e : l = ⟨0 + l.val, by omega⟩ := Fin.ext (by simp)
    refine (congrArg (fun t => concatenate ⟨2, ![32, 3840]⟩ 1 _ h (ix2 i t)) e).trans ?_
    exact concat_cols_apply _ h 0 (by simp) z rfl 0 rfl i ⟨l.val, h1⟩ (by show 0 + l.val < 3840; omega)
  · rw [dif_neg h1]
    by_cases h2 : l.val < 2816
    · rw [dif_pos h2]
      have e : l = ⟨2304 + (l.val - 2304), by omega⟩ := Fin.ext (by simp; omega)
      refine (congrArg (fun t => concatenate ⟨2, ![32, 3840]⟩ 1 _ h (ix2 i t)) e).trans ?_
      exact concat_cols_apply _ h 1 (by simp) a rfl 2304 rfl i ⟨l.val - 2304, by omega⟩ (by show 2304 + (l.val - 2304) < 3840; omega)
    · rw [dif_neg h2]
      by_cases h3 : l.val < 3328
      · rw [dif_pos h3]
        have e : l = ⟨2816 + (l.val - 2816), by omega⟩ := Fin.ext (by simp; omega)
        refine (congrArg (fun t => concatenate ⟨2, ![32, 3840]⟩ 1 _ h (ix2 i t)) e).trans ?_
        exact concat_cols_apply _ h 2 (by simp) b rfl 2816 rfl i ⟨l.val - 2816, by omega⟩ (by show 2816 + (l.val - 2816) < 3840; omega)
      · rw [dif_neg h3]
        have e : l = ⟨3328 + (l.val - 3328), by omega⟩ := Fin.ext (by simp; omega)
        refine (congrArg (fun t => concatenate ⟨2, ![32, 3840]⟩ 1 _ h (ix2 i t)) e).trans ?_
        exact concat_cols_apply _ h 3 (by simp) c rfl 3328 rfl i ⟨l.val - 3328, by omega⟩ (by show 3328 + (l.val - 3328) < 3840; omega)

/-- The join of three [32, 768] arrays along the column axis, read at (i, l), is the three-block matrix of the
    specification at (i, l). -/
theorem cat3_apply (a b c : (⟨2, ![32, 768]⟩ : Shape).Idx → EReal)
    (h : Shape.Concatenates
      (([⟨⟨2, ![32, 768]⟩, a⟩, ⟨⟨2, ![32, 768]⟩, b⟩, ⟨⟨2, ![32, 768]⟩, c⟩] :
        List ((s : Shape) × (s.Idx → EReal))).map (·.1)) ⟨2, ![32, 2304]⟩ 1)
    (i : Fin 32) (l : Fin 2304) :
    concatenate ⟨2, ![32, 2304]⟩ 1
        [⟨⟨2, ![32, 768]⟩, a⟩, ⟨⟨2, ![32, 768]⟩, b⟩, ⟨⟨2, ![32, 768]⟩, c⟩] h (ix2 i l)
      = cat3 (mat a) (mat b) (mat c) i l := by
  have hl := l.isLt
  unfold cat3 mat
  by_cases h1 : l.val < 768
  · rw [dif_pos h1]
    have e : l = ⟨0 + l.val, by omega⟩ := Fin.ext (by simp)
    refine (congrArg (fun t => concatenate ⟨2, ![32, 2304]⟩ 1 _ h (ix2 i t)) e).trans ?_
    exact concat_cols_apply _ h 0 (by simp) a rfl 0 rfl i ⟨l.val, h1⟩ (by show 0 + l.val < 2304; omega)
  · rw [dif_neg h1]
    by_cases h2 : l.val < 1536
    · rw [dif_pos h2]
      have e : l = ⟨768 + (l.val - 768), by omega⟩ := Fin.ext (by simp; omega)
      refine (congrArg (fun t => concatenate ⟨2, ![32, 2304]⟩ 1 _ h (ix2 i t)) e).trans ?_
      exact concat_cols_apply _ h 1 (by simp) b rfl 768 rfl i ⟨l.val - 768, by omega⟩ (by show 768 + (l.val - 768) < 2304; omega)
    · rw [dif_neg h2]
      have e : l = ⟨1536 + (l.val - 1536), by omega⟩ := Fin.ext (by simp; omega)
      refine (congrArg (fun t => concatenate ⟨2, ![32, 2304]⟩ 1 _ h (ix2 i t)) e).trans ?_
      exact concat_cols_apply _ h 2 (by simp) c rfl 1536 rfl i ⟨l.val - 1536, by omega⟩ (by show 1536 + (l.val - 1536) < 2304; omega)

end Cert.Lib

end
-- ==== Proof.LibPair.lean ====
/-
  Two arrays joined, read at an index; a scalar repeated, read at an index.

  Joining two arrays along an axis gives an array whose coordinate on that axis runs first through the first piece and
  then through the second: a coordinate below the first piece's extent reads the first piece at the same index, a
  coordinate `n₁ + j` reads the second piece with `j` on that axis. Stated for two matrices side by side (columns), two
  matrices one above the other (rows), and two vectors end to end. A scalar repeated over any shape reads the scalar
  everywhere.
-/
import Idealize.ShloMosaic.Lib.Pipeline.Value
import Idealize.ShloMosaic.Lib.ValueIdx

noncomputable section

namespace Cert.Lib

open Idealize.ShloMosaic Idealize.ShloMosaic.ValueIdx

variable {α : Type}

/-- A scalar repeated over a shape reads the scalar at every index. -/
theorem splat_apply {t : Shape} (x : (⟨0, ![]⟩ : Shape).Idx → α)
    (h : (⟨0, ![]⟩ : Shape).BroadcastsInDim t (![] : Fin 0 → Fin t.rank)) (i : t.Idx) :
    broadcastInDim t ![] h x i = x ix0 :=
  broadcastInDim_apply _ h x i ix0 fun a => a.elim0

/-- Two matrices side by side: a column of the first. -/
theorem pair_cols_left {R n₁ n₂ C : ℕ} (x₁ : (⟨2, ![R, n₁]⟩ : Shape).Idx → α) (x₂ : (⟨2, ![R, n₂]⟩ : Shape).Idx → α)
    (h : Shape.Concatenates [⟨2, ![R, n₁]⟩, ⟨2, ![R, n₂]⟩] ⟨2, ![R, C]⟩ 1) (r : Fin R) (j : Fin n₁) (hj : j.val < C) :
    concatenate ⟨2, ![R, C]⟩ 1 [⟨⟨2, ![R, n₁]⟩, x₁⟩, ⟨⟨2, ![R, n₂]⟩, x₂⟩] h (ix2 r ⟨j.val, hj⟩) = x₁ (ix2 r j) :=
  concatenate_pair_apply_left 1 x₁ x₂ h _ rfl (ix2 r j) (fun b => match b with | ⟨0, _⟩ => rfl | ⟨1, _⟩ => rfl)

/-- Two matrices side by side: a column of the second. -/
theorem pair_cols_right {R n₁ n₂ C : ℕ} (x₁ : (⟨2, ![R, n₁]⟩ : Shape).Idx → α) (x₂ : (⟨2, ![R, n₂]⟩ : Shape).Idx → α)
    (h : Shape.Concatenates [⟨2, ![R, n₁]⟩, ⟨2, ![R, n₂]⟩] ⟨2, ![R, C]⟩ 1) (r : Fin R) (j : Fin n₂) (hj : n₁ + j.val < C) :
    concatenate ⟨2, ![R, C]⟩ 1 [⟨⟨2, ![R, n₁]⟩, x₁⟩, ⟨⟨2, ![R, n₂]⟩, x₂⟩] h (ix2 r ⟨n₁ + j.val, hj⟩) = x₂ (ix2 r j) :=
  concatenate_pair_apply_right 1 x₁ x₂ h _ rfl rfl (ix2 r j)
    (fun b hb => match b with | ⟨0, _⟩ => rfl | ⟨1, _⟩ => absurd rfl hb)
    (by show j.val + n₁ = n₁ + j.val; omega)

/-- Two matrices one above the other: a row of the first. -/
theorem pair_rows_top {a₁ a₂ A C : ℕ} (x₁ : (⟨2, ![a₁, C]⟩ : Shape).Idx → α) (x₂ : (⟨2, ![a₂, C]⟩ : Shape).Idx → α)
    (h : Shape.Concatenates [⟨2, ![a₁, C]⟩, ⟨2, ![a₂, C]⟩] ⟨2, ![A, C]⟩ 0) (i : Fin a₁) (c : Fin C) (hi : i.val < A) :
    concatenate ⟨2, ![A, C]⟩ 0 [⟨⟨2, ![a₁, C]⟩, x₁⟩, ⟨⟨2, ![a₂, C]⟩, x₂⟩] h (ix2 ⟨i.val, hi⟩ c) = x₁ (ix2 i c) :=
  concatenate_pair_apply_left 0 x₁ x₂ h _ rfl (ix2 i c) (fun b => match b with | ⟨0, _⟩ => rfl | ⟨1, _⟩ => rfl)

/-- Two matrices one above the other: a row of the second. -/
theorem pair_rows_bottom {a₁ a₂ A C : ℕ} (x₁ : (⟨2, ![a₁, C]⟩ : Shape).Idx → α) (x₂ : (⟨2, ![a₂, C]⟩ : Shape).Idx → α)
    (h : Shape.Concatenates [⟨2, ![a₁, C]⟩, ⟨2, ![a₂, C]⟩] ⟨2, ![A, C]⟩ 0) (i : Fin a₂) (c : Fin C) (hi : a₁ + i.val < A) :
    concatenate ⟨2, ![A, C]⟩ 0 [⟨⟨2, ![a₁, C]⟩, x₁⟩, ⟨⟨2, ![a₂, C]⟩, x₂⟩] h (ix2 ⟨a₁ + i.val, hi⟩ c) = x₂ (ix2 i c) :=
  concatenate_pair_apply_right 0 x₁ x₂ h _ rfl rfl (ix2 i c)
    (fun b hb => match b with | ⟨0, _⟩ => absurd rfl hb | ⟨1, _⟩ => rfl)
    (by show i.val + a₁ = a₁ + i.val; omega)

/-- Two vectors end to end: an entry of the first. -/
theorem pair_vec_left {n₁ n₂ N : ℕ} (x₁ : (⟨1, ![n₁]⟩ : Shape).Idx → α) (x₂ : (⟨1, ![n₂]⟩ : Shape).Idx → α)
    (h : Shape.Concatenates [⟨1, ![n₁]⟩, ⟨1, ![n₂]⟩] ⟨1, ![N]⟩ 0) (j : Fin n₁) (hj : j.val < N) :
    concatenate ⟨1, ![N]⟩ 0 [⟨⟨1, ![n₁]⟩, x₁⟩, ⟨⟨1, ![n₂]⟩, x₂⟩] h (ix1 ⟨j.val, hj⟩) = x₁ (ix1 j) :=
  concatenate_pair_apply_left 0 x₁ x₂ h _ rfl (ix1 j) (fun b => match b with | ⟨0, _⟩ => rfl)

/-- Two vectors end to end: an entry of the second. -/
theorem pair_vec_right {n₁ n₂ N : ℕ} (x₁ : (⟨1, ![n₁]⟩ : Shape).Idx → α) (x₂ : (⟨1, ![n₂]⟩ : Shape).Idx → α)
    (h : Shape.Concatenates [⟨1, ![n₁]⟩, ⟨1, ![n₂]⟩] ⟨1, ![N]⟩ 0) (j : Fin n₂) (hj : n₁ + j.val < N) :
    concatenate ⟨1, ![N]⟩ 0 [⟨⟨1, ![n₁]⟩, x₁⟩, ⟨⟨1, ![n₂]⟩, x₂⟩] h (ix1 ⟨n₁ + j.val, hj⟩) = x₂ (ix1 j) :=
  concatenate_pair_apply_right 0 x₁ x₂ h _ rfl rfl (ix1 j)
    (fun b hb => match b with | ⟨0, _⟩ => absurd rfl hb)
    (by show j.val + n₁ = n₁ + j.val; omega)

end Cert.Lib

end
-- ==== Proof.LibAsRow.lean ====
/-
  A vector as one row.

  A vector of `n` entries laid out as a `[1, n]` array reads, at `(u, k)`, the vector's entry `k`. Two layout operations
  produce that array: a reshape `[n] → [1, n]`, and a broadcast of `[n]` into `[1, n]` that sends the vector's axis to
  the array's second axis. Both are the same function of the vector.
-/
import Idealize.ShloMosaic.Lib.ValueIdx
import Idealize.ShloMosaic.Lib.Pipeline.Value
import Idealize.ShloMosaic.Lib.ValueLayout

noncomputable section

namespace Cert.Lib

open Idealize.ShloMosaic Idealize.ShloMosaic.ValueIdx

variable {α : Type} {n : ℕ}

/-- The `[1, n]` array whose one row is the vector `v`. -/
def asRow (v : (⟨1, ![n]⟩ : Shape).Idx → α) : (⟨2, ![1, n]⟩ : Shape).Idx → α := fun i => v (ix1 (i 1))

theorem asRow_apply (v : (⟨1, ![n]⟩ : Shape).Idx → α) (u : Fin 1) (k : Fin n) : asRow v (ix2 u k) = v (ix1 k) := rfl

/-- A vector reshaped to `[1, n]` is the vector as one row. -/
theorem shapeCast_eq_asRow (v : (⟨1, ![n]⟩ : Shape).Idx → α) (h : (⟨1, ![n]⟩ : Shape).ShapeCasts ⟨2, ![1, n]⟩) :
    shapeCast ⟨2, ![1, n]⟩ v h = asRow v :=
  funext fun i => (congrArg (shapeCast ⟨2, ![1, n]⟩ v h) (eq_ix2 i)).trans (shapeCast_a_1a_apply v h (i 0) (i 1))

/-- A vector broadcast into `[1, n]` along the second axis is the vector as one row. -/
theorem broadcastInDim_eq_asRow (v : (⟨1, ![n]⟩ : Shape).Idx → α)
    (h : (⟨1, ![n]⟩ : Shape).BroadcastsInDim ⟨2, ![1, n]⟩ (![1] : Fin 1 → Fin 2)) :
    broadcastInDim ⟨2, ![1, n]⟩ ![1] h v = asRow v :=
  funext fun i => broadcastInDim_apply _ h v i (ix1 (i 1)) (fun a => match a with
    | ⟨0, _⟩ => by
      show (i 1).val = if n = 1 then 0 else (i 1).val
      have h1 : (i 1).val < n := (i 1).isLt
      split
      · omega
      · rfl)

end Cert.Lib

end
-- ==== Proof.KGlue.lean ====
/-
  The kernel program's host operations between its three calls, read at an index, and the three calls composed.

  Before the first call the program stacks pairs of [32, 768] inputs into [64, 768] arrays: the queries are the other
  speaker's rows above the scene sentence's, the keys the target speaker's above the scene sentence's, the values the
  target speaker's above the scene description's. Attention works row by row, so the upper half of the first call's result
  is the speaker context and the lower half the scene context. The program then cuts the two halves out, puts the sentence,
  the scene context and the speaker context side by side as the fused input of the second call, reshapes the three bias
  vectors to one row each, and hands everything to the classifier call. An array that no operation in between writes is
  still the launch array. Given what each of the three calls leaves, as functions of what it finds, the program's result
  is the classifier of the specification with the attentions in the first arrangement.
-/
import proofs.«175428_j35777077575730_2_alg».proof.Proof.Fr.Fold
import proofs.«175428_j35777077575730_2_alg».proof.Proof.Spec
import proofs.«175428_j35777077575730_2_alg».proof.Proof.LibCat4
import proofs.«175428_j35777077575730_2_alg».proof.Proof.LibPair
import proofs.«175428_j35777077575730_2_alg».proof.Proof.LibAsRow
import Idealize.ShloMosaic.Lib.StableHlo.Run
import Idealize.ShloMosaic.Lib.Pipeline.Value
import Idealize.ShloMosaic.Lib.ValueLayout

set_option maxRecDepth 16384

noncomputable section

namespace Cert.KernelIdeal.KVal

open Cert.KernelIdeal Cert.KernelIdeal.Gen
open Idealize.ShloMosaic Idealize.ShloMosaic.TcCoe Idealize.ShloMosaic.ValueIdx
open Idealize.SL.Sem
open Idealize.ShloMosaic.Pipeline (Dat Cfg Window)
open Cert.Spec

section Glue

variable (m : (ℓ : Loc nD τ sig) → Buf (Elt Ideal) ℓ) (ρ : Dev nD → PrngReg) (c : Dev nD)

/-! ## The first host stretch: three joins of two [32, 768] arrays one above the other -/

theorem U1_v0 : (Fr.U1 (F := Ideal) m ρ c main_v0 : S64x768.Idx → EReal)
    = concatenate S64x768 0 [⟨S32x768, m ((c : Thread nD τ).loc main_arg2)⟩, ⟨S32x768, m ((c : Thread nD τ).loc main_arg4)⟩]
        concatenates_S32x768_S32x768_S64x768_d0 := by
  dsimp only [Fr.U1, Fr.W1, Fr.W0, hostOps0]; after_results

theorem U1_v1 : (Fr.U1 (F := Ideal) m ρ c main_v1 : S64x768.Idx → EReal)
    = concatenate S64x768 0 [⟨S32x768, m ((c : Thread nD τ).loc main_arg1)⟩, ⟨S32x768, m ((c : Thread nD τ).loc main_arg4)⟩]
        concatenates_S32x768_S32x768_S64x768_d0 := by
  dsimp only [Fr.U1, Fr.W1, Fr.W0, hostOps0]; after_results

theorem U1_v2 : (Fr.U1 (F := Ideal) m ρ c main_v2 : S64x768.Idx → EReal)
    = concatenate S64x768 0 [⟨S32x768, m ((c : Thread nD τ).loc main_arg1)⟩, ⟨S32x768, m ((c : Thread nD τ).loc main_arg3)⟩]
        concatenates_S32x768_S32x768_S64x768_d0 := by
  dsimp only [Fr.U1, Fr.W1, Fr.W0, hostOps0]; after_results

/-- Two [32, 768] arrays one above the other, as matrices: the upper 32 rows are the first. -/
theorem rows_top (x y : (⟨2, ![32, 768]⟩ : Shape).Idx → EReal)
    (h : Shape.Concatenates [⟨2, ![32, 768]⟩, ⟨2, ![32, 768]⟩] ⟨2, ![64, 768]⟩ 0) (i : Fin 32) :
    mat (concatenate ⟨2, ![64, 768]⟩ 0 [⟨⟨2, ![32, 768]⟩, x⟩, ⟨⟨2, ![32, 768]⟩, y⟩] h) ⟨i.val, by omega⟩ = mat x i :=
  funext fun s => Cert.Lib.pair_rows_top x y h i s (by omega)

/-- … and the lower 32 rows are the second. -/
theorem rows_bottom (x y : (⟨2, ![32, 768]⟩ : Shape).Idx → EReal)
    (h : Shape.Concatenates [⟨2, ![32, 768]⟩, ⟨2, ![32, 768]⟩] ⟨2, ![64, 768]⟩ 0) (i : Fin 32) :
    mat (concatenate ⟨2, ![64, 768]⟩ 0 [⟨⟨2, ![32, 768]⟩, x⟩, ⟨⟨2, ![32, 768]⟩, y⟩] h) ⟨32 + i.val, by omega⟩ = mat y i :=
  funext fun s => Cert.Lib.pair_rows_bottom x y h i s (by omega)

/-! ## Attention row by row -/

/-- The attention of a batch of rows reads, in each row, that row of the query, the keys and the values only. -/
theorem attnMatK_row {A B S : ℕ} (q k v : Mat A S) (q' k' v' : Mat B S) (r : Fin A) (i : Fin B)
    (hq : q r = q' i) (hk : k r = k' i) (hv : v r = v' i) : attnMatK q k v r = attnMatK q' k' v' i := by
  funext s
  unfold attnMatK
  rw [hq, hk, hv]

/-! ## The first call's result: the speaker context above the scene context -/

/-- What the first call leaves in its output array, as a matrix of 64 rows. -/
theorem W2_v3 (hattn0 : ∀ (V : (c : Dev nD) → (b : Ref sig .tc) → Buf (Elt Ideal) ((c : Thread nD τ).loc b)) (c : Dev nD),
      mat ((Fr.dat0 (F := Ideal) V c).arrAt 3 cfg0.N) = attnMatK (mat (V c main_v0)) (mat (V c main_v1)) (mat (V c main_v2))) :
    mat (Fr.U2 (F := Ideal) m ρ c main_v3)
      = attnMatK (mat (Fr.U1 (F := Ideal) m ρ c main_v0)) (mat (Fr.U1 (F := Ideal) m ρ c main_v1)) (mat (Fr.U1 (F := Ideal) m ρ c main_v2)) := by
  rw [← hattn0 (Fr.U1 (F := Ideal) m ρ) c]
  exact congrArg mat (Fr.W2_arr (F := Ideal) m ρ c 3)

/-! ## The second host stretch: the two halves of the first call's result, and the three blocks side by side -/

theorem U3_v4 : (Fr.U3 (F := Ideal) m ρ c main_v4 : S32x768.Idx → EReal)
    = extractStridedSlice S32x768 ![0, 0] (Fr.U2 (F := Ideal) m ρ c main_v3) slices_S64x768_S32x768_0_0 := by
  dsimp only [Fr.U3, Fr.W3, Fr.U2, hostOps1]; after_results

theorem U3_v5 : (Fr.U3 (F := Ideal) m ρ c main_v5 : S32x768.Idx → EReal)
    = extractStridedSlice S32x768 ![32, 0] (Fr.U2 (F := Ideal) m ρ c main_v3) slices_S64x768_S32x768_32_0 := by
  dsimp only [Fr.U3, Fr.W3, Fr.U2, hostOps1]; after_results

theorem U3_v6 : (Fr.U3 (F := Ideal) m ρ c main_v6 : S32x2304.Idx → EReal)
    = concatenate S32x2304 1 [⟨S32x768, Fr.U3 (F := Ideal) m ρ c main_arg0⟩, ⟨S32x768, Fr.U3 (F := Ideal) m ρ c main_v5⟩,
        ⟨S32x768, Fr.U3 (F := Ideal) m ρ c main_v4⟩] concatenates_S32x768_S32x768_S32x768_S32x2304_d1 := by
  dsimp only [Fr.U3, Fr.W3, Fr.U2, hostOps1]; after_results
  show concatenate S32x2304 1 [⟨S32x768, HloOp.result _ _ (Proc.devRef .tc main_arg0)⟩,
    ⟨S32x768, HloOp.result _ _ (Proc.devRef .tc main_v5)⟩, ⟨S32x768, HloOp.result _ _ (Proc.devRef .tc main_v4)⟩] _ = _
  repeat (first
    | rw [StableHlo.unary_result]
    | (rw [StableHlo.unary_result_ne]; rotate_left; decide))

/-- The upper half of a [64, 768] array, as matrices. -/
theorem slice_top (x : (⟨2, ![64, 768]⟩ : Shape).Idx → EReal) (h : (⟨2, ![64, 768]⟩ : Shape).Slices ![0, 0] ⟨2, ![32, 768]⟩)
    (i : Fin 32) : mat (extractStridedSlice ⟨2, ![32, 768]⟩ ![0, 0] x h) i = mat x ⟨i.val, by omega⟩ :=
  funext fun s => extractStridedSlice_apply ![0, 0] x h (ix2 i s) (ix2 ⟨i.val, by omega⟩ s) fun a =>
    match a with
    | ⟨0, _⟩ => by show i.val = 0 + i.val; omega
    | ⟨1, _⟩ => by show s.val = 0 + s.val; omega

/-- The lower half of a [64, 768] array, as matrices. -/
theorem slice_bottom (x : (⟨2, ![64, 768]⟩ : Shape).Idx → EReal) (h : (⟨2, ![64, 768]⟩ : Shape).Slices ![32, 0] ⟨2, ![32, 768]⟩)
    (i : Fin 32) : mat (extractStridedSlice ⟨2, ![32, 768]⟩ ![32, 0] x h) i = mat x ⟨32 + i.val, by omega⟩ :=
  funext fun s => extractStridedSlice_apply ![32, 0] x h (ix2 i s) (ix2 ⟨32 + i.val, by omega⟩ s) fun a =>
    match a with
    | ⟨0, _⟩ => rfl
    | ⟨1, _⟩ => by show s.val = 0 + s.val; omega

/-! ## The two contexts and the fused input, as matrices of the launch arrays -/

/-- The sentence array is still the launch array when the fused attention call is entered. -/
theorem U3_arg0 : Fr.U3 (F := Ideal) m ρ c main_arg0 = m ((c : Thread nD τ).loc main_arg0) :=
  (Fr.W3_of m ρ c main_arg0 (by decide)).trans ((Fr.W2_of m ρ c main_arg0 (by decide)).trans
    ((Fr.W1_of m ρ c main_arg0 (by decide)).trans rfl))

/-- The upper half of the first call's result is the speaker context: attention of the other speaker's rows over the
    target speaker's. -/
theorem mat_v4 (hattn0 : ∀ (V : (c : Dev nD) → (b : Ref sig .tc) → Buf (Elt Ideal) ((c : Thread nD τ).loc b)) (c : Dev nD),
      mat ((Fr.dat0 (F := Ideal) V c).arrAt 3 cfg0.N) = attnMatK (mat (V c main_v0)) (mat (V c main_v1)) (mat (V c main_v2))) :
    mat (Fr.U3 (F := Ideal) m ρ c main_v4)
      = attnMatK (mat (m ((c : Thread nD τ).loc main_arg2))) (mat (m ((c : Thread nD τ).loc main_arg1)))
          (mat (m ((c : Thread nD τ).loc main_arg1))) := by
  funext i
  rw [U3_v4]
  refine (slice_top _ _ i).trans ?_
  rw [W2_v3 m ρ c hattn0]
  refine attnMatK_row _ _ _ _ _ _ _ i ?_ ?_ ?_
  · rw [U1_v0]; exact rows_top _ _ _ i
  · rw [U1_v1]; exact rows_top _ _ _ i
  · rw [U1_v2]; exact rows_top _ _ _ i

/-- The lower half is the scene context: attention of the scene sentence's rows over themselves, with the scene
    description's as values. -/
theorem mat_v5 (hattn0 : ∀ (V : (c : Dev nD) → (b : Ref sig .tc) → Buf (Elt Ideal) ((c : Thread nD τ).loc b)) (c : Dev nD),
      mat ((Fr.dat0 (F := Ideal) V c).arrAt 3 cfg0.N) = attnMatK (mat (V c main_v0)) (mat (V c main_v1)) (mat (V c main_v2))) :
    mat (Fr.U3 (F := Ideal) m ρ c main_v5)
      = attnMatK (mat (m ((c : Thread nD τ).loc main_arg4))) (mat (m ((c : Thread nD τ).loc main_arg4)))
          (mat (m ((c : Thread nD τ).loc main_arg3))) := by
  funext i
  rw [U3_v5]
  refine (slice_bottom _ _ i).trans ?_
  rw [W2_v3 m ρ c hattn0]
  refine attnMatK_row _ _ _ _ _ _ _ i ?_ ?_ ?_
  · rw [U1_v0]; exact rows_bottom _ _ _ i
  · rw [U1_v1]; exact rows_bottom _ _ _ i
  · rw [U1_v2]; exact rows_bottom _ _ _ i

/-- The fused input: the sentence, the scene context and the speaker context side by side. -/
theorem mat_v6 (hattn0 : ∀ (V : (c : Dev nD) → (b : Ref sig .tc) → Buf (Elt Ideal) ((c : Thread nD τ).loc b)) (c : Dev nD),
      mat ((Fr.dat0 (F := Ideal) V c).arrAt 3 cfg0.N) = attnMatK (mat (V c main_v0)) (mat (V c main_v1)) (mat (V c main_v2))) :
    mat (Fr.U3 (F := Ideal) m ρ c main_v6)
      = cat3 (mat (m ((c : Thread nD τ).loc main_arg0)))
          (attnMatK (mat (m ((c : Thread nD τ).loc main_arg4))) (mat (m ((c : Thread nD τ).loc main_arg4)))
            (mat (m ((c : Thread nD τ).loc main_arg3))))
          (attnMatK (mat (m ((c : Thread nD τ).loc main_arg2))) (mat (m ((c : Thread nD τ).loc main_arg1)))
            (mat (m ((c : Thread nD τ).loc main_arg1)))) := by
  funext i l
  rw [U3_v6]
  refine (Cert.Lib.cat3_apply _ _ _ _ i l).trans ?_
  rw [mat_v5 m ρ c hattn0, mat_v4 m ρ c hattn0, U3_arg0]

/-! ## The fused attention call -/

/-- What the fused attention call leaves in its output array. -/
theorem mat_v7 (hattn0 : ∀ (V : (c : Dev nD) → (b : Ref sig .tc) → Buf (Elt Ideal) ((c : Thread nD τ).loc b)) (c : Dev nD),
      mat ((Fr.dat0 (F := Ideal) V c).arrAt 3 cfg0.N) = attnMatK (mat (V c main_v0)) (mat (V c main_v1)) (mat (V c main_v2)))
    (hattn1 : ∀ (V : (c : Dev nD) → (b : Ref sig .tc) → Buf (Elt Ideal) ((c : Thread nD τ).loc b)) (c : Dev nD),
      mat ((Fr.dat1 (F := Ideal) V c).arrAt 3 cfg1.N) = attnMatK (mat (V c main_v6)) (mat (V c main_v6)) (mat (V c main_v6))) :
    mat (Fr.U4 (F := Ideal) m ρ c main_v7)
      = attnMatK (mat (Fr.U3 (F := Ideal) m ρ c main_v6)) (mat (Fr.U3 (F := Ideal) m ρ c main_v6))
          (mat (Fr.U3 (F := Ideal) m ρ c main_v6)) := by
  rw [← hattn1 (Fr.U3 (F := Ideal) m ρ) c]
  exact congrArg mat (Fr.W4_out (F := Ideal) m ρ c)

/-! ## The third host stretch: the three bias vectors as one row each -/

theorem U5_v8 : (Fr.U5 (F := Ideal) m ρ c main_v8 : S1x512.Idx → EReal)
    = shapeCast S1x512 (Fr.U4 (F := Ideal) m ρ c main_arg6) shapeCasts_S512_S1x512 := by
  dsimp only [Fr.U5, Fr.W5, Fr.U4, hostOps2]; after_results; rfl

theorem U5_v9 : (Fr.U5 (F := Ideal) m ρ c main_v9 : S1x256.Idx → EReal)
    = shapeCast S1x256 (Fr.U4 (F := Ideal) m ρ c main_arg8) shapeCasts_S256_S1x256 := by
  dsimp only [Fr.U5, Fr.W5, Fr.U4, hostOps2]; after_results; rfl

theorem U5_v10 : (Fr.U5 (F := Ideal) m ρ c main_v10 : S1x7.Idx → EReal)
    = shapeCast S1x7 (Fr.U4 (F := Ideal) m ρ c main_arg10) shapeCasts_S7_S1x7 := by
  dsimp only [Fr.U5, Fr.W5, Fr.U4, hostOps2]; after_results; rfl

/-- An argument array no host stretch writes is the launch array when the classifier call is entered. -/
theorem U5_arg (r : Ref sig .tc) (h0 : r ∉ hostOps0_W) (h1 : r ∉ hostOps1_W) (h2 : r ∉ hostOps2_W)
    (h3 : r ≠ main_v3) (h7 : r ≠ main_v7) : Fr.U5 (F := Ideal) m ρ c r = m ((c : Thread nD τ).loc r) :=
  (Fr.W5_of m ρ c r h2).trans <| (Fr.W4_of_ne m ρ c r h7).trans <| (Fr.W3_of m ρ c r h1).trans <|
    (Fr.W2_of m ρ c r h3).trans <| (Fr.W1_of m ρ c r h0).trans rfl

/-- … and likewise after the fused attention call. -/
theorem U4_arg (r : Ref sig .tc) (h0 : r ∉ hostOps0_W) (h1 : r ∉ hostOps1_W)
    (h3 : r ≠ main_v3) (h7 : r ≠ main_v7) : Fr.U4 (F := Ideal) m ρ c r = m ((c : Thread nD τ).loc r) :=
  (Fr.W4_of_ne m ρ c r h7).trans <| (Fr.W3_of m ρ c r h1).trans <|
    (Fr.W2_of m ρ c r h3).trans <| (Fr.W1_of m ρ c r h0).trans rfl

/-- The first bias as the classifier call reads it: the row of the reshaped array is the launch vector. -/
theorem bias8 : (fun k : Fin 512 => Fr.U5 (F := Ideal) m ρ c main_v8 (ix2 0 k)) = vec (m ((c : Thread nD τ).loc main_arg6)) := by
  funext k
  rw [U5_v8, Cert.Lib.shapeCast_eq_asRow, Cert.Lib.asRow_apply, U4_arg m ρ c main_arg6 (by decide) (by decide) (by decide) (by decide)]
  rfl

theorem bias9 : (fun k : Fin 256 => Fr.U5 (F := Ideal) m ρ c main_v9 (ix2 0 k)) = vec (m ((c : Thread nD τ).loc main_arg8)) := by
  funext k
  rw [U5_v9, Cert.Lib.shapeCast_eq_asRow, Cert.Lib.asRow_apply, U4_arg m ρ c main_arg8 (by decide) (by decide) (by decide) (by decide)]
  rfl

theorem bias10 : (fun k : Fin 7 => Fr.U5 (F := Ideal) m ρ c main_v10 (ix2 0 k)) = vec (m ((c : Thread nD τ).loc main_arg10)) := by
  funext k
  rw [U5_v10, Cert.Lib.shapeCast_eq_asRow, Cert.Lib.asRow_apply, U4_arg m ρ c main_arg10 (by decide) (by decide) (by decide) (by decide)]
  rfl

/-- The two contexts and the fused attention are, at the classifier call's entry, what the earlier boundaries hold. -/
theorem U5_v4 : Fr.U5 (F := Ideal) m ρ c main_v4 = Fr.U3 (F := Ideal) m ρ c main_v4 :=
  (Fr.W5_of m ρ c main_v4 (by decide)).trans (Fr.W4_of_ne m ρ c main_v4 (by decide))
theorem U5_v5 : Fr.U5 (F := Ideal) m ρ c main_v5 = Fr.U3 (F := Ideal) m ρ c main_v5 :=
  (Fr.W5_of m ρ c main_v5 (by decide)).trans (Fr.W4_of_ne m ρ c main_v5 (by decide))
theorem U5_v7 : Fr.U5 (F := Ideal) m ρ c main_v7 = Fr.U4 (F := Ideal) m ρ c main_v7 :=
  Fr.W5_of m ρ c main_v7 (by decide)

end Glue

/-! ## The whole program -/

/-- The kernel program's result is the classifier with the attentions in the first arrangement, given what its three
    calls leave. -/
theorem kernel_value
    (hattn0 : ∀ (V : (c : Dev nD) → (b : Ref sig .tc) → Buf (Elt Ideal) ((c : Thread nD τ).loc b)) (c : Dev nD),
      mat ((Fr.dat0 (F := Ideal) V c).arrAt 3 cfg0.N) = attnMatK (mat (V c main_v0)) (mat (V c main_v1)) (mat (V c main_v2)))
    (hattn1 : ∀ (V : (c : Dev nD) → (b : Ref sig .tc) → Buf (Elt Ideal) ((c : Thread nD τ).loc b)) (c : Dev nD),
      mat ((Fr.dat1 (F := Ideal) V c).arrAt 3 cfg1.N) = attnMatK (mat (V c main_v6)) (mat (V c main_v6)) (mat (V c main_v6)))
    (hhead2 : ∀ (V : (c : Dev nD) → (b : Ref sig .tc) → Buf (Elt Ideal) ((c : Thread nD τ).loc b)) (c : Dev nD) (i : Fin 32) (j : Fin 7),
      (Fr.dat2 (F := Ideal) V c).arrAt 10 cfg2.N (ix2 i j)
        = head (mat (V c main_arg0)) (mat (V c main_v5)) (mat (V c main_v4)) (mat (V c main_v7)) (mat (V c main_arg5))
            (fun k => V c main_v8 (ix2 0 k)) (mat (V c main_arg7)) (fun k => V c main_v9 (ix2 0 k)) (mat (V c main_arg9))
            (fun k => V c main_v10 (ix2 0 k)) i j)
    (m : (ℓ : Loc nD τ sig) → Buf (Elt Ideal) ℓ) (ρ : Dev nD → PrngReg) (c : Dev nD) (i : Fin 32) (j : Fin 7) :
    Fr.W6 (F := Ideal) m ρ c main_v11 (ix2 i j)
      = modelK (mat (m ((c : Thread nD τ).loc main_arg0))) (mat (m ((c : Thread nD τ).loc main_arg1)))
          (mat (m ((c : Thread nD τ).loc main_arg2))) (mat (m ((c : Thread nD τ).loc main_arg3)))
          (mat (m ((c : Thread nD τ).loc main_arg4))) (mat (m ((c : Thread nD τ).loc main_arg5)))
          (vec (m ((c : Thread nD τ).loc main_arg6))) (mat (m ((c : Thread nD τ).loc main_arg7)))
          (vec (m ((c : Thread nD τ).loc main_arg8))) (mat (m ((c : Thread nD τ).loc main_arg9)))
          (vec (m ((c : Thread nD τ).loc main_arg10))) i j := by
  have e11 : Fr.W6 (F := Ideal) m ρ c main_v11 = (Fr.dat2 (F := Ideal) (Fr.U5 (F := Ideal) m ρ) c).arrAt 10 cfg2.N :=
    Fr.W6_arr (F := Ideal) m ρ c 10
  refine (congrFun e11 (ix2 i j)).trans ?_
  rw [hhead2 (Fr.U5 (F := Ideal) m ρ) c i j]
  rw [bias8 m ρ c, bias9 m ρ c, bias10 m ρ c, U5_v4 m ρ c, U5_v5 m ρ c, U5_v7 m ρ c,
    U5_arg m ρ c main_arg0 (by decide) (by decide) (by decide) (by decide) (by decide),
    U5_arg m ρ c main_arg5 (by decide) (by decide) (by decide) (by decide) (by decide),
    U5_arg m ρ c main_arg7 (by decide) (by decide) (by decide) (by decide) (by decide),
    U5_arg m ρ c main_arg9 (by decide) (by decide) (by decide) (by decide) (by decide),
    mat_v7 m ρ c hattn0 hattn1, mat_v6 m ρ c hattn0, mat_v5 m ρ c hattn0, mat_v4 m ρ c hattn0]
  rfl

end Cert.KernelIdeal.KVal

end
-- ==== Proof.LibAttnPayload.lean ====
/-
  One block of attention with feature dimension one, as a vector program spells it, read entry by entry.

  The program holds a block of query values q [R, T] and the key and value rows k, v [R, S] of the same R batch rows.
  It forms the scores q[r, i] * k[r, t] by turning q into a column [R, T, 1] and k into a row [R, 1, S] and stretching
  both to [R, T, S]; takes each score row's maximum from -∞; exponentiates the shifted scores; sums the weights and
  the weights times the values over the key axis; and divides. Entry (r, i) of the result depends on q[r, i] and on
  rows r of k and v only, and is
      (Σ_t exp (q[r,i] k[r,t] - M) · v[r,t]) / (Σ_t exp (q[r,i] k[r,t] - M)),   M = max_u q[r,i] k[r,u].
  The lemmas below read each layout step and each reduction over the last axis at an index given by its coordinates,
  for any extents, and then the whole block.
-/
import Idealize.ShloMosaic.PureOps.Ideal.Laws
import Idealize.ShloMosaic.Lib.ValueIdx
import Idealize.ShloMosaic.Lib.Pipeline.Value

noncomputable section

namespace Cert.Lib

open Idealize.ShloMosaic Idealize.ShloMosaic.ValueIdx

section Layout
variable {α : Type}

/-- An `[a, b]` array cast to `[a, b, 1]` (a trailing unit axis added) reads, at `(i, j, u)`, the operand at `(i, j)`. -/
theorem shapeCast_ab_ab1_apply {a b : ℕ} (x : (⟨2, ![a, b]⟩ : Shape).Idx → α)
    (h : (⟨2, ![a, b]⟩ : Shape).ShapeCasts ⟨3, ![a, b, 1]⟩) (i : Fin a) (j : Fin b) (u : Fin 1) :
    shapeCast ⟨3, ![a, b, 1]⟩ x h (ix3 i j u) = x (ix2 i j) :=
  shapeCast_apply x h _ _ (by
    have hu : u.val = 0 := by omega
    rw [Shape.rowMajor_val_three, Shape.rowMajor_val_two]
    show i.val * b + j.val = (i.val * b + j.val) * 1 + u.val
    rw [hu, Nat.mul_one, Nat.add_zero])

/-- An `[a, b]` array cast to `[a, 1, b]` (a unit axis put in the middle) reads, at `(i, u, j)`, the operand at `(i, j)`. -/
theorem shapeCast_ab_a1b_apply {a b : ℕ} (x : (⟨2, ![a, b]⟩ : Shape).Idx → α)
    (h : (⟨2, ![a, b]⟩ : Shape).ShapeCasts ⟨3, ![a, 1, b]⟩) (i : Fin a) (u : Fin 1) (j : Fin b) :
    shapeCast ⟨3, ![a, 1, b]⟩ x h (ix3 i u j) = x (ix2 i j) :=
  shapeCast_apply x h _ _ (by
    have hu : u.val = 0 := by omega
    rw [Shape.rowMajor_val_three, Shape.rowMajor_val_two]
    show i.val * b + j.val = (i.val * 1 + u.val) * b + j.val
    rw [hu, Nat.mul_one, Nat.add_zero])

/-- An `[a, b, 1]` array stretched to `[a, b, c]` reads, at `(i, j, k)`, the operand at `(i, j, 0)`. -/
theorem broadcastTo_ab1_abc_apply {a b c : ℕ} (x : (⟨3, ![a, b, 1]⟩ : Shape).Idx → α)
    (h : (⟨3, ![a, b, 1]⟩ : Shape).Broadcasts ⟨3, ![a, b, c]⟩) (i : Fin a) (j : Fin b) (k : Fin c) :
    broadcastTo ⟨3, ![a, b, c]⟩ x h (ix3 i j k) = x (ix3 i j (0 : Fin 1)) := by
  refine broadcastTo_apply x h (ix3 i j k) (ix3 i j (0 : Fin 1)) fun ax => ?_
  match ax with
  | ⟨0, _⟩ =>
    show i.val = if a = 1 then 0 else i.val
    split
    · have := i.isLt; omega
    · rfl
  | ⟨1, _⟩ =>
    show j.val = if b = 1 then 0 else j.val
    split
    · have := j.isLt; omega
    · rfl
  | ⟨2, _⟩ => rfl

/-- An `[a, 1, c]` array stretched to `[a, b, c]` reads, at `(i, j, k)`, the operand at `(i, 0, k)`. -/
theorem broadcastTo_a1c_abc_apply {a b c : ℕ} (x : (⟨3, ![a, 1, c]⟩ : Shape).Idx → α)
    (h : (⟨3, ![a, 1, c]⟩ : Shape).Broadcasts ⟨3, ![a, b, c]⟩) (i : Fin a) (j : Fin b) (k : Fin c) :
    broadcastTo ⟨3, ![a, b, c]⟩ x h (ix3 i j k) = x (ix3 i (0 : Fin 1) k) := by
  refine broadcastTo_apply x h (ix3 i j k) (ix3 i (0 : Fin 1) k) fun ax => ?_
  match ax with
  | ⟨0, _⟩ =>
    show i.val = if a = 1 then 0 else i.val
    split
    · have := i.isLt; omega
    · rfl
  | ⟨1, _⟩ => rfl
  | ⟨2, _⟩ =>
    show k.val = if c = 1 then 0 else k.val
    split
    · have := k.isLt; omega
    · rfl

/-- A matrix `[a, b]` as a column of each row, repeated along a new last axis of extent `c`. -/
def colB {a b c : ℕ} (h1 : (⟨2, ![a, b]⟩ : Shape).ShapeCasts ⟨3, ![a, b, 1]⟩)
    (hb : (⟨3, ![a, b, 1]⟩ : Shape).Broadcasts ⟨3, ![a, b, c]⟩) (x : (⟨2, ![a, b]⟩ : Shape).Idx → α) :
    (⟨3, ![a, b, c]⟩ : Shape).Idx → α :=
  broadcastTo ⟨3, ![a, b, c]⟩ (shapeCast ⟨3, ![a, b, 1]⟩ x h1) hb

/-- Entry `(i, j, k)` of it is entry `(i, j)` of the matrix. -/
theorem colB_apply {a b c : ℕ} (h1 : (⟨2, ![a, b]⟩ : Shape).ShapeCasts ⟨3, ![a, b, 1]⟩)
    (hb : (⟨3, ![a, b, 1]⟩ : Shape).Broadcasts ⟨3, ![a, b, c]⟩) (x : (⟨2, ![a, b]⟩ : Shape).Idx → α)
    (i : Fin a) (j : Fin b) (k : Fin c) : colB h1 hb x (ix3 i j k) = x (ix2 i j) :=
  (broadcastTo_ab1_abc_apply _ hb i j k).trans (shapeCast_ab_ab1_apply x h1 i j 0)

/-- A matrix `[a, c]` with each row repeated along a new middle axis of extent `b`. -/
def rowB {a b c : ℕ} (h1 : (⟨2, ![a, c]⟩ : Shape).ShapeCasts ⟨3, ![a, 1, c]⟩)
    (hb : (⟨3, ![a, 1, c]⟩ : Shape).Broadcasts ⟨3, ![a, b, c]⟩) (y : (⟨2, ![a, c]⟩ : Shape).Idx → α) :
    (⟨3, ![a, b, c]⟩ : Shape).Idx → α :=
  broadcastTo ⟨3, ![a, b, c]⟩ (shapeCast ⟨3, ![a, 1, c]⟩ y h1) hb

/-- Entry `(i, j, k)` of it is entry `(i, k)` of the matrix. -/
theorem rowB_apply {a b c : ℕ} (h1 : (⟨2, ![a, c]⟩ : Shape).ShapeCasts ⟨3, ![a, 1, c]⟩)
    (hb : (⟨3, ![a, 1, c]⟩ : Shape).Broadcasts ⟨3, ![a, b, c]⟩) (y : (⟨2, ![a, c]⟩ : Shape).Idx → α)
    (i : Fin a) (j : Fin b) (k : Fin c) : rowB h1 hb y (ix3 i j k) = y (ix2 i k) :=
  (broadcastTo_a1c_abc_apply _ hb i j k).trans (shapeCast_ab_a1b_apply y h1 i 0 k)

end Layout

/-! ## Reductions over the last axis of a rank-3 array -/

/-- The word of f32's -∞ is the bottom of the extended reals. -/
theorem ofBits_neg_inf_f32 : Ideal.ofBits .f32 0xFF800000#32 = ⊥ := by simp [Ideal.ofBits, Ideal.ieee]

/-- The index of `[a, b, c]` over `(i, j)` with last coordinate `k` is `(i, j, k)`. -/
theorem lift_last3 {a b c : ℕ} (h : (⟨3, ![a, b, c]⟩ : Shape).Reduces [(2 : Fin 3)] ⟨2, ![a, b]⟩)
    (i : Fin a) (j : Fin b) (k : Fin c) : h.lift (ix2 i j) k = ix3 i j k := by
  funext d
  apply Fin.ext
  match d with
  | ⟨0, _⟩ => rfl
  | ⟨1, _⟩ => rfl
  | ⟨2, _⟩ => rfl

/-- A sum over the last axis, read at `(i, j)`: the sum over `k` of the entries `(i, j, k)`. -/
theorem multiReduction_add_last3 {a b c : ℕ} (src : FVec Ideal ⟨3, ![a, b, c]⟩ .f32)
    (h : (⟨3, ![a, b, c]⟩ : Shape).Reduces [(2 : Fin 3)] ⟨2, ![a, b]⟩) (hφ : FKind.Formats .f32)
    (hacc : (0x00000000#32 : BitVec 32) = FKind.add.neutral .f32 hφ) (i : Fin a) (j : Fin b) :
    multiReduction .add [(2 : Fin 3)] ⟨2, ![a, b]⟩ src 0x00000000#32 h hφ hacc (ix2 i j) = ∑ k : Fin c, src (ix3 i j k) :=
  (Ideal.multiReduction_add_single src _ h hφ hacc (ix2 i j)).trans
    (Finset.sum_congr rfl fun k _ => congrArg src (lift_last3 h i j k))

/-- A maximum over the last axis taken from -∞, read at `(i, j)`: the largest of the entries `(i, j, k)`. -/
theorem multiReduction_max_last3 {a b c : ℕ} (src : FVec Ideal ⟨3, ![a, b, c]⟩ .f32)
    (h : (⟨3, ![a, b, c]⟩ : Shape).Reduces [(2 : Fin 3)] ⟨2, ![a, b]⟩) (hφ : FKind.Formats .f32)
    (hacc : (0xFF800000#32 : BitVec 32) = FKind.maximumf.neutral .f32 hφ) (i : Fin a) (j : Fin b) :
    multiReduction .maximumf [(2 : Fin 3)] ⟨2, ![a, b]⟩ src 0xFF800000#32 h hφ hacc (ix2 i j)
      = (Finset.univ : Finset (Fin c)).fold max ⊥ fun k => src (ix3 i j k) :=
  (Ideal.multiReduction_maximumf_single src _ h hφ hacc (ix2 i j)).trans (by
    show (Finset.univ : Finset (Fin c)).fold max (Ideal.ofBits .f32 0xFF800000#32) (src ∘ h.lift (ix2 i j)) = _
    rw [ofBits_neg_inf_f32]
    exact congrArg ((Finset.univ : Finset (Fin c)).fold max ⊥) (funext fun k => congrArg src (lift_last3 h i j k)))

/-! ## The block -/

/-- The attention block of the header, operation by operation: scores, row maximum, shifted exponentials, the two sums
    over the key axis, the quotient. -/
def attnBlock {R T S : ℕ}
    (hq : (⟨2, ![R, T]⟩ : Shape).ShapeCasts ⟨3, ![R, T, 1]⟩) (hk : (⟨2, ![R, S]⟩ : Shape).ShapeCasts ⟨3, ![R, 1, S]⟩)
    (hbq : (⟨3, ![R, T, 1]⟩ : Shape).Broadcasts ⟨3, ![R, T, S]⟩) (hbk : (⟨3, ![R, 1, S]⟩ : Shape).Broadcasts ⟨3, ![R, T, S]⟩)
    (hr : (⟨3, ![R, T, S]⟩ : Shape).Reduces [(2 : Fin 3)] ⟨2, ![R, T]⟩) (hφ : FKind.Formats .f32)
    (hmax : (0xFF800000#32 : BitVec 32) = FKind.maximumf.neutral .f32 hφ)
    (hadd : (0x00000000#32 : BitVec 32) = FKind.add.neutral .f32 hφ)
    (q : FVec Ideal ⟨2, ![R, T]⟩ .f32) (k v : FVec Ideal ⟨2, ![R, S]⟩ .f32) : FVec Ideal ⟨2, ![R, T]⟩ .f32 :=
  divf
    (multiReduction .add [(2 : Fin 3)] ⟨2, ![R, T]⟩
      (mulf (exp (subf (mulf (colB hq hbq q) (rowB hk hbk k))
          (colB hq hbq (multiReduction .maximumf [(2 : Fin 3)] ⟨2, ![R, T]⟩ (mulf (colB hq hbq q) (rowB hk hbk k)) 0xFF800000#32 hr hφ hmax))))
        (rowB hk hbk v)) 0x00000000#32 hr hφ hadd)
    (multiReduction .add [(2 : Fin 3)] ⟨2, ![R, T]⟩
      (exp (subf (mulf (colB hq hbq q) (rowB hk hbk k))
          (colB hq hbq (multiReduction .maximumf [(2 : Fin 3)] ⟨2, ![R, T]⟩ (mulf (colB hq hbq q) (rowB hk hbk k)) 0xFF800000#32 hr hφ hmax))))
      0x00000000#32 hr hφ hadd)

/-- Entry `(r, i)` of the block: the weighted mean of row `r` of the values under the shifted exponential weights of
    the scores `q (r, i) * k (r, t)`, divided once after both sums. -/
theorem attnBlock_apply {R T S : ℕ}
    (hq : (⟨2, ![R, T]⟩ : Shape).ShapeCasts ⟨3, ![R, T, 1]⟩) (hk : (⟨2, ![R, S]⟩ : Shape).ShapeCasts ⟨3, ![R, 1, S]⟩)
    (hbq : (⟨3, ![R, T, 1]⟩ : Shape).Broadcasts ⟨3, ![R, T, S]⟩) (hbk : (⟨3, ![R, 1, S]⟩ : Shape).Broadcasts ⟨3, ![R, T, S]⟩)
    (hr : (⟨3, ![R, T, S]⟩ : Shape).Reduces [(2 : Fin 3)] ⟨2, ![R, T]⟩) (hφ : FKind.Formats .f32)
    (hmax : (0xFF800000#32 : BitVec 32) = FKind.maximumf.neutral .f32 hφ)
    (hadd : (0x00000000#32 : BitVec 32) = FKind.add.neutral .f32 hφ)
    (q : FVec Ideal ⟨2, ![R, T]⟩ .f32) (k v : FVec Ideal ⟨2, ![R, S]⟩ .f32) (r : Fin R) (i : Fin T) :
    attnBlock hq hk hbq hbk hr hφ hmax hadd q k v (ix2 r i)
      = Ideal.div
          (∑ t : Fin S, Ideal.exp (q (ix2 r i) * k (ix2 r t)
              - (Finset.univ : Finset (Fin S)).fold max ⊥ fun u => q (ix2 r i) * k (ix2 r u)) * v (ix2 r t))
          (∑ t : Fin S, Ideal.exp (q (ix2 r i) * k (ix2 r t)
              - (Finset.univ : Finset (Fin S)).fold max ⊥ fun u => q (ix2 r i) * k (ix2 r u))) := by
  -- a score, a row maximum and a weight at their indices
  have hs : ∀ t : Fin S, mulf (colB hq hbq q) (rowB hk hbk k) (ix3 r i t) = q (ix2 r i) * k (ix2 r t) := fun t => by
    rw [mulf_apply, colB_apply, rowB_apply]
  have hm : multiReduction .maximumf [(2 : Fin 3)] ⟨2, ![R, T]⟩ (mulf (colB hq hbq q) (rowB hk hbk k)) 0xFF800000#32 hr hφ hmax (ix2 r i)
      = (Finset.univ : Finset (Fin S)).fold max ⊥ fun u => q (ix2 r i) * k (ix2 r u) := by
    rw [multiReduction_max_last3]
    exact congrArg ((Finset.univ : Finset (Fin S)).fold max ⊥) (funext hs)
  have hp : ∀ t : Fin S,
      exp (subf (mulf (colB hq hbq q) (rowB hk hbk k))
          (colB hq hbq (multiReduction .maximumf [(2 : Fin 3)] ⟨2, ![R, T]⟩ (mulf (colB hq hbq q) (rowB hk hbk k)) 0xFF800000#32 hr hφ hmax)))
        (ix3 r i t)
      = Ideal.exp (q (ix2 r i) * k (ix2 r t) - (Finset.univ : Finset (Fin S)).fold max ⊥ fun u => q (ix2 r i) * k (ix2 r u)) := fun t => by
    show Ideal.exp (mulf (colB hq hbq q) (rowB hk hbk k) (ix3 r i t)
      - colB hq hbq (multiReduction .maximumf [(2 : Fin 3)] ⟨2, ![R, T]⟩ (mulf (colB hq hbq q) (rowB hk hbk k)) 0xFF800000#32 hr hφ hmax) (ix3 r i t)) = _
    rw [hs, colB_apply, hm]
  unfold attnBlock
  rw [divf_apply, multiReduction_add_last3, multiReduction_add_last3]
  refine congrArg₂ Ideal.div (Finset.sum_congr rfl fun t _ => ?_) (Finset.sum_congr rfl fun t _ => hp t)
  rw [mulf_apply, hp, rowB_apply]

end Cert.Lib

end
-- ==== Proof.KAttn0.lean ====
/-
  The first attention call's body, read entry by entry.

  The body holds a block of 16 x 256 query values and the 768 keys and values of the same 16 batch rows. Apart from
  three casts of a block to its own shape it is the attention block of feature dimension one: entry (p, s) of what it
  stores is the attention output for the query value at (p, s) against row p of the keys and of the values, with the
  division done once, after the two sums over the keys.
-/
import proofs.«175428_j35777077575730_2_alg».proof.Proof.Gen.KernelIdeal.Skeleton
import proofs.«175428_j35777077575730_2_alg».proof.Proof.Spec
import proofs.«175428_j35777077575730_2_alg».proof.Proof.LibAttnPayload

noncomputable section

namespace Cert.KernelIdeal.KVal

open Cert.KernelIdeal Cert.KernelIdeal.Gen
open Idealize.ShloMosaic Idealize.ShloMosaic.ValueIdx

/-- The body's value is the attention block of its three loaded blocks: the casts of a block to its own shape change
    nothing. -/
theorem pay0_eq_block (x0 : Vec Ideal S16x256 .f32) (x1 x2 : Vec Ideal S16x768 .f32) :
    k0_pay1 (F := Ideal) x0 x1 x2
      = Cert.Lib.attnBlock (R := 16) (T := 256) (S := 768) shapeCasts_S16x256_S16x256x1 shapeCasts_S16x768_S16x1x768
          broadcasts_S16x256x1_S16x256x768 broadcasts_S16x1x768_S16x256x768 reduces_S16x256x768_S16x256 (.inl rfl) rfl rfl
          x0 x1 x2 := by
  show Cert.Lib.attnBlock (R := 16) (T := 256) (S := 768) shapeCasts_S16x256_S16x256x1 shapeCasts_S16x768_S16x1x768
      broadcasts_S16x256x1_S16x256x768 broadcasts_S16x1x768_S16x256x768 reduces_S16x256x768_S16x256 (.inl rfl) rfl rfl
      (shapeCast S16x256 x0 shapeCasts_S16x256_S16x256) (shapeCast S16x768 x1 shapeCasts_S16x768_S16x768)
      (shapeCast S16x768 x2 shapeCasts_S16x768_S16x768) = _
  rw [shapeCast_self, shapeCast_self, shapeCast_self]

/-- Entry (p, s) of the body's value: attention of the query value at (p, s) over row p of the keys and values. -/
theorem pay0_at (x0 : Vec Ideal S16x256 .f32) (x1 x2 : Vec Ideal S16x768 .f32) (p : Fin 16) (s : Fin 256) :
    k0_pay1 (F := Ideal) x0 x1 x2 (ix2 p s)
      = Cert.Spec.attnK (x0 (ix2 p s)) (fun t : Fin 768 => x1 (ix2 p t)) (fun t : Fin 768 => x2 (ix2 p t)) := by
  rw [pay0_eq_block]
  exact Cert.Lib.attnBlock_apply _ _ _ _ _ _ _ _ x0 x1 x2 p s

end Cert.KernelIdeal.KVal

end
-- ==== Proof.KAttn1.lean ====
/-
  The second attention call's body, read entry by entry.

  The body holds a block of 8 x 128 query values and the 2304 keys and values of the same 8 batch rows. Apart from
  three casts of a block to its own shape it is the attention block of feature dimension one: entry (p, s) of what it
  stores is the attention output for the query value at (p, s) against row p of the keys and of the values, with the
  division done once, after the two sums over the keys.
-/
import proofs.«175428_j35777077575730_2_alg».proof.Proof.Gen.KernelIdeal.Skeleton
import proofs.«175428_j35777077575730_2_alg».proof.Proof.Spec
import proofs.«175428_j35777077575730_2_alg».proof.Proof.LibAttnPayload

noncomputable section

namespace Cert.KernelIdeal.KVal

open Cert.KernelIdeal Cert.KernelIdeal.Gen
open Idealize.ShloMosaic Idealize.ShloMosaic.ValueIdx

/-- The body's value is the attention block of its three loaded blocks: the casts of a block to its own shape change
    nothing. -/
theorem pay1_eq_block (x0 : Vec Ideal S8x128 .f32) (x1 x2 : Vec Ideal S8x2304 .f32) :
    k1_pay1 (F := Ideal) x0 x1 x2
      = Cert.Lib.attnBlock (R := 8) (T := 128) (S := 2304) shapeCasts_S8x128_S8x128x1 shapeCasts_S8x2304_S8x1x2304
          broadcasts_S8x128x1_S8x128x2304 broadcasts_S8x1x2304_S8x128x2304 reduces_S8x128x2304_S8x128 (.inl rfl) rfl rfl
          x0 x1 x2 := by
  show Cert.Lib.attnBlock (R := 8) (T := 128) (S := 2304) shapeCasts_S8x128_S8x128x1 shapeCasts_S8x2304_S8x1x2304
      broadcasts_S8x128x1_S8x128x2304 broadcasts_S8x1x2304_S8x128x2304 reduces_S8x128x2304_S8x128 (.inl rfl) rfl rfl
      (shapeCast S8x128 x0 shapeCasts_S8x128_S8x128) (shapeCast S8x2304 x1 shapeCasts_S8x2304_S8x2304)
      (shapeCast S8x2304 x2 shapeCasts_S8x2304_S8x2304) = _
  rw [shapeCast_self, shapeCast_self, shapeCast_self]

/-- Entry (p, s) of the body's value: attention of the query value at (p, s) over row p of the keys and values. -/
theorem pay1_at (x0 : Vec Ideal S8x128 .f32) (x1 x2 : Vec Ideal S8x2304 .f32) (p : Fin 8) (s : Fin 128) :
    k1_pay1 (F := Ideal) x0 x1 x2 (ix2 p s)
      = Cert.Spec.attnK (x0 (ix2 p s)) (fun t : Fin 2304 => x1 (ix2 p t)) (fun t : Fin 2304 => x2 (ix2 p t)) := by
  rw [pay1_eq_block]
  exact Cert.Lib.attnBlock_apply _ _ _ _ _ _ _ _ x0 x1 x2 p s

end Cert.KernelIdeal.KVal

end
-- ==== Proof.KBlocks0.lean ====
/-
  From the blocks a grid point writes to the whole output array, for the first attention call.

  The grid has 4 × 3 points; point (b, c) reads rows 16b … 16b + 15 of the query array at columns 256c … 256c + 255 and
  the same rows of the key and value arrays at every column, and writes the block of the same rows and columns of the
  output. Given that the body's arithmetic on loaded blocks is, entry by entry, the attention of the entry's query value
  with its row of keys and values, every entry (r, s) of the output array ends holding the attention of the query
  array's entry (r, s) with row r of the key and value arrays: point 3 * (r / 16) + s / 256 writes it.
-/
import proofs.«175428_j35777077575730_2_alg».proof.Proof.Spec
import proofs.«175428_j35777077575730_2_alg».proof.Proof.Fr.R0
import Idealize.ShloMosaic.Lib.Pipeline.Value
import Idealize.ShloMosaic.Lib.ValueIdx

set_option maxRecDepth 16384

noncomputable section

namespace Cert.KernelIdeal.KVal

open Cert.KernelIdeal Cert.KernelIdeal.Gen Cert.KernelIdeal.Fr
open Idealize.ShloMosaic Idealize.ShloMosaic.TcCoe Idealize.SL.Sem Idealize.ShloMosaic.ValueIdx
open Idealize.ShloMosaic.Pipeline (Dat)

/-- The zero offsets of a whole-block load or store. -/
theorem hz : (![0, 0] : Fin 2 → Nat) = fun _ => 0 := funext fun a => by fin_cases a <;> rfl

/-- A matrix as a rank-2 array. -/
def arrOf {a b : ℕ} (M : Cert.Spec.Mat a b) : (⟨2, ![a, b]⟩ : Shape).Idx → EReal :=
  fun i => M ⟨(i 0).val, (i 0).isLt⟩ ⟨(i 1).val, (i 1).isLt⟩

/-- Reading the array of a matrix as a matrix gives the matrix back. -/
theorem mat_arrOf {a b : ℕ} (M : Cert.Spec.Mat a b) : Cert.Spec.mat (arrOf M) = M := rfl

/-- The whole output array of the first attention call as a function of the three input arrays: entry (r, s) is the
    attention of the query array's entry (r, s) with row r of the key and value arrays. -/
def G0 (q k v : S64x768.Idx → EReal) : S64x768.Idx → EReal :=
  arrOf (Cert.Spec.attnMatK (Cert.Spec.mat q) (Cert.Spec.mat k) (Cert.Spec.mat v))

/-- The index maps over the 12 grid points: the query block moves with the output block, the key and value blocks
    share its row block at column block 0, and the output's block index at point t is (t / 3, t % 3). -/
theorem idx_facts0 : ∀ t : Fin cfg0.N,
    win0_0.index t (0 : Fin 2) = win0_3.index t (0 : Fin 2) ∧ win0_0.index t (1 : Fin 2) = win0_3.index t (1 : Fin 2)
    ∧ win0_1.index t (0 : Fin 2) = win0_3.index t (0 : Fin 2) ∧ win0_1.index t (1 : Fin 2) = 0
    ∧ win0_2.index t (0 : Fin 2) = win0_3.index t (0 : Fin 2) ∧ win0_2.index t (1 : Fin 2) = 0
    ∧ win0_3.index t (0 : Fin 2) = t.val / 3 ∧ win0_3.index t (1 : Fin 2) = t.val % 3 :=
  (by decide +kernel : ∀ t : Fin grid0.N, _)

/-- One point, over blocks given as reads of three arrays at embedded indices: when the query and output blocks sit at
    row block b and column block cc, and the key and value blocks at row block b and every column, the body's
    arithmetic at an entry of the block is the whole-array function at the entry's place in the array. -/
theorem point0
    (hpay0 : ∀ (x0 : Vec Ideal S16x256 .f32) (x1 x2 : Vec Ideal S16x768 .f32) (p : Fin 16) (s : Fin 256),
      k0_pay1 (F := Ideal) x0 x1 x2 (ix2 p s)
        = Cert.Spec.attnK (x0 (ix2 p s)) (fun t : Fin 768 => x1 (ix2 p t)) (fun t : Fin 768 => x2 (ix2 p t)))
    (q k v : S64x768.Idx → EReal) (e0 e3 : S16x256.Idx → S64x768.Idx) (e1 e2 : S16x768.Idx → S64x768.Idx) (b cc : ℕ)
    (h0 : ∀ y, (e0 y 0).val = b * 16 + 1 * (y 0).val ∧ (e0 y 1).val = cc * 256 + 1 * (y 1).val)
    (h3 : ∀ y, (e3 y 0).val = b * 16 + 1 * (y 0).val ∧ (e3 y 1).val = cc * 256 + 1 * (y 1).val)
    (h1 : ∀ y, (e1 y 0).val = b * 16 + 1 * (y 0).val ∧ (e1 y 1).val = (y 1).val)
    (h2 : ∀ y, (e2 y 0).val = b * 16 + 1 * (y 0).val ∧ (e2 y 1).val = (y 1).val)
    (y : S16x256.Idx) :
    k0_pay1 (F := Ideal) (fun y => q (e0 y)) (fun y => k (e1 y)) (fun y => v (e2 y)) y = G0 q k v (e3 y) := by
  obtain ⟨p, s, rfl⟩ : ∃ (p : Fin 16) (s : Fin 256), y = ix2 p s := ⟨y 0, y 1, eq_ix2 y⟩
  rw [hpay0]
  have hq : q (e0 (ix2 p s)) = Cert.Spec.mat q ⟨(e3 (ix2 p s) 0).val, (e3 (ix2 p s) 0).isLt⟩
      ⟨(e3 (ix2 p s) 1).val, (e3 (ix2 p s) 1).isLt⟩ :=
    congrArg q (funext fun a => Fin.ext (by
      match a with
      | ⟨0, _⟩ => show (e0 (ix2 p s) 0).val = (e3 (ix2 p s) 0).val; rw [(h0 _).1, (h3 _).1]
      | ⟨1, _⟩ => show (e0 (ix2 p s) 1).val = (e3 (ix2 p s) 1).val; rw [(h0 _).2, (h3 _).2]))
  have hk : (fun t : Fin 768 => k (e1 (ix2 p t))) = Cert.Spec.mat k ⟨(e3 (ix2 p s) 0).val, (e3 (ix2 p s) 0).isLt⟩ :=
    funext fun t => congrArg k (funext fun a => Fin.ext (by
      match a with
      | ⟨0, _⟩ => show (e1 (ix2 p t) 0).val = (e3 (ix2 p s) 0).val; rw [(h1 _).1, (h3 _).1]
      | ⟨1, _⟩ => show (e1 (ix2 p t) 1).val = t.val; rw [(h1 _).2]))
  have hv : (fun t : Fin 768 => v (e2 (ix2 p t))) = Cert.Spec.mat v ⟨(e3 (ix2 p s) 0).val, (e3 (ix2 p s) 0).isLt⟩ :=
    funext fun t => congrArg v (funext fun a => Fin.ext (by
      match a with
      | ⟨0, _⟩ => show (e2 (ix2 p t) 0).val = (e3 (ix2 p s) 0).val; rw [(h2 _).1, (h3 _).1]
      | ⟨1, _⟩ => show (e2 (ix2 p t) 1).val = t.val; rw [(h2 _).2]))
  rw [hq, hk, hv]
  rfl

section
variable (hpay0 : ∀ (x0 : Vec Ideal S16x256 .f32) (x1 x2 : Vec Ideal S16x768 .f32) (p : Fin 16) (s : Fin 256),
      k0_pay1 (F := Ideal) x0 x1 x2 (ix2 p s)
        = Cert.Spec.attnK (x0 (ix2 p s)) (fun t : Fin 768 => x1 (ix2 p t)) (fun t : Fin 768 => x2 (ix2 p t)))
variable (V : (c : Dev nD) → (b : Ref sig .tc) → Buf (Elt Ideal) ((c : Thread nD τ).loc b)) (c : Dev nD)
include hpay0

/-- What point t writes back is block t of the whole-array function of the three input arrays as the region finds
    them. -/
theorem flushed0_eq (t : Fin cfg0.N) :
    (dat0 (F := Ideal) V c).flushed 3 t
      = ((cfg0.win 3).blk t).view.read (Elt Ideal) (G0 (V c main_v0) (V c main_v1) (V c main_v2)) := by
  show (cfg0.win 3).cut (grid0.coords t) ((dat0 (F := Ideal) V c).after 3 t) = _
  rw [after0_3]
  unfold out0_3
  rw [View.canon_unit_zero hz]
  simp only [View.ld_unit_zero (S := S16x256) hz, View.ld_unit_zero (S := S16x768) hz]
  obtain ⟨f0, f1, f2, f3, f4, f5, -, -⟩ := idx_facts0 t
  funext j
  show k0_pay1 (F := Ideal) (fun y => V c main_v0 (((cfg0.win 0).blk t).view.emb y))
      (fun y => V c main_v1 (((cfg0.win 1).blk t).view.emb y)) (fun y => V c main_v2 (((cfg0.win 2).blk t).view.emb y)) j
    = G0 (V c main_v0) (V c main_v1) (V c main_v2) (((cfg0.win 3).blk t).view.emb j)
  refine point0 hpay0 (V c main_v0) (V c main_v1) (V c main_v2) _ _ _ _ (win0_3.index t (0 : Fin 2))
    (win0_3.index t (1 : Fin 2)) (fun y => ⟨?_, ?_⟩) (fun y => ⟨?_, ?_⟩) (fun y => ⟨?_, ?_⟩) (fun y => ⟨?_, ?_⟩) j
  · show win0_0.index t (0 : Fin 2) * 16 + 1 * (y 0).val = _; rw [f0]
  · show win0_0.index t (1 : Fin 2) * 256 + 1 * (y 1).val = _; rw [f1]
  · show win0_3.index t (0 : Fin 2) * 16 + 1 * (y 0).val = _; rfl
  · show win0_3.index t (1 : Fin 2) * 256 + 1 * (y 1).val = _; rfl
  · show win0_1.index t (0 : Fin 2) * 16 + 1 * (y 0).val = _; rw [f2]
  · show win0_1.index t (1 : Fin 2) * 768 + 1 * (y 1).val = _; rw [f3]; omega
  · show win0_2.index t (0 : Fin 2) * 16 + 1 * (y 0).val = _; rw [f4]
  · show win0_2.index t (1 : Fin 2) * 768 + 1 * (y 1).val = _; rw [f5]; omega

end

/-- An index of the output array is in point t's block iff each coordinate is in the block's range on its axis. -/
theorem mem_blk0 (t : Fin cfg0.N) (i : S64x768.Idx) :
    i ∈ ((cfg0.win 3).blk t).view.set ↔ ∀ a : Fin 2, win0_3.index t a * S16x256.size a ≤ (i a).val
      ∧ (i a).val < win0_3.index t a * S16x256.size a + S16x256.size a := by
  show i ∈ ((View.whole main_v3).slice (win0_3.rect t)).set ↔ _
  rw [View.set_slice_whole, Rect.mem_set_unit]
  exact Iff.rfl

/-- Every entry (r, s) of the output array lies in the block of point 3 * (r / 16) + s / 256, which writes it back. -/
theorem cover0 (i : S64x768.Idx) :
    ∃ t : Fin cfg0.N, (cfg0.win 3).flush t = true ∧ i ∈ ((cfg0.win 3).blk t).view.set := by
  have hi0 : (i 0).val < 64 := (i 0).isLt
  have hi1 : (i 1).val < 768 := (i 1).isLt
  have hN : cfg0.N = 12 := N_0
  let t : Fin cfg0.N := ⟨3 * ((i 0).val / 16) + (i 1).val / 256, by rw [hN]; omega⟩
  obtain ⟨-, -, -, -, -, -, g0, g1⟩ := idx_facts0 t
  have ht : t.val = 3 * ((i 0).val / 16) + (i 1).val / 256 := rfl
  refine ⟨t, flush0_3 t, ?_⟩
  rw [mem_blk0]
  intro a
  match a with
  | ⟨0, _⟩ =>
    show win0_3.index t (0 : Fin 2) * 16 ≤ (i 0).val ∧ (i 0).val < win0_3.index t (0 : Fin 2) * 16 + 16
    rw [g0, ht]; omega
  | ⟨1, _⟩ =>
    show win0_3.index t (1 : Fin 2) * 256 ≤ (i 1).val ∧ (i 1).val < win0_3.index t (1 : Fin 2) * 256 + 256
    rw [g1, ht]; omega

section
variable (hpay0 : ∀ (x0 : Vec Ideal S16x256 .f32) (x1 x2 : Vec Ideal S16x768 .f32) (p : Fin 16) (s : Fin 256),
      k0_pay1 (F := Ideal) x0 x1 x2 (ix2 p s)
        = Cert.Spec.attnK (x0 (ix2 p s)) (fun t : Fin 768 => x1 (ix2 p t)) (fun t : Fin 768 => x2 (ix2 p t)))
variable (V : (c : Dev nD) → (b : Ref sig .tc) → Buf (Elt Ideal) ((c : Thread nD τ).loc b)) (c : Dev nD)
include hpay0

/-- The output array after the pipeline is the whole-array function of the three input arrays. -/
theorem final0 : (dat0 (F := Ideal) V c).arrAt 3 cfg0.N = G0 (V c main_v0) (V c main_v1) (V c main_v2) :=
  (dat0 (F := Ideal) V c).arrAt_eq_of_cover 3 (G0 (V c main_v0) (V c main_v1) (V c main_v2))
    (fun t _ => flushed0_eq hpay0 V c t) cover0

/-- The first attention call, as matrices: the output array after the pipeline is the attention (dividing once, after
    both sums) of the query array with the key and value arrays, row by row. -/
theorem attn0_of_pay :
    Cert.Spec.mat ((dat0 (F := Ideal) V c).arrAt 3 cfg0.N)
      = Cert.Spec.attnMatK (Cert.Spec.mat (V c main_v0)) (Cert.Spec.mat (V c main_v1)) (Cert.Spec.mat (V c main_v2)) := by
  rw [final0 hpay0 V c]
  rfl

end

end Cert.KernelIdeal.KVal

end
-- ==== Proof.KBlocks1.lean ====
/-
  From the blocks a grid point writes to the whole output array, for the second attention call.

  The grid has 4 × 18 points; point (b, c) reads rows 8b … 8b + 7 of the one input array at columns 128c … 128c + 127 as
  queries and the same rows at every column as keys and as values, and writes the block of the same rows and columns of
  the output. Given that the body's arithmetic on loaded blocks is, entry by entry, the attention of the entry's query
  value with its row of keys and values, every entry (r, s) of the output array ends holding the attention of the input
  array's entry (r, s) with row r of the same array: point 18 * (r / 8) + s / 128 writes it.
-/
import proofs.«175428_j35777077575730_2_alg».proof.Proof.Spec
import proofs.«175428_j35777077575730_2_alg».proof.Proof.Fr.R1
import proofs.«175428_j35777077575730_2_alg».proof.Proof.KBlocks0
import Idealize.ShloMosaic.Lib.Pipeline.Value
import Idealize.ShloMosaic.Lib.ValueIdx

set_option maxRecDepth 16384

noncomputable section

namespace Cert.KernelIdeal.KVal

open Cert.KernelIdeal Cert.KernelIdeal.Gen Cert.KernelIdeal.Fr
open Idealize.ShloMosaic Idealize.ShloMosaic.TcCoe Idealize.SL.Sem Idealize.ShloMosaic.ValueIdx
open Idealize.ShloMosaic.Pipeline (Dat)

/-- The whole output array of the second attention call as a function of its input arrays: entry (r, s) is the
    attention of the query array's entry (r, s) with row r of the key and value arrays. -/
def G1 (q k v : S32x2304.Idx → EReal) : S32x2304.Idx → EReal :=
  arrOf (Cert.Spec.attnMatK (Cert.Spec.mat q) (Cert.Spec.mat k) (Cert.Spec.mat v))

/-- The index maps over the 72 grid points: the query block moves with the output block, the key and value blocks
    share its row block at column block 0, and the output's block index at point t is (t / 18, t % 18). -/
theorem idx_facts1 : ∀ t : Fin cfg1.N,
    win1_0.index t (0 : Fin 2) = win1_3.index t (0 : Fin 2) ∧ win1_0.index t (1 : Fin 2) = win1_3.index t (1 : Fin 2)
    ∧ win1_1.index t (0 : Fin 2) = win1_3.index t (0 : Fin 2) ∧ win1_1.index t (1 : Fin 2) = 0
    ∧ win1_2.index t (0 : Fin 2) = win1_3.index t (0 : Fin 2) ∧ win1_2.index t (1 : Fin 2) = 0
    ∧ win1_3.index t (0 : Fin 2) = t.val / 18 ∧ win1_3.index t (1 : Fin 2) = t.val % 18 :=
  (by decide +kernel : ∀ t : Fin grid1.N, _)

/-- One point, over blocks given as reads of three arrays at embedded indices: when the query and output blocks sit at
    row block b and column block cc, and the key and value blocks at row block b and every column, the body's
    arithmetic at an entry of the block is the whole-array function at the entry's place in the array. -/
theorem point1
    (hpay1 : ∀ (x0 : Vec Ideal S8x128 .f32) (x1 x2 : Vec Ideal S8x2304 .f32) (p : Fin 8) (s : Fin 128),
      k1_pay1 (F := Ideal) x0 x1 x2 (ix2 p s)
        = Cert.Spec.attnK (x0 (ix2 p s)) (fun t : Fin 2304 => x1 (ix2 p t)) (fun t : Fin 2304 => x2 (ix2 p t)))
    (q k v : S32x2304.Idx → EReal) (e0 e3 : S8x128.Idx → S32x2304.Idx) (e1 e2 : S8x2304.Idx → S32x2304.Idx) (b cc : ℕ)
    (h0 : ∀ y, (e0 y 0).val = b * 8 + 1 * (y 0).val ∧ (e0 y 1).val = cc * 128 + 1 * (y 1).val)
    (h3 : ∀ y, (e3 y 0).val = b * 8 + 1 * (y 0).val ∧ (e3 y 1).val = cc * 128 + 1 * (y 1).val)
    (h1 : ∀ y, (e1 y 0).val = b * 8 + 1 * (y 0).val ∧ (e1 y 1).val = (y 1).val)
    (h2 : ∀ y, (e2 y 0).val = b * 8 + 1 * (y 0).val ∧ (e2 y 1).val = (y 1).val)
    (y : S8x128.Idx) :
    k1_pay1 (F := Ideal) (fun y => q (e0 y)) (fun y => k (e1 y)) (fun y => v (e2 y)) y = G1 q k v (e3 y) := by
  obtain ⟨p, s, rfl⟩ : ∃ (p : Fin 8) (s : Fin 128), y = ix2 p s := ⟨y 0, y 1, eq_ix2 y⟩
  rw [hpay1]
  have hq : q (e0 (ix2 p s)) = Cert.Spec.mat q ⟨(e3 (ix2 p s) 0).val, (e3 (ix2 p s) 0).isLt⟩
      ⟨(e3 (ix2 p s) 1).val, (e3 (ix2 p s) 1).isLt⟩ :=
    congrArg q (funext fun a => Fin.ext (by
      match a with
      | ⟨0, _⟩ => show (e0 (ix2 p s) 0).val = (e3 (ix2 p s) 0).val; rw [(h0 _).1, (h3 _).1]
      | ⟨1, _⟩ => show (e0 (ix2 p s) 1).val = (e3 (ix2 p s) 1).val; rw [(h0 _).2, (h3 _).2]))
  have hk : (fun t : Fin 2304 => k (e1 (ix2 p t))) = Cert.Spec.mat k ⟨(e3 (ix2 p s) 0).val, (e3 (ix2 p s) 0).isLt⟩ :=
    funext fun t => congrArg k (funext fun a => Fin.ext (by
      match a with
      | ⟨0, _⟩ => show (e1 (ix2 p t) 0).val = (e3 (ix2 p s) 0).val; rw [(h1 _).1, (h3 _).1]
      | ⟨1, _⟩ => show (e1 (ix2 p t) 1).val = t.val; rw [(h1 _).2]))
  have hv : (fun t : Fin 2304 => v (e2 (ix2 p t))) = Cert.Spec.mat v ⟨(e3 (ix2 p s) 0).val, (e3 (ix2 p s) 0).isLt⟩ :=
    funext fun t => congrArg v (funext fun a => Fin.ext (by
      match a with
      | ⟨0, _⟩ => show (e2 (ix2 p t) 0).val = (e3 (ix2 p s) 0).val; rw [(h2 _).1, (h3 _).1]
      | ⟨1, _⟩ => show (e2 (ix2 p t) 1).val = t.val; rw [(h2 _).2]))
  rw [hq, hk, hv]
  rfl

/-- An index of the output array is in point t's block iff each coordinate is in the block's range on its axis. -/
theorem mem_blk1 (t : Fin cfg1.N) (i : S32x2304.Idx) :
    i ∈ ((cfg1.win 3).blk t).view.set ↔ ∀ a : Fin 2, win1_3.index t a * S8x128.size a ≤ (i a).val
      ∧ (i a).val < win1_3.index t a * S8x128.size a + S8x128.size a := by
  show i ∈ ((View.whole main_v7).slice (win1_3.rect t)).set ↔ _
  rw [View.set_slice_whole, Rect.mem_set_unit]
  exact Iff.rfl

/-- Every entry (r, s) of the output array lies in the block of point 18 * (r / 8) + s / 128, which writes it back. -/
theorem cover1 (i : S32x2304.Idx) :
    ∃ t : Fin cfg1.N, (cfg1.win 3).flush t = true ∧ i ∈ ((cfg1.win 3).blk t).view.set := by
  have hi0 : (i 0).val < 32 := (i 0).isLt
  have hi1 : (i 1).val < 2304 := (i 1).isLt
  have hN : cfg1.N = 72 := N_1
  let t : Fin cfg1.N := ⟨18 * ((i 0).val / 8) + (i 1).val / 128, by rw [hN]; omega⟩
  obtain ⟨-, -, -, -, -, -, g0, g1⟩ := idx_facts1 t
  have ht : t.val = 18 * ((i 0).val / 8) + (i 1).val / 128 := rfl
  refine ⟨t, flush1_3 t, ?_⟩
  rw [mem_blk1]
  intro a
  match a with
  | ⟨0, _⟩ =>
    show win1_3.index t (0 : Fin 2) * 8 ≤ (i 0).val ∧ (i 0).val < win1_3.index t (0 : Fin 2) * 8 + 8
    rw [g0, ht]; omega
  | ⟨1, _⟩ =>
    show win1_3.index t (1 : Fin 2) * 128 ≤ (i 1).val ∧ (i 1).val < win1_3.index t (1 : Fin 2) * 128 + 128
    rw [g1, ht]; omega

section
variable (hpay1 : ∀ (x0 : Vec Ideal S8x128 .f32) (x1 x2 : Vec Ideal S8x2304 .f32) (p : Fin 8) (s : Fin 128),
      k1_pay1 (F := Ideal) x0 x1 x2 (ix2 p s)
        = Cert.Spec.attnK (x0 (ix2 p s)) (fun t : Fin 2304 => x1 (ix2 p t)) (fun t : Fin 2304 => x2 (ix2 p t)))
variable (V : (c : Dev nD) → (b : Ref sig .tc) → Buf (Elt Ideal) ((c : Thread nD τ).loc b)) (c : Dev nD)
include hpay1

/-- What point t writes back is block t of the whole-array function of the input array as the region finds it. -/
theorem flushed1_eq (t : Fin cfg1.N) :
    (dat1 (F := Ideal) V c).flushed 3 t
      = ((cfg1.win 3).blk t).view.read (Elt Ideal) (G1 (V c main_v6) (V c main_v6) (V c main_v6)) := by
  show (cfg1.win 3).cut (grid1.coords t) ((dat1 (F := Ideal) V c).after 3 t) = _
  rw [after1_3]
  unfold out1_3
  rw [View.canon_unit_zero hz]
  simp only [View.ld_unit_zero (S := S8x128) hz, View.ld_unit_zero (S := S8x2304) hz]
  obtain ⟨f0, f1, f2, f3, f4, f5, -, -⟩ := idx_facts1 t
  funext j
  show k1_pay1 (F := Ideal) (fun y => V c main_v6 (((cfg1.win 0).blk t).view.emb y))
      (fun y => V c main_v6 (((cfg1.win 1).blk t).view.emb y)) (fun y => V c main_v6 (((cfg1.win 2).blk t).view.emb y)) j
    = G1 (V c main_v6) (V c main_v6) (V c main_v6) (((cfg1.win 3).blk t).view.emb j)
  refine point1 hpay1 (V c main_v6) (V c main_v6) (V c main_v6) _ _ _ _ (win1_3.index t (0 : Fin 2))
    (win1_3.index t (1 : Fin 2)) (fun y => ⟨?_, ?_⟩) (fun y => ⟨?_, ?_⟩) (fun y => ⟨?_, ?_⟩) (fun y => ⟨?_, ?_⟩) j
  · show win1_0.index t (0 : Fin 2) * 8 + 1 * (y 0).val = _; rw [f0]
  · show win1_0.index t (1 : Fin 2) * 128 + 1 * (y 1).val = _; rw [f1]
  · show win1_3.index t (0 : Fin 2) * 8 + 1 * (y 0).val = _; rfl
  · show win1_3.index t (1 : Fin 2) * 128 + 1 * (y 1).val = _; rfl
  · show win1_1.index t (0 : Fin 2) * 8 + 1 * (y 0).val = _; rw [f2]
  · show win1_1.index t (1 : Fin 2) * 2304 + 1 * (y 1).val = _; rw [f3]; omega
  · show win1_2.index t (0 : Fin 2) * 8 + 1 * (y 0).val = _; rw [f4]
  · show win1_2.index t (1 : Fin 2) * 2304 + 1 * (y 1).val = _; rw [f5]; omega

/-- The output array after the pipeline is the whole-array function of the input array. -/
theorem final1 : (dat1 (F := Ideal) V c).arrAt 3 cfg1.N = G1 (V c main_v6) (V c main_v6) (V c main_v6) :=
  (dat1 (F := Ideal) V c).arrAt_eq_of_cover 3 (G1 (V c main_v6) (V c main_v6) (V c main_v6))
    (fun t _ => flushed1_eq hpay1 V c t) cover1

/-- The second attention call, as matrices: the output array after the pipeline is the attention (dividing once,
    after both sums) of the input array with itself, row by row. -/
theorem attn1_of_pay :
    Cert.Spec.mat ((dat1 (F := Ideal) V c).arrAt 3 cfg1.N)
      = Cert.Spec.attnMatK (Cert.Spec.mat (V c main_v6)) (Cert.Spec.mat (V c main_v6)) (Cert.Spec.mat (V c main_v6)) := by
  rw [final1 hpay1 V c]
  rfl

end

end Cert.KernelIdeal.KVal

end
-- ==== Proof.KHead.lean ====
/-
  The classifier call's output array, index by index, on the extended reals.

  The call has one grid point and every window's block is its whole array, so the output array after the call is the
  body's one whole-block store of its arithmetic applied to the ten input arrays as found. That arithmetic is: three
  projections x · W + b of the sentence and the two contexts with one shared weight matrix and bias row; the join of the
  fused attention and the three projections side by side; a second product with a bias row, cut below at zero; a third
  product with a bias row; the logistic function. Read at the index (i, j) it is the specification's `head` at (i, j).
-/
import proofs.«175428_j35777077575730_2_alg».proof.Proof.Spec
import proofs.«175428_j35777077575730_2_alg».proof.Proof.LibCat4
import proofs.«175428_j35777077575730_2_alg».proof.Proof.Fr.R2
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.KVal

open Cert.KernelIdeal Cert.KernelIdeal.Gen
open Idealize.ShloMosaic Idealize.ShloMosaic.TcCoe Idealize.ShloMosaic.ValueIdx
open Cert.Spec

/-- The 32×768 by 768×512 product into zero, read at (i, j): the sum over the inner coordinate. -/
theorem mm_proj (L : FVec Ideal S32x768 .bf16) (R : FVec Ideal S768x512 .bf16) (i : Fin 32) (j : Fin 512) :
    matmul dot_S32x768_S768x512_S32x512_1_0_0_1_n_n none L R (constant S32x512 .f32 0x00000000#32) (ix2 i j)
      = ∑ t : Fin 768, L (ix2 i t) * R (ix2 t j) := by
  refine (Ideal.matmul_constant_zero_apply dot_S32x768_S768x512_S32x512_1_0_0_1_n_n none L R (ix2 i j)).trans ?_
  rw [← Equiv.sum_comp (contrEquiv1 dot_S32x768_S768x512_S32x512_1_0_0_1_n_n 768 rfl rfl).symm]
  refine Finset.sum_congr rfl fun t _ => ?_
  have ht := contrEquiv1_symm_val dot_S32x768_S768x512_S32x512_1_0_0_1_n_n 768 rfl rfl t
  have l0 : ∀ q : dot_S32x768_S768x512_S32x512_1_0_0_1_n_n.contr.Idx, (dot_S32x768_S768x512_S32x512_1_0_0_1_n_n.lhsIdx (ix2 i j) q 0).val = i.val := fun q => by
    unfold DotDims.lhsIdx
    rw [dif_neg (show ¬(0 : Fin S32x768.rank) ∈ dot_S32x768_S768x512_S32x512_1_0_0_1_n_n.lhsBatch by decide),
      dif_pos (show (0 : Fin S32x768.rank) ∈ dot_S32x768_S768x512_S32x512_1_0_0_1_n_n.lhsNonContracting by decide)]
    rfl
  have r1 : ∀ q : dot_S32x768_S768x512_S32x512_1_0_0_1_n_n.contr.Idx, (dot_S32x768_S768x512_S32x512_1_0_0_1_n_n.rhsIdx (ix2 i j) q 1).val = j.val := fun q => by
    unfold DotDims.rhsIdx
    rw [dif_neg (show ¬(1 : Fin S768x512.rank) ∈ dot_S32x768_S768x512_S32x512_1_0_0_1_n_n.rhsBatch by decide),
      dif_pos (show (1 : Fin S768x512.rank) ∈ dot_S32x768_S768x512_S32x512_1_0_0_1_n_n.rhsNonContracting by decide)]
    rfl
  have el : dot_S32x768_S768x512_S32x512_1_0_0_1_n_n.lhsIdx (ix2 i j) ((contrEquiv1 dot_S32x768_S768x512_S32x512_1_0_0_1_n_n 768 rfl rfl).symm t) = ix2 i t :=
    funext fun a => Fin.ext (by
      match a with
      | ⟨0, _⟩ => exact l0 _
      | ⟨1, _⟩ => exact (dot_S32x768_S768x512_S32x512_1_0_0_1_n_n.lhsIdx_val_of_single rfl _ _).trans ht)
  have er : dot_S32x768_S768x512_S32x512_1_0_0_1_n_n.rhsIdx (ix2 i j) ((contrEquiv1 dot_S32x768_S768x512_S32x512_1_0_0_1_n_n 768 rfl rfl).symm t) = ix2 t j :=
    funext fun a => Fin.ext (by
      match a with
      | ⟨0, _⟩ => exact (dot_S32x768_S768x512_S32x512_1_0_0_1_n_n.rhsIdx_val_of_single rfl _ _).trans ht
      | ⟨1, _⟩ => exact r1 _)
  rw [el, er]

/-- The 32×3840 by 3840×256 product into zero, read at (i, j): the sum over the inner coordinate. -/
theorem mm_hidden (L : FVec Ideal S32x3840 .bf16) (R : FVec Ideal S3840x256 .bf16) (i : Fin 32) (j : Fin 256) :
    matmul dot_S32x3840_S3840x256_S32x256_1_0_0_1_n_n none L R (constant S32x256 .f32 0x00000000#32) (ix2 i j)
      = ∑ t : Fin 3840, L (ix2 i t) * R (ix2 t j) := by
  refine (Ideal.matmul_constant_zero_apply dot_S32x3840_S3840x256_S32x256_1_0_0_1_n_n none L R (ix2 i j)).trans ?_
  rw [← Equiv.sum_comp (contrEquiv1 dot_S32x3840_S3840x256_S32x256_1_0_0_1_n_n 3840 rfl rfl).symm]
  refine Finset.sum_congr rfl fun t _ => ?_
  have ht := contrEquiv1_symm_val dot_S32x3840_S3840x256_S32x256_1_0_0_1_n_n 3840 rfl rfl t
  have l0 : ∀ q : dot_S32x3840_S3840x256_S32x256_1_0_0_1_n_n.contr.Idx, (dot_S32x3840_S3840x256_S32x256_1_0_0_1_n_n.lhsIdx (ix2 i j) q 0).val = i.val := fun q => by
    unfold DotDims.lhsIdx
    rw [dif_neg (show ¬(0 : Fin S32x3840.rank) ∈ dot_S32x3840_S3840x256_S32x256_1_0_0_1_n_n.lhsBatch by decide),
      dif_pos (show (0 : Fin S32x3840.rank) ∈ dot_S32x3840_S3840x256_S32x256_1_0_0_1_n_n.lhsNonContracting by decide)]
    rfl
  have r1 : ∀ q : dot_S32x3840_S3840x256_S32x256_1_0_0_1_n_n.contr.Idx, (dot_S32x3840_S3840x256_S32x256_1_0_0_1_n_n.rhsIdx (ix2 i j) q 1).val = j.val := fun q => by
    unfold DotDims.rhsIdx
    rw [dif_neg (show ¬(1 : Fin S3840x256.rank) ∈ dot_S32x3840_S3840x256_S32x256_1_0_0_1_n_n.rhsBatch by decide),
      dif_pos (show (1 : Fin S3840x256.rank) ∈ dot_S32x3840_S3840x256_S32x256_1_0_0_1_n_n.rhsNonContracting by decide)]
    rfl
  have el : dot_S32x3840_S3840x256_S32x256_1_0_0_1_n_n.lhsIdx (ix2 i j) ((contrEquiv1 dot_S32x3840_S3840x256_S32x256_1_0_0_1_n_n 3840 rfl rfl).symm t) = ix2 i t :=
    funext fun a => Fin.ext (by
      match a with
      | ⟨0, _⟩ => exact l0 _
      | ⟨1, _⟩ => exact (dot_S32x3840_S3840x256_S32x256_1_0_0_1_n_n.lhsIdx_val_of_single rfl _ _).trans ht)
  have er : dot_S32x3840_S3840x256_S32x256_1_0_0_1_n_n.rhsIdx (ix2 i j) ((contrEquiv1 dot_S32x3840_S3840x256_S32x256_1_0_0_1_n_n 3840 rfl rfl).symm t) = ix2 t j :=
    funext fun a => Fin.ext (by
      match a with
      | ⟨0, _⟩ => exact (dot_S32x3840_S3840x256_S32x256_1_0_0_1_n_n.rhsIdx_val_of_single rfl _ _).trans ht
      | ⟨1, _⟩ => exact r1 _)
  rw [el, er]

/-- The 32×256 by 256×7 product into zero, read at (i, j): the sum over the inner coordinate. -/
theorem mm_out (L : FVec Ideal S32x256 .bf16) (R : FVec Ideal S256x7 .bf16) (i : Fin 32) (j : Fin 7) :
    matmul dot_S32x256_S256x7_S32x7_1_0_0_1_n_n none L R (constant S32x7 .f32 0x00000000#32) (ix2 i j)
      = ∑ t : Fin 256, L (ix2 i t) * R (ix2 t j) := by
  refine (Ideal.matmul_constant_zero_apply dot_S32x256_S256x7_S32x7_1_0_0_1_n_n none L R (ix2 i j)).trans ?_
  rw [← Equiv.sum_comp (contrEquiv1 dot_S32x256_S256x7_S32x7_1_0_0_1_n_n 256 rfl rfl).symm]
  refine Finset.sum_congr rfl fun t _ => ?_
  have ht := contrEquiv1_symm_val dot_S32x256_S256x7_S32x7_1_0_0_1_n_n 256 rfl rfl t
  have l0 : ∀ q : dot_S32x256_S256x7_S32x7_1_0_0_1_n_n.contr.Idx, (dot_S32x256_S256x7_S32x7_1_0_0_1_n_n.lhsIdx (ix2 i j) q 0).val = i.val := fun q => by
    unfold DotDims.lhsIdx
    rw [dif_neg (show ¬(0 : Fin S32x256.rank) ∈ dot_S32x256_S256x7_S32x7_1_0_0_1_n_n.lhsBatch by decide),
      dif_pos (show (0 : Fin S32x256.rank) ∈ dot_S32x256_S256x7_S32x7_1_0_0_1_n_n.lhsNonContracting by decide)]
    rfl
  have r1 : ∀ q : dot_S32x256_S256x7_S32x7_1_0_0_1_n_n.contr.Idx, (dot_S32x256_S256x7_S32x7_1_0_0_1_n_n.rhsIdx (ix2 i j) q 1).val = j.val := fun q => by
    unfold DotDims.rhsIdx
    rw [dif_neg (show ¬(1 : Fin S256x7.rank) ∈ dot_S32x256_S256x7_S32x7_1_0_0_1_n_n.rhsBatch by decide),
      dif_pos (show (1 : Fin S256x7.rank) ∈ dot_S32x256_S256x7_S32x7_1_0_0_1_n_n.rhsNonContracting by decide)]
    rfl
  have el : dot_S32x256_S256x7_S32x7_1_0_0_1_n_n.lhsIdx (ix2 i j) ((contrEquiv1 dot_S32x256_S256x7_S32x7_1_0_0_1_n_n 256 rfl rfl).symm t) = ix2 i t :=
    funext fun a => Fin.ext (by
      match a with
      | ⟨0, _⟩ => exact l0 _
      | ⟨1, _⟩ => exact (dot_S32x256_S256x7_S32x7_1_0_0_1_n_n.lhsIdx_val_of_single rfl _ _).trans ht)
  have er : dot_S32x256_S256x7_S32x7_1_0_0_1_n_n.rhsIdx (ix2 i j) ((contrEquiv1 dot_S32x256_S256x7_S32x7_1_0_0_1_n_n 256 rfl rfl).symm t) = ix2 t j :=
    funext fun a => Fin.ext (by
      match a with
      | ⟨0, _⟩ => exact (dot_S32x256_S256x7_S32x7_1_0_0_1_n_n.rhsIdx_val_of_single rfl _ _).trans ht
      | ⟨1, _⟩ => exact r1 _)
  rw [el, er]

/-- The block matrix of the specification respects equality of its four blocks. -/
theorem cat4_of {z z' : Mat 32 2304} {a a' b b' c c' : Mat 32 512} (hz : z = z') (ha : a = a') (hb : b = b')
    (hc : c = c') : cat4 z a b c = cat4 z' a' b' c' := by
  subst hz; subst ha; subst hb; subst hc; rfl

/-- The zero word as a scalar is the number zero. -/
theorem scalar_zero : (Scalar.ofBits .f32 0x00000000#32 : Ideal .f32) = 0 := Ideal.ofBits_zero_f32

/-- One projection, read at (i, k): the product of the rows of x with the columns of W, plus the bias row at k. -/
theorem proj_apply (x : FVec Ideal S32x768 .f32) (W : FVec Ideal S768x512 .f32) (b : FVec Ideal S1x512 .f32)
    (hx hW : FTy.bf16.bits < FTy.f32.bits) (hc : S1x512.ShapeCasts S1x512) (hbr : S1x512.Broadcasts S32x512) (i : Fin 32) (k : Fin 512) :
    addf (F := Ideal) (matmul dot_S32x768_S768x512_S32x512_1_0_0_1_n_n none (truncf (F := Ideal) .bf16 x hx)
          (truncf (F := Ideal) .bf16 W hW) (constant S32x512 .f32 0x00000000#32))
        (broadcastTo S32x512 (shapeCast S1x512 b hc) hbr) (ix2 i k)
      = proj (mat x) (mat W) (fun k => b (ix2 (0 : Fin 1) k)) i k := by
  show matmul dot_S32x768_S768x512_S32x512_1_0_0_1_n_n none (truncf (F := Ideal) .bf16 x hx)
          (truncf (F := Ideal) .bf16 W hW) (constant S32x512 .f32 0x00000000#32) (ix2 i k)
        + broadcastTo S32x512 (shapeCast S1x512 b hc) hbr (ix2 i k)
      = (∑ t : Fin 768, x (ix2 i t) * W (ix2 t k)) + b (ix2 (0 : Fin 1) k)
  rw [shapeCast_self]
  exact congrArg₂ (· + ·) (mm_proj _ _ i k) (broadcastTo_1b_ab_apply b hbr i k)

/-- The second product, read at (i, k): the joined row of the fused attention and the three projections against
    column k of the second weight matrix. -/
theorem pay2_apply (wsh : Vec Ideal S768x512 .f32) (x0 : Vec Ideal S32x768 .f32) (bsh : Vec Ideal S1x512 .f32)
    (x1 x2 : Vec Ideal S32x768 .f32) (z : Vec Ideal S32x2304 .f32) (w1 : Vec Ideal S3840x256 .f32)
    (i : Fin 32) (k : Fin 256) :
    k2_pay2 wsh x0 bsh x1 bsh x2 bsh z w1 (ix2 i k)
      = ∑ l : Fin 3840,
          cat4 (mat z) (proj (mat x0) (mat wsh) (fun k => bsh (ix2 (0 : Fin 1) k)))
            (proj (mat x1) (mat wsh) (fun k => bsh (ix2 (0 : Fin 1) k)))
            (proj (mat x2) (mat wsh) (fun k => bsh (ix2 (0 : Fin 1) k))) i l * w1 (ix2 l k) := by
  unfold k2_pay2
  refine (mm_hidden _ _ i k).trans ?_
  refine Finset.sum_congr rfl fun l _ => congrArg (· * w1 (ix2 l k)) ?_
  refine (Cert.Lib.cat4_apply _ _ _ _ Facts₀.concatenates_S32x2304_S32x512_S32x512_S32x512_S32x3840_d1 i l).trans ?_
  refine congrFun (congrFun (cat4_of ?_ ?_ ?_ ?_) i) l
  · rw [shapeCast_self]
  · exact funext fun i => funext fun k => proj_apply x0 wsh bsh _ _ _ _ i k
  · rw [shapeCast_self]
    exact funext fun i => funext fun k => proj_apply x1 wsh bsh _ _ _ _ i k
  · rw [shapeCast_self]
    exact funext fun i => funext fun k => proj_apply x2 wsh bsh _ _ _ _ i k

/-- The second bias row spread over the rows, read at (i, k). -/
theorem pay3_apply (b1 : Vec Ideal S1x256 .f32) (i : Fin 32) (k : Fin 256) :
    k2_pay3 b1 (ix2 i k) = b1 (ix2 (0 : Fin 1) k) := by
  unfold k2_pay3
  rw [shapeCast_self]
  exact broadcastTo_1b_ab_apply b1 _ i k

/-- The last stage, read at (i, j): the logistic function of the product of the hidden row (the sum of the two
    operands cut below at zero) with column j of the third weight matrix, plus the bias row at j. -/
theorem pay1_apply (p q : FVec Ideal S32x256 .f32) (w2 : Vec Ideal S256x7 .f32) (b2 : Vec Ideal S1x7 .f32)
    (i : Fin 32) (j : Fin 7) :
    k2_pay1 p q w2 b2 (ix2 i j)
      = Ideal.logistic ((∑ k : Fin 256, max (p (ix2 i k) + q (ix2 i k)) 0 * w2 (ix2 k j)) + b2 (ix2 (0 : Fin 1) j)) := by
  unfold k2_pay1
  show Ideal.logistic (matmul (F := Ideal) dot_S32x256_S256x7_S32x7_1_0_0_1_n_n none _ _ (constant S32x7 .f32 0x00000000#32) (ix2 i j)
        + broadcastTo S32x7 (shapeCast S1x7 b2 _) _ (ix2 i j)) = _
  rw [shapeCast_self]
  refine congrArg Ideal.logistic (congrArg₂ (· + ·) ((mm_out _ _ i j).trans ?_) (broadcastTo_1b_ab_apply b2 _ i j))
  refine Finset.sum_congr rfl fun k _ => congrArg (· * w2 (ix2 k j)) ?_
  show max (p (ix2 i k) + q (ix2 i k)) (Scalar.ofBits .f32 0x00000000#32 : Ideal .f32) = _
  rw [scalar_zero]

/-- The body's arithmetic of ten whole arrays, read at (i, j), is the specification's classifier head of the ten
    arrays read as matrices and rows. -/
theorem pay_apply (x0 x1 x2 : Vec Ideal S32x768 .f32) (z : Vec Ideal S32x2304 .f32) (wsh : Vec Ideal S768x512 .f32)
    (bsh : Vec Ideal S1x512 .f32) (w1 : Vec Ideal S3840x256 .f32) (b1 : Vec Ideal S1x256 .f32)
    (w2 : Vec Ideal S256x7 .f32) (b2 : Vec Ideal S1x7 .f32) (i : Fin 32) (j : Fin 7) :
    k2_pay1 (k2_pay2 wsh x0 bsh x1 bsh x2 bsh z w1) (k2_pay3 b1) w2 b2 (ix2 i j)
      = head (mat x0) (mat x1) (mat x2) (mat z) (mat wsh) (fun k => bsh (ix2 (0 : Fin 1) k)) (mat w1)
          (fun k => b1 (ix2 (0 : Fin 1) k)) (mat w2) (fun k => b2 (ix2 (0 : Fin 1) k)) i j := by
  refine (pay1_apply _ _ w2 b2 i j).trans ?_
  unfold Cert.Spec.head Cert.Spec.outLayer Cert.Spec.hidden
  refine congrArg Ideal.logistic (congrArg (· + b2 (ix2 (0 : Fin 1) j)) ?_)
  refine Finset.sum_congr rfl fun k _ => congrArg (· * mat w2 k j) ?_
  rw [pay2_apply, pay3_apply]
  rfl

/-! ## From the one block to the array -/

variable (V : (c : Dev nD) → (b : Ref sig .tc) → Buf (Elt Ideal) ((c : Thread nD τ).loc b))

theorem hz2 : (![0, 0] : Fin 2 → Nat) = fun _ => 0 := funext fun a => by fin_cases a <;> rfl

/-! Every window's block index at the one grid point is (0, 0), decided over the grid. -/
theorem idx2_0_0 : ∀ t : Fin cfg2.N, win2_0.index t (0 : Fin 2) = 0 :=
  (by decide +kernel : ∀ t : Fin grid2.N, win2_0.index t (0 : Fin 2) = 0)
theorem idx2_0_1 : ∀ t : Fin cfg2.N, win2_0.index t (1 : Fin 2) = 0 :=
  (by decide +kernel : ∀ t : Fin grid2.N, win2_0.index t (1 : Fin 2) = 0)
theorem idx2_1_0 : ∀ t : Fin cfg2.N, win2_1.index t (0 : Fin 2) = 0 :=
  (by decide +kernel : ∀ t : Fin grid2.N, win2_1.index t (0 : Fin 2) = 0)
theorem idx2_1_1 : ∀ t : Fin cfg2.N, win2_1.index t (1 : Fin 2) = 0 :=
  (by decide +kernel : ∀ t : Fin grid2.N, win2_1.index t (1 : Fin 2) = 0)
theorem idx2_2_0 : ∀ t : Fin cfg2.N, win2_2.index t (0 : Fin 2) = 0 :=
  (by decide +kernel : ∀ t : Fin grid2.N, win2_2.index t (0 : Fin 2) = 0)
theorem idx2_2_1 : ∀ t : Fin cfg2.N, win2_2.index t (1 : Fin 2) = 0 :=
  (by decide +kernel : ∀ t : Fin grid2.N, win2_2.index t (1 : Fin 2) = 0)
theorem idx2_3_0 : ∀ t : Fin cfg2.N, win2_3.index t (0 : Fin 2) = 0 :=
  (by decide +kernel : ∀ t : Fin grid2.N, win2_3.index t (0 : Fin 2) = 0)
theorem idx2_3_1 : ∀ t : Fin cfg2.N, win2_3.index t (1 : Fin 2) = 0 :=
  (by decide +kernel : ∀ t : Fin grid2.N, win2_3.index t (1 : Fin 2) = 0)
theorem idx2_4_0 : ∀ t : Fin cfg2.N, win2_4.index t (0 : Fin 2) = 0 :=
  (by decide +kernel : ∀ t : Fin grid2.N, win2_4.index t (0 : Fin 2) = 0)
theorem idx2_4_1 : ∀ t : Fin cfg2.N, win2_4.index t (1 : Fin 2) = 0 :=
  (by decide +kernel : ∀ t : Fin grid2.N, win2_4.index t (1 : Fin 2) = 0)
theorem idx2_5_0 : ∀ t : Fin cfg2.N, win2_5.index t (0 : Fin 2) = 0 :=
  (by decide +kernel : ∀ t : Fin grid2.N, win2_5.index t (0 : Fin 2) = 0)
theorem idx2_5_1 : ∀ t : Fin cfg2.N, win2_5.index t (1 : Fin 2) = 0 :=
  (by decide +kernel : ∀ t : Fin grid2.N, win2_5.index t (1 : Fin 2) = 0)
theorem idx2_6_0 : ∀ t : Fin cfg2.N, win2_6.index t (0 : Fin 2) = 0 :=
  (by decide +kernel : ∀ t : Fin grid2.N, win2_6.index t (0 : Fin 2) = 0)
theorem idx2_6_1 : ∀ t : Fin cfg2.N, win2_6.index t (1 : Fin 2) = 0 :=
  (by decide +kernel : ∀ t : Fin grid2.N, win2_6.index t (1 : Fin 2) = 0)
theorem idx2_7_0 : ∀ t : Fin cfg2.N, win2_7.index t (0 : Fin 2) = 0 :=
  (by decide +kernel : ∀ t : Fin grid2.N, win2_7.index t (0 : Fin 2) = 0)
theorem idx2_7_1 : ∀ t : Fin cfg2.N, win2_7.index t (1 : Fin 2) = 0 :=
  (by decide +kernel : ∀ t : Fin grid2.N, win2_7.index t (1 : Fin 2) = 0)
theorem idx2_8_0 : ∀ t : Fin cfg2.N, win2_8.index t (0 : Fin 2) = 0 :=
  (by decide +kernel : ∀ t : Fin grid2.N, win2_8.index t (0 : Fin 2) = 0)
theorem idx2_8_1 : ∀ t : Fin cfg2.N, win2_8.index t (1 : Fin 2) = 0 :=
  (by decide +kernel : ∀ t : Fin grid2.N, win2_8.index t (1 : Fin 2) = 0)
theorem idx2_9_0 : ∀ t : Fin cfg2.N, win2_9.index t (0 : Fin 2) = 0 :=
  (by decide +kernel : ∀ t : Fin grid2.N, win2_9.index t (0 : Fin 2) = 0)
theorem idx2_9_1 : ∀ t : Fin cfg2.N, win2_9.index t (1 : Fin 2) = 0 :=
  (by decide +kernel : ∀ t : Fin grid2.N, win2_9.index t (1 : Fin 2) = 0)
theorem idx2_10_0 : ∀ t : Fin cfg2.N, win2_10.index t (0 : Fin 2) = 0 :=
  (by decide +kernel : ∀ t : Fin grid2.N, win2_10.index t (0 : Fin 2) = 0)
theorem idx2_10_1 : ∀ t : Fin cfg2.N, win2_10.index t (1 : Fin 2) = 0 :=
  (by decide +kernel : ∀ t : Fin grid2.N, win2_10.index t (1 : Fin 2) = 0)

/-- Window 0's one block is its whole array. -/
theorem iblk_0 (c : Dev nD) (t : Fin cfg2.N) : Fr.iblk2 (F := Ideal) V c 0 t = V c main_arg0 := by
  funext x
  show V c main_arg0 (((cfg2.win 0).blk t).view.emb x) = V c main_arg0 x
  refine congrArg (V c main_arg0) (funext fun a => Fin.ext ?_)
  have h0 := idx2_0_0 t
  have h1 := idx2_0_1 t
  match a with
  | ⟨0, _⟩ => show win2_0.index t (0 : Fin 2) * 32 + 1 * (x 0).val = (x 0).val; omega
  | ⟨1, _⟩ => show win2_0.index t (1 : Fin 2) * 768 + 1 * (x 1).val = (x 1).val; omega

/-- Window 1's one block is its whole array. -/
theorem iblk_1 (c : Dev nD) (t : Fin cfg2.N) : Fr.iblk2 (F := Ideal) V c 1 t = V c main_v5 := by
  funext x
  show V c main_v5 (((cfg2.win 1).blk t).view.emb x) = V c main_v5 x
  refine congrArg (V c main_v5) (funext fun a => Fin.ext ?_)
  have h0 := idx2_1_0 t
  have h1 := idx2_1_1 t
  match a with
  | ⟨0, _⟩ => show win2_1.index t (0 : Fin 2) * 32 + 1 * (x 0).val = (x 0).val; omega
  | ⟨1, _⟩ => show win2_1.index t (1 : Fin 2) * 768 + 1 * (x 1).val = (x 1).val; omega

/-- Window 2's one block is its whole array. -/
theorem iblk_2 (c : Dev nD) (t : Fin cfg2.N) : Fr.iblk2 (F := Ideal) V c 2 t = V c main_v4 := by
  funext x
  show V c main_v4 (((cfg2.win 2).blk t).view.emb x) = V c main_v4 x
  refine congrArg (V c main_v4) (funext fun a => Fin.ext ?_)
  have h0 := idx2_2_0 t
  have h1 := idx2_2_1 t
  match a with
  | ⟨0, _⟩ => show win2_2.index t (0 : Fin 2) * 32 + 1 * (x 0).val = (x 0).val; omega
  | ⟨1, _⟩ => show win2_2.index t (1 : Fin 2) * 768 + 1 * (x 1).val = (x 1).val; omega

/-- Window 3's one block is its whole array. -/
theorem iblk_3 (c : Dev nD) (t : Fin cfg2.N) : Fr.iblk2 (F := Ideal) V c 3 t = V c main_v7 := by
  funext x
  show V c main_v7 (((cfg2.win 3).blk t).view.emb x) = V c main_v7 x
  refine congrArg (V c main_v7) (funext fun a => Fin.ext ?_)
  have h0 := idx2_3_0 t
  have h1 := idx2_3_1 t
  match a with
  | ⟨0, _⟩ => show win2_3.index t (0 : Fin 2) * 32 + 1 * (x 0).val = (x 0).val; omega
  | ⟨1, _⟩ => show win2_3.index t (1 : Fin 2) * 2304 + 1 * (x 1).val = (x 1).val; omega

/-- Window 4's one block is its whole array. -/
theorem iblk_4 (c : Dev nD) (t : Fin cfg2.N) : Fr.iblk2 (F := Ideal) V c 4 t = V c main_arg5 := by
  funext x
  show V c main_arg5 (((cfg2.win 4).blk t).view.emb x) = V c main_arg5 x
  refine congrArg (V c main_arg5) (funext fun a => Fin.ext ?_)
  have h0 := idx2_4_0 t
  have h1 := idx2_4_1 t
  match a with
  | ⟨0, _⟩ => show win2_4.index t (0 : Fin 2) * 768 + 1 * (x 0).val = (x 0).val; omega
  | ⟨1, _⟩ => show win2_4.index t (1 : Fin 2) * 512 + 1 * (x 1).val = (x 1).val; omega

/-- Window 5's one block is its whole array. -/
theorem iblk_5 (c : Dev nD) (t : Fin cfg2.N) : Fr.iblk2 (F := Ideal) V c 5 t = V c main_v8 := by
  funext x
  show V c main_v8 (((cfg2.win 5).blk t).view.emb x) = V c main_v8 x
  refine congrArg (V c main_v8) (funext fun a => Fin.ext ?_)
  have h0 := idx2_5_0 t
  have h1 := idx2_5_1 t
  match a with
  | ⟨0, _⟩ => show win2_5.index t (0 : Fin 2) * 1 + 1 * (x 0).val = (x 0).val; omega
  | ⟨1, _⟩ => show win2_5.index t (1 : Fin 2) * 512 + 1 * (x 1).val = (x 1).val; omega

/-- Window 6's one block is its whole array. -/
theorem iblk_6 (c : Dev nD) (t : Fin cfg2.N) : Fr.iblk2 (F := Ideal) V c 6 t = V c main_arg7 := by
  funext x
  show V c main_arg7 (((cfg2.win 6).blk t).view.emb x) = V c main_arg7 x
  refine congrArg (V c main_arg7) (funext fun a => Fin.ext ?_)
  have h0 := idx2_6_0 t
  have h1 := idx2_6_1 t
  match a with
  | ⟨0, _⟩ => show win2_6.index t (0 : Fin 2) * 3840 + 1 * (x 0).val = (x 0).val; omega
  | ⟨1, _⟩ => show win2_6.index t (1 : Fin 2) * 256 + 1 * (x 1).val = (x 1).val; omega

/-- Window 7's one block is its whole array. -/
theorem iblk_7 (c : Dev nD) (t : Fin cfg2.N) : Fr.iblk2 (F := Ideal) V c 7 t = V c main_v9 := by
  funext x
  show V c main_v9 (((cfg2.win 7).blk t).view.emb x) = V c main_v9 x
  refine congrArg (V c main_v9) (funext fun a => Fin.ext ?_)
  have h0 := idx2_7_0 t
  have h1 := idx2_7_1 t
  match a with
  | ⟨0, _⟩ => show win2_7.index t (0 : Fin 2) * 1 + 1 * (x 0).val = (x 0).val; omega
  | ⟨1, _⟩ => show win2_7.index t (1 : Fin 2) * 256 + 1 * (x 1).val = (x 1).val; omega

/-- Window 8's one block is its whole array. -/
theorem iblk_8 (c : Dev nD) (t : Fin cfg2.N) : Fr.iblk2 (F := Ideal) V c 8 t = V c main_arg9 := by
  funext x
  show V c main_arg9 (((cfg2.win 8).blk t).view.emb x) = V c main_arg9 x
  refine congrArg (V c main_arg9) (funext fun a => Fin.ext ?_)
  have h0 := idx2_8_0 t
  have h1 := idx2_8_1 t
  match a with
  | ⟨0, _⟩ => show win2_8.index t (0 : Fin 2) * 256 + 1 * (x 0).val = (x 0).val; omega
  | ⟨1, _⟩ => show win2_8.index t (1 : Fin 2) * 7 + 1 * (x 1).val = (x 1).val; omega

/-- Window 9's one block is its whole array. -/
theorem iblk_9 (c : Dev nD) (t : Fin cfg2.N) : Fr.iblk2 (F := Ideal) V c 9 t = V c main_v10 := by
  funext x
  show V c main_v10 (((cfg2.win 9).blk t).view.emb x) = V c main_v10 x
  refine congrArg (V c main_v10) (funext fun a => Fin.ext ?_)
  have h0 := idx2_9_0 t
  have h1 := idx2_9_1 t
  match a with
  | ⟨0, _⟩ => show win2_9.index t (0 : Fin 2) * 1 + 1 * (x 0).val = (x 0).val; omega
  | ⟨1, _⟩ => show win2_9.index t (1 : Fin 2) * 7 + 1 * (x 1).val = (x 1).val; omega

/-- The output array as one function of the ten input arrays: the body's arithmetic of the whole arrays. -/
def G (c : Dev nD) : S32x7.Idx → EReal :=
  k2_pay1 (F := Ideal) (k2_pay2 (V c main_arg5) (V c main_arg0) (V c main_v8) (V c main_v5) (V c main_v8) (V c main_v4) (V c main_v8)
      (V c main_v7) (V c main_arg7)) (k2_pay3 (V c main_v9)) (V c main_arg9) (V c main_v10)

/-- The staging buffer after the body is the body's arithmetic of the ten loaded blocks: its one store and its loads go
    through the whole-block rectangle at offset zero. -/
theorem out2_10_eq (x0 x1 x2 : Vec Ideal S32x768 .f32) (x3 : Vec Ideal S32x2304 .f32) (x4 : Vec Ideal S768x512 .f32)
    (x5 : Vec Ideal S1x512 .f32) (x6 : Vec Ideal S3840x256 .f32) (x7 : Vec Ideal S1x256 .f32) (x8 : Vec Ideal S256x7 .f32)
    (x9 : Vec Ideal S1x7 .f32) :
    Fr.out2_10 (F := Ideal) x0 x1 x2 x3 x4 x5 x6 x7 x8 x9
      = k2_pay1 (k2_pay2 x4 x0 x5 x1 x5 x2 x5 x3 x6) (k2_pay3 x7) x8 x9 := by
  unfold Fr.out2_10
  rw [View.canon_unit_zero hz2]
  rw [View.ld_unit_zero (S := S768x512) hz2, View.ld_unit_zero (S := S32x768) hz2, View.ld_unit_zero (S := S32x768) hz2,
    View.ld_unit_zero (S := S32x768) hz2, View.ld_unit_zero (S := S1x512) hz2, View.ld_unit_zero (S := S32x2304) hz2,
    View.ld_unit_zero (S := S3840x256) hz2, View.ld_unit_zero (S := S1x256) hz2, View.ld_unit_zero (S := S256x7) hz2,
    View.ld_unit_zero (S := S1x7) hz2]

/-- What the one point leaves in the output's staging buffer is G. -/
theorem after10_eq (c : Dev nD) (t : Fin cfg2.N) : (Fr.dat2 (F := Ideal) V c).after 10 t = G V c := by
  rw [Fr.after2_10, out2_10_eq, iblk_0, iblk_1, iblk_2, iblk_3, iblk_4, iblk_5, iblk_6, iblk_7, iblk_8, iblk_9]
  rfl

/-- What the one point writes back is the one block of G. -/
theorem flushed10_eq (c : Dev nD) (t : Fin cfg2.N) :
    (Fr.dat2 (F := Ideal) V c).flushed 10 t = ((cfg2.win 10).blk t).view.read (Elt Ideal) (G V c) := by
  show (cfg2.win 10).cut (grid2.coords t) ((Fr.dat2 (F := Ideal) V c).after 10 t) = _
  rw [after10_eq]
  funext y
  show G V c ((cfg2.win 10).xinj (grid2.coords t) y) = G V c (((cfg2.win 10).blk t).view.emb y)
  refine congrArg (G V c) (funext fun a => Fin.ext ?_)
  have h0 := idx2_10_0 t
  have h1 := idx2_10_1 t
  match a with
  | ⟨0, _⟩ => show (y 0).val = win2_10.index t (0 : Fin 2) * 32 + 1 * (y 0).val; omega
  | ⟨1, _⟩ => show (y 1).val = win2_10.index t (1 : Fin 2) * 7 + 1 * (y 1).val; omega

/-- Every index of the output array is in the one point's block. -/
theorem mem_blk10 (t : Fin cfg2.N) (i : S32x7.Idx) : i ∈ ((cfg2.win 10).blk t).view.set := by
  show i ∈ ((View.whole main_v11).slice (win2_10.rect t)).set
  rw [View.set_slice_whole, Rect.mem_set_unit]
  have h0 := idx2_10_0 t
  have h1 := idx2_10_1 t
  have b0 : (i 0).val < 32 := (i 0).isLt
  have b1 : (i 1).val < 7 := (i 1).isLt
  intro a
  match a with
  | ⟨0, _⟩ => show win2_10.index t (0 : Fin 2) * 32 ≤ (i 0).val ∧ (i 0).val < win2_10.index t (0 : Fin 2) * 32 + 32; omega
  | ⟨1, _⟩ => show win2_10.index t (1 : Fin 2) * 7 ≤ (i 1).val ∧ (i 1).val < win2_10.index t (1 : Fin 2) * 7 + 7; omega

/-- The output array after the call is G of the ten input arrays as found. -/
theorem arr10 (c : Dev nD) : (Fr.dat2 (F := Ideal) V c).arrAt 10 cfg2.N = G V c :=
  (Fr.dat2 (F := Ideal) V c).arrAt_eq_of_cover 10 (G V c) (fun t _ => flushed10_eq V c t)
    (fun i => ⟨t2_0, flush2_10 t2_0, mem_blk10 t2_0 i⟩)

/-- The output array after the call, read at (i, j), is the specification's classifier head of the ten input arrays as
    found, read as matrices and rows. -/
theorem head2 (c : Dev nD) (i : Fin 32) (j : Fin 7) :
    (Fr.dat2 (F := Ideal) V c).arrAt 10 cfg2.N (ix2 i j)
      = Cert.Spec.head (mat (V c main_arg0)) (mat (V c main_v5)) (mat (V c main_v4)) (mat (V c main_v7))
          (mat (V c main_arg5)) (fun k => V c main_v8 (ix2 0 k)) (mat (V c main_arg7)) (fun k => V c main_v9 (ix2 0 k))
          (mat (V c main_arg9)) (fun k => V c main_v10 (ix2 0 k)) i j :=
  (congrFun (arr10 V c) (ix2 i j)).trans
    (pay_apply (V c main_arg0) (V c main_v5) (V c main_v4) (V c main_v7) (V c main_arg5) (V c main_v8) (V c main_arg7)
      (V c main_v9) (V c main_arg9) (V c main_v10) i j)

end Cert.KernelIdeal.KVal

end
-- ==== Proof.KernelValue.lean ====
/-
  The kernel program's result, read at an index, is the classifier of Spec.lean with every attention dividing once
  after its two sums: the host glue between the calls (KGlue.lean) over what the two attention calls leave — the body's
  arithmetic at an index (KAttn0 / KAttn1) carried from the per-point blocks to the whole arrays (KBlocks0 / KBlocks1) —
  and what the classifier call leaves (KHead.lean).
-/
import proofs.«175428_j35777077575730_2_alg».proof.Proof.KGlue
import proofs.«175428_j35777077575730_2_alg».proof.Proof.KAttn0
import proofs.«175428_j35777077575730_2_alg».proof.Proof.KAttn1
import proofs.«175428_j35777077575730_2_alg».proof.Proof.KBlocks0
import proofs.«175428_j35777077575730_2_alg».proof.Proof.KBlocks1
import proofs.«175428_j35777077575730_2_alg».proof.Proof.KHead

noncomputable section

namespace Cert.KernelIdeal.KVal

open Cert.KernelIdeal Cert.KernelIdeal.Gen Idealize.ShloMosaic Idealize.ShloMosaic.TcCoe Idealize.ShloMosaic.ValueIdx Cert.Spec

/-- Entry (i, j) of the result array after the run is entry (i, j) of the classifier in the first arrangement, of the
    eleven launch arrays in the programs' order. -/
theorem kernel_model (m : (ℓ : Loc nD τ sig) → Buf (Elt Ideal) ℓ) (ρ : Dev nD → PrngReg) (c : Dev nD) (i : Fin 32) (j : Fin 7) :
    Fr.W6 (F := Ideal) m ρ c main_v11 (ix2 i j)
      = modelK (mat (m ((c : Thread nD τ).loc main_arg0))) (mat (m ((c : Thread nD τ).loc main_arg1))) (mat (m ((c : Thread nD τ).loc main_arg2)))
          (mat (m ((c : Thread nD τ).loc main_arg3))) (mat (m ((c : Thread nD τ).loc main_arg4))) (mat (m ((c : Thread nD τ).loc main_arg5)))
          (vec (m ((c : Thread nD τ).loc main_arg6))) (mat (m ((c : Thread nD τ).loc main_arg7))) (vec (m ((c : Thread nD τ).loc main_arg8)))
          (mat (m ((c : Thread nD τ).loc main_arg9))) (vec (m ((c : Thread nD τ).loc main_arg10))) i j :=
  kernel_value (attn0_of_pay pay0_at) (attn1_of_pay pay1_at) head2 m ρ c i j

end Cert.KernelIdeal.KVal

end
-- ==== Proof.RefHead.lean ====
/-
  The reference program behind its three attentions, read at an index.

  With the two context attentions and the fused attention kept as given arrays, the rest of the reference is: the shared
  projection x · W + b of the sentence and of the two contexts, the four blocks side by side, the hidden layer
  max (f · W1 + b1) 0 and the output layer 1 / (1 + exp (-(h · W2 + b2))), which is the logistic function by definition.
  Each contraction is a sum over its one contracted coordinate; each bias is a row repeated over the 32 rows.
-/
import proofs.«175428_j35777077575730_2_alg».proof.Proof.RefRead
import proofs.«175428_j35777077575730_2_alg».proof.Proof.Spec
import proofs.«175428_j35777077575730_2_alg».proof.Proof.LibCat4

noncomputable section

namespace Cert.ReferenceIdeal.RefHead

open Cert.ReferenceIdeal Cert.ReferenceIdeal.Gen Idealize.ShloMosaic Idealize.ShloMosaic.ValueIdx Cert.Spec

/-- The word 0x3F800000 is the number one. -/
theorem ofBits_one_f32 : Ideal.ofBits .f32 0x3F800000#32 = 1 := by
  simp [Ideal.ofBits, Ideal.ieee]
  rw [← EReal.coe_mul]
  norm_num

/-- A [32, 768] array times the shared [768, 512] weights plus the repeated bias row, at (i, j): the contraction's two
    operand indices are (i, k) and (k, j), the bias index is j. -/
theorem proj_at (y : (⟨S32x768, .f32⟩ : BufTy).Contents (Elt Ideal)) (x5 : (⟨S768x512, .f32⟩ : BufTy).Contents (Elt Ideal))
    (x6 : (⟨S512, .f32⟩ : BufTy).Contents (Elt Ideal)) (i : Fin 32) (j : Fin 512) :
    (∑ k : Fin 768, y (ReadP.lidx_main_v35 (ix2 i j) k) * x5 (ReadP.ridx_main_v35 (ix2 i j) k))
        + x6 (ReadP.idx_main_v36 (ReadP.idx_main_v37 (ix2 i j)))
      = proj (mat y) (mat x5) (vec x6) i j := by
  unfold proj mat vec
  congr 1
  · refine Finset.sum_congr rfl fun k _ => ?_
    congr 2
    · funext a; match a with | ⟨0, _⟩ => rfl | ⟨1, _⟩ => rfl
    · funext a; match a with | ⟨0, _⟩ => rfl | ⟨1, _⟩ => rfl
  · congr 1
    funext a; match a with | ⟨0, _⟩ => rfl

/-- The sentence's shared projection. -/
theorem v38_eq (x0 : (⟨S32x768, .f32⟩ : BufTy).Contents (Elt Ideal)) (x5 : (⟨S768x512, .f32⟩ : BufTy).Contents (Elt Ideal))
    (x6 : (⟨S512, .f32⟩ : BufTy).Contents (Elt Ideal)) (i : Fin 32) (j : Fin 512) :
    ReadP.val_main_v38 (F := Ideal) x0 x5 x6 (ix2 i j) = proj (mat x0) (mat x5) (vec x6) i j := by
  rw [ReadP.val_main_v38_apply, ReadP.val_main_v35_apply, ReadP.val_main_v37_apply, ReadP.val_main_v36_apply]
  exact proj_at x0 x5 x6 i j

/-- The scene context's shared projection, the context kept as a given array. -/
theorem v43_eq (x3 x4 : (⟨S32x768, .f32⟩ : BufTy).Contents (Elt Ideal)) (x5 : (⟨S768x512, .f32⟩ : BufTy).Contents (Elt Ideal))
    (x6 : (⟨S512, .f32⟩ : BufTy).Contents (Elt Ideal)) (i : Fin 32) (j : Fin 512) :
    ReadP.val_main_v43 (F := Ideal) x3 x4 x5 x6 (ix2 i j)
      = proj (mat (ReadP.val_main_v39 (F := Ideal) x3 x4)) (mat x5) (vec x6) i j := by
  rw [ReadP.val_main_v43_apply, ReadP.val_main_v40_apply, ReadP.val_main_v42_apply, ReadP.val_main_v41_apply]
  generalize ReadP.val_main_v39 (F := Ideal) x3 x4 = y
  exact proj_at y x5 x6 i j

/-- The speaker context's shared projection, the context kept as a given array. -/
theorem v48_eq (x1 x2 : (⟨S32x768, .f32⟩ : BufTy).Contents (Elt Ideal)) (x5 : (⟨S768x512, .f32⟩ : BufTy).Contents (Elt Ideal))
    (x6 : (⟨S512, .f32⟩ : BufTy).Contents (Elt Ideal)) (i : Fin 32) (j : Fin 512) :
    ReadP.val_main_v48 (F := Ideal) x1 x2 x5 x6 (ix2 i j)
      = proj (mat (ReadP.val_main_v44 (F := Ideal) x1 x2)) (mat x5) (vec x6) i j := by
  rw [ReadP.val_main_v48_apply, ReadP.val_main_v45_apply, ReadP.val_main_v47_apply, ReadP.val_main_v46_apply]
  generalize ReadP.val_main_v44 (F := Ideal) x1 x2 = y
  exact proj_at y x5 x6 i j

/-- The four blocks side by side: the fused attention and the three projections. -/
theorem v66_eq (x0 x1 x2 x3 x4 : (⟨S32x768, .f32⟩ : BufTy).Contents (Elt Ideal))
    (x5 : (⟨S768x512, .f32⟩ : BufTy).Contents (Elt Ideal)) (x6 : (⟨S512, .f32⟩ : BufTy).Contents (Elt Ideal))
    (i : Fin 32) (l : Fin 3840) :
    ReadP.val_main_v66 (F := Ideal) x0 x1 x2 x3 x4 x5 x6 (ix2 i l)
      = cat4 (mat (ReadP.val_main_v65 (F := Ideal) x0 x1 x2 x3 x4)) (proj (mat x0) (mat x5) (vec x6))
          (proj (mat (ReadP.val_main_v39 (F := Ideal) x3 x4)) (mat x5) (vec x6))
          (proj (mat (ReadP.val_main_v44 (F := Ideal) x1 x2)) (mat x5) (vec x6)) i l := by
  have e38 : mat (ReadP.val_main_v38 (F := Ideal) x0 x5 x6) = proj (mat x0) (mat x5) (vec x6) :=
    funext fun i => funext fun j => v38_eq x0 x5 x6 i j
  have e43 : mat (ReadP.val_main_v43 (F := Ideal) x3 x4 x5 x6)
      = proj (mat (ReadP.val_main_v39 (F := Ideal) x3 x4)) (mat x5) (vec x6) :=
    funext fun i => funext fun j => v43_eq x3 x4 x5 x6 i j
  have e48 : mat (ReadP.val_main_v48 (F := Ideal) x1 x2 x5 x6)
      = proj (mat (ReadP.val_main_v44 (F := Ideal) x1 x2)) (mat x5) (vec x6) :=
    funext fun i => funext fun j => v48_eq x1 x2 x5 x6 i j
  unfold ReadP.val_main_v66
  refine (Cert.Lib.cat4_apply _ _ _ _ _ i l).trans ?_
  rw [e38, e43, e48]

/-- A [32, 3840] array times the [3840, 256] weights plus the repeated bias row, cut off below at zero, at (i, j). -/
theorem hidden_at (f : (⟨S32x3840, .f32⟩ : BufTy).Contents (Elt Ideal)) (x7 : (⟨S3840x256, .f32⟩ : BufTy).Contents (Elt Ideal))
    (x8 : (⟨S256, .f32⟩ : BufTy).Contents (Elt Ideal)) (i : Fin 32) (j : Fin 256) :
    max ((∑ k : Fin 3840, f (ReadP.lidx_main_v67 (ix2 i j) k) * x7 (ReadP.ridx_main_v67 (ix2 i j) k))
        + x8 (ReadP.idx_main_v68 (ReadP.idx_main_v69 (ix2 i j)))) 0
      = Spec.hidden (mat f) (mat x7) (vec x8) i j := by
  unfold Spec.hidden mat vec
  congr 2
  · refine Finset.sum_congr rfl fun k _ => ?_
    congr 2
    · funext a; match a with | ⟨0, _⟩ => rfl | ⟨1, _⟩ => rfl
    · funext a; match a with | ⟨0, _⟩ => rfl | ⟨1, _⟩ => rfl
  · congr 1
    funext a; match a with | ⟨0, _⟩ => rfl

/-- The hidden layer of the reference. -/
theorem v71_eq (x0 x1 x2 x3 x4 : (⟨S32x768, .f32⟩ : BufTy).Contents (Elt Ideal))
    (x5 : (⟨S768x512, .f32⟩ : BufTy).Contents (Elt Ideal)) (x6 : (⟨S512, .f32⟩ : BufTy).Contents (Elt Ideal))
    (x7 : (⟨S3840x256, .f32⟩ : BufTy).Contents (Elt Ideal)) (x8 : (⟨S256, .f32⟩ : BufTy).Contents (Elt Ideal))
    (i : Fin 32) (j : Fin 256) :
    ReadP.val_main_v71 (F := Ideal) x0 x1 x2 x3 x4 x5 x6 x7 x8 (ix2 i j)
      = Spec.hidden (mat (ReadP.val_main_v66 (F := Ideal) x0 x1 x2 x3 x4 x5 x6)) (mat x7) (vec x8) i j := by
  rw [ReadP.val_main_v71_apply, ReadP.val_main_v70_apply, ReadP.val_main_v67_apply, ReadP.val_main_v69_apply,
    ReadP.val_main_v68_apply, ReadP.val_main_call0_v0_apply, ReadP.val_main_call0_cst_apply]
  generalize ReadP.val_main_v66 (F := Ideal) x0 x1 x2 x3 x4 x5 x6 = f
  rw [Ideal.ofBits_def, Ideal.ofBits_zero_f32]
  exact hidden_at f x7 x8 i j

/-- A [32, 256] array times the [256, 7] weights plus the repeated bias row, through 1 / (1 + exp (-·)), at (i, j). -/
theorem out_at (h : (⟨S32x256, .f32⟩ : BufTy).Contents (Elt Ideal)) (x9 : (⟨S256x7, .f32⟩ : BufTy).Contents (Elt Ideal))
    (x10 : (⟨S7, .f32⟩ : BufTy).Contents (Elt Ideal)) (i : Fin 32) (j : Fin 7) :
    Ideal.div 1 (1 + Ideal.exp (-((∑ k : Fin 256, h (ReadP.lidx_main_v72 (ix2 i j) k) * x9 (ReadP.ridx_main_v72 (ix2 i j) k))
        + x10 (ReadP.idx_main_v73 (ReadP.idx_main_v74 (ix2 i j))))))
      = outLayer (mat h) (mat x9) (vec x10) i j := by
  unfold outLayer Ideal.logistic mat vec
  congr 5
  · refine Finset.sum_congr rfl fun k _ => ?_
    congr 2
    · funext a; match a with | ⟨0, _⟩ => rfl | ⟨1, _⟩ => rfl
    · funext a; match a with | ⟨0, _⟩ => rfl | ⟨1, _⟩ => rfl
  · congr 1
    funext a; match a with | ⟨0, _⟩ => rfl

/-- The reference behind its three attentions is the specification's head, the attentions kept as given arrays. -/
theorem head_eq (x0 x1 x2 x3 x4 : (⟨S32x768, .f32⟩ : BufTy).Contents (Elt Ideal))
    (x5 : (⟨S768x512, .f32⟩ : BufTy).Contents (Elt Ideal)) (x6 : (⟨S512, .f32⟩ : BufTy).Contents (Elt Ideal))
    (x7 : (⟨S3840x256, .f32⟩ : BufTy).Contents (Elt Ideal)) (x8 : (⟨S256, .f32⟩ : BufTy).Contents (Elt Ideal))
    (x9 : (⟨S256x7, .f32⟩ : BufTy).Contents (Elt Ideal)) (x10 : (⟨S7, .f32⟩ : BufTy).Contents (Elt Ideal))
    (i : Fin 32) (j : Fin 7) :
    ReadP.val_main_v81 (F := Ideal) x0 x1 x2 x3 x4 x5 x6 x7 x8 x9 x10 (ix2 i j)
      = head (mat x0) (mat (ReadP.val_main_v39 (F := Ideal) x3 x4)) (mat (ReadP.val_main_v44 (F := Ideal) x1 x2))
          (mat (ReadP.val_main_v65 (F := Ideal) x0 x1 x2 x3 x4)) (mat x5) (vec x6) (mat x7) (vec x8) (mat x9) (vec x10) i j := by
  have e66 : mat (ReadP.val_main_v66 (F := Ideal) x0 x1 x2 x3 x4 x5 x6)
      = cat4 (mat (ReadP.val_main_v65 (F := Ideal) x0 x1 x2 x3 x4)) (proj (mat x0) (mat x5) (vec x6))
          (proj (mat (ReadP.val_main_v39 (F := Ideal) x3 x4)) (mat x5) (vec x6))
          (proj (mat (ReadP.val_main_v44 (F := Ideal) x1 x2)) (mat x5) (vec x6)) :=
    funext fun i => funext fun l => v66_eq x0 x1 x2 x3 x4 x5 x6 i l
  have e71 : mat (ReadP.val_main_v71 (F := Ideal) x0 x1 x2 x3 x4 x5 x6 x7 x8)
      = Spec.hidden (mat (ReadP.val_main_v66 (F := Ideal) x0 x1 x2 x3 x4 x5 x6)) (mat x7) (vec x8) :=
    funext fun i => funext fun j => v71_eq x0 x1 x2 x3 x4 x5 x6 x7 x8 i j
  unfold head
  rw [← e66, ← e71]
  rw [ReadP.val_main_v81_apply, ReadP.val_main_v80_apply, ReadP.val_main_cst_12_apply, ReadP.val_main_v79_apply,
    ReadP.val_main_v78_apply, ReadP.val_main_cst_11_apply, ReadP.val_main_v77_apply, ReadP.val_main_v76_apply,
    ReadP.val_main_v75_apply, ReadP.val_main_v72_apply, ReadP.val_main_v74_apply, ReadP.val_main_v73_apply]
  generalize ReadP.val_main_v71 (F := Ideal) x0 x1 x2 x3 x4 x5 x6 x7 x8 = h
  rw [Ideal.ofBits_def, ofBits_one_f32]
  exact out_at h x9 x10 i j

end Cert.ReferenceIdeal.RefHead

end
-- ==== Proof.RefAttn.lean ====
/-
  The reference program's three attentions, read at an index.

  Each attention has feature dimension one: a score is the product of a query value and a key value (the contraction
  runs over one position, and the factor 1.0 changes nothing); a row of scores is shifted by its maximum (taken from
  -∞, and compared with -∞ once more), exponentiated, divided by the sum of the row (taken from 0), and the row of
  normalised weights is contracted with the values. Read index by index this is the arrangement that normalises every
  weight before the weighted sum. The third attention runs on the three blocks of 768 columns side by side:
  the sentence, the scene attention and the speaker attention.
-/
import proofs.«175428_j35777077575730_2_alg».proof.Proof.Spec
import proofs.«175428_j35777077575730_2_alg».proof.Proof.RefRead
import Idealize.ShloMosaic.Lib.IdealHost

noncomputable section

namespace Cert.ReferenceIdeal.RefAttn

open Cert.ReferenceIdeal Cert.ReferenceIdeal.Gen Cert.ReferenceIdeal.ReadP Idealize.ShloMosaic Idealize.ShloMosaic.ValueIdx
open scoped BigOperators

/-- The word of minus infinity. -/
theorem ofBits_neg_inf_f32 : Ideal.ofBits .f32 0xFF800000#32 = ⊥ := by
  simp [Ideal.ofBits, Ideal.ieee]

/-- One row of a softmax attention, step by step: scores e, their maximum m taken from -∞ (and once more against -∞),
    shifted exponentials p, their sum z from zero, normalised weights w, and the weighted sum o. -/
theorem attnR_of_chain {n : ℕ} (q : EReal) (k v e p w : Fin n → EReal) (m z o : EReal)
    (he : ∀ t, e t = q * k t) (hm : m = max ⊥ (Finset.univ.fold max ⊥ e))
    (hp : ∀ t, p t = Ideal.exp (e t - m)) (hz : z = 0 + ∑ t, p t)
    (hw : ∀ t, w t = Ideal.div (p t) z) (ho : o = ∑ t, w t * v t) :
    o = Cert.Spec.attnR q k v := by
  have e_eq : e = fun t => q * k t := funext he
  subst e_eq
  have hm' : m = Cert.Spec.rowMax fun u => q * k u := by
    rw [hm]; exact max_eq_right bot_le
  have p_eq : p = Cert.Spec.wgt q k := funext fun t => by rw [hp t, hm']; rfl
  subst p_eq
  rw [zero_add] at hz
  subst hz
  have w_eq : w = fun t => Ideal.div (Cert.Spec.wgt q k t) (∑ u, Cert.Spec.wgt q k u) := funext hw
  subst w_eq
  rw [ho]; rfl

/-! ## The first attention: queries from the other speaker, keys and values from the target speaker -/

section speaker
variable (x1 x2 : (⟨S32x768, .f32⟩ : BufTy).Contents (Elt Ideal))

/-- A score: the product of the query and the key (the contracted axis has one position; the factor 1.0 changes nothing). -/
theorem v7_at (i : Fin 32) (s t : Fin 768) :
    val_main_v7 (F := Ideal) x1 x2 (ix3 i s t) = x2 (ix2 i s) * x1 (ix2 i t) := by
  rw [val_main_v7_apply, val_main_v5_apply, val_main_v6_apply, val_main_cst_apply, Fin.sum_univ_one,
    val_main_v3_apply, val_main_v2_apply, Ideal.mulf_def, Ideal.ofBits_def, Ideal.ofBits_one_f32, mul_one]
  exact congrArg₂ (· * ·) (congrArg x2 (funext fun a => match a with | ⟨0, _⟩ => rfl | ⟨1, _⟩ => rfl))
    (congrArg x1 (funext fun a => match a with | ⟨0, _⟩ => rfl | ⟨1, _⟩ => rfl))

/-- Dropping the last axis of a [32,768,768] array leaves a [32,768] one. -/
theorem reduces_768 : S32x768x768.Reduces [2] S32x768 := by decide

/-- The maximum of a row of scores, folded from -∞. -/
theorem v8_at (i : Fin 32) (s : Fin 768) :
    val_main_v8 (F := Ideal) x1 x2 (ix2 i s)
      = Finset.univ.fold max ⊥ (fun t : Fin 768 => val_main_v7 (F := Ideal) x1 x2 (ix3 i s t)) := by
  unfold val_main_v8
  generalize val_main_v7 (F := Ideal) x1 x2 = y
  refine (Host.reduce_eq_fold_single (FloatOps.maximumf (F := Ideal) (φ := .f32)) y (val_main_cst_0 (F := Ideal))
    reducesTo_S32x768x768_S32x768_d2 reduces_768 h_S_ (ix2 i s)).trans ?_
  show Finset.fold max (Ideal.ofBits .f32 0xFF800000#32) _ (Finset.univ : Finset (Fin 768)) = _
  rw [ofBits_neg_inf_f32]
  refine congrArg (fun f => Finset.fold max ⊥ f (Finset.univ : Finset (Fin 768))) (funext fun t => ?_)
  exact congrArg y (funext fun a => Fin.ext (by match a with | ⟨0, _⟩ => rfl | ⟨1, _⟩ => rfl | ⟨2, _⟩ => rfl))

/-- The row maximum after the second comparison with -∞. -/
theorem v10_at (i : Fin 32) (s : Fin 768) :
    val_main_v10 (F := Ideal) x1 x2 (ix2 i s)
      = max ⊥ (Finset.univ.fold max ⊥ (fun t : Fin 768 => val_main_v7 (F := Ideal) x1 x2 (ix3 i s t))) := by
  rw [val_main_v10_apply, val_main_v9_apply, val_main_cst_1_apply, v8_at, Ideal.maximumf_def, Ideal.ofBits_def,
    ofBits_neg_inf_f32]

/-- A shifted exponential. -/
theorem v14_at (i : Fin 32) (s t : Fin 768) :
    val_main_v14 (F := Ideal) x1 x2 (ix3 i s t)
      = Ideal.exp (val_main_v7 (F := Ideal) x1 x2 (ix3 i s t) - val_main_v10 (F := Ideal) x1 x2 (ix2 i s)) := by
  have e : idx_main_v11 (idx_main_v12 (ix3 i s t)) = ix2 i s :=
    funext fun a => match a with | ⟨0, _⟩ => rfl | ⟨1, _⟩ => rfl
  rw [val_main_v14_apply, val_main_v13_apply, val_main_v12_apply, val_main_v11_apply, Ideal.hostUnary_exp_def,
    Ideal.subf_def, e]

/-- The sum of a row of shifted exponentials, from zero. -/
theorem v15_at (i : Fin 32) (s : Fin 768) :
    val_main_v15 (F := Ideal) x1 x2 (ix2 i s) = 0 + ∑ t : Fin 768, val_main_v14 (F := Ideal) x1 x2 (ix3 i s t) := by
  rw [val_main_v15_apply, val_main_cst_2_apply, Ideal.ofBits_def, Ideal.ofBits_zero_f32]
  refine congrArg (0 + ·) (Finset.sum_congr rfl fun t _ => congrArg _ ?_)
  exact funext fun a => match a with | ⟨0, _⟩ => rfl | ⟨1, _⟩ => rfl | ⟨2, _⟩ => rfl

/-- A normalised weight. -/
theorem v18_at (i : Fin 32) (s t : Fin 768) :
    val_main_v18 (F := Ideal) x1 x2 (ix3 i s t)
      = Ideal.div (val_main_v14 (F := Ideal) x1 x2 (ix3 i s t)) (val_main_v15 (F := Ideal) x1 x2 (ix2 i s)) := by
  have e : idx_main_v16 (idx_main_v17 (ix3 i s t)) = ix2 i s :=
    funext fun a => match a with | ⟨0, _⟩ => rfl | ⟨1, _⟩ => rfl
  rw [val_main_v18_apply, val_main_v17_apply, val_main_v16_apply, Ideal.hostDivf_def, e]

/-- The weighted sum of the values. -/
theorem v19_at (i : Fin 32) (s : Fin 768) :
    val_main_v19 (F := Ideal) x1 x2 (ix3 i s (0 : Fin 1))
      = ∑ t : Fin 768, val_main_v18 (F := Ideal) x1 x2 (ix3 i s t) * x1 (ix2 i t) := by
  rw [val_main_v19_apply]
  refine Finset.sum_congr rfl fun t _ => ?_
  rw [val_main_v2_apply]
  exact congrArg₂ (· * ·)
    (congrArg _ (funext fun a => match a with | ⟨0, _⟩ => rfl | ⟨1, _⟩ => rfl | ⟨2, _⟩ => rfl))
    (congrArg x1 (funext fun a => match a with | ⟨0, _⟩ => rfl | ⟨1, _⟩ => rfl))

/-- The reshape that drops the unit axis. -/
theorem v44_at (i : Fin 32) (s : Fin 768) :
    val_main_v44 (F := Ideal) x1 x2 (ix2 i s) = val_main_v19 (F := Ideal) x1 x2 (ix3 i s (0 : Fin 1)) := by
  have e : idx_main_v44 (ix2 i s) = ix3 i s (0 : Fin 1) := funext fun a => Fin.ext (by
    have hi := i.isLt
    have hs := s.isLt
    match a with
    | ⟨0, _⟩ => show (i.val * 768 + s.val) / 768 = i.val; omega
    | ⟨1, _⟩ => show (i.val * 768 + s.val) / 1 % 768 = s.val; omega
    | ⟨2, _⟩ => rfl)
  rw [val_main_v44_apply, e]

/-- The first attention, as a matrix: queries from the other speaker, keys and values from the target speaker. -/
theorem speaker_eq :
    Cert.Spec.mat (val_main_v44 (F := Ideal) x1 x2)
      = Cert.Spec.attnMatR (Cert.Spec.mat x2) (Cert.Spec.mat x1) (Cert.Spec.mat x1) := by
  funext i s
  show val_main_v44 (F := Ideal) x1 x2 (ix2 i s)
    = Cert.Spec.attnR (x2 (ix2 i s)) (fun t => x1 (ix2 i t)) (fun t => x1 (ix2 i t))
  rw [v44_at]
  exact attnR_of_chain (x2 (ix2 i s)) (fun t => x1 (ix2 i t)) (fun t => x1 (ix2 i t))
    (fun t => val_main_v7 (F := Ideal) x1 x2 (ix3 i s t)) (fun t => val_main_v14 (F := Ideal) x1 x2 (ix3 i s t))
    (fun t => val_main_v18 (F := Ideal) x1 x2 (ix3 i s t))
    (val_main_v10 (F := Ideal) x1 x2 (ix2 i s)) (val_main_v15 (F := Ideal) x1 x2 (ix2 i s)) _
    (fun t => v7_at x1 x2 i s t) (v10_at x1 x2 i s) (fun t => v14_at x1 x2 i s t) (v15_at x1 x2 i s)
    (fun t => v18_at x1 x2 i s t) (v19_at x1 x2 i s)

end speaker

/-! ## The second attention: queries and keys from the scene sentence, values from the scene description -/

section scene
variable (x3 x4 : (⟨S32x768, .f32⟩ : BufTy).Contents (Elt Ideal))

/-- A score: the product of the query and the key. -/
theorem v22_at (i : Fin 32) (s t : Fin 768) :
    val_main_v22 (F := Ideal) x4 (ix3 i s t) = x4 (ix2 i s) * x4 (ix2 i t) := by
  rw [val_main_v22_apply, val_main_v20_apply, val_main_v21_apply, val_main_cst_3_apply, Fin.sum_univ_one,
    val_main_v4_apply, val_main_v4_apply, Ideal.mulf_def, Ideal.ofBits_def, Ideal.ofBits_one_f32, mul_one]
  exact congrArg₂ (· * ·) (congrArg x4 (funext fun a => match a with | ⟨0, _⟩ => rfl | ⟨1, _⟩ => rfl))
    (congrArg x4 (funext fun a => match a with | ⟨0, _⟩ => rfl | ⟨1, _⟩ => rfl))

/-- The maximum of a row of scores, folded from -∞. -/
theorem v23_at (i : Fin 32) (s : Fin 768) :
    val_main_v23 (F := Ideal) x4 (ix2 i s)
      = Finset.univ.fold max ⊥ (fun t : Fin 768 => val_main_v22 (F := Ideal) x4 (ix3 i s t)) := by
  unfold val_main_v23
  generalize val_main_v22 (F := Ideal) x4 = y
  refine (Host.reduce_eq_fold_single (FloatOps.maximumf (F := Ideal) (φ := .f32)) y (val_main_cst_4 (F := Ideal))
    reducesTo_S32x768x768_S32x768_d2 reduces_768 h_S_ (ix2 i s)).trans ?_
  show Finset.fold max (Ideal.ofBits .f32 0xFF800000#32) _ (Finset.univ : Finset (Fin 768)) = _
  rw [ofBits_neg_inf_f32]
  refine congrArg (fun f => Finset.fold max ⊥ f (Finset.univ : Finset (Fin 768))) (funext fun t => ?_)
  exact congrArg y (funext fun a => Fin.ext (by match a with | ⟨0, _⟩ => rfl | ⟨1, _⟩ => rfl | ⟨2, _⟩ => rfl))

/-- The row maximum after the second comparison with -∞. -/
theorem v25_at (i : Fin 32) (s : Fin 768) :
    val_main_v25 (F := Ideal) x4 (ix2 i s)
      = max ⊥ (Finset.univ.fold max ⊥ (fun t : Fin 768 => val_main_v22 (F := Ideal) x4 (ix3 i s t))) := by
  rw [val_main_v25_apply, val_main_v24_apply, val_main_cst_5_apply, v23_at, Ideal.maximumf_def, Ideal.ofBits_def,
    ofBits_neg_inf_f32]

/-- A shifted exponential. -/
theorem v29_at (i : Fin 32) (s t : Fin 768) :
    val_main_v29 (F := Ideal) x4 (ix3 i s t)
      = Ideal.exp (val_main_v22 (F := Ideal) x4 (ix3 i s t) - val_main_v25 (F := Ideal) x4 (ix2 i s)) := by
  have e : idx_main_v26 (idx_main_v27 (ix3 i s t)) = ix2 i s :=
    funext fun a => match a with | ⟨0, _⟩ => rfl | ⟨1, _⟩ => rfl
  rw [val_main_v29_apply, val_main_v28_apply, val_main_v27_apply, val_main_v26_apply, Ideal.hostUnary_exp_def,
    Ideal.subf_def, e]

/-- The sum of a row of shifted exponentials, from zero. -/
theorem v30_at (i : Fin 32) (s : Fin 768) :
    val_main_v30 (F := Ideal) x4 (ix2 i s) = 0 + ∑ t : Fin 768, val_main_v29 (F := Ideal) x4 (ix3 i s t) := by
  rw [val_main_v30_apply, val_main_cst_6_apply, Ideal.ofBits_def, Ideal.ofBits_zero_f32]
  refine congrArg (0 + ·) (Finset.sum_congr rfl fun t _ => congrArg _ ?_)
  exact funext fun a => match a with | ⟨0, _⟩ => rfl | ⟨1, _⟩ => rfl | ⟨2, _⟩ => rfl

/-- A normalised weight. -/
theorem v33_at (i : Fin 32) (s t : Fin 768) :
    val_main_v33 (F := Ideal) x4 (ix3 i s t)
      = Ideal.div (val_main_v29 (F := Ideal) x4 (ix3 i s t)) (val_main_v30 (F := Ideal) x4 (ix2 i s)) := by
  have e : idx_main_v31 (idx_main_v32 (ix3 i s t)) = ix2 i s :=
    funext fun a => match a with | ⟨0, _⟩ => rfl | ⟨1, _⟩ => rfl
  rw [val_main_v33_apply, val_main_v32_apply, val_main_v31_apply, Ideal.hostDivf_def, e]

/-- The weighted sum of the values. -/
theorem v34_at (i : Fin 32) (s : Fin 768) :
    val_main_v34 (F := Ideal) x3 x4 (ix3 i s (0 : Fin 1))
      = ∑ t : Fin 768, val_main_v33 (F := Ideal) x4 (ix3 i s t) * x3 (ix2 i t) := by
  rw [val_main_v34_apply]
  refine Finset.sum_congr rfl fun t _ => ?_
  rw [val_main_v1_apply]
  exact congrArg₂ (· * ·)
    (congrArg _ (funext fun a => match a with | ⟨0, _⟩ => rfl | ⟨1, _⟩ => rfl | ⟨2, _⟩ => rfl))
    (congrArg x3 (funext fun a => match a with | ⟨0, _⟩ => rfl | ⟨1, _⟩ => rfl))

/-- The reshape that drops the unit axis. -/
theorem v39_at (i : Fin 32) (s : Fin 768) :
    val_main_v39 (F := Ideal) x3 x4 (ix2 i s) = val_main_v34 (F := Ideal) x3 x4 (ix3 i s (0 : Fin 1)) := by
  have e : idx_main_v39 (ix2 i s) = ix3 i s (0 : Fin 1) := funext fun a => Fin.ext (by
    have hi := i.isLt
    have hs := s.isLt
    match a with
    | ⟨0, _⟩ => show (i.val * 768 + s.val) / 768 = i.val; omega
    | ⟨1, _⟩ => show (i.val * 768 + s.val) / 1 % 768 = s.val; omega
    | ⟨2, _⟩ => rfl)
  rw [val_main_v39_apply, e]

/-- The second attention, as a matrix: queries and keys from the scene sentence, values from the scene description. -/
theorem scene_eq :
    Cert.Spec.mat (val_main_v39 (F := Ideal) x3 x4)
      = Cert.Spec.attnMatR (Cert.Spec.mat x4) (Cert.Spec.mat x4) (Cert.Spec.mat x3) := by
  funext i s
  show val_main_v39 (F := Ideal) x3 x4 (ix2 i s)
    = Cert.Spec.attnR (x4 (ix2 i s)) (fun t => x4 (ix2 i t)) (fun t => x3 (ix2 i t))
  rw [v39_at]
  exact attnR_of_chain (x4 (ix2 i s)) (fun t => x4 (ix2 i t)) (fun t => x3 (ix2 i t))
    (fun t => val_main_v22 (F := Ideal) x4 (ix3 i s t)) (fun t => val_main_v29 (F := Ideal) x4 (ix3 i s t))
    (fun t => val_main_v33 (F := Ideal) x4 (ix3 i s t))
    (val_main_v25 (F := Ideal) x4 (ix2 i s)) (val_main_v30 (F := Ideal) x4 (ix2 i s)) _
    (fun t => v22_at x4 i s t) (v25_at x4 i s) (fun t => v29_at x4 i s t) (v30_at x4 i s)
    (fun t => v33_at x4 i s t) (v34_at x3 x4 i s)

end scene

/-! ## Three blocks joined along the middle axis -/

/-- A join of rank-3 arrays with a trailing unit axis along the middle axis, read at `(r, pre + j, 0)`: piece `k`,
    whose span on the middle axis starts at `pre`, at `(r, j, 0)`. -/
theorem concat_mid_apply {α : Type} {B C : ℕ} (xs : List ((s : Shape) × (s.Idx → α)))
    (h : Shape.Concatenates (xs.map (·.1)) ⟨3, ![B, C, 1]⟩ 1)
    (k : ℕ) (hk : k < xs.length) {n : ℕ} (x : (⟨3, ![B, n, 1]⟩ : Shape).Idx → α) (hxk : xs[k] = ⟨⟨3, ![B, n, 1]⟩, x⟩)
    (pre : ℕ)
    (hpre : (((xs.take k).map (·.1)).map fun s : Shape =>
      if h : s.rank = (⟨3, ![B, C, 1]⟩ : Shape).rank then s.size ((1 : Fin (⟨3, ![B, C, 1]⟩ : Shape).rank).cast h.symm) else 0).sum = pre)
    (r : Fin B) (j : Fin n) (hj : pre + j.val < C) :
    concatenate ⟨3, ![B, C, 1]⟩ 1 xs h (ix3 r ⟨pre + j.val, hj⟩ (0 : Fin 1)) = x (ix3 r j (0 : Fin 1)) := by
  refine concatenate_apply_piece 1 xs h _ k hk _ x hxk rfl pre hpre (ix3 r j (0 : Fin 1)) (fun b hb => ?_) rfl
  match b with
  | ⟨0, _⟩ => rfl
  | ⟨1, _⟩ => exact absurd rfl hb
  | ⟨2, _⟩ => rfl

/-- Three arrays of 768 columns joined along the middle axis, read at `(i, l, 0)`: the block that holds column `l`. -/
theorem concat3_apply (a b c : (⟨3, ![32, 768, 1]⟩ : Shape).Idx → EReal)
    (h : Shape.Concatenates (([⟨⟨3, ![32, 768, 1]⟩, a⟩, ⟨⟨3, ![32, 768, 1]⟩, b⟩, ⟨⟨3, ![32, 768, 1]⟩, c⟩] :
      List ((s : Shape) × (s.Idx → EReal))).map (·.1)) ⟨3, ![32, 2304, 1]⟩ 1)
    (i : Fin 32) (l : Fin 2304) :
    concatenate ⟨3, ![32, 2304, 1]⟩ 1 [⟨⟨3, ![32, 768, 1]⟩, a⟩, ⟨⟨3, ![32, 768, 1]⟩, b⟩, ⟨⟨3, ![32, 768, 1]⟩, c⟩] h (ix3 i l (0 : Fin 1))
      = Cert.Spec.cat3 (fun i j => a (ix3 i j (0 : Fin 1))) (fun i j => b (ix3 i j (0 : Fin 1)))
          (fun i j => c (ix3 i j (0 : Fin 1))) i l := by
  unfold Cert.Spec.cat3
  by_cases h1 : l.val < 768
  · rw [dif_pos h1]
    have e : l = ⟨0 + (⟨l.val, h1⟩ : Fin 768).val, by show 0 + l.val < 2304; omega⟩ := Fin.ext (by show l.val = 0 + l.val; omega)
    exact (congrArg (fun l' => concatenate _ 1 _ h (ix3 i l' (0 : Fin 1))) e).trans
      (concat_mid_apply _ h 0 (by show 0 < 3; omega) a rfl 0 rfl i ⟨l.val, h1⟩ _)
  · rw [dif_neg h1]
    by_cases h2 : l.val < 1536
    · rw [dif_pos h2]
      have hl := l.isLt
      have e : l = ⟨768 + (⟨l.val - 768, by omega⟩ : Fin 768).val, by show 768 + (l.val - 768) < 2304; omega⟩ :=
        Fin.ext (by show l.val = 768 + (l.val - 768); omega)
      exact (congrArg (fun l' => concatenate _ 1 _ h (ix3 i l' (0 : Fin 1))) e).trans
        (concat_mid_apply _ h 1 (by show 1 < 3; omega) b rfl 768 rfl i ⟨l.val - 768, by omega⟩ _)
    · rw [dif_neg h2]
      have hl := l.isLt
      have e : l = ⟨1536 + (⟨l.val - 1536, by omega⟩ : Fin 768).val, by show 1536 + (l.val - 1536) < 2304; omega⟩ :=
        Fin.ext (by show l.val = 1536 + (l.val - 1536); omega)
      exact (congrArg (fun l' => concatenate _ 1 _ h (ix3 i l' (0 : Fin 1))) e).trans
        (concat_mid_apply _ h 2 (by show 2 < 3; omega) c rfl 1536 rfl i ⟨l.val - 1536, by omega⟩ _)

/-! ## The third attention: the three blocks side by side attend to themselves -/

section fused
variable (x0 x1 x2 x3 x4 : (⟨S32x768, .f32⟩ : BufTy).Contents (Elt Ideal))

/-- The sentence, the scene attention and the speaker attention side by side, as the reference holds them. -/
def fusedRef : Cert.Spec.Mat 32 2304 :=
  Cert.Spec.cat3 (Cert.Spec.mat x0) (Cert.Spec.mat (val_main_v39 (F := Ideal) x3 x4))
    (Cert.Spec.mat (val_main_v44 (F := Ideal) x1 x2))

/-- The joined array, read at (i, l, 0). -/
theorem v49_at (i : Fin 32) (l : Fin 2304) :
    val_main_v49 (F := Ideal) x0 x1 x2 x3 x4 (ix3 i l (0 : Fin 1)) = fusedRef x0 x1 x2 x3 x4 i l := by
  unfold val_main_v49 fusedRef
  refine (concat3_apply _ _ _ _ i l).trans ?_
  have ea : (fun (i : Fin 32) (j : Fin 768) => val_main_v0 (F := Ideal) x0 (ix3 i j (0 : Fin 1))) = Cert.Spec.mat x0 :=
    funext fun i => funext fun j => by
      rw [val_main_v0_apply]
      exact congrArg x0 (funext fun a => match a with | ⟨0, _⟩ => rfl | ⟨1, _⟩ => rfl)
  have eb : (fun (i : Fin 32) (j : Fin 768) => val_main_v34 (F := Ideal) x3 x4 (ix3 i j (0 : Fin 1)))
      = Cert.Spec.mat (val_main_v39 (F := Ideal) x3 x4) :=
    funext fun i => funext fun j => (v39_at x3 x4 i j).symm
  have ec : (fun (i : Fin 32) (j : Fin 768) => val_main_v19 (F := Ideal) x1 x2 (ix3 i j (0 : Fin 1)))
      = Cert.Spec.mat (val_main_v44 (F := Ideal) x1 x2) :=
    funext fun i => funext fun j => (v44_at x1 x2 i j).symm
  rw [ea, eb, ec]

/-- Dropping the last axis of a [32,2304,2304] array leaves a [32,2304] one. -/
theorem reduces_2304 : S32x2304x2304.Reduces [2] S32x2304 := by decide

/-- A score: the product of the query and the key. -/
theorem v52_at (i : Fin 32) (s t : Fin 2304) :
    val_main_v52 (F := Ideal) x0 x1 x2 x3 x4 (ix3 i s t)
      = val_main_v49 (F := Ideal) x0 x1 x2 x3 x4 (ix3 i s (0 : Fin 1))
        * val_main_v49 (F := Ideal) x0 x1 x2 x3 x4 (ix3 i t (0 : Fin 1)) := by
  rw [val_main_v52_apply, val_main_v50_apply, val_main_v51_apply, val_main_cst_7_apply, Fin.sum_univ_one,
    Ideal.mulf_def, Ideal.ofBits_def, Ideal.ofBits_one_f32, mul_one]
  exact congrArg₂ (· * ·)
    (congrArg _ (funext fun a => match a with | ⟨0, _⟩ => rfl | ⟨1, _⟩ => rfl | ⟨2, _⟩ => rfl))
    (congrArg _ (funext fun a => match a with | ⟨0, _⟩ => rfl | ⟨1, _⟩ => rfl | ⟨2, _⟩ => rfl))

/-- The maximum of a row of scores, folded from -∞. -/
theorem v53_at (i : Fin 32) (s : Fin 2304) :
    val_main_v53 (F := Ideal) x0 x1 x2 x3 x4 (ix2 i s)
      = Finset.univ.fold max ⊥ (fun t : Fin 2304 => val_main_v52 (F := Ideal) x0 x1 x2 x3 x4 (ix3 i s t)) := by
  unfold val_main_v53
  generalize val_main_v52 (F := Ideal) x0 x1 x2 x3 x4 = y
  refine (Host.reduce_eq_fold_single (FloatOps.maximumf (F := Ideal) (φ := .f32)) y (val_main_cst_8 (F := Ideal))
    reducesTo_S32x2304x2304_S32x2304_d2 reduces_2304 h_S_ (ix2 i s)).trans ?_
  show Finset.fold max (Ideal.ofBits .f32 0xFF800000#32) _ (Finset.univ : Finset (Fin 2304)) = _
  rw [ofBits_neg_inf_f32]
  refine congrArg (fun f => Finset.fold max ⊥ f (Finset.univ : Finset (Fin 2304))) (funext fun t => ?_)
  exact congrArg y (funext fun a => Fin.ext (by match a with | ⟨0, _⟩ => rfl | ⟨1, _⟩ => rfl | ⟨2, _⟩ => rfl))

/-- The row maximum after the second comparison with -∞. -/
theorem v55_at (i : Fin 32) (s : Fin 2304) :
    val_main_v55 (F := Ideal) x0 x1 x2 x3 x4 (ix2 i s)
      = max ⊥ (Finset.univ.fold max ⊥ (fun t : Fin 2304 => val_main_v52 (F := Ideal) x0 x1 x2 x3 x4 (ix3 i s t))) := by
  rw [val_main_v55_apply, val_main_v54_apply, val_main_cst_9_apply, v53_at, Ideal.maximumf_def, Ideal.ofBits_def,
    ofBits_neg_inf_f32]

/-- A shifted exponential. -/
theorem v59_at (i : Fin 32) (s t : Fin 2304) :
    val_main_v59 (F := Ideal) x0 x1 x2 x3 x4 (ix3 i s t)
      = Ideal.exp (val_main_v52 (F := Ideal) x0 x1 x2 x3 x4 (ix3 i s t)
          - val_main_v55 (F := Ideal) x0 x1 x2 x3 x4 (ix2 i s)) := by
  have e : idx_main_v56 (idx_main_v57 (ix3 i s t)) = ix2 i s :=
    funext fun a => match a with | ⟨0, _⟩ => rfl | ⟨1, _⟩ => rfl
  rw [val_main_v59_apply, val_main_v58_apply, val_main_v57_apply, val_main_v56_apply, Ideal.hostUnary_exp_def,
    Ideal.subf_def, e]

/-- The sum of a row of shifted exponentials, from zero. -/
theorem v60_at (i : Fin 32) (s : Fin 2304) :
    val_main_v60 (F := Ideal) x0 x1 x2 x3 x4 (ix2 i s)
      = 0 + ∑ t : Fin 2304, val_main_v59 (F := Ideal) x0 x1 x2 x3 x4 (ix3 i s t) := by
  rw [val_main_v60_apply, val_main_cst_10_apply, Ideal.ofBits_def, Ideal.ofBits_zero_f32]
  refine congrArg (0 + ·) (Finset.sum_congr rfl fun t _ => congrArg _ ?_)
  exact funext fun a => match a with | ⟨0, _⟩ => rfl | ⟨1, _⟩ => rfl | ⟨2, _⟩ => rfl

/-- A normalised weight. -/
theorem v63_at (i : Fin 32) (s t : Fin 2304) :
    val_main_v63 (F := Ideal) x0 x1 x2 x3 x4 (ix3 i s t)
      = Ideal.div (val_main_v59 (F := Ideal) x0 x1 x2 x3 x4 (ix3 i s t))
          (val_main_v60 (F := Ideal) x0 x1 x2 x3 x4 (ix2 i s)) := by
  have e : idx_main_v61 (idx_main_v62 (ix3 i s t)) = ix2 i s :=
    funext fun a => match a with | ⟨0, _⟩ => rfl | ⟨1, _⟩ => rfl
  rw [val_main_v63_apply, val_main_v62_apply, val_main_v61_apply, Ideal.hostDivf_def, e]

/-- The weighted sum of the values. -/
theorem v64_at (i : Fin 32) (s : Fin 2304) :
    val_main_v64 (F := Ideal) x0 x1 x2 x3 x4 (ix3 i s (0 : Fin 1))
      = ∑ t : Fin 2304, val_main_v63 (F := Ideal) x0 x1 x2 x3 x4 (ix3 i s t)
          * val_main_v49 (F := Ideal) x0 x1 x2 x3 x4 (ix3 i t (0 : Fin 1)) := by
  rw [val_main_v64_apply]
  refine Finset.sum_congr rfl fun t _ => ?_
  exact congrArg₂ (· * ·)
    (congrArg _ (funext fun a => match a with | ⟨0, _⟩ => rfl | ⟨1, _⟩ => rfl | ⟨2, _⟩ => rfl))
    (congrArg _ (funext fun a => match a with | ⟨0, _⟩ => rfl | ⟨1, _⟩ => rfl | ⟨2, _⟩ => rfl))

/-- The reshape that drops the unit axis. -/
theorem v65_at (i : Fin 32) (s : Fin 2304) :
    val_main_v65 (F := Ideal) x0 x1 x2 x3 x4 (ix2 i s)
      = val_main_v64 (F := Ideal) x0 x1 x2 x3 x4 (ix3 i s (0 : Fin 1)) := by
  have e : idx_main_v65 (ix2 i s) = ix3 i s (0 : Fin 1) := funext fun a => Fin.ext (by
    have hi := i.isLt
    have hs := s.isLt
    match a with
    | ⟨0, _⟩ => show (i.val * 2304 + s.val) / 2304 = i.val; omega
    | ⟨1, _⟩ => show (i.val * 2304 + s.val) / 1 % 2304 = s.val; omega
    | ⟨2, _⟩ => rfl)
  rw [val_main_v65_apply, e]

/-- The third attention over the joined blocks as the reference holds them. -/
theorem fused_ref_eq :
    Cert.Spec.mat (val_main_v65 (F := Ideal) x0 x1 x2 x3 x4)
      = Cert.Spec.attnMatR (fusedRef x0 x1 x2 x3 x4) (fusedRef x0 x1 x2 x3 x4) (fusedRef x0 x1 x2 x3 x4) := by
  funext i s
  show val_main_v65 (F := Ideal) x0 x1 x2 x3 x4 (ix2 i s)
    = Cert.Spec.attnR (fusedRef x0 x1 x2 x3 x4 i s) (fun t => fusedRef x0 x1 x2 x3 x4 i t)
        (fun t => fusedRef x0 x1 x2 x3 x4 i t)
  rw [v65_at]
  exact attnR_of_chain _ _ _
    (fun t => val_main_v52 (F := Ideal) x0 x1 x2 x3 x4 (ix3 i s t))
    (fun t => val_main_v59 (F := Ideal) x0 x1 x2 x3 x4 (ix3 i s t))
    (fun t => val_main_v63 (F := Ideal) x0 x1 x2 x3 x4 (ix3 i s t))
    (val_main_v55 (F := Ideal) x0 x1 x2 x3 x4 (ix2 i s)) (val_main_v60 (F := Ideal) x0 x1 x2 x3 x4 (ix2 i s)) _
    (fun t => by rw [v52_at, v49_at, v49_at]) (v55_at x0 x1 x2 x3 x4 i s) (fun t => v59_at x0 x1 x2 x3 x4 i s t)
    (v60_at x0 x1 x2 x3 x4 i s) (fun t => v63_at x0 x1 x2 x3 x4 i s t)
    (by rw [v64_at]; exact Finset.sum_congr rfl fun t _ => by rw [v49_at])

/-- The third attention, as a matrix, every block written out: the sentence, the scene attention and the speaker
    attention side by side attend to themselves. -/
theorem fused_eq_plain :
    Cert.Spec.mat (val_main_v65 (F := Ideal) x0 x1 x2 x3 x4)
      = Cert.Spec.attnMatR
          (Cert.Spec.cat3 (Cert.Spec.mat x0)
            (Cert.Spec.attnMatR (Cert.Spec.mat x4) (Cert.Spec.mat x4) (Cert.Spec.mat x3))
            (Cert.Spec.attnMatR (Cert.Spec.mat x2) (Cert.Spec.mat x1) (Cert.Spec.mat x1)))
          (Cert.Spec.cat3 (Cert.Spec.mat x0)
            (Cert.Spec.attnMatR (Cert.Spec.mat x4) (Cert.Spec.mat x4) (Cert.Spec.mat x3))
            (Cert.Spec.attnMatR (Cert.Spec.mat x2) (Cert.Spec.mat x1) (Cert.Spec.mat x1)))
          (Cert.Spec.cat3 (Cert.Spec.mat x0)
            (Cert.Spec.attnMatR (Cert.Spec.mat x4) (Cert.Spec.mat x4) (Cert.Spec.mat x3))
            (Cert.Spec.attnMatR (Cert.Spec.mat x2) (Cert.Spec.mat x1) (Cert.Spec.mat x1))) := by
  rw [fused_ref_eq]
  unfold fusedRef
  rw [scene_eq, speaker_eq]

/-- The third attention, as a matrix, with the blocks named as the specification names them. -/
theorem fused_eq :
    Cert.Spec.mat (val_main_v65 (F := Ideal) x0 x1 x2 x3 x4)
      = (let scene := Cert.Spec.attnMatR (Cert.Spec.mat x4) (Cert.Spec.mat x4) (Cert.Spec.mat x3)
         let spk := Cert.Spec.attnMatR (Cert.Spec.mat x2) (Cert.Spec.mat x1) (Cert.Spec.mat x1)
         let fused := Cert.Spec.cat3 (Cert.Spec.mat x0) scene spk
         Cert.Spec.attnMatR fused fused fused) :=
  fused_eq_plain x0 x1 x2 x3 x4

end fused

end Cert.ReferenceIdeal.RefAttn

end
-- ==== Proof.RefValue.lean ====
/-
  The reference program's result, read at an index, is the classifier of Spec.lean with every attention weight
  normalised before its weighted sum: the head behind the three attentions (RefHead.lean) over the three attentions
  themselves (RefAttn.lean).
-/
import proofs.«175428_j35777077575730_2_alg».proof.Proof.RefHead
import proofs.«175428_j35777077575730_2_alg».proof.Proof.RefAttn

noncomputable section

namespace Cert.ReferenceIdeal.RefValue

open Cert.ReferenceIdeal Cert.ReferenceIdeal.Gen Idealize.ShloMosaic Idealize.ShloMosaic.ValueIdx Cert.Spec

/-- Entry (i, j) of the reference's result is entry (i, j) of the classifier in the second arrangement, of the eleven
    arguments in the programs' order. -/
theorem ref_value (x0 x1 x2 x3 x4 : (⟨S32x768, .f32⟩ : BufTy).Contents (Elt Ideal)) (x5 : (⟨S768x512, .f32⟩ : BufTy).Contents (Elt Ideal))
    (x6 : (⟨S512, .f32⟩ : BufTy).Contents (Elt Ideal)) (x7 : (⟨S3840x256, .f32⟩ : BufTy).Contents (Elt Ideal))
    (x8 : (⟨S256, .f32⟩ : BufTy).Contents (Elt Ideal)) (x9 : (⟨S256x7, .f32⟩ : BufTy).Contents (Elt Ideal))
    (x10 : (⟨S7, .f32⟩ : BufTy).Contents (Elt Ideal)) (i : Fin 32) (j : Fin 7) :
    ReadP.val_main_v81 (F := Ideal) x0 x1 x2 x3 x4 x5 x6 x7 x8 x9 x10 (ix2 i j)
      = modelR (mat x0) (mat x1) (mat x2) (mat x3) (mat x4) (mat x5) (vec x6) (mat x7) (vec x8) (mat x9) (vec x10) i j := by
  rw [RefHead.head_eq, RefAttn.scene_eq, RefAttn.speaker_eq, RefAttn.fused_eq_plain]
  rfl

end Cert.ReferenceIdeal.RefValue

end
-- ==== Proof.AttnLaw.lean ====
/-
  The two arrangements of a one-feature attention row agree on real data.

  With real q, k, v the scores q * k t are real; their maximum from -∞ over a nonempty row is a real M;
  every weight exp (q * k t - M) is a positive real, so the denominator l = Σ p t is a positive real and
  (Σ p t * v t) / l = Σ (p t / l) * v t is an identity of real numbers. The classifier built on either
  arrangement is therefore the same function of real inputs.
-/
import proofs.«175428_j35777077575730_2_alg».proof.Proof.Spec

noncomputable section

namespace Cert.Spec

open Idealize.ShloMosaic

/-- The coercion of a finite sum of reals is the sum of the coercions. -/
theorem coe_sum' {ι : Type*} (s : Finset ι) (f : ι → ℝ) :
    ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- The maximum from -∞ of a nonempty family of reals is a real. -/
theorem fold_max_real {ι : Type*} (s : Finset ι) (f : ι → ℝ) (hs : s.Nonempty) :
    ∃ r : ℝ, s.fold max ⊥ (fun i => (f i : EReal)) = (r : EReal) := by
  classical
  induction hs using Finset.Nonempty.cons_induction with
  | singleton a => exact ⟨f a, by simp⟩
  | cons a s ha hs ih =>
    obtain ⟨r, hr⟩ := ih
    refine ⟨max (f a) r, ?_⟩
    rw [Finset.fold_cons, hr]
    exact (EReal.coe_strictMono.monotone.map_max).symm

/-- On real data the weights are positive reals, with a positive real total. -/
theorem real_forms {n : ℕ} (hn : 0 < n) {q : EReal} {k v : Fin n → EReal} (hq : IsReal q)
    (hk : ∀ t, IsReal (k t)) (hv : ∀ t, IsReal (v t)) :
    ∃ (p vv : Fin n → ℝ), (0 < ∑ t, p t) ∧ (∀ t, wgt q k t = (p t : EReal)) ∧
      (∀ t, v t = (vv t : EReal)) := by
  obtain ⟨a, rfl⟩ := hq
  choose kk hkk using hk
  choose vv hvv using hv
  obtain rfl : k = fun t => (kk t : EReal) := funext hkk
  haveI : Nonempty (Fin n) := ⟨⟨0, hn⟩⟩
  obtain ⟨M, hM⟩ := fold_max_real (Finset.univ : Finset (Fin n)) (fun u => a * kk u)
    Finset.univ_nonempty
  have hrow : rowMax (fun u => (a : EReal) * (kk u : EReal)) = (M : EReal) := by
    unfold rowMax
    simp only [← EReal.coe_mul]
    exact hM
  refine ⟨fun t => Real.exp (a * kk t - M), vv, ?_, ?_, hvv⟩
  · exact Finset.sum_pos (fun t _ => Real.exp_pos _) Finset.univ_nonempty
  · intro t
    unfold wgt
    rw [hrow, ← EReal.coe_mul, ← EReal.coe_sub, Ideal.exp_coe]

theorem attnK_eq_attnR {n : ℕ} (hn : 0 < n) {q : EReal} {k v : Fin n → EReal} (hq : IsReal q)
    (hk : ∀ t, IsReal (k t)) (hv : ∀ t, IsReal (v t)) : attnK q k v = attnR q k v := by
  obtain ⟨p, vv, hl, hp, hvv⟩ := real_forms hn hq hk hv
  have hl0 : (∑ t, p t) ≠ 0 := ne_of_gt hl
  unfold attnK attnR
  simp only [hp, hvv, ← EReal.coe_mul, ← coe_sum', Ideal.div_coe hl0]
  congr 1
  rw [Finset.sum_mul]
  exact Finset.sum_congr rfl fun t _ => by ring

theorem attnR_isReal {n : ℕ} (hn : 0 < n) {q : EReal} {k v : Fin n → EReal} (hq : IsReal q)
    (hk : ∀ t, IsReal (k t)) (hv : ∀ t, IsReal (v t)) : IsReal (attnR q k v) := by
  obtain ⟨p, vv, hl, hp, hvv⟩ := real_forms hn hq hk hv
  have hl0 : (∑ t, p t) ≠ 0 := ne_of_gt hl
  unfold attnR
  simp only [hp, hvv, ← EReal.coe_mul, ← coe_sum', Ideal.div_coe hl0]
  exact ⟨_, rfl⟩

/-- Three real blocks side by side are real. -/
theorem cat3_isReal {a b c : Mat 32 768} (ha : ∀ i j, IsReal (a i j)) (hb : ∀ i j, IsReal (b i j))
    (hc : ∀ i j, IsReal (c i j)) (i : Fin 32) (l : Fin 2304) : IsReal (cat3 a b c i l) := by
  unfold cat3
  split_ifs
  · exact ha _ _
  · exact hb _ _
  · exact hc _ _

theorem modelK_eq_modelR (sent ts oth sd ss : Mat 32 768) (Wsh : Mat 768 512) (bsh : Fin 512 → EReal)
    (W1 : Mat 3840 256) (b1 : Fin 256 → EReal) (W2 : Mat 256 7) (b2 : Fin 7 → EReal)
    (h0 : ∀ i j, IsReal (sent i j)) (h1 : ∀ i j, IsReal (ts i j)) (h2 : ∀ i j, IsReal (oth i j))
    (h3 : ∀ i j, IsReal (sd i j)) (h4 : ∀ i j, IsReal (ss i j)) :
    modelK sent ts oth sd ss Wsh bsh W1 b1 W2 b2 = modelR sent ts oth sd ss Wsh bsh W1 b1 W2 b2 := by
  have hspk : attnMatK oth ts ts = attnMatR oth ts ts :=
    funext fun b => funext fun s => attnK_eq_attnR (by norm_num) (h2 b s) (h1 b) (h1 b)
  have hscene : attnMatK ss ss sd = attnMatR ss ss sd :=
    funext fun b => funext fun s => attnK_eq_attnR (by norm_num) (h4 b s) (h4 b) (h3 b)
  have hspkR : ∀ i j, IsReal (attnMatR oth ts ts i j) :=
    fun b s => attnR_isReal (by norm_num) (h2 b s) (h1 b) (h1 b)
  have hsceneR : ∀ i j, IsReal (attnMatR ss ss sd i j) :=
    fun b s => attnR_isReal (by norm_num) (h4 b s) (h4 b) (h3 b)
  have hf : ∀ i l, IsReal (cat3 sent (attnMatR ss ss sd) (attnMatR oth ts ts) i l) :=
    cat3_isReal h0 hsceneR hspkR
  have hfused : attnMatK (cat3 sent (attnMatR ss ss sd) (attnMatR oth ts ts))
        (cat3 sent (attnMatR ss ss sd) (attnMatR oth ts ts))
        (cat3 sent (attnMatR ss ss sd) (attnMatR oth ts ts)) =
      attnMatR (cat3 sent (attnMatR ss ss sd) (attnMatR oth ts ts))
        (cat3 sent (attnMatR ss ss sd) (attnMatR oth ts ts))
        (cat3 sent (attnMatR ss ss sd) (attnMatR oth ts ts)) :=
    funext fun b => funext fun s => attnK_eq_attnR (by norm_num) (hf b s) (hf b) (hf b)
  simp only [modelK, modelR, hspk, hscene, hfused]

end Cert.Spec

end
-- ==== Proof.LibRealEntries.lean ====
/-
  General lemmas: arrays of reals among arrays of extended reals, and how a finiteness precondition yields them.

  A float input read on the extended reals ranges over `[-∞, +∞]`; an algebraic law that fails at the infinities
  (cancelling, distributing, a quotient of exponentials) needs the entries to be reals. A precondition of the form
  `all (|x| < +∞)` says exactly that:
  * `AllReal x`: every entry of `x` is the coercion of a real;
  * `top_word_f32`: the f32 word `0x7F800000` denotes `+∞`;
  * `real_of_abs_lt_top`: an extended real whose absolute value `max x (-x)` compares below that word is a real
    (`|±∞| = +∞` is not below `+∞`);
  * `allReal_of_all_abs_lt`: if the host's reduction by `and`, over all axes into a result of one index, of the
    comparison `|x| < inf` (with `inf` the splat of that word) answers one, then `x` is an array of reals.
-/
import Idealize.ShloMosaic.Lib.ReduceAll
import Idealize.ShloMosaic.PureOps.Ideal.Laws

noncomputable section

namespace Cert.Lib

open Idealize.ShloMosaic

/-- Every entry of an array of extended reals is a real. -/
def AllReal {ι : Type} (x : ι → EReal) : Prop := ∀ i, ∃ r : ℝ, x i = (r : EReal)

/-- The f32 word of `+∞` denotes `⊤`. -/
theorem top_word_f32 : Ideal.ofBits .f32 0x7F800000#32 = ⊤ := by simp [Ideal.ofBits, Ideal.ieee]

/-- An extended real whose absolute value is below `+∞` is a real. -/
theorem real_of_abs_lt_top (x : EReal)
    (h : FloatOps.cmpf (F := Ideal) (φ := .f32) .olt (FloatOps.hostAbsf (F := Ideal) (φ := .f32) x) (Ideal.ofBits .f32 0x7F800000#32) = 1#1) :
    ∃ r : ℝ, x = (r : EReal) := by
  rw [top_word_f32] at h
  induction x using EReal.rec with
  | bot => exfalso; revert h; simp [Ideal.cmpf_def, Ideal.absf_def, Ideal.cmp]
  | top => exfalso; revert h; simp [Ideal.cmpf_def, Ideal.absf_def, Ideal.cmp]
  | coe r => exact ⟨r, rfl⟩

/-- An array all of whose entries pass `|x| < +∞` — the host's reduction by `and` over every axis, into a result of one
    index, answers one — is an array of reals. -/
theorem allReal_of_all_abs_lt {s t u : Shape} [Subsingleton t.Idx] (x inf : FVec Ideal s .f32)
    (hinf : ∀ i, inf i = Ideal.ofBits .f32 0x7F800000#32) {axes : List (Fin s.rank)} (hr : s.ReducesTo axes t)
    (init : u.Idx → BitVec 1) (hu : 0 < u.numel) (j : t.Idx)
    (e : Host.reduce IntOp.andi (cmpf .olt (Host.absf x) inf) init hr hu j = 1#1) : AllReal x := fun i => by
  have hi := Host.reduce_andi_all _ init hr hu j e i
  exact real_of_abs_lt_top (x i) (by rw [← hinf i]; exact hi)

end Cert.Lib

end
-- ==== Proof.Finite.lean ====
/-
  From the precondition to real entries: the precondition is a conjunction of eleven tests all (|x| < +∞), one per
  input array; each of the first five, answering one, says that every entry of a [32,768] input is a real number.
-/
import proofs.«175428_j35777077575730_2_alg».proof.Defs
import proofs.«175428_j35777077575730_2_alg».proof.Proof.Spec
import proofs.«175428_j35777077575730_2_alg».proof.Proof.LibRealEntries

noncomputable section

namespace Cert.Finite

open Idealize.ShloMosaic Cert.Pre_finite_inputs

/-- The shape of rank zero has one index. -/
instance : Subsingleton S_.Idx := ⟨fun a b => funext fun d => d.elim0⟩

/-- One test all (|x| < +∞) answering one makes x an array of reals. -/
theorem allReal_of_test [hP : Cert.Pre_finite_inputs.Facts] {s : Shape} (x : FVec Ideal s .f32)
    (hb : S_.BroadcastsInDim s (![] : Fin 0 → Fin s.rank)) {axes : List (Fin s.rank)}
    (hr : s.ReducesTo axes S_)
    (e : Host.reduce IntOp.andi
      (cmpf .olt (Host.absf x) (broadcastInDim s ![] hb (constant (F := Ideal) S_ .f32 0x7F800000#32)))
      (constantI S_ 1 1#1) hr Facts.h_S_ ValueIdx.ix0 = 1#1) : Cert.Lib.AllReal x :=
  Cert.Lib.allReal_of_all_abs_lt x _ (fun i => rfl) hr _ Facts.h_S_ _ e

/-- The precondition's function answering one makes the five [32,768] inputs arrays of reals. -/
theorem fn_reals [hP : Cert.Pre_finite_inputs.Facts] (a0 a1 a2 a3 a4 : FVec Ideal S32x768 .f32)
    (a5 : FVec Ideal S768x512 .f32) (a6 : FVec Ideal S512 .f32) (a7 : FVec Ideal S3840x256 .f32)
    (a8 : FVec Ideal S256 .f32) (a9 : FVec Ideal S256x7 .f32) (a10 : FVec Ideal S7 .f32)
    (h : Cert.Pre_finite_inputs.fn (F := Ideal) a0 a1 a2 a3 a4 a5 a6 a7 a8 a9 a10 = fun _ => 1#1) :
    Cert.Lib.AllReal a0 ∧ Cert.Lib.AllReal a1 ∧ Cert.Lib.AllReal a2 ∧ Cert.Lib.AllReal a3 ∧
      Cert.Lib.AllReal a4 := by
  have h0 := congrFun h ValueIdx.ix0
  dsimp only [fn, fn_part1, fn_part2, fn_part3] at h0
  obtain ⟨h48, -⟩ := IntOp.andi_eq_one.1 h0
  obtain ⟨h43, -⟩ := IntOp.andi_eq_one.1 h48
  obtain ⟨h38, -⟩ := IntOp.andi_eq_one.1 h43
  obtain ⟨h33, -⟩ := IntOp.andi_eq_one.1 h38
  obtain ⟨h28, -⟩ := IntOp.andi_eq_one.1 h33
  obtain ⟨h23, -⟩ := IntOp.andi_eq_one.1 h28
  obtain ⟨h18, e4⟩ := IntOp.andi_eq_one.1 h23
  obtain ⟨h13, e3⟩ := IntOp.andi_eq_one.1 h18
  obtain ⟨h8, e2⟩ := IntOp.andi_eq_one.1 h13
  obtain ⟨e0, e1⟩ := IntOp.andi_eq_one.1 h8
  exact ⟨allReal_of_test a0 _ _ e0, allReal_of_test a1 _ _ e1, allReal_of_test a2 _ _ e2,
    allReal_of_test a3 _ _ e3, allReal_of_test a4 _ _ e4⟩

theorem real_inputs [hP : Cert.Pre_finite_inputs.Facts] [hK : Cert.KernelIdeal.Facts]
    (m : (ℓ : Loc Cert.KernelIdeal.nD Cert.KernelIdeal.τ Cert.KernelIdeal.sig) → Buf (Elt Ideal) ℓ)
    (h : Cert.Pre_KernelIdeal m) (c : Dev Cert.KernelIdeal.nD) :
    (∀ i, Cert.Spec.IsReal (m ((c.tc : Thread Cert.KernelIdeal.nD Cert.KernelIdeal.τ).loc Cert.KernelIdeal.main_arg0) i)) ∧
    (∀ i, Cert.Spec.IsReal (m ((c.tc : Thread Cert.KernelIdeal.nD Cert.KernelIdeal.τ).loc Cert.KernelIdeal.main_arg1) i)) ∧
    (∀ i, Cert.Spec.IsReal (m ((c.tc : Thread Cert.KernelIdeal.nD Cert.KernelIdeal.τ).loc Cert.KernelIdeal.main_arg2) i)) ∧
    (∀ i, Cert.Spec.IsReal (m ((c.tc : Thread Cert.KernelIdeal.nD Cert.KernelIdeal.τ).loc Cert.KernelIdeal.main_arg3) i)) ∧
    (∀ i, Cert.Spec.IsReal (m ((c.tc : Thread Cert.KernelIdeal.nD Cert.KernelIdeal.τ).loc Cert.KernelIdeal.main_arg4) i)) :=
  fn_reals _ _ _ _ _ _ _ _ _ _ _ (h c)

/-- The same, with the five inputs read as matrices: every entry (i, j) is a real. -/
theorem real_mats [hP : Cert.Pre_finite_inputs.Facts] [hK : Cert.KernelIdeal.Facts]
    (m : (ℓ : Loc Cert.KernelIdeal.nD Cert.KernelIdeal.τ Cert.KernelIdeal.sig) → Buf (Elt Ideal) ℓ)
    (h : Cert.Pre_KernelIdeal m) (c : Dev Cert.KernelIdeal.nD) :
    (∀ i j, Cert.Spec.IsReal (Cert.Spec.mat (a := 32) (b := 768) (m ((c.tc : Thread Cert.KernelIdeal.nD Cert.KernelIdeal.τ).loc Cert.KernelIdeal.main_arg0)) i j)) ∧
    (∀ i j, Cert.Spec.IsReal (Cert.Spec.mat (a := 32) (b := 768) (m ((c.tc : Thread Cert.KernelIdeal.nD Cert.KernelIdeal.τ).loc Cert.KernelIdeal.main_arg1)) i j)) ∧
    (∀ i j, Cert.Spec.IsReal (Cert.Spec.mat (a := 32) (b := 768) (m ((c.tc : Thread Cert.KernelIdeal.nD Cert.KernelIdeal.τ).loc Cert.KernelIdeal.main_arg2)) i j)) ∧
    (∀ i j, Cert.Spec.IsReal (Cert.Spec.mat (a := 32) (b := 768) (m ((c.tc : Thread Cert.KernelIdeal.nD Cert.KernelIdeal.τ).loc Cert.KernelIdeal.main_arg3)) i j)) ∧
    (∀ i j, Cert.Spec.IsReal (Cert.Spec.mat (a := 32) (b := 768) (m ((c.tc : Thread Cert.KernelIdeal.nD Cert.KernelIdeal.τ).loc Cert.KernelIdeal.main_arg4)) i j)) := by
  obtain ⟨r0, r1, r2, r3, r4⟩ := real_inputs m h c
  exact ⟨fun i j => r0 _, fun i j => r1 _, fun i j => r2 _, fun i j => r3 _, fun i j => r4 _⟩

end Cert.Finite

end
-- ==== Proof.lean ====
/-
  The certificate: a classifier over three feature-dimension-1 attentions, as three kernel calls between stretches of
  host operations, against its plain reference.

  Each attention row computes, from the scores s t = q * k t and p t = exp (s t - max s), the average of the values v t
  with weights p t. The kernel divides once, after the two sums, (Σ p t * v t) / (Σ p t); the reference normalises every
  weight first, Σ (p t / Σ p u) * v t. For finite inputs every p t is a positive real and the two agree; everything
  behind the attentions (the shared projection, the concatenation, the two layers, the logistic) is the same function
  of the same arrays on both sides.

  The two kernel programs' frames are the runs of their segments (Fr/Run.lean and FrK/Run.lean); the reference's is
  its run with the result dropped; the value claim reads the kernel's result off its run (KernelValue.lean) and the
  reference's off its own (RefValue.lean) and joins them by the law above (AttnLaw.lean) on real inputs (Finite.lean).
-/
import proofs.«175428_j35777077575730_2_alg».proof.Defs
import proofs.«175428_j35777077575730_2_alg».proof.Proof.Gen.Kernel
import proofs.«175428_j35777077575730_2_alg».proof.Proof.Gen.KernelIdeal
import proofs.«175428_j35777077575730_2_alg».proof.Proof.Gen.ReferenceIdeal
import proofs.«175428_j35777077575730_2_alg».proof.Proof.Gen.Pre_finite_inputs
import proofs.«175428_j35777077575730_2_alg».proof.Proof.Fr.Run
import proofs.«175428_j35777077575730_2_alg».proof.Proof.FrK.Run
import proofs.«175428_j35777077575730_2_alg».proof.Proof.KernelValue
import proofs.«175428_j35777077575730_2_alg».proof.Proof.RefValue
import proofs.«175428_j35777077575730_2_alg».proof.Proof.AttnLaw
import proofs.«175428_j35777077575730_2_alg».proof.Proof.Finite

import Idealize.ShloMosaic.Adequacy
import Idealize.ShloMosaic.Init

noncomputable section

namespace Cert.Proof

open Idealize.ShloMosaic Idealize.ShloMosaic.TcCoe Idealize.SL.Sem

section Claims

variable [hKernel : Cert.Kernel.Facts] [hKernelIdeal : Cert.KernelIdeal.Facts] [hReferenceIdeal : Cert.ReferenceIdeal.Facts]
  [hPre_finite_inputs : Cert.Pre_finite_inputs.Facts]

/-- The word-level kernel program runs and leaves its arguments as launched. -/
theorem frame_k : Cert.frame_Kernel := fun m ρ _ => Cert.Kernel.Fr.frame (F := Bits) m ρ

/-- So does the idealized kernel program. -/
theorem frame_ki : Cert.frame_KernelIdeal := fun m ρ _ => Cert.KernelIdeal.Fr.frame (F := Ideal) m ρ

/-- The reference runs and leaves its arguments as launched: its run with the result dropped. -/
theorem frame_ri : Cert.frame_ReferenceIdeal := fun m ρ _ =>
  (θ_run Cert.ReferenceIdeal.defs _ _).mono (fun _ h c => (h c).2) (Cert.ReferenceIdeal.ValueP.run (F := Ideal) m ρ)

/-- The idealization rewrote nothing. -/
theorem preserves : Cert.preserves_Kernel_KernelIdeal := trivial

/-- From memories agreeing on the arguments both idealized programs run and end with equal results: the kernel's is
    the classifier with every attention dividing once after its two sums, the reference's the classifier with every
    weight normalised first, and on real inputs the two are one function. -/
theorem algebraic : Cert.algebraic_KernelIdeal_ReferenceIdeal := by
  intro m ρ m' ρ' hpre hagree
  refine ⟨fun c => Cert.KernelIdeal.Fr.W6 (F := Ideal) m ρ c Cert.KernelIdeal.main_v11, Cert.KernelIdeal.Fr.run_value (F := Ideal) m ρ, ?_⟩
  refine (θ_run Cert.ReferenceIdeal.defs _ _).mono (fun _ h c => ⟨(h c).1.trans ?_, (h c).2⟩)
    (Cert.ReferenceIdeal.ValueP.run (F := Ideal) m' ρ')
  rw [Cert.ReferenceIdeal.ReadP.val_main_v81_eq]
  obtain ⟨h0, h1, h2, h3, h4, h5, h6, h7, h8, h9, h10⟩ := hagree c
  rw [h0, h1, h2, h3, h4, h5, h6, h7, h8, h9, h10]
  funext idx
  obtain ⟨i, j, rfl⟩ : ∃ (i : Fin 32) (j : Fin 7), idx = ValueIdx.ix2 i j := ⟨idx 0, idx 1, ValueIdx.eq_ix2 idx⟩
  obtain ⟨r0, r1, r2, r3, r4⟩ := Cert.Finite.real_mats m hpre c
  refine (Cert.ReferenceIdeal.RefValue.ref_value _ _ _ _ _ _ _ _ _ _ _ i j).trans ?_
  refine Eq.trans ?_ (Cert.KernelIdeal.KVal.kernel_model m ρ c i j).symm
  exact (congrFun (congrFun (Cert.Spec.modelK_eq_modelR _ _ _ _ _ _ _ _ _ _ _ r0 r1 r2 r3 r4) i) j).symm

end Claims

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
